-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v26)) (v4 : (c : Dev Cert.KernelIdeal.nD) → Buf (Elt Ideal) ((c.tc : Thread Cert.KernelIdeal.nD Cert.KernelIdeal.τ).loc Cert.KernelIdeal.main_v30)) (v5 : (c : Dev Cert.KernelIdeal.nD) → Buf (Elt Ideal) ((c.tc : Thread Cert.KernelIdeal.nD Cert.KernelIdeal.τ).loc Cert.KernelIdeal.main_v53)) (v6 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_v30) = v4 c
          ∧ r.2.mem ((c.tc : Thread Cert.KernelIdeal.nD Cert.KernelIdeal.τ).loc Cert.KernelIdeal.main_v53) = v5 c
          ∧ r.2.mem ((c.tc : Thread Cert.KernelIdeal.nD Cert.KernelIdeal.τ).loc Cert.KernelIdeal.main_v57) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_v104) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128 : Shape := ⟨3, ![8, 128, 128]⟩
abbrev S8x512x128 : Shape := ⟨3, ![8, 512, 128]⟩
abbrev S8x128 : Shape := ⟨2, ![8, 128]⟩
abbrev S8x512 : Shape := ⟨2, ![8, 512]⟩
abbrev S8x128x3 : Shape := ⟨3, ![8, 128, 3]⟩
abbrev S8x12288x3 : Shape := ⟨3, ![8, 12288, 3]⟩
abbrev S1024x128 : Shape := ⟨2, ![1024, 128]⟩
abbrev S2x4096 : Shape := ⟨2, ![2, 4096]⟩
abbrev S256x128 : Shape := ⟨2, ![256, 128]⟩
abbrev S128 : Shape := ⟨1, ![128]⟩
abbrev S128x10 : Shape := ⟨2, ![128, 10]⟩
abbrev S10 : Shape := ⟨1, ![10]⟩
abbrev S128x12 : Shape := ⟨2, ![128, 12]⟩
abbrev S12 : Shape := ⟨1, ![12]⟩
abbrev S256x4 : Shape := ⟨2, ![256, 4]⟩
abbrev S4 : Shape := ⟨1, ![4]⟩
abbrev S_ : Shape := ⟨0, ![]⟩

class Facts : Prop where
  bcast_S_S8x128x128 : S_.BroadcastsInDim S8x128x128 (![] : Fin 0 → Fin S8x128x128.rank)
  reducesTo_S8x128x128_S_d0_1_2 : S8x128x128.ReducesTo [0, 1, 2] S_
  h_S_ : 0 < S_.numel
  bcast_S_S8x512x128 : S_.BroadcastsInDim S8x512x128 (![] : Fin 0 → Fin S8x512x128.rank)
  reducesTo_S8x512x128_S_d0_1_2 : S8x512x128.ReducesTo [0, 1, 2] S_
  bcast_S_S8x128x3 : S_.BroadcastsInDim S8x128x3 (![] : Fin 0 → Fin S8x128x3.rank)
  reducesTo_S8x128x3_S_d0_1_2 : S8x128x3.ReducesTo [0, 1, 2] S_
  bcast_S_S8x12288x3 : S_.BroadcastsInDim S8x12288x3 (![] : Fin 0 → Fin S8x12288x3.rank)
  reducesTo_S8x12288x3_S_d0_1_2 : S8x12288x3.ReducesTo [0, 1, 2] S_
  bcast_S_S1024x128 : S_.BroadcastsInDim S1024x128 (![] : Fin 0 → Fin S1024x128.rank)
  reducesTo_S1024x128_S_d0_1 : S1024x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_v98 : IVec S_ 1) (main_v101 : IVec S4 1) (main_c_39 : IVec S_ 1) : IVec S_ 1 :=
  let main_v102 : IVec S_ 1 := (fun x v => Host.reduce IntOp.andi x v reducesTo_S4_S_d0 h_S_) main_v101 main_c_39
  let main_v103 : IVec S_ 1 := andi main_v98 main_v102
  main_v103

def fn_part5 {F : FTy → Type} [FloatOps F] (main_arg21 : FVec F S12 .f32) (main_arg22 : FVec F S256x4 .f32) (main_arg23 : FVec F S4 .f32) (main_v83 : IVec S_ 1) (main_v84 : FVec F S128x12 .f32) (main_cst_32 : FVec F S_ .f32) : IVec S_ 1 :=
  let main_v85 : FVec F S128x12 .f32 := broadcastInDim S128x12 ![] bcast_S_S128x12 main_cst_32
  let main_v86 : IVec S128x12 1 := cmpf .olt main_v84 main_v85
  let main_c_33 : IVec S_ 1 := constantI S_ 1 1#1
  let main_v87 : IVec S_ 1 := (fun x v => Host.reduce IntOp.andi x v reducesTo_S128x12_S_d0_1 h_S_) main_v86 main_c_33
  let main_v88 : IVec S_ 1 := andi main_v83 main_v87
  let main_v89 : FVec F S12 .f32 := Host.absf main_arg21
  let main_cst_34 : FVec F S_ .f32 := constant S_ .f32 0x7F800000#32
  let main_v90 : FVec F S12 .f32 := broadcastInDim S12 ![] bcast_S_S12 main_cst_34
  let main_v91 : IVec S12 1 := cmpf .olt main_v89 main_v90
  let main_c_35 : IVec S_ 1 := constantI S_ 1 1#1
  let main_v92 : IVec S_ 1 := (fun x v => Host.reduce IntOp.andi x v reducesTo_S12_S_d0 h_S_) main_v91 main_c_35
  let main_v93 : IVec S_ 1 := andi main_v88 main_v92
  let main_v94 : FVec F S256x4 .f32 := Host.absf main_arg22
  let main_cst_36 : FVec F S_ .f32 := constant S_ .f32 0x7F800000#32
  let main_v95 : FVec F S256x4 .f32 := broadcastInDim S256x4 ![] bcast_S_S256x4 main_cst_36
  let main_v96 : IVec S256x4 1 := cmpf .olt main_v94 main_v95
  let main_c_37 : IVec S_ 1 := constantI S_ 1 1#1
  let main_v97 : IVec S_ 1 := (fun x v => Host.reduce IntOp.andi x v reducesTo_S256x4_S_d0_1 h_S_) main_v96 main_c_37
  let main_v98 : IVec S_ 1 := andi main_v93 main_v97
  let main_v99 : FVec F S4 .f32 := Host.absf main_arg23
  let main_cst_38 : FVec F S_ .f32 := constant S_ .f32 0x7F800000#32
  let main_v100 : FVec F S4 .f32 := broadcastInDim S4 ![] bcast_S_S4 main_cst_38
  let main_v101 : IVec S4 1 := cmpf .olt main_v99 main_v100
  let main_c_39 : IVec S_ 1 := constantI S_ 1 1#1
  fn_part6 (F := F) main_v98 main_v101 main_c_39

def fn_part4 {F : FTy → Type} [FloatOps F] (main_arg17 : FVec F S10 .f32) (main_arg18 : FVec F S128x10 .f32) (main_arg19 : FVec F S10 .f32) (main_arg20 : FVec F S128x12 .f32) (main_arg21 : FVec F S12 .f32) (main_arg22 : FVec F S256x4 .f32) (main_arg23 : FVec F S4 .f32) (main_v63 : IVec S_ 1) (main_v67 : IVec S_ 1) : IVec S_ 1 :=
  let main_v68 : IVec S_ 1 := andi main_v63 main_v67
  let main_v69 : FVec F S10 .f32 := Host.absf main_arg17
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S128x10 .f32 := Host.absf main_arg18
  let main_cst_28 : FVec F S_ .f32 := constant S_ .f32 0x7F800000#32
  let main_v75 : FVec F S128x10 .f32 := broadcastInDim S128x10 ![] bcast_S_S128x10 main_cst_28
  let main_v76 : IVec S128x10 1 := cmpf .olt main_v74 main_v75
  let main_c_29 : IVec S_ 1 := constantI S_ 1 1#1
  let main_v77 : IVec S_ 1 := (fun x v => Host.reduce IntOp.andi x v reducesTo_S128x10_S_d0_1 h_S_) main_v76 main_c_29
  let main_v78 : IVec S_ 1 := andi main_v73 main_v77
  let main_v79 : FVec F S10 .f32 := Host.absf main_arg19
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S128x12 .f32 := Host.absf main_arg20
  let main_cst_32 : FVec F S_ .f32 := constant S_ .f32 0x7F800000#32
  fn_part5 (F := F) main_arg21 main_arg22 main_arg23 main_v83 main_v84 main_cst_32

def fn_part3 {F : FTy → Type} [FloatOps F] (main_arg14 : FVec F S128x10 .f32) (main_arg15 : FVec F S10 .f32) (main_arg16 : FVec F S128x10 .f32) (main_arg17 : FVec F S10 .f32) (main_arg18 : FVec F S128x10 .f32) (main_arg19 : FVec F S10 .f32) (main_arg20 : FVec F S128x12 .f32) (main_arg21 : FVec F S12 .f32) (main_arg22 : FVec F S256x4 .f32) (main_arg23 : FVec F S4 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg14
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg15
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S128x10 .f32 := Host.absf main_arg16
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg17 main_arg18 main_arg19 main_arg20 main_arg21 main_arg22 main_arg23 main_v63 main_v67

def fn_part2 {F : FTy → Type} [FloatOps F] (main_arg10 : FVec F S128 .f32) (main_arg11 : FVec F S128 .f32) (main_arg12 : FVec F S128 .f32) (main_arg13 : FVec F S128 .f32) (main_arg14 : FVec F S128x10 .f32) (main_arg15 : FVec F S10 .f32) (main_arg16 : FVec F S128x10 .f32) (main_arg17 : FVec F S10 .f32) (main_arg18 : FVec F S128x10 .f32) (main_arg19 : FVec F S10 .f32) (main_arg20 : FVec F S128x12 .f32) (main_arg21 : FVec F S12 .f32) (main_arg22 : FVec F S256x4 .f32) (main_arg23 : FVec F S4 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_arg22 main_arg23 main_v48 main_v49 main_v50

def fn_part1 {F : FTy → Type} [FloatOps F] (main_arg6 : FVec F S1024x128 .f32) (main_arg8 : FVec F S256x128 .f32) (main_arg9 : FVec F S128 .f32) (main_arg10 : FVec F S128 .f32) (main_arg11 : FVec F S128 .f32) (main_arg12 : FVec F S128 .f32) (main_arg13 : FVec F S128 .f32) (main_arg14 : FVec F S128x10 .f32) (main_arg15 : FVec F S10 .f32) (main_arg16 : FVec F S128x10 .f32) (main_arg17 : FVec F S10 .f32) (main_arg18 : FVec F S128x10 .f32) (main_arg19 : FVec F S10 .f32) (main_arg20 : FVec F S128x12 .f32) (main_arg21 : FVec F S12 .f32) (main_arg22 : FVec F S256x4 .f32) (main_arg23 : FVec F S4 .f32) (main_v13 : IVec S_ 1) (main_v16 : IVec S8x12288x3 1) : IVec S_ 1 :=
  let main_c_5 : IVec S_ 1 := constantI S_ 1 1#1
  let main_v17 : IVec S_ 1 := (fun x v => Host.reduce IntOp.andi x v reducesTo_S8x12288x3_S_d0_1_2 h_S_) main_v16 main_c_5
  let main_v18 : IVec S_ 1 := andi main_v13 main_v17
  let main_v19 : FVec F S1024x128 .f32 := Host.absf main_arg6
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S256x128 .f32 := Host.absf main_arg8
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_v33

def fn {F : FTy → Type} [FloatOps F] (main_arg0 : FVec F S8x128x128 .f32) (main_arg1 : FVec F S8x512x128 .f32) (main_arg2 : IVec S8x128 1) (main_arg3 : IVec S8x512 1) (main_arg4 : FVec F S8x128x3 .f32) (main_arg5 : FVec F S8x12288x3 .f32) (main_arg6 : FVec F S1024x128 .f32) (main_arg7 : IVec S2x4096 32) (main_arg8 : FVec F S256x128 .f32) (main_arg9 : FVec F S128 .f32) (main_arg10 : FVec F S128 .f32) (main_arg11 : FVec F S128 .f32) (main_arg12 : FVec F S128 .f32) (main_arg13 : FVec F S128 .f32) (main_arg14 : FVec F S128x10 .f32) (main_arg15 : FVec F S10 .f32) (main_arg16 : FVec F S128x10 .f32) (main_arg17 : FVec F S10 .f32) (main_arg18 : FVec F S128x10 .f32) (main_arg19 : FVec F S10 .f32) (main_arg20 : FVec F S128x12 .f32) (main_arg21 : FVec F S12 .f32) (main_arg22 : FVec F S256x4 .f32) (main_arg23 : FVec F S4 .f32) : IVec S_ 1 :=
  let main_v0 : FVec F S8x128x128 .f32 := Host.absf main_arg0
  let main_cst : FVec F S_ .f32 := constant S_ .f32 0x7F800000#32
  let main_v1 : FVec F S8x128x128 .f32 := broadcastInDim S8x128x128 ![] bcast_S_S8x128x128 main_cst
  let main_v2 : IVec S8x128x128 1 := cmpf .olt main_v0 main_v1
  let main_c : IVec S_ 1 := constantI S_ 1 1#1
  let main_v3 : IVec S_ 1 := (fun x v => Host.reduce IntOp.andi x v reducesTo_S8x128x128_S_d0_1_2 h_S_) main_v2 main_c
  let main_v4 : FVec F S8x512x128 .f32 := Host.absf main_arg1
  let main_cst_0 : FVec F S_ .f32 := constant S_ .f32 0x7F800000#32
  let main_v5 : FVec F S8x512x128 .f32 := broadcastInDim S8x512x128 ![] bcast_S_S8x512x128 main_cst_0
  let main_v6 : IVec S8x512x128 1 := cmpf .olt main_v4 main_v5
  let main_c_1 : IVec S_ 1 := constantI S_ 1 1#1
  let main_v7 : IVec S_ 1 := (fun x v => Host.reduce IntOp.andi x v reducesTo_S8x512x128_S_d0_1_2 h_S_) main_v6 main_c_1
  let main_v8 : IVec S_ 1 := andi main_v3 main_v7
  let main_v9 : FVec F S8x128x3 .f32 := Host.absf main_arg4
  let main_cst_2 : FVec F S_ .f32 := constant S_ .f32 0x7F800000#32
  let main_v10 : FVec F S8x128x3 .f32 := broadcastInDim S8x128x3 ![] bcast_S_S8x128x3 main_cst_2
  let main_v11 : IVec S8x128x3 1 := cmpf .olt main_v9 main_v10
  let main_c_3 : IVec S_ 1 := constantI S_ 1 1#1
  let main_v12 : IVec S_ 1 := (fun x v => Host.reduce IntOp.andi x v reducesTo_S8x128x3_S_d0_1_2 h_S_) main_v11 main_c_3
  let main_v13 : IVec S_ 1 := andi main_v8 main_v12
  let main_v14 : FVec F S8x12288x3 .f32 := Host.absf main_arg5
  let main_cst_4 : FVec F S_ .f32 := constant S_ .f32 0x7F800000#32
  let main_v15 : FVec F S8x12288x3 .f32 := broadcastInDim S8x12288x3 ![] bcast_S_S8x12288x3 main_cst_4
  let main_v16 : IVec S8x12288x3 1 := cmpf .olt main_v14 main_v15
  fn_part1 (F := F) main_arg6 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S8x128x128 : Shape := ⟨3, ![8, 128, 128]⟩
abbrev S8x512x128 : Shape := ⟨3, ![8, 512, 128]⟩
abbrev S8x128 : Shape := ⟨2, ![8, 128]⟩
abbrev S8x512 : Shape := ⟨2, ![8, 512]⟩
abbrev S8x128x3 : Shape := ⟨3, ![8, 128, 3]⟩
abbrev S8x12288x3 : Shape := ⟨3, ![8, 12288, 3]⟩
abbrev S1024x128 : Shape := ⟨2, ![1024, 128]⟩
abbrev S2x4096 : Shape := ⟨2, ![2, 4096]⟩
abbrev S256x128 : Shape := ⟨2, ![256, 128]⟩
abbrev S128 : Shape := ⟨1, ![128]⟩
abbrev S128x10 : Shape := ⟨2, ![128, 10]⟩
abbrev S10 : Shape := ⟨1, ![10]⟩
abbrev S128x12 : Shape := ⟨2, ![128, 12]⟩
abbrev S12 : Shape := ⟨1, ![12]⟩
abbrev S256x4 : Shape := ⟨2, ![256, 4]⟩
abbrev S4 : Shape := ⟨1, ![4]⟩
abbrev S128x128 : Shape := ⟨2, ![128, 128]⟩
abbrev S1x128 : Shape := ⟨2, ![1, 128]⟩
abbrev S1x10 : Shape := ⟨2, ![1, 10]⟩
abbrev S8x128x512x10 : Shape := ⟨4, ![8, 128, 512, 10]⟩
abbrev S1x128x128 : Shape := ⟨3, ![1, 128, 128]⟩
abbrev S1x32x128 : Shape := ⟨3, ![1, 32, 128]⟩
abbrev S1x128x32x10 : Shape := ⟨4, ![1, 128, 32, 10]⟩
abbrev S32x128 : Shape := ⟨2, ![32, 128]⟩
abbrev S128x1x128 : Shape := ⟨3, ![128, 1, 128]⟩
abbrev S128x32x128 : Shape := ⟨3, ![128, 32, 128]⟩
abbrev S1x1x128 : Shape := ⟨3, ![1, 1, 128]⟩
abbrev S4096x128 : Shape := ⟨2, ![4096, 128]⟩
abbrev S4096x10 : Shape := ⟨2, ![4096, 10]⟩
abbrev S4096 : Shape := ⟨1, ![4096]⟩
abbrev S4096x1 : Shape := ⟨2, ![4096, 1]⟩
abbrev S128x32x10 : Shape := ⟨3, ![128, 32, 10]⟩
abbrev S524288x10 : Shape := ⟨2, ![524288, 10]⟩
abbrev S8x512x24x3 : Shape := ⟨4, ![8, 512, 24, 3]⟩
abbrev S8x24x512x3 : Shape := ⟨4, ![8, 24, 512, 3]⟩
abbrev S_ : Shape := ⟨0, ![]⟩
abbrev S8x12288 : Shape := ⟨2, ![8, 12288]⟩
abbrev S8x512x24 : Shape := ⟨3, ![8, 512, 24]⟩
abbrev S8x24x512 : Shape := ⟨3, ![8, 24, 512]⟩
abbrev S8x24x512x1 : Shape := ⟨4, ![8, 24, 512, 1]⟩
abbrev S8x1x128 : Shape := ⟨3, ![8, 1, 128]⟩
abbrev S1x128x3 : Shape := ⟨3, ![1, 128, 3]⟩
abbrev S1x24x64x3 : Shape := ⟨4, ![1, 24, 64, 3]⟩
abbrev S1x24x64x1 : Shape := ⟨4, ![1, 24, 64, 1]⟩
abbrev S1x64x128 : Shape := ⟨3, ![1, 64, 128]⟩
abbrev S128x3 : Shape := ⟨2, ![128, 3]⟩
abbrev S1x1x64x3 : Shape := ⟨4, ![1, 1, 64, 3]⟩
abbrev S64x3 : Shape := ⟨2, ![64, 3]⟩
abbrev S1x1x64x1 : Shape := ⟨4, ![1, 1, 64, 1]⟩
abbrev S64x1 : Shape := ⟨2, ![64, 1]⟩
abbrev S64x128 : Shape := ⟨2, ![64, 128]⟩
abbrev S8x128x512 : Shape := ⟨3, ![8, 128, 512]⟩
abbrev S524288x1 : Shape := ⟨2, ![524288, 1]⟩
abbrev S1024x12 : Shape := ⟨2, ![1024, 12]⟩
abbrev S1x12 : Shape := ⟨2, ![1, 12]⟩
abbrev S1x4096 : Shape := ⟨2, ![1, 4096]⟩
abbrev S4096x256 : Shape := ⟨2, ![4096, 256]⟩
abbrev S4096x4 : Shape := ⟨2, ![4096, 4]⟩
abbrev S1x4 : Shape := ⟨2, ![1, 4]⟩
abbrev S8 : Shape := ⟨1, ![8]⟩
abbrev S8x1x1 : Shape := ⟨3, ![8, 1, 1]⟩
abbrev S524288 : Shape := ⟨1, ![524288]⟩

abbrev nBuf : Space → Nat
  | .hbm => 90
  | .vmem => 33
  | .smem => 0
  | _ => 0

abbrev bufTy : (tb : Table) → Fin (tcTables nBuf tb) → BufTy
  | .hbm, ⟨0, _⟩ => ⟨S8x128x128, .f32⟩
  | .hbm, ⟨1, _⟩ => ⟨S8x512x128, .f32⟩
  | .hbm, ⟨2, _⟩ => ⟨S8x128, .i1⟩
  | .hbm, ⟨3, _⟩ => ⟨S8x512, .i1⟩
  | .hbm, ⟨4, _⟩ => ⟨S8x128x3, .f32⟩
  | .hbm, ⟨5, _⟩ => ⟨S8x12288x3, .f32⟩
  | .hbm, ⟨6, _⟩ => ⟨S1024x128, .f32⟩
  | .hbm, ⟨7, _⟩ => ⟨S2x4096, .i32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x10, .f32⟩
  | .hbm, ⟨15, _⟩ => ⟨S10, .f32⟩
  | .hbm, ⟨16, _⟩ => ⟨S128x10, .f32⟩
  | .hbm, ⟨17, _⟩ => ⟨S10, .f32⟩
  | .hbm, ⟨18, _⟩ => ⟨S128x10, .f32⟩
  | .hbm, ⟨19, _⟩ => ⟨S10, .f32⟩
  | .hbm, ⟨20, _⟩ => ⟨S128x12, .f32⟩
  | .hbm, ⟨21, _⟩ => ⟨S12, .f32⟩
  | .hbm, ⟨22, _⟩ => ⟨S256x4, .f32⟩
  | .hbm, ⟨23, _⟩ => ⟨S4, .f32⟩
  | .hbm, ⟨24, _⟩ => ⟨S128x128, .f32⟩
  | .hbm, ⟨25, _⟩ => ⟨S128x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x10, .f32⟩
  | .hbm, ⟨32, _⟩ => ⟨S1x10, .f32⟩
  | .hbm, ⟨33, _⟩ => ⟨S1x10, .f32⟩
  | .hbm, ⟨34, _⟩ => ⟨S8x128x512x10, .f32⟩
  | .hbm, ⟨35, _⟩ => ⟨S8x128x512x10, .f32⟩
  | .hbm, ⟨36, _⟩ => ⟨S8x128x512x10, .f32⟩
  | .hbm, ⟨37, _⟩ => ⟨S524288x10, .f32⟩
  | .hbm, ⟨38, _⟩ => ⟨S524288x10, .f32⟩
  | .hbm, ⟨39, _⟩ => ⟨S524288x10, .f32⟩
  | .hbm, ⟨40, _⟩ => ⟨S8x512x24x3, .f32⟩
  | .hbm, ⟨41, _⟩ => ⟨S8x24x512x3, .f32⟩
  | .hbm, ⟨42, _⟩ => ⟨S8x12288x3, .f32⟩
  | .hbm, ⟨43, _⟩ => ⟨S_, .f32⟩
  | .hbm, ⟨44, _⟩ => ⟨S8x12288, .f32⟩
  | .hbm, ⟨45, _⟩ => ⟨S8x512x24, .f32⟩
  | .hbm, ⟨46, _⟩ => ⟨S8x24x512, .f32⟩
  | .hbm, ⟨47, _⟩ => ⟨S8x24x512x1, .f32⟩
  | .hbm, ⟨48, _⟩ => ⟨S8x128x3, .f32⟩
  | .hbm, ⟨49, _⟩ => ⟨S_, .f32⟩
  | .hbm, ⟨50, _⟩ => ⟨S8x128, .f32⟩
  | .hbm, ⟨51, _⟩ => ⟨S8x1x128, .f32⟩
  | .hbm, ⟨52, _⟩ => ⟨S8x512x128, .f32⟩
  | .hbm, ⟨53, _⟩ => ⟨S8x128x512, .f32⟩
  | .hbm, ⟨54, _⟩ => ⟨S524288x1, .f32⟩
  | .hbm, ⟨55, _⟩ => ⟨S1024x12, .f32⟩
  | .hbm, ⟨56, _⟩ => ⟨S1x12, .f32⟩
  | .hbm, ⟨57, _⟩ => ⟨S1024x12, .f32⟩
  | .hbm, ⟨58, _⟩ => ⟨S1024x12, .f32⟩
  | .hbm, ⟨59, _⟩ => ⟨S1x4096, .i32⟩
  | .hbm, ⟨60, _⟩ => ⟨S4096, .i32⟩
  | .hbm, ⟨61, _⟩ => ⟨S1x4096, .i32⟩
  | .hbm, ⟨62, _⟩ => ⟨S4096, .i32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S4096x128, .f32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .i32⟩
  | .hbm, ⟨79, _⟩ => ⟨S4096x1, .i32⟩
  | .hbm, ⟨80, _⟩ => ⟨S4096x128, .f32⟩
  | .hbm, ⟨81, _⟩ => ⟨S4096x256, .f32⟩
  | .hbm, ⟨82, _⟩ => ⟨S4096x4, .f32⟩
  | .hbm, ⟨83, _⟩ => ⟨S1x4, .f32⟩
  | .hbm, ⟨84, _⟩ => ⟨S4096x4, .f32⟩
  | .hbm, ⟨85, _⟩ => ⟨S4096x4, .f32⟩
  | .hbm, ⟨86, _⟩ => ⟨S8, .i32⟩
  | .hbm, ⟨87, _⟩ => ⟨S8x1x1, .i32⟩
  | .hbm, ⟨88, _⟩ => ⟨S8x128x512, .i32⟩
  | .hbm, ⟨89, _⟩ => ⟨S524288, .i32⟩
  | .local _ .vmem, ⟨0, _⟩ => ⟨S1x128x128, .f32⟩
  | .local _ .vmem, ⟨1, _⟩ => ⟨S1x128x128, .f32⟩
  | .local _ .vmem, ⟨2, _⟩ => ⟨S1x32x128, .f32⟩
  | .local _ .vmem, ⟨3, _⟩ => ⟨S1x32x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x10, .f32⟩
  | .local _ .vmem, ⟨12, _⟩ => ⟨S1x10, .f32⟩
  | .local _ .vmem, ⟨13, _⟩ => ⟨S128x10, .f32⟩
  | .local _ .vmem, ⟨14, _⟩ => ⟨S1x10, .f32⟩
  | .local _ .vmem, ⟨15, _⟩ => ⟨S128x10, .f32⟩
  | .local _ .vmem, ⟨16, _⟩ => ⟨S1x10, .f32⟩
  | .local _ .vmem, ⟨17, _⟩ => ⟨S1x128x32x10, .f32⟩
  | .local _ .vmem, ⟨18, _⟩ => ⟨S1x128x32x10, .f32⟩
  | .local _ .vmem, ⟨19, _⟩ => ⟨S1x128x32x10, .f32⟩
  | .local _ .vmem, ⟨20, _⟩ => ⟨S1x128x32x10, .f32⟩
  | .local _ .vmem, ⟨21, _⟩ => ⟨S1x128x32x10, .f32⟩
  | .local _ .vmem, ⟨22, _⟩ => ⟨S1x128x32x10, .f32⟩
  | .local _ .vmem, ⟨23, _⟩ => ⟨S1x128x3, .f32⟩
  | .local _ .vmem, ⟨24, _⟩ => ⟨S1x128x3, .f32⟩
  | .local _ .vmem, ⟨25, _⟩ => ⟨S1x1x128, .f32⟩
  | .local _ .vmem, ⟨26, _⟩ => ⟨S1x1x128, .f32⟩
  | .local _ .vmem, ⟨27, _⟩ => ⟨S1x24x64x3, .f32⟩
  | .local _ .vmem, ⟨28, _⟩ => ⟨S1x24x64x3, .f32⟩
  | .local _ .vmem, ⟨29, _⟩ => ⟨S1x24x64x1, .f32⟩
  | .local _ .vmem, ⟨30, _⟩ => ⟨S1x24x64x1, .f32⟩
  | .local _ .vmem, ⟨31, _⟩ => ⟨S1x64x128, .f32⟩
  | .local _ .vmem, ⟨32, _⟩ => ⟨S1x64x128, .f32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev main_v10_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c : Ref sig .tc := ⟨.hbm, 63, rfl⟩
abbrev main_v35 : Ref sig .tc := ⟨.hbm, 64, rfl⟩
abbrev main_v36 : Ref sig .tc := ⟨.hbm, 65, rfl⟩
abbrev main_c_1 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_2 : Ref sig .tc := ⟨.hbm, 72, rfl⟩
abbrev main_v42 : Ref sig .tc := ⟨.hbm, 73, rfl⟩
abbrev main_v43 : Ref sig .tc := ⟨.hbm, 74, rfl⟩
abbrev main_c_3 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x128x32x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x32x10 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x32x10 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x24x64x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x24x64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  slices_S256x128_S128x128_0_0 : S256x128.Slices ![0, 0] S128x128
  slices_S256x128_S128x128_128_0 : S256x128.Slices ![128, 0] S128x128
  shapeCasts_S128_S1x128 : S128.ShapeCasts S1x128
  shapeCasts_S10_S1x10 : S10.ShapeCasts S1x10
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128x128_S128x1x128 : S128x128.ShapeCasts S128x1x128
  shapeCasts_S32x128_S1x32x128 : S32x128.ShapeCasts S1x32x128
  broadcasts_S128x1x128_S128x32x128 : S128x1x128.Broadcasts S128x32x128
  broadcasts_S1x32x128_S128x32x128 : S1x32x128.Broadcasts S128x32x128
  shapeCasts_S128_S1x1x128 : S128.ShapeCasts S1x1x128
  broadcasts_S1x1x128_S128x32x128 : S1x1x128.Broadcasts S128x32x128
  shapeCasts_S128x32x128_S4096x128 : S128x32x128.ShapeCasts S4096x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S10 : S1x10.ShapeCasts S10
  broadcasts_S1x10_S4096x10 : S1x10.Broadcasts S4096x10
  reduces_S4096x10_S4096 : S4096x10.Reduces [1] S4096
  shapeCasts_S4096_S4096x1 : S4096.ShapeCasts S4096x1
  broadcasts_S4096x1_S4096x10 : S4096x1.Broadcasts S4096x10
  shapeCasts_S4096x10_S128x32x10 : S4096x10.ShapeCasts S128x32x10
  inb_S1x128x32x10_S1x128x32x10_0_0_0_0 : ∀ a, (![0, 0, 0, 0] : Fin 4 → Nat) a + S1x128x32x10.size a ≤ S1x128x32x10.size a
  h_S1x128x32x10 : 0 < S1x128x32x10.numel
  shapeCasts_S1x128x32x10_S128x32x10 : S1x128x32x10.ShapeCasts S128x32x10
  shapeCasts_S128x32x10_S1x128x32x10 : S128x32x10.ShapeCasts S1x128x32x10
  shapeCasts_S8x128x512x10_S524288x10 : S8x128x512x10.ShapeCasts S524288x10
  shapeCasts_S8x12288x3_S8x512x24x3 : S8x12288x3.ShapeCasts S8x512x24x3
  transposes_S8x512x24x3_S8x24x512x3_0_2_1_3 : S8x512x24x3.Transposes [0, 2, 1, 3] S8x24x512x3
  reducesTo_S8x12288x3_S8x12288_d2 : S8x12288x3.ReducesTo [2] S8x12288
  h_S_ : 0 < S_.numel
  shapeCasts_S8x12288_S8x512x24 : S8x12288.ShapeCasts S8x512x24
  transposes_S8x512x24_S8x24x512_0_2_1 : S8x512x24.Transposes [0, 2, 1] S8x24x512
  bcast_S8x24x512_S8x24x512x1_0_1_2 : S8x24x512.BroadcastsInDim S8x24x512x1 (![0, 1, 2] : Fin 3 → Fin S8x24x512x1.rank)
  reducesTo_S8x128x3_S8x128_d2 : S8x128x3.ReducesTo [2] S8x128
  bcast_S8x128_S8x1x128_0_2 : S8x128.BroadcastsInDim S8x1x128 (![0, 2] : Fin 2 → Fin S8x1x128.rank)
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S1x24x64x3_S1x1x64x3_0_0_0_0 : ∀ a, (![0, 0, 0, 0] : Fin 4 → Nat) a + S1x1x64x3.size a ≤ S1x24x64x3.size a
  h_S1x1x64x3 : 0 < S1x1x64x3.numel
  shapeCasts_S1x1x64x3_S64x3 : S1x1x64x3.ShapeCasts S64x3
  inb_S1x24x64x1_S1x1x64x1_0_0_0_0 : ∀ a, (![0, 0, 0, 0] : Fin 4 → Nat) a + S1x1x64x1.size a ≤ S1x24x64x1.size a
  h_S1x1x64x1 : 0 < S1x1x64x1.numel
  shapeCasts_S1x1x64x1_S64x1 : S1x1x64x1.ShapeCasts S64x1
  broadcasts_S64x1_S64x128 : S64x1.Broadcasts S64x128
  broadcasts_S1x128_S64x128 : S1x128.Broadcasts S64x128
  inb_S1x24x64x3_S1x1x64x3_0_1_0_0 : ∀ a, (![0, 1, 0, 0] : Fin 4 → Nat) a + S1x1x64x3.size a ≤ S1x24x64x3.size a
  inb_S1x24x64x1_S1x1x64x1_0_1_0_0 : ∀ a, (![0, 1, 0, 0] : Fin 4 → Nat) a + S1x1x64x1.size a ≤ S1x24x64x1.size a
  inb_S1x24x64x3_S1x1x64x3_0_2_0_0 : ∀ a, (![0, 2, 0, 0] : Fin 4 → Nat) a + S1x1x64x3.size a ≤ S1x24x64x3.size a
  inb_S1x24x64x1_S1x1x64x1_0_2_0_0 : ∀ a, (![0, 2, 0, 0] : Fin 4 → Nat) a + S1x1x64x1.size a ≤ S1x24x64x1.size a
  inb_S1x24x64x3_S1x1x64x3_0_3_0_0 : ∀ a, (![0, 3, 0, 0] : Fin 4 → Nat) a + S1x1x64x3.size a ≤ S1x24x64x3.size a
  inb_S1x24x64x1_S1x1x64x1_0_3_0_0 : ∀ a, (![0, 3, 0, 0] : Fin 4 → Nat) a + S1x1x64x1.size a ≤ S1x24x64x1.size a
  inb_S1x24x64x3_S1x1x64x3_0_4_0_0 : ∀ a, (![0, 4, 0, 0] : Fin 4 → Nat) a + S1x1x64x3.size a ≤ S1x24x64x3.size a
  inb_S1x24x64x1_S1x1x64x1_0_4_0_0 : ∀ a, (![0, 4, 0, 0] : Fin 4 → Nat) a + S1x1x64x1.size a ≤ S1x24x64x1.size a
  inb_S1x24x64x3_S1x1x64x3_0_5_0_0 : ∀ a, (![0, 5, 0, 0] : Fin 4 → Nat) a + S1x1x64x3.size a ≤ S1x24x64x3.size a
  inb_S1x24x64x1_S1x1x64x1_0_5_0_0 : ∀ a, (![0, 5, 0, 0] : Fin 4 → Nat) a + S1x1x64x1.size a ≤ S1x24x64x1.size a
  inb_S1x24x64x3_S1x1x64x3_0_6_0_0 : ∀ a, (![0, 6, 0, 0] : Fin 4 → Nat) a + S1x1x64x3.size a ≤ S1x24x64x3.size a
  inb_S1x24x64x1_S1x1x64x1_0_6_0_0 : ∀ a, (![0, 6, 0, 0] : Fin 4 → Nat) a + S1x1x64x1.size a ≤ S1x24x64x1.size a
  inb_S1x24x64x3_S1x1x64x3_0_7_0_0 : ∀ a, (![0, 7, 0, 0] : Fin 4 → Nat) a + S1x1x64x3.size a ≤ S1x24x64x3.size a
  inb_S1x24x64x1_S1x1x64x1_0_7_0_0 : ∀ a, (![0, 7, 0, 0] : Fin 4 → Nat) a + S1x1x64x1.size a ≤ S1x24x64x1.size a
  inb_S1x24x64x3_S1x1x64x3_0_8_0_0 : ∀ a, (![0, 8, 0, 0] : Fin 4 → Nat) a + S1x1x64x3.size a ≤ S1x24x64x3.size a
  inb_S1x24x64x1_S1x1x64x1_0_8_0_0 : ∀ a, (![0, 8, 0, 0] : Fin 4 → Nat) a + S1x1x64x1.size a ≤ S1x24x64x1.size a
  inb_S1x24x64x3_S1x1x64x3_0_9_0_0 : ∀ a, (![0, 9, 0, 0] : Fin 4 → Nat) a + S1x1x64x3.size a ≤ S1x24x64x3.size a
  inb_S1x24x64x1_S1x1x64x1_0_9_0_0 : ∀ a, (![0, 9, 0, 0] : Fin 4 → Nat) a + S1x1x64x1.size a ≤ S1x24x64x1.size a
  inb_S1x24x64x3_S1x1x64x3_0_10_0_0 : ∀ a, (![0, 10, 0, 0] : Fin 4 → Nat) a + S1x1x64x3.size a ≤ S1x24x64x3.size a
  inb_S1x24x64x1_S1x1x64x1_0_10_0_0 : ∀ a, (![0, 10, 0, 0] : Fin 4 → Nat) a + S1x1x64x1.size a ≤ S1x24x64x1.size a
  inb_S1x24x64x3_S1x1x64x3_0_11_0_0 : ∀ a, (![0, 11, 0, 0] : Fin 4 → Nat) a + S1x1x64x3.size a ≤ S1x24x64x3.size a
  inb_S1x24x64x1_S1x1x64x1_0_11_0_0 : ∀ a, (![0, 11, 0, 0] : Fin 4 → Nat) a + S1x1x64x1.size a ≤ S1x24x64x1.size a
  inb_S1x24x64x3_S1x1x64x3_0_12_0_0 : ∀ a, (![0, 12, 0, 0] : Fin 4 → Nat) a + S1x1x64x3.size a ≤ S1x24x64x3.size a
  inb_S1x24x64x1_S1x1x64x1_0_12_0_0 : ∀ a, (![0, 12, 0, 0] : Fin 4 → Nat) a + S1x1x64x1.size a ≤ S1x24x64x1.size a
  inb_S1x24x64x3_S1x1x64x3_0_13_0_0 : ∀ a, (![0, 13, 0, 0] : Fin 4 → Nat) a + S1x1x64x3.size a ≤ S1x24x64x3.size a
  inb_S1x24x64x1_S1x1x64x1_0_13_0_0 : ∀ a, (![0, 13, 0, 0] : Fin 4 → Nat) a + S1x1x64x1.size a ≤ S1x24x64x1.size a
  inb_S1x24x64x3_S1x1x64x3_0_14_0_0 : ∀ a, (![0, 14, 0, 0] : Fin 4 → Nat) a + S1x1x64x3.size a ≤ S1x24x64x3.size a
  inb_S1x24x64x1_S1x1x64x1_0_14_0_0 : ∀ a, (![0, 14, 0, 0] : Fin 4 → Nat) a + S1x1x64x1.size a ≤ S1x24x64x1.size a
  inb_S1x24x64x3_S1x1x64x3_0_15_0_0 : ∀ a, (![0, 15, 0, 0] : Fin 4 → Nat) a + S1x1x64x3.size a ≤ S1x24x64x3.size a
  inb_S1x24x64x1_S1x1x64x1_0_15_0_0 : ∀ a, (![0, 15, 0, 0] : Fin 4 → Nat) a + S1x1x64x1.size a ≤ S1x24x64x1.size a
  inb_S1x24x64x3_S1x1x64x3_0_16_0_0 : ∀ a, (![0, 16, 0, 0] : Fin 4 → Nat) a + S1x1x64x3.size a ≤ S1x24x64x3.size a
  inb_S1x24x64x1_S1x1x64x1_0_16_0_0 : ∀ a, (![0, 16, 0, 0] : Fin 4 → Nat) a + S1x1x64x1.size a ≤ S1x24x64x1.size a
  inb_S1x24x64x3_S1x1x64x3_0_17_0_0 : ∀ a, (![0, 17, 0, 0] : Fin 4 → Nat) a + S1x1x64x3.size a ≤ S1x24x64x3.size a
  inb_S1x24x64x1_S1x1x64x1_0_17_0_0 : ∀ a, (![0, 17, 0, 0] : Fin 4 → Nat) a + S1x1x64x1.size a ≤ S1x24x64x1.size a
  inb_S1x24x64x3_S1x1x64x3_0_18_0_0 : ∀ a, (![0, 18, 0, 0] : Fin 4 → Nat) a + S1x1x64x3.size a ≤ S1x24x64x3.size a
  inb_S1x24x64x1_S1x1x64x1_0_18_0_0 : ∀ a, (![0, 18, 0, 0] : Fin 4 → Nat) a + S1x1x64x1.size a ≤ S1x24x64x1.size a
  inb_S1x24x64x3_S1x1x64x3_0_19_0_0 : ∀ a, (![0, 19, 0, 0] : Fin 4 → Nat) a + S1x1x64x3.size a ≤ S1x24x64x3.size a
  inb_S1x24x64x1_S1x1x64x1_0_19_0_0 : ∀ a, (![0, 19, 0, 0] : Fin 4 → Nat) a + S1x1x64x1.size a ≤ S1x24x64x1.size a
  inb_S1x24x64x3_S1x1x64x3_0_20_0_0 : ∀ a, (![0, 20, 0, 0] : Fin 4 → Nat) a + S1x1x64x3.size a ≤ S1x24x64x3.size a
  inb_S1x24x64x1_S1x1x64x1_0_20_0_0 : ∀ a, (![0, 20, 0, 0] : Fin 4 → Nat) a + S1x1x64x1.size a ≤ S1x24x64x1.size a
  inb_S1x24x64x3_S1x1x64x3_0_21_0_0 : ∀ a, (![0, 21, 0, 0] : Fin 4 → Nat) a + S1x1x64x3.size a ≤ S1x24x64x3.size a
  inb_S1x24x64x1_S1x1x64x1_0_21_0_0 : ∀ a, (![0, 21, 0, 0] : Fin 4 → Nat) a + S1x1x64x1.size a ≤ S1x24x64x1.size a
  inb_S1x24x64x3_S1x1x64x3_0_22_0_0 : ∀ a, (![0, 22, 0, 0] : Fin 4 → Nat) a + S1x1x64x3.size a ≤ S1x24x64x3.size a
  inb_S1x24x64x1_S1x1x64x1_0_22_0_0 : ∀ a, (![0, 22, 0, 0] : Fin 4 → Nat) a + S1x1x64x1.size a ≤ S1x24x64x1.size a
  inb_S1x24x64x3_S1x1x64x3_0_23_0_0 : ∀ a, (![0, 23, 0, 0] : Fin 4 → Nat) a + S1x1x64x3.size a ≤ S1x24x64x3.size a
  inb_S1x24x64x1_S1x1x64x1_0_23_0_0 : ∀ a, (![0, 23, 0, 0] : Fin 4 → Nat) a + S1x1x64x1.size a ≤ S1x24x64x1.size a
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  transposes_S8x512x128_S8x128x512_0_2_1 : S8x512x128.Transposes [0, 2, 1] S8x128x512
  shapeCasts_S8x128x512_S524288x1 : S8x128x512.ShapeCasts S524288x1
  bcast_S12_S1x12_1 : S12.BroadcastsInDim S1x12 (![1] : Fin 1 → Fin S1x12.rank)
  bcast_S1x12_S1024x12_0_1 : S1x12.BroadcastsInDim S1024x12 (![0, 1] : Fin 2 → Fin S1024x12.rank)
  slices_S2x4096_S1x4096_0_0 : S2x4096.Slices ![0, 0] S1x4096
  shapeCasts_S1x4096_S4096 : S1x4096.ShapeCasts S4096
  slices_S2x4096_S1x4096_1_0 : S2x4096.Slices ![1, 0] S1x4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x256_d1 : Shape.Concatenates [S4096x128, S4096x128] S4096x256 1
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  bcast_S8_S8x1x1_0 : S8.BroadcastsInDim S8x1x1 (![0] : Fin 1 → Fin S8x1x1.rank)
  bcast_S8x1x1_S8x128x512_0_1_2 : S8x1x1.BroadcastsInDim S8x128x512 (![0, 1, 2] : Fin 3 → Fin S8x128x512.rank)
  shapeCasts_S8x128x512_S524288 : S8x128x512.ShapeCasts S524288
  dot_S128x128_S128x128_S128x128_1_0_0_1_n_n_wf : DotDims.WF S128x128 S128x128 S128x128 [1] [0] [0] [1] [] []
  dot_S32x128_S128x128_S32x128_1_0_0_1_n_n_wf : DotDims.WF S32x128 S128x128 S32x128 [1] [0] [0] [1] [] []
  dot_S4096x128_S128x10_S4096x10_1_0_0_1_n_n_wf : DotDims.WF S4096x128 S128x10 S4096x10 [1] [0] [0] [1] [] []
  dot_S64x3_S128x3_S64x128_1_1_0_0_n_n_wf : DotDims.WF S64x3 S128x3 S64x128 [1] [1] [0] [0] [] []
  dot_S1024x128_S128x12_S1024x12_1_0_0_1_n_n_wf : DotDims.WF S1024x128 S128x12 S1024x12 [1] [0] [0] [1] [] []
  gather_S1024x128_S4096x1_S4096x128_1_0_n_n_0_1_1128_wf : GatherDims.WF S1024x128 S4096x1 S4096x128 [1] [0] [] [0] [] 1 ![1, 128]
  dot_S4096x256_S256x4_S4096x4_1_0_0_1_n_n_wf : DotDims.WF S4096x256 S256x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x128x128.size a
  hwx0_0 : ∀ i : grid0.Coords, EltTy.bits .f32 = 32 ∨ (Rect.block (s := S8x128x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128.size a ≤ S8x512x128.size a
  hwx0_1 : ∀ i : grid0.Coords, EltTy.bits .f32 = 32 ∨ (Rect.block (s := S8x512x128) S1x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x10.size a ≤ S128x10.size a
  hwx0_9 : ∀ i : grid0.Coords, EltTy.bits .f32 = 32 ∨ (Rect.block (s := S128x10) S128x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x10.size a ≤ S128x10.size a
  hwx0_11 : ∀ i : grid0.Coords, EltTy.bits .f32 = 32 ∨ (Rect.block (s := S128x10) S128x10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x10.size a ≤ S1x10.size a
  hwx0_12 : ∀ i : grid0.Coords, EltTy.bits .f32 = 32 ∨ (Rect.block (s := S1x10) S1x10.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x10.size a ≤ S128x10.size a
  hwx0_13 : ∀ i : grid0.Coords, EltTy.bits .f32 = 32 ∨ (Rect.block (s := S128x10) S128x10.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x10.size a ≤ S1x10.size a
  hwx0_14 : ∀ i : grid0.Coords, EltTy.bits .f32 = 32 ∨ (Rect.block (s := S1x10) S1x10.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128x32x10.size a ≤ S8x128x512x10.size a
  hwx0_15 : ∀ i : grid0.Coords, EltTy.bits .f32 = 32 ∨ (Rect.block (s := S8x128x512x10) S1x128x32x10.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128x32x10.size a ≤ S8x128x512x10.size a
  hwx0_16 : ∀ i : grid0.Coords, EltTy.bits .f32 = 32 ∨ (Rect.block (s := S8x128x512x10) S1x128x32x10.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x128x32x10.size a ≤ S8x128x512x10.size a
  hwx0_17 : ∀ i : grid0.Coords, EltTy.bits .f32 = 32 ∨ (Rect.block (s := S8x128x512x10) S1x128x32x10.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x3.size a ≤ S8x128x3.size a
  hwx1_0 : ∀ i : grid1.Coords, EltTy.bits .f32 = 32 ∨ (Rect.block (s := S8x128x3) S1x128x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S8x1x128.size a
  hwx1_1 : ∀ i : grid1.Coords, EltTy.bits .f32 = 32 ∨ (Rect.block (s := S8x1x128) S1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x24x64x3.size a ≤ S8x24x512x3.size a
  hwx1_2 : ∀ i : grid1.Coords, EltTy.bits .f32 = 32 ∨ (Rect.block (s := S8x24x512x3) S1x24x64x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x24x64x1.size a ≤ S8x24x512x1.size a
  hwx1_3 : ∀ i : grid1.Coords, EltTy.bits .f32 = 32 ∨ (Rect.block (s := S8x24x512x1) S1x24x64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x128.size a ≤ S8x512x128.size a
  hwx1_4 : ∀ i : grid1.Coords, EltTy.bits .f32 = 32 ∨ (Rect.block (s := S8x512x128) S1x64x128.size (cc1_transform_4 i) (hinb1_4 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S4096x128_S128x10_S4096x10_1_0_0_1_n_n : DotDims S4096x128 S128x10 S4096x10 where
  lhsContracting := [1]
  rhsContracting := [0]
  lhsNonContracting := [0]
  rhsNonContracting := [1]
  lhsBatch := []
  rhsBatch := []
  wf := dot_S4096x128_S128x10_S4096x10_1_0_0_1_n_n_wf
def dot_S64x3_S128x3_S64x128_1_1_0_0_n_n : DotDims S64x3 S128x3 S64x128 where
  lhsContracting := [1]
  rhsContracting := [1]
  lhsNonContracting := [0]
  rhsNonContracting := [0]
  lhsBatch := []
  rhsBatch := []
  wf := dot_S64x3_S128x3_S64x128_1_1_0_0_n_n_wf
def dot_S1024x128_S128x12_S1024x12_1_0_0_1_n_n : DotDims S1024x128 S128x12 S1024x12 where
  lhsContracting := [1]
  rhsContracting := [0]
  lhsNonContracting := [0]
  rhsNonContracting := [1]
  lhsBatch := []
  rhsBatch := []
  wf := dot_S1024x128_S128x12_S1024x12_1_0_0_1_n_n_wf
def gather_S1024x128_S4096x1_S4096x128_1_0_n_n_0_1_1128 : GatherDims S1024x128 S4096x1 S4096x128 where
  offsetDims := [1]
  collapsedSliceDims := [0]
  operandBatchingDims := []
  startIndicesBatchingDims := []
  startIndexMap := [0]
  indexVectorDim := 1
  sliceSizes := ![1, 128]
  wf := gather_S1024x128_S4096x1_S4096x128_1_0_n_n_0_1_1128_wf
def dot_S4096x256_S256x4_S4096x4_1_0_0_1_n_n : DotDims S4096x256 S256x4 S4096x4 where
  lhsContracting := [1]
  rhsContracting := [0]
  lhsNonContracting := [0]
  rhsNonContracting := [1]
  lhsBatch := []
  rhsBatch := []
  wf := dot_S4096x256_S256x4_S4096x4_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S128x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg16) S128x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1x10.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg18) S128x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v10_0) S1x128x32x10.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v10_1) S1x128x32x10.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v10_2) S1x128x32x10.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_arg4) S1x128x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x24x64x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x24x64x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x128x128 : Shape := ⟨3, ![8, 128, 128]⟩
abbrev S8x512x128 : Shape := ⟨3, ![8, 512, 128]⟩
abbrev S8x128 : Shape := ⟨2, ![8, 128]⟩
abbrev S8x512 : Shape := ⟨2, ![8, 512]⟩
abbrev S8x128x3 : Shape := ⟨3, ![8, 128, 3]⟩
abbrev S8x12288x3 : Shape := ⟨3, ![8, 12288, 3]⟩
abbrev S1024x128 : Shape := ⟨2, ![1024, 128]⟩
abbrev S2x4096 : Shape := ⟨2, ![2, 4096]⟩
abbrev S256x128 : Shape := ⟨2, ![256, 128]⟩
abbrev S128 : Shape := ⟨1, ![128]⟩
abbrev S128x10 : Shape := ⟨2, ![128, 10]⟩
abbrev S10 : Shape := ⟨1, ![10]⟩
abbrev S128x12 : Shape := ⟨2, ![128, 12]⟩
abbrev S12 : Shape := ⟨1, ![12]⟩
abbrev S256x4 : Shape := ⟨2, ![256, 4]⟩
abbrev S4 : Shape := ⟨1, ![4]⟩
abbrev S8x128x1x128 : Shape := ⟨4, ![8, 128, 1, 128]⟩
abbrev S8x128x512x128 : Shape := ⟨4, ![8, 128, 512, 128]⟩
abbrev S8x1x512x128 : Shape := ⟨4, ![8, 1, 512, 128]⟩
abbrev S8x128x512x256 : Shape := ⟨4, ![8, 128, 512, 256]⟩
abbrev S524288x256 : Shape := ⟨2, ![524288, 256]⟩
abbrev S524288x128 : Shape := ⟨2, ![524288, 128]⟩
abbrev S1x128 : Shape := ⟨2, ![1, 128]⟩
abbrev S_ : Shape := ⟨0, ![]⟩
abbrev S524288x10 : Shape := ⟨2, ![524288, 10]⟩
abbrev S1x10 : Shape := ⟨2, ![1, 10]⟩
abbrev S524288 : Shape := ⟨1, ![524288]⟩
abbrev S524288x1 : Shape := ⟨2, ![524288, 1]⟩
abbrev S1024x12 : Shape := ⟨2, ![1024, 12]⟩
abbrev S1x12 : Shape := ⟨2, ![1, 12]⟩
abbrev S1x4096 : Shape := ⟨2, ![1, 4096]⟩
abbrev S4096 : Shape := ⟨1, ![4096]⟩
abbrev S4096x1 : Shape := ⟨2, ![4096, 1]⟩
abbrev S4096x128 : Shape := ⟨2, ![4096, 128]⟩
abbrev S4096x256 : Shape := ⟨2, ![4096, 256]⟩
abbrev S4096x4 : Shape := ⟨2, ![4096, 4]⟩
abbrev S1x4 : Shape := ⟨2, ![1, 4]⟩
abbrev S8x128x12288 : Shape := ⟨3, ![8, 128, 12288]⟩
abbrev S8x12288 : Shape := ⟨2, ![8, 12288]⟩
abbrev S8x1x12288 : Shape := ⟨3, ![8, 1, 12288]⟩
abbrev S8x128x1 : Shape := ⟨3, ![8, 128, 1]⟩
abbrev S8x128x512x24 : Shape := ⟨4, ![8, 128, 512, 24]⟩
abbrev S8x128x512 : Shape := ⟨3, ![8, 128, 512]⟩
abbrev S8 : Shape := ⟨1, ![8]⟩
abbrev S8x1x1 : Shape := ⟨3, ![8, 1, 1]⟩

abbrev nBuf : Space → Nat
  | .hbm => 201
  | .vmem => 0
  | .smem => 0
  | _ => 0

abbrev hbmTy0_0 (i : Nat) : BufTy := match i % 128 with
  | 0 => ⟨S8x128x128, .f32⟩
  | 1 => ⟨S8x512x128, .f32⟩
  | 2 => ⟨S8x128, .i1⟩
  | 3 => ⟨S8x512, .i1⟩
  | 4 => ⟨S8x128x3, .f32⟩
  | 5 => ⟨S8x12288x3, .f32⟩
  | 6 => ⟨S1024x128, .f32⟩
  | 7 => ⟨S2x4096, .i32⟩
  | 8 => ⟨S256x128, .f32⟩
  | 9 => ⟨S128, .f32⟩
  | 10 => ⟨S128, .f32⟩
  | 11 => ⟨S128, .f32⟩
  | 12 => ⟨S128, .f32⟩
  | 13 => ⟨S128, .f32⟩
  | 14 => ⟨S128x10, .f32⟩
  | 15 => ⟨S10, .f32⟩
  | 16 => ⟨S128x10, .f32⟩
  | 17 => ⟨S10, .f32⟩
  | 18 => ⟨S128x10, .f32⟩
  | 19 => ⟨S10, .f32⟩
  | 20 => ⟨S128x12, .f32⟩
  | 21 => ⟨S12, .f32⟩
  | 22 => ⟨S256x4, .f32⟩
  | 23 => ⟨S4, .f32⟩
  | 24 => ⟨S8x128x1x128, .f32⟩
  | 25 => ⟨S8x128x512x128, .f32⟩
  | 26 => ⟨S8x1x512x128, .f32⟩
  | 27 => ⟨S8x128x512x128, .f32⟩
  | 28 => ⟨S8x128x512x256, .f32⟩
  | 29 => ⟨S524288x256, .f32⟩
  | 30 => ⟨S524288x128, .f32⟩
  | 31 => ⟨S1x128, .f32⟩
  | 32 => ⟨S524288x128, .f32⟩
  | 33 => ⟨S524288x128, .f32⟩
  | 34 => ⟨S1x128, .f32⟩
  | 35 => ⟨S524288x128, .f32⟩
  | 36 => ⟨S524288x128, .f32⟩
  | 37 => ⟨S_, .f32⟩
  | 38 => ⟨S128, .f32⟩
  | 39 => ⟨S128, .f32⟩
  | 40 => ⟨S128, .f32⟩
  | 41 => ⟨S1x128, .f32⟩
  | 42 => ⟨S524288x128, .f32⟩
  | 43 => ⟨S524288x128, .f32⟩
  | 44 => ⟨S1x128, .f32⟩
  | 45 => ⟨S524288x128, .f32⟩
  | 46 => ⟨S524288x128, .f32⟩
  | 47 => ⟨S1x128, .f32⟩
  | 48 => ⟨S524288x128, .f32⟩
  | 49 => ⟨S524288x128, .f32⟩
  | 50 => ⟨S_, .f32⟩
  | 51 => ⟨S524288x128, .f32⟩
  | 52 => ⟨S524288x128, .i1⟩
  | 53 => ⟨S_, .f32⟩
  | 54 => ⟨S524288x128, .f32⟩
  | 55 => ⟨S524288x128, .i1⟩
  | 56 => ⟨S_, .f32⟩
  | 57 => ⟨S_, .f32⟩
  | 58 => ⟨S524288x128, .f32⟩
  | 59 => ⟨S524288x128, .f32⟩
  | 60 => ⟨S524288x128, .f32⟩
  | 61 => ⟨S_, .f32⟩
  | 62 => ⟨S524288x128, .f32⟩
  | 63 => ⟨S524288x128, .f32⟩
  | 64 => ⟨S524288x128, .f32⟩
  | 65 => ⟨S524288x10, .f32⟩
  | 66 => ⟨S1x10, .f32⟩
  | 67 => ⟨S524288x10, .f32⟩
  | 68 => ⟨S524288x10, .f32⟩
  | 69 => ⟨S_, .f32⟩
  | 70 => ⟨S524288, .f32⟩
  | 71 => ⟨S_, .f32⟩
  | 72 => ⟨S524288, .f32⟩
  | 73 => ⟨S524288, .f32⟩
  | 74 => ⟨S524288x1, .f32⟩
  | 75 => ⟨S524288x10, .f32⟩
  | 76 => ⟨S524288x10, .f32⟩
  | 77 => ⟨S524288x10, .f32⟩
  | 78 => ⟨S_, .f32⟩
  | 79 => ⟨S524288, .f32⟩
  | 80 => ⟨S524288x1, .f32⟩
  | 81 => ⟨S524288x10, .f32⟩
  | 82 => ⟨S524288x10, .f32⟩
  | 83 => ⟨S524288x10, .f32⟩
  | 84 => ⟨S1x10, .f32⟩
  | 85 => ⟨S524288x10, .f32⟩
  | 86 => ⟨S524288x10, .f32⟩
  | 87 => ⟨S_, .f32⟩
  | 88 => ⟨S524288x10, .f32⟩
  | 89 => ⟨S524288x10, .i1⟩
  | 90 => ⟨S_, .f32⟩
  | 91 => ⟨S524288x10, .f32⟩
  | 92 => ⟨S524288x10, .i1⟩
  | 93 => ⟨S_, .f32⟩
  | 94 => ⟨S_, .f32⟩
  | 95 => ⟨S524288x10, .f32⟩
  | 96 => ⟨S524288x10, .f32⟩
  | 97 => ⟨S524288x10, .f32⟩
  | 98 => ⟨S_, .f32⟩
  | 99 => ⟨S524288x10, .f32⟩
  | 100 => ⟨S524288x10, .f32⟩
  | 101 => ⟨S524288x10, .f32⟩
  | 102 => ⟨S_, .f32⟩
  | 103 => ⟨S524288x10, .f32⟩
  | 104 => ⟨S524288x10, .f32⟩
  | 105 => ⟨S524288x10, .f32⟩
  | 106 => ⟨S1x10, .f32⟩
  | 107 => ⟨S524288x10, .f32⟩
  | 108 => ⟨S524288x10, .f32⟩
  | 109 => ⟨S_, .f32⟩
  | 110 => ⟨S524288x10, .f32⟩
  | 111 => ⟨S524288x10, .i1⟩
  | 112 => ⟨S_, .f32⟩
  | 113 => ⟨S524288x10, .f32⟩
  | 114 => ⟨S524288x10, .i1⟩
  | 115 => ⟨S_, .f32⟩
  | 116 => ⟨S_, .f32⟩
  | 117 => ⟨S524288x10, .f32⟩
  | 118 => ⟨S524288x10, .f32⟩
  | 119 => ⟨S524288x10, .f32⟩
  | 120 => ⟨S_, .f32⟩
  | 121 => ⟨S524288x10, .f32⟩
  | 122 => ⟨S524288x10, .f32⟩
  | 123 => ⟨S524288x10, .f32⟩
  | 124 => ⟨S_, .f32⟩
  | 125 => ⟨S524288x10, .f32⟩
  | 126 => ⟨S524288x10, .f32⟩
  | 127 => ⟨S1024x12, .f32⟩
  | _ => ⟨S8x128x128, .f32⟩

abbrev hbmTy0_1 (i : Nat) : BufTy := match i % 128 with
  | 0 => ⟨S1x12, .f32⟩
  | 1 => ⟨S1024x12, .f32⟩
  | 2 => ⟨S1024x12, .f32⟩
  | 3 => ⟨S1x4096, .i32⟩
  | 4 => ⟨S4096, .i32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S4096x128, .f32⟩
  | 14 => ⟨S1x4096, .i32⟩
  | 15 => ⟨S4096, .i32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S4096x1, .i32⟩
  | 24 => ⟨S4096x128, .f32⟩
  | 25 => ⟨S4096x256, .f32⟩
  | 26 => ⟨S4096x4, .f32⟩
  | 27 => ⟨S1x4, .f32⟩
  | 28 => ⟨S4096x4, .f32⟩
  | 29 => ⟨S4096x4, .f32⟩
  | 30 => ⟨S8x128x12288, .f32⟩
  | 31 => ⟨S_, .f32⟩
  | 32 => ⟨S8x128x12288, .f32⟩
  | 33 => ⟨S8x128x12288, .f32⟩
  | 34 => ⟨S8x12288x3, .f32⟩
  | 35 => ⟨S_, .f32⟩
  | 36 => ⟨S8x12288, .f32⟩
  | 37 => ⟨S8x1x12288, .f32⟩
  | 38 => ⟨S8x128x12288, .f32⟩
  | 39 => ⟨S8x128x12288, .f32⟩
  | 40 => ⟨S8x128x3, .f32⟩
  | 41 => ⟨S_, .f32⟩
  | 42 => ⟨S8x128, .f32⟩
  | 43 => ⟨S8x128x1, .f32⟩
  | 44 => ⟨S8x128x12288, .f32⟩
  | 45 => ⟨S8x128x12288, .f32⟩
  | 46 => ⟨S8x128x12288, .f32⟩
  | 47 => ⟨S_, .f32⟩
  | 48 => ⟨S8x128x12288, .i1⟩
  | 49 => ⟨S_, .f32⟩
  | 50 => ⟨S8x128x12288, .f32⟩
  | 51 => ⟨S8x128x12288, .f32⟩
  | 52 => ⟨S_, .f32⟩
  | 53 => ⟨S8x128x12288, .f32⟩
  | 54 => ⟨S8x128x12288, .i1⟩
  | 55 => ⟨S_, .f32⟩
  | 56 => ⟨S8x128x12288, .f32⟩
  | 57 => ⟨S8x128x12288, .f32⟩
  | 58 => ⟨S_, .f32⟩
  | 59 => ⟨S8x128x12288, .f32⟩
  | 60 => ⟨S8x128x12288, .i1⟩
  | 61 => ⟨S_, .f32⟩
  | 62 => ⟨S8x128x12288, .f32⟩
  | 63 => ⟨S8x128x12288, .f32⟩
  | 64 => ⟨S8x128x512x24, .f32⟩
  | 65 => ⟨S_, .f32⟩
  | 66 => ⟨S8x128x512, .f32⟩
  | 67 => ⟨S524288, .f32⟩
  | 68 => ⟨S524288x1, .f32⟩
  | 69 => ⟨S8, .i32⟩
  | 70 => ⟨S8x1x1, .i32⟩
  | 71 => ⟨S8x128x512, .i32⟩
  | 72 => ⟨S524288, .i32⟩
  | _ => ⟨S8x128x128, .f32⟩

abbrev hbmTy (i : Nat) : BufTy := match i / 128 with
  | 0 => hbmTy0_0 i
  | 1 => hbmTy0_1 i
  | _ => ⟨S8x128x128, .f32⟩

abbrev bufTy : (tb : Table) → Fin (tcTables nBuf tb) → BufTy
  | .hbm, ⟨i, _⟩ => hbmTy i
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_cst_1 : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_v4 : Ref sig .tc := ⟨.hbm, 59, rfl⟩
abbrev main_call0_v5 : Ref sig .tc := ⟨.hbm, 60, rfl⟩
abbrev main_call0_cst_2 : Ref sig .tc := ⟨.hbm, 61, rfl⟩
abbrev main_call0_v6 : Ref sig .tc := ⟨.hbm, 62, rfl⟩
abbrev main_call0_v7 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_0 : Ref sig .tc := ⟨.hbm, 69, rfl⟩
abbrev main_v30 : Ref sig .tc := ⟨.hbm, 70, rfl⟩
abbrev main_cst_1 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_2 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_cst_0 : Ref sig .tc := ⟨.hbm, 90, rfl⟩
abbrev main_call1_v2 : Ref sig .tc := ⟨.hbm, 91, rfl⟩
abbrev main_call1_v3 : Ref sig .tc := ⟨.hbm, 92, rfl⟩
abbrev main_call1_cst_1 : Ref sig .tc := ⟨.hbm, 93, rfl⟩
abbrev main_call1_call0_v0 : Ref sig .tc := ⟨.hbm, 94, rfl⟩
abbrev main_call1_call0_v1 : Ref sig .tc := ⟨.hbm, 95, rfl⟩
abbrev main_call1_v4 : Ref sig .tc := ⟨.hbm, 96, rfl⟩
abbrev main_call1_v5 : Ref sig .tc := ⟨.hbm, 97, rfl⟩
abbrev main_call1_cst_2 : Ref sig .tc := ⟨.hbm, 98, rfl⟩
abbrev main_call1_v6 : Ref sig .tc := ⟨.hbm, 99, rfl⟩
abbrev main_call1_v7 : Ref sig .tc := ⟨.hbm, 100, rfl⟩
abbrev main_v45 : Ref sig .tc := ⟨.hbm, 101, rfl⟩
abbrev main_cst_3 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_cst_0 : Ref sig .tc := ⟨.hbm, 112, rfl⟩
abbrev main_call2_v2 : Ref sig .tc := ⟨.hbm, 113, rfl⟩
abbrev main_call2_v3 : Ref sig .tc := ⟨.hbm, 114, rfl⟩
abbrev main_call2_cst_1 : Ref sig .tc := ⟨.hbm, 115, rfl⟩
abbrev main_call2_call0_v0 : Ref sig .tc := ⟨.hbm, 116, rfl⟩
abbrev main_call2_call0_v1 : Ref sig .tc := ⟨.hbm, 117, rfl⟩
abbrev main_call2_v4 : Ref sig .tc := ⟨.hbm, 118, rfl⟩
abbrev main_call2_v5 : Ref sig .tc := ⟨.hbm, 119, rfl⟩
abbrev main_call2_cst_2 : Ref sig .tc := ⟨.hbm, 120, rfl⟩
abbrev main_call2_v6 : Ref sig .tc := ⟨.hbm, 121, rfl⟩
abbrev main_call2_v7 : Ref sig .tc := ⟨.hbm, 122, rfl⟩
abbrev main_v52 : Ref sig .tc := ⟨.hbm, 123, rfl⟩
abbrev main_cst_4 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_c : Ref sig .tc := ⟨.hbm, 133, rfl⟩
abbrev main_v61 : Ref sig .tc := ⟨.hbm, 134, rfl⟩
abbrev main_v62 : Ref sig .tc := ⟨.hbm, 135, rfl⟩
abbrev main_c_5 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_c_6 : Ref sig .tc := ⟨.hbm, 144, rfl⟩
abbrev main_v70 : Ref sig .tc := ⟨.hbm, 145, rfl⟩
abbrev main_v71 : Ref sig .tc := ⟨.hbm, 146, rfl⟩
abbrev main_c_7 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_cst_8 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_cst_9 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_10 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_cst_11 : Ref sig .tc := ⟨.hbm, 175, rfl⟩
abbrev main_call3_v0 : Ref sig .tc := ⟨.hbm, 176, rfl⟩
abbrev main_call3_v1 : Ref sig .tc := ⟨.hbm, 177, rfl⟩
abbrev main_call3_call0_v0 : Ref sig .tc := ⟨.hbm, 178, rfl⟩
abbrev main_call3_v2 : Ref sig .tc := ⟨.hbm, 179, rfl⟩
abbrev main_call3_cst : Ref sig .tc := ⟨.hbm, 180, rfl⟩
abbrev main_call3_v3 : Ref sig .tc := ⟨.hbm, 181, rfl⟩
abbrev main_call3_v4 : Ref sig .tc := ⟨.hbm, 182, rfl⟩
abbrev main_call3_cst_0 : Ref sig .tc := ⟨.hbm, 183, rfl⟩
abbrev main_call3_call1_v0 : Ref sig .tc := ⟨.hbm, 184, rfl⟩
abbrev main_call3_v5 : Ref sig .tc := ⟨.hbm, 185, rfl⟩
abbrev main_call3_cst_1 : Ref sig .tc := ⟨.hbm, 186, rfl⟩
abbrev main_call3_v6 : Ref sig .tc := ⟨.hbm, 187, rfl⟩
abbrev main_call3_v7 : Ref sig .tc := ⟨.hbm, 188, rfl⟩
abbrev main_call3_cst_2 : Ref sig .tc := ⟨.hbm, 189, rfl⟩
abbrev main_call3_call2_v0 : Ref sig .tc := ⟨.hbm, 190, rfl⟩
abbrev main_v96 : Ref sig .tc := ⟨.hbm, 191, rfl⟩
abbrev main_v97 : Ref sig .tc := ⟨.hbm, 192, rfl⟩
abbrev main_cst_12 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩

abbrev nD : Nat := 1
abbrev τ : Topo := Topo.v7x

variable {F : FTy → Type} [FloatOps F]

class Facts₀ : Prop where
  bcast_S8x128x128_S8x128x1x128_0_1_3 : S8x128x128.BroadcastsInDim S8x128x1x128 (![0, 1, 3] : Fin 3 → Fin S8x128x1x128.rank)
  bcast_S8x128x1x128_S8x128x512x128_0_1_2_3 : S8x128x1x128.BroadcastsInDim S8x128x512x128 (![0, 1, 2, 3] : Fin 4 → Fin S8x128x512x128.rank)
  bcast_S8x512x128_S8x1x512x128_0_2_3 : S8x512x128.BroadcastsInDim S8x1x512x128 (![0, 2, 3] : Fin 3 → Fin S8x1x512x128.rank)
  bcast_S8x1x512x128_S8x128x512x128_0_1_2_3 : S8x1x512x128.BroadcastsInDim S8x128x512x128 (![0, 1, 2, 3] : Fin 4 → Fin S8x128x512x128.rank)
  concatenates_S8x128x512x128_S8x128x512x128_S8x128x512x256_d3 : Shape.Concatenates [S8x128x512x128, S8x128x512x128] S8x128x512x256 3
  shapeCasts_S8x128x512x256_S524288x256 : S8x128x512x256.ShapeCasts S524288x256
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S128 : S_.BroadcastsInDim S128 (![] : Fin 0 → Fin S128.rank)
  bcast_S_S524288x128 : S_.BroadcastsInDim S524288x128 (![] : Fin 0 → Fin S524288x128.rank)
  bcast_S10_S1x10_1 : S10.BroadcastsInDim S1x10 (![1] : Fin 1 → Fin S1x10.rank)
  bcast_S1x10_S524288x10_0_1 : S1x10.BroadcastsInDim S524288x10 (![0, 1] : Fin 2 → Fin S524288x10.rank)
  reducesTo_S524288x10_S524288_d1 : S524288x10.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x10_0_1 : S524288x1.BroadcastsInDim S524288x10 (![0, 1] : Fin 2 → Fin S524288x10.rank)
  bcast_S_S524288x10 : S_.BroadcastsInDim S524288x10 (![] : Fin 0 → Fin S524288x10.rank)
  bcast_S12_S1x12_1 : S12.BroadcastsInDim S1x12 (![1] : Fin 1 → Fin S1x12.rank)
  bcast_S1x12_S1024x12_0_1 : S1x12.BroadcastsInDim S1024x12 (![0, 1] : Fin 2 → Fin S1024x12.rank)
  slices_S2x4096_S1x4096_0_0 : S2x4096.Slices ![0, 0] S1x4096
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S2x4096_S1x4096_1_0 : S2x4096.Slices ![1, 0] S1x4096
  concatenates_S4096x128_S4096x128_S4096x256_d1 : Shape.Concatenates [S4096x128, S4096x128] S4096x256 1
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  bcast_S_S8x128x12288 : S_.BroadcastsInDim S8x128x12288 (![] : Fin 0 → Fin S8x128x12288.rank)
  reducesTo_S8x12288x3_S8x12288_d2 : S8x12288x3.ReducesTo [2] S8x12288
  bcast_S8x12288_S8x1x12288_0_2 : S8x12288.BroadcastsInDim S8x1x12288 (![0, 2] : Fin 2 → Fin S8x1x12288.rank)
  bcast_S8x1x12288_S8x128x12288_0_1_2 : S8x1x12288.BroadcastsInDim S8x128x12288 (![0, 1, 2] : Fin 3 → Fin S8x128x12288.rank)
  reducesTo_S8x128x3_S8x128_d2 : S8x128x3.ReducesTo [2] S8x128
  bcast_S8x128_S8x128x1_0_1 : S8x128.BroadcastsInDim S8x128x1 (![0, 1] : Fin 2 → Fin S8x128x1.rank)
  bcast_S8x128x1_S8x128x12288_0_1_2 : S8x128x1.BroadcastsInDim S8x128x12288 (![0, 1, 2] : Fin 3 → Fin S8x128x12288.rank)
  shapeCasts_S8x128x12288_S8x128x512x24 : S8x128x12288.ShapeCasts S8x128x512x24
  reducesTo_S8x128x512x24_S8x128x512_d3 : S8x128x512x24.ReducesTo [3] S8x128x512
  shapeCasts_S8x128x512_S524288 : S8x128x512.ShapeCasts S524288
  bcast_S8_S8x1x1_0 : S8.BroadcastsInDim S8x1x1 (![0] : Fin 1 → Fin S8x1x1.rank)
  bcast_S8x1x1_S8x128x512_0_1_2 : S8x1x1.BroadcastsInDim S8x128x512 (![0, 1, 2] : Fin 3 → Fin S8x128x512.rank)
  dot_S524288x256_S256x128_S524288x128_1_0_0_1_n_n_wf : DotDims.WF S524288x256 S256x128 S524288x128 [1] [0] [0] [1] [] []
  dot_S524288x128_S128x10_S524288x10_1_0_0_1_n_n_wf : DotDims.WF S524288x128 S128x10 S524288x10 [1] [0] [0] [1] [] []
  dot_S1024x128_S128x12_S1024x12_1_0_0_1_n_n_wf : DotDims.WF S1024x128 S128x12 S1024x12 [1] [0] [0] [1] [] []
  gather_S1024x128_S4096x1_S4096x128_1_0_n_n_0_1_1128_wf : GatherDims.WF S1024x128 S4096x1 S4096x128 [1] [0] [] [0] [] 1 ![1, 128]
  dot_S4096x256_S256x4_S4096x4_1_0_0_1_n_n_wf : DotDims.WF S4096x256 S256x4 S4096x4 [1] [0] [0] [1] [] []
  dot_S8x128x3_S8x12288x3_S8x128x12288_2_2_1_1_0_0_wf : DotDims.WF S8x128x3 S8x12288x3 S8x128x12288 [2] [2] [1] [1] [0] [0]

variable [Facts₀]

def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def dot_S524288x128_S128x10_S524288x10_1_0_0_1_n_n : DotDims S524288x128 S128x10 S524288x10 where
  lhsContracting := [1]
  rhsContracting := [0]
  lhsNonContracting := [0]
  rhsNonContracting := [1]
  lhsBatch := []
  rhsBatch := []
  wf := dot_S524288x128_S128x10_S524288x10_1_0_0_1_n_n_wf
def dot_S1024x128_S128x12_S1024x12_1_0_0_1_n_n : DotDims S1024x128 S128x12 S1024x12 where
  lhsContracting := [1]
  rhsContracting := [0]
  lhsNonContracting := [0]
  rhsNonContracting := [1]
  lhsBatch := []
  rhsBatch := []
  wf := dot_S1024x128_S128x12_S1024x12_1_0_0_1_n_n_wf
def gather_S1024x128_S4096x1_S4096x128_1_0_n_n_0_1_1128 : GatherDims S1024x128 S4096x1 S4096x128 where
  offsetDims := [1]
  collapsedSliceDims := [0]
  operandBatchingDims := []
  startIndicesBatchingDims := []
  startIndexMap := [0]
  indexVectorDim := 1
  sliceSizes := ![1, 128]
  wf := gather_S1024x128_S4096x1_S4096x128_1_0_n_n_0_1_1128_wf
def dot_S4096x256_S256x4_S4096x4_1_0_0_1_n_n : DotDims S4096x256 S256x4 S4096x4 where
  lhsContracting := [1]
  rhsContracting := [0]
  lhsNonContracting := [0]
  rhsNonContracting := [1]
  lhsBatch := []
  rhsBatch := []
  wf := dot_S4096x256_S256x4_S4096x4_1_0_0_1_n_n_wf
def dot_S8x128x3_S8x12288x3_S8x128x12288_2_2_1_1_0_0 : DotDims S8x128x3 S8x12288x3 S8x128x12288 where
  lhsContracting := [2]
  rhsContracting := [2]
  lhsNonContracting := [1]
  rhsNonContracting := [1]
  lhsBatch := [0]
  rhsBatch := [0]
  wf := dot_S8x128x3_S8x12288x3_S8x128x12288_2_2_1_1_0_0_wf

class Facts : Prop extends Facts₀ where

variable [Facts]
-- ==== Proof.KRun.lean ====
/- The kernel program's run with its result arrays named: every weakly fair execution of @main on the TensorCores
   terminates without fault, and in every final state each result array holds the last boundary's contents of its
   buffer (the fold `GenP.W5` through the host stretches and the two regions), each argument array what it held at
   launch. The proof is the frame theorem's, reading the last thread state at the result buffers as well. -/
import proofs.«169873_j12644383719683_1_alg».proof.Proof.KernelIdealFrameP

set_option maxRecDepth 16384

noncomputable section

namespace Cert.KernelIdeal.KRun
open Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run of @main: termination without fault, each result array at the last boundary's contents `W5`, each
    argument array as launched. -/
theorem run : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_v12) = W5 m ρ c (Proc.devRef .tc main_v12)
      ∧ r.2.mem ((c.tc : Thread nD τ).loc main_v13) = W5 m ρ c (Proc.devRef .tc main_v13)
      ∧ r.2.mem ((c.tc : Thread nD τ).loc main_v26) = W5 m ρ c (Proc.devRef .tc main_v26)
      ∧ r.2.mem ((c.tc : Thread nD τ).loc main_v30) = W5 m ρ c (Proc.devRef .tc main_v30)
      ∧ r.2.mem ((c.tc : Thread nD τ).loc main_v53) = W5 m ρ c (Proc.devRef .tc main_v53)
      ∧ r.2.mem ((c.tc : Thread nD τ).loc main_v57) = W5 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       h c _ (mem_uc main_v12 (by decide)),
       h c _ (mem_uc main_v13 (by decide)),
       h c _ (mem_uc main_v26 (by decide)),
       h c _ (mem_uc main_v30 (by decide)),
       h c _ (mem_uc main_v53 (by decide)),
       h c _ (mem_uc main_v57 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c),
       (h c _ (mem_uc main_arg22 (by decide))).trans (W5_main_arg22 m ρ c),
       (h c _ (mem_uc main_arg23 (by decide))).trans (W5_main_arg23 m ρ c)⟩)

end Cert.KernelIdeal.KRun

end
-- ==== Proof.KHost.lean ====
/- The host operations of @main read as functions: from any buffer contents `V`, what each stretch of host operations
   leaves at the buffers the regions read and at the result buffers, as the operations' composed terms of `V` at the
   buffers the stretch reads; and the three result terms that depend on the arguments only, named. -/
import proofs.«169873_j12644383719683_1_alg».proof.Proof.KernelIdealLaunchP
import Idealize.ShloMosaic.Lib.StableHlo.Run

set_option maxRecDepth 16384

noncomputable section

namespace Cert.KernelIdeal.KRun
open Cert.KernelIdeal.Gen Cert.KernelIdeal.GenP

open Idealize.ShloMosaic Idealize.ShloMosaic.TcCoe
open Idealize.ShloMosaic.StableHlo (after_cons after_nil)

variable {F : FTy → Type} [FloatOps F]

/-! ## The named terms -/

/-- The nuc head: the node features times the head's weights, plus the bias broadcast over the rows. -/
def nuc_term (x6 : FVec F S1024x128 .f32) (x20 : FVec F S128x12 .f32) (x21 : FVec F S12 .f32) : FVec F S1024x12 .f32 :=
  addf (Host.dotGeneral (F := F) dot_S1024x128_S128x12_S1024x12_1_0_0_1_n_n none x6 x20)
    (broadcastInDim S1024x12 ![0, 1] bcast_S1x12_S1024x12_0_1 (broadcastInDim S1x12 ![1] bcast_S12_S1x12_1 x21))

/-- One row of the edge list as gather indices: negative entries wrapped by the number of nodes, as a column. -/
def wrap_term (r : IVec S4096 32) : IVec S4096x1 32 :=
  broadcastInDim S4096x1 ![0] bcast_S4096_S4096x1_0
    (select (cmpi .slt r (broadcastInDim S4096 ![] bcast_S_S4096 (constantI S_ 32 0#32)))
      (addi r (broadcastInDim S4096 ![] bcast_S_S4096 (constantI S_ 32 1024#32))) r)

/-- The bond head: the two endpoints' features gathered and concatenated, times the head's weights, plus the bias. -/
def bond_term (x6 : FVec F S1024x128 .f32) (x7 : IVec S2x4096 32) (x22 : FVec F S256x4 .f32) (x23 : FVec F S4 .f32) :
    FVec F S4096x4 .f32 :=
  addf
    (Host.dotGeneral (F := F) dot_S4096x256_S256x4_S4096x4_1_0_0_1_n_n none
      (concatenate S4096x256 1
        [⟨S4096x128, Host.gather gather_S1024x128_S4096x1_S4096x128_1_0_n_n_0_1_1128 x6
            (wrap_term (shapeCast S4096 (extractStridedSlice S1x4096 ![0, 0] x7 slices_S2x4096_S1x4096_0_0) shapeCasts_S1x4096_S4096))⟩,
         ⟨S4096x128, Host.gather gather_S1024x128_S4096x1_S4096x128_1_0_n_n_0_1_1128 x6
            (wrap_term (shapeCast S4096 (extractStridedSlice S1x4096 ![1, 0] x7 slices_S2x4096_S1x4096_1_0) shapeCasts_S1x4096_S4096))⟩]
        concatenates_S4096x128_S4096x128_S4096x256_d1)
      x22)
    (broadcastInDim S4096x4 ![0, 1] bcast_S1x4_S4096x4_0_1 (broadcastInDim S1x4 ![1] bcast_S4_S1x4_1 x23))

/-- The batch index of every (batch, node, position) triple, flattened. -/
def cbatch_term : IVec S524288 32 :=
  shapeCast S524288
    (broadcastInDim S8x128x512 ![0, 1, 2] bcast_S8x1x1_S8x128x512_0_1_2
      (broadcastInDim S8x1x1 ![0] bcast_S8_S8x1x1_0 (iotaInDim S8 32 0)))
    shapeCasts_S8x128x512_S524288

/-- The distance kernel's output, transposed to (batch, node, position) and flattened to a column. -/
def dist_term (y : FVec F S8x512x128 .f32) : FVec F S524288x1 .f32 :=
  shapeCast S524288x1 (transpose S8x128x512 [0, 2, 1] y transposes_S8x512x128_S8x128x512_0_2_1) shapeCasts_S8x128x512_S524288x1

/-- The positions regrouped (batch, group, position, coordinate). -/
def hpos_term (x5 : FVec F S8x12288x3 .f32) : FVec F S8x24x512x3 .f32 :=
  transpose S8x24x512x3 [0, 2, 1, 3] (shapeCast S8x512x24x3 x5 shapeCasts_S8x12288x3_S8x512x24x3)
    transposes_S8x512x24x3_S8x24x512x3_0_2_1_3

/-- The positions' squared norms, regrouped like the positions. -/
def hnorm_term (x5 : FVec F S8x12288x3 .f32) : FVec F S8x24x512x1 .f32 :=
  broadcastInDim S8x24x512x1 ![0, 1, 2] bcast_S8x24x512_S8x24x512x1_0_1_2
    (transpose S8x24x512 [0, 2, 1]
      (shapeCast S8x512x24
        (Host.reduceAdd (F := F) (mulf x5 x5) (constant (F := F) S_ .f32 0x00000000#32) reducesTo_S8x12288x3_S8x12288_d2 h_S_)
        shapeCasts_S8x12288_S8x512x24)
      transposes_S8x512x24_S8x24x512_0_2_1)

/-- The nodes' squared norms, as a row per batch. -/
def xnorm_term (x4 : FVec F S8x128x3 .f32) : FVec F S8x1x128 .f32 :=
  broadcastInDim S8x1x128 ![0, 2] bcast_S8x128_S8x1x128_0_2
    (Host.reduceAdd (F := F) (mulf x4 x4) (constant (F := F) S_ .f32 0x00000000#32) reducesTo_S8x128x3_S8x128_d2 h_S_)

variable (V : Valuation τ sig (Elt F))

/-- A buffer that no operation of the stretch writes keeps its contents. -/
macro "not_written" ops:ident : tactic =>
  `(tactic| (refine StableHlo.after_of_forall_not_mem _ _ (List.forall_iff_forall_mem.mp ?_) <;> simp only [$ops:ident, List.Forall, StableHlo.nullary_writes, StableHlo.unary_writes, StableHlo.binary_writes, StableHlo.ternary_writes, StableHlo.quaternary_writes, StableHlo.reshape_writes, StableHlo.binaryIndexed_writes, Finset.mem_singleton] <;> (repeat' apply And.intro) <;> exact StableHlo.devRef_ne_of_ne (by decide)))

/-- A buffer the stretch writes holds its operation's function of the stretch's contents at the operands. -/
macro "host_read" ops:ident : tactic =>
  `(tactic| (dsimp only [$ops:ident]; after_results; first | done | rfl))
/-- The same by one simplification pass, for the long stretch. -/
macro "host_read_simp" ops:ident : tactic =>
  `(tactic| (dsimp only [$ops:ident]; after_results_simp; first | done | rfl))

/-! ## The first stretch (before the first region) -/

theorem after0_v0 : StableHlo.after hostOps0 V (Proc.devRef .tc main_v0)
    = extractStridedSlice S128x128 ![0, 0] (V (Proc.devRef .tc main_arg8)) slices_S256x128_S128x128_0_0 := by
  host_read hostOps0
theorem after0_v1 : StableHlo.after hostOps0 V (Proc.devRef .tc main_v1)
    = extractStridedSlice S128x128 ![128, 0] (V (Proc.devRef .tc main_arg8)) slices_S256x128_S128x128_128_0 := by
  host_read hostOps0
theorem after0_v2 : StableHlo.after hostOps0 V (Proc.devRef .tc main_v2)
    = shapeCast S1x128 (V (Proc.devRef .tc main_arg9)) shapeCasts_S128_S1x128 := by
  host_read hostOps0
theorem after0_v3 : StableHlo.after hostOps0 V (Proc.devRef .tc main_v3)
    = shapeCast S1x128 (V (Proc.devRef .tc main_arg10)) shapeCasts_S128_S1x128 := by
  host_read hostOps0
theorem after0_v4 : StableHlo.after hostOps0 V (Proc.devRef .tc main_v4)
    = shapeCast S1x128 (V (Proc.devRef .tc main_arg11)) shapeCasts_S128_S1x128 := by
  host_read hostOps0
theorem after0_v5 : StableHlo.after hostOps0 V (Proc.devRef .tc main_v5)
    = shapeCast S1x128 (V (Proc.devRef .tc main_arg12)) shapeCasts_S128_S1x128 := by
  host_read hostOps0
theorem after0_v6 : StableHlo.after hostOps0 V (Proc.devRef .tc main_v6)
    = shapeCast S1x128 (V (Proc.devRef .tc main_arg13)) shapeCasts_S128_S1x128 := by
  host_read hostOps0
theorem after0_v7 : StableHlo.after hostOps0 V (Proc.devRef .tc main_v7)
    = shapeCast S1x10 (V (Proc.devRef .tc main_arg15)) shapeCasts_S10_S1x10 := by
  host_read hostOps0
theorem after0_v8 : StableHlo.after hostOps0 V (Proc.devRef .tc main_v8)
    = shapeCast S1x10 (V (Proc.devRef .tc main_arg17)) shapeCasts_S10_S1x10 := by
  host_read hostOps0
theorem after0_v9 : StableHlo.after hostOps0 V (Proc.devRef .tc main_v9)
    = shapeCast S1x10 (V (Proc.devRef .tc main_arg19)) shapeCasts_S10_S1x10 := by
  host_read hostOps0
theorem after0_arg0 : StableHlo.after hostOps0 V (Proc.devRef .tc main_arg0) = V (Proc.devRef .tc main_arg0) := by
  not_written hostOps0
theorem after0_arg1 : StableHlo.after hostOps0 V (Proc.devRef .tc main_arg1) = V (Proc.devRef .tc main_arg1) := by
  not_written hostOps0
theorem after0_arg4 : StableHlo.after hostOps0 V (Proc.devRef .tc main_arg4) = V (Proc.devRef .tc main_arg4) := by
  not_written hostOps0
theorem after0_arg5 : StableHlo.after hostOps0 V (Proc.devRef .tc main_arg5) = V (Proc.devRef .tc main_arg5) := by
  not_written hostOps0
theorem after0_arg14 : StableHlo.after hostOps0 V (Proc.devRef .tc main_arg14) = V (Proc.devRef .tc main_arg14) := by
  not_written hostOps0
theorem after0_arg16 : StableHlo.after hostOps0 V (Proc.devRef .tc main_arg16) = V (Proc.devRef .tc main_arg16) := by
  not_written hostOps0
theorem after0_arg18 : StableHlo.after hostOps0 V (Proc.devRef .tc main_arg18) = V (Proc.devRef .tc main_arg18) := by
  not_written hostOps0

/-! ## The second stretch (between the regions) -/

theorem after1_v11 : StableHlo.after hostOps1 V (Proc.devRef .tc main_v11)
    = shapeCast S524288x10 (V (Proc.devRef .tc main_v10_0)) shapeCasts_S8x128x512x10_S524288x10 := by
  host_read hostOps1
theorem after1_v12 : StableHlo.after hostOps1 V (Proc.devRef .tc main_v12)
    = shapeCast S524288x10 (V (Proc.devRef .tc main_v10_1)) shapeCasts_S8x128x512x10_S524288x10 := by
  host_read hostOps1
theorem after1_v13 : StableHlo.after hostOps1 V (Proc.devRef .tc main_v13)
    = shapeCast S524288x10 (V (Proc.devRef .tc main_v10_2)) shapeCasts_S8x128x512x10_S524288x10 := by
  host_read hostOps1
theorem after1_v15 : StableHlo.after hostOps1 V (Proc.devRef .tc main_v15) = hpos_term (V (Proc.devRef .tc main_arg5)) := by
  host_read hostOps1
theorem after1_v20 : StableHlo.after hostOps1 V (Proc.devRef .tc main_v20) = hnorm_term (V (Proc.devRef .tc main_arg5)) := by
  host_read hostOps1
theorem after1_v23 : StableHlo.after hostOps1 V (Proc.devRef .tc main_v23) = xnorm_term (V (Proc.devRef .tc main_arg4)) := by
  host_read hostOps1
theorem after1_arg4 : StableHlo.after hostOps1 V (Proc.devRef .tc main_arg4) = V (Proc.devRef .tc main_arg4) := by
  not_written hostOps1

/-! ## The third stretch (after the second region) -/

theorem after2_v26 : StableHlo.after hostOps2 V (Proc.devRef .tc main_v26) = dist_term (V (Proc.devRef .tc main_v24)) := by
  host_read_simp hostOps2
theorem after2_v30 : StableHlo.after hostOps2 V (Proc.devRef .tc main_v30)
    = nuc_term (V (Proc.devRef .tc main_arg6)) (V (Proc.devRef .tc main_arg20)) (V (Proc.devRef .tc main_arg21)) := by
  host_read_simp hostOps2
set_option maxHeartbeats 1000000 in
theorem after2_v53 : StableHlo.after hostOps2 V (Proc.devRef .tc main_v53)
    = bond_term (V (Proc.devRef .tc main_arg6)) (V (Proc.devRef .tc main_arg7)) (V (Proc.devRef .tc main_arg22)) (V (Proc.devRef .tc main_arg23)) := by
  host_read_simp hostOps2
theorem after2_v57 : StableHlo.after hostOps2 V (Proc.devRef .tc main_v57) = cbatch_term := by
  host_read_simp hostOps2
theorem after2_v11 : StableHlo.after hostOps2 V (Proc.devRef .tc main_v11) = V (Proc.devRef .tc main_v11) := by
  not_written hostOps2
theorem after2_v12 : StableHlo.after hostOps2 V (Proc.devRef .tc main_v12) = V (Proc.devRef .tc main_v12) := by
  not_written hostOps2
theorem after2_v13 : StableHlo.after hostOps2 V (Proc.devRef .tc main_v13) = V (Proc.devRef .tc main_v13) := by
  not_written hostOps2
theorem after2_arg6 : StableHlo.after hostOps2 V (Proc.devRef .tc main_arg6) = V (Proc.devRef .tc main_arg6) := by
  not_written hostOps2
theorem after2_arg7 : StableHlo.after hostOps2 V (Proc.devRef .tc main_arg7) = V (Proc.devRef .tc main_arg7) := by
  not_written hostOps2
theorem after2_arg20 : StableHlo.after hostOps2 V (Proc.devRef .tc main_arg20) = V (Proc.devRef .tc main_arg20) := by
  not_written hostOps2
theorem after2_arg21 : StableHlo.after hostOps2 V (Proc.devRef .tc main_arg21) = V (Proc.devRef .tc main_arg21) := by
  not_written hostOps2
theorem after2_arg22 : StableHlo.after hostOps2 V (Proc.devRef .tc main_arg22) = V (Proc.devRef .tc main_arg22) := by
  not_written hostOps2
theorem after2_arg23 : StableHlo.after hostOps2 V (Proc.devRef .tc main_arg23) = V (Proc.devRef .tc main_arg23) := by
  not_written hostOps2

end Cert.KernelIdeal.KRun

end
-- ==== Proof.KFold.lean ====
/- The kernel program's buffer contents read back to the launch memory: each region's input arrays as the host
   operations' terms of the argument arrays, and the seven result arrays as terms of the regions' output arrays
   and of the argument arrays. Each walk goes boundary by boundary: a host stretch is read by its operations'
   functions (or skipped where it writes nothing), a region leaves every buffer that is not one of its arrays. -/
import proofs.«169873_j12644383719683_1_alg».proof.Proof.KernelIdealFrameP
import proofs.«169873_j12644383719683_1_alg».proof.Proof.KHost

set_option maxRecDepth 16384

noncomputable section

namespace Cert.KernelIdeal.KRun
open Cert.KernelIdeal.Gen Cert.KernelIdeal.GenP

open Idealize.ShloMosaic Idealize.ShloMosaic.TcCoe
open Idealize.ShloMosaic.Pipeline (Dat Cfg Window)

variable {F : FTy → Type} [FloatOps F]
variable (m : (ℓ : Loc nD τ sig) → Buf (Elt F) ℓ) (ρ : Dev nD → PrngReg) (c : Dev nD)

/-! ## Region 0's input arrays: the first stretch over the launch memory -/

theorem V1_w0 : V1 m ρ c (Pipeline.arrRef spec0 0) = (m ((c : Thread nD τ).loc main_arg0)) :=
  after0_arg0 (W0 m ρ c)
theorem V1_w1 : V1 m ρ c (Pipeline.arrRef spec0 1) = (m ((c : Thread nD τ).loc main_arg1)) :=
  after0_arg1 (W0 m ρ c)
theorem V1_w2 : V1 m ρ c (Pipeline.arrRef spec0 2) = extractStridedSlice S128x128 ![0, 0] (m ((c : Thread nD τ).loc main_arg8)) slices_S256x128_S128x128_0_0 :=
  after0_v0 (W0 m ρ c)
theorem V1_w3 : V1 m ρ c (Pipeline.arrRef spec0 3) = extractStridedSlice S128x128 ![128, 0] (m ((c : Thread nD τ).loc main_arg8)) slices_S256x128_S128x128_128_0 :=
  after0_v1 (W0 m ρ c)
theorem V1_w4 : V1 m ρ c (Pipeline.arrRef spec0 4) = shapeCast S1x128 (m ((c : Thread nD τ).loc main_arg9)) shapeCasts_S128_S1x128 :=
  after0_v2 (W0 m ρ c)
theorem V1_w5 : V1 m ρ c (Pipeline.arrRef spec0 5) = shapeCast S1x128 (m ((c : Thread nD τ).loc main_arg10)) shapeCasts_S128_S1x128 :=
  after0_v3 (W0 m ρ c)
theorem V1_w6 : V1 m ρ c (Pipeline.arrRef spec0 6) = shapeCast S1x128 (m ((c : Thread nD τ).loc main_arg11)) shapeCasts_S128_S1x128 :=
  after0_v4 (W0 m ρ c)
theorem V1_w7 : V1 m ρ c (Pipeline.arrRef spec0 7) = shapeCast S1x128 (m ((c : Thread nD τ).loc main_arg12)) shapeCasts_S128_S1x128 :=
  after0_v5 (W0 m ρ c)
theorem V1_w8 : V1 m ρ c (Pipeline.arrRef spec0 8) = shapeCast S1x128 (m ((c : Thread nD τ).loc main_arg13)) shapeCasts_S128_S1x128 :=
  after0_v6 (W0 m ρ c)
theorem V1_w9 : V1 m ρ c (Pipeline.arrRef spec0 9) = (m ((c : Thread nD τ).loc main_arg14)) :=
  after0_arg14 (W0 m ρ c)
theorem V1_w10 : V1 m ρ c (Pipeline.arrRef spec0 10) = shapeCast S1x10 (m ((c : Thread nD τ).loc main_arg15)) shapeCasts_S10_S1x10 :=
  after0_v7 (W0 m ρ c)
theorem V1_w11 : V1 m ρ c (Pipeline.arrRef spec0 11) = (m ((c : Thread nD τ).loc main_arg16)) :=
  after0_arg16 (W0 m ρ c)
theorem V1_w12 : V1 m ρ c (Pipeline.arrRef spec0 12) = shapeCast S1x10 (m ((c : Thread nD τ).loc main_arg17)) shapeCasts_S10_S1x10 :=
  after0_v8 (W0 m ρ c)
theorem V1_w13 : V1 m ρ c (Pipeline.arrRef spec0 13) = (m ((c : Thread nD τ).loc main_arg18)) :=
  after0_arg18 (W0 m ρ c)
theorem V1_w14 : V1 m ρ c (Pipeline.arrRef spec0 14) = shapeCast S1x10 (m ((c : Thread nD τ).loc main_arg19)) shapeCasts_S10_S1x10 :=
  after0_v9 (W0 m ρ c)

/-! ## Region 1's input arrays: the second stretch over region 0's exit contents, whose buffers other than region 0's
    arrays are the first stretch's -/

/-- Argument 4 reaches the second stretch as launched: neither the first stretch nor region 0 writes it. -/
theorem W2_arg4 : W2 m ρ c (Proc.devRef .tc main_arg4) = (m ((c : Thread nD τ).loc main_arg4)) :=
  (W2_of_ne m ρ c main_arg4 (by decide)).trans (after0_arg4 (W0 m ρ c))
/-- Argument 5 reaches the second stretch as launched: neither the first stretch nor region 0 writes it. -/
theorem W2_arg5 : W2 m ρ c (Proc.devRef .tc main_arg5) = (m ((c : Thread nD τ).loc main_arg5)) :=
  (W2_of_ne m ρ c main_arg5 (by decide)).trans (after0_arg5 (W0 m ρ c))

theorem V3_w0 : V3 m ρ c (Pipeline.arrRef spec1 0) = (m ((c : Thread nD τ).loc main_arg4)) :=
  (after1_arg4 (W2 m ρ c)).trans (W2_arg4 m ρ c)
theorem V3_w1 : V3 m ρ c (Pipeline.arrRef spec1 1) = xnorm_term (m ((c : Thread nD τ).loc main_arg4)) :=
  (after1_v23 (W2 m ρ c)).trans (congrArg xnorm_term (W2_arg4 m ρ c))
theorem V3_w2 : V3 m ρ c (Pipeline.arrRef spec1 2) = hpos_term (m ((c : Thread nD τ).loc main_arg5)) :=
  (after1_v15 (W2 m ρ c)).trans (congrArg hpos_term (W2_arg5 m ρ c))
theorem V3_w3 : V3 m ρ c (Pipeline.arrRef spec1 3) = hnorm_term (m ((c : Thread nD τ).loc main_arg5)) :=
  (after1_v20 (W2 m ρ c)).trans (congrArg hnorm_term (W2_arg5 m ρ c))

/-! ## The results -/

/-- Output 0 of the first kernel, flattened: the third stretch and the second region leave it, the second stretch
    reshapes region 0's array. -/
theorem W5_v11 : W5 m ρ c (Proc.devRef .tc main_v11)
    = shapeCast S524288x10 ((dat0 (V1 m ρ) c).arrAt 15 cfg0.N) shapeCasts_S8x128x512x10_S524288x10 :=
  (after2_v11 (W4 m ρ c)).trans <| (W4_of_ne m ρ c main_v11 (by decide)).trans <| (after1_v11 (W2 m ρ c)).trans <|
    congrArg (fun x => shapeCast S524288x10 x shapeCasts_S8x128x512x10_S524288x10) (W2_arr m ρ c 15)
/-- Output 1 of the first kernel, flattened: the third stretch and the second region leave it, the second stretch
    reshapes region 0's array. -/
theorem W5_v12 : W5 m ρ c (Proc.devRef .tc main_v12)
    = shapeCast S524288x10 ((dat0 (V1 m ρ) c).arrAt 16 cfg0.N) shapeCasts_S8x128x512x10_S524288x10 :=
  (after2_v12 (W4 m ρ c)).trans <| (W4_of_ne m ρ c main_v12 (by decide)).trans <| (after1_v12 (W2 m ρ c)).trans <|
    congrArg (fun x => shapeCast S524288x10 x shapeCasts_S8x128x512x10_S524288x10) (W2_arr m ρ c 16)
/-- Output 2 of the first kernel, flattened: the third stretch and the second region leave it, the second stretch
    reshapes region 0's array. -/
theorem W5_v13 : W5 m ρ c (Proc.devRef .tc main_v13)
    = shapeCast S524288x10 ((dat0 (V1 m ρ) c).arrAt 17 cfg0.N) shapeCasts_S8x128x512x10_S524288x10 :=
  (after2_v13 (W4 m ρ c)).trans <| (W4_of_ne m ρ c main_v13 (by decide)).trans <| (after1_v13 (W2 m ρ c)).trans <|
    congrArg (fun x => shapeCast S524288x10 x shapeCasts_S8x128x512x10_S524288x10) (W2_arr m ρ c 17)
/-- The second kernel's output, transposed and flattened by the third stretch. -/
theorem W5_v26 : W5 m ρ c (Proc.devRef .tc main_v26) = dist_term ((dat1 (V3 m ρ) c).arrAt 4 cfg1.N) :=
  (after2_v26 (W4 m ρ c)).trans (congrArg dist_term (W4_arr m ρ c 4))

theorem W4_arg6 : W4 m ρ c (Proc.devRef .tc main_arg6) = (m ((c : Thread nD τ).loc main_arg6)) :=
  (after2_arg6 (W4 m ρ c)).symm.trans (W5_main_arg6 m ρ c)
theorem W4_arg7 : W4 m ρ c (Proc.devRef .tc main_arg7) = (m ((c : Thread nD τ).loc main_arg7)) :=
  (after2_arg7 (W4 m ρ c)).symm.trans (W5_main_arg7 m ρ c)
theorem W4_arg20 : W4 m ρ c (Proc.devRef .tc main_arg20) = (m ((c : Thread nD τ).loc main_arg20)) :=
  (after2_arg20 (W4 m ρ c)).symm.trans (W5_main_arg20 m ρ c)
theorem W4_arg21 : W4 m ρ c (Proc.devRef .tc main_arg21) = (m ((c : Thread nD τ).loc main_arg21)) :=
  (after2_arg21 (W4 m ρ c)).symm.trans (W5_main_arg21 m ρ c)
theorem W4_arg22 : W4 m ρ c (Proc.devRef .tc main_arg22) = (m ((c : Thread nD τ).loc main_arg22)) :=
  (after2_arg22 (W4 m ρ c)).symm.trans (W5_main_arg22 m ρ c)
theorem W4_arg23 : W4 m ρ c (Proc.devRef .tc main_arg23) = (m ((c : Thread nD τ).loc main_arg23)) :=
  (after2_arg23 (W4 m ρ c)).symm.trans (W5_main_arg23 m ρ c)

/-- The nuc head, a term of the arguments only. -/
theorem W5_v30 : W5 m ρ c (Proc.devRef .tc main_v30) = nuc_term (m ((c : Thread nD τ).loc main_arg6)) (m ((c : Thread nD τ).loc main_arg20)) (m ((c : Thread nD τ).loc main_arg21)) :=
  (after2_v30 (W4 m ρ c)).trans (by rw [W4_arg6 m ρ c, W4_arg20 m ρ c, W4_arg21 m ρ c])
/-- The bond head, a term of the arguments only. -/
theorem W5_v53 : W5 m ρ c (Proc.devRef .tc main_v53) = bond_term (m ((c : Thread nD τ).loc main_arg6)) (m ((c : Thread nD τ).loc main_arg7)) (m ((c : Thread nD τ).loc main_arg22)) (m ((c : Thread nD τ).loc main_arg23)) :=
  (after2_v53 (W4 m ρ c)).trans (by rw [W4_arg6 m ρ c, W4_arg7 m ρ c, W4_arg22 m ρ c, W4_arg23 m ρ c])
/-- The batch indices: no argument. -/
theorem W5_v57 : W5 m ρ c (Proc.devRef .tc main_v57) = cbatch_term :=
  after2_v57 (W4 m ρ c)

end Cert.KernelIdeal.KRun

end
-- ==== Proof.RefTerms.lean ====
/-
  The reference program's seven results as pure terms of its argument arrays: every operation of the
  reference's main function, in its order, with the bodies of the functions it calls written out where
  they are called (an element-wise "where" is the select of a broadcast scalar), grouped into named
  stages of a few operations each. Nothing is proved here; the stages are what the run of the reference
  is read back as, and what the comparison with the kernel is stated against.
-/
import proofs.«169873_j12644383719683_1_alg».proof.ReferenceIdeal

noncomputable section

namespace Cert.ReferenceIdeal.RefTerms

open Cert.ReferenceIdeal Idealize.ShloMosaic Idealize.SL.Sem
open Facts₀ Facts

variable {F : FTy → Type} [FloatOps F] [Facts]

/-! ## The pair features and the normalised linear layer -/

/-- Row (b, i, j) of the pair table: receptor residue i's 128 features followed by ligand atom j's,
    the 8 x 128 x 512 rows laid out row-major (values %0 … %5). -/
def pair_rows (x0 : FVec F S8x128x128 .f32) (x1 : FVec F S8x512x128 .f32) : FVec F S524288x256 .f32 :=
  shapeCast S524288x256
    (concatenate S8x128x512x256 3
      [⟨S8x128x512x128, broadcastInDim S8x128x512x128 ![0, 1, 2, 3] bcast_S8x128x1x128_S8x128x512x128_0_1_2_3
          (broadcastInDim S8x128x1x128 ![0, 1, 3] bcast_S8x128x128_S8x128x1x128_0_1_3 x0)⟩,
       ⟨S8x128x512x128, broadcastInDim S8x128x512x128 ![0, 1, 2, 3] bcast_S8x1x512x128_S8x128x512x128_0_1_2_3
          (broadcastInDim S8x1x512x128 ![0, 2, 3] bcast_S8x512x128_S8x1x512x128_0_2_3 x1)⟩]
      concatenates_S8x128x512x128_S8x128x512x128_S8x128x512x256_d3)
    shapeCasts_S8x128x512x256_S524288x256

/-- A vector of 128 channel values repeated on every one of the 524288 rows. -/
def rows128 (v : FVec F S128 .f32) : FVec F S524288x128 .f32 :=
  broadcastInDim S524288x128 ![0, 1] bcast_S1x128_S524288x128_0_1 (broadcastInDim S1x128 ![1] bcast_S128_S1x128_1 v)

/-- The linear layer on the pair rows (%6 … %9): rows times the 256 x 128 weight, plus the bias. -/
def linear128 (x0 : FVec F S8x128x128 .f32) (x1 : FVec F S8x512x128 .f32) (w8 : FVec F S256x128 .f32)
    (b9 : FVec F S128 .f32) : FVec F S524288x128 .f32 :=
  addf (Host.dotGeneral dot_S524288x256_S256x128_S524288x128_1_0_0_1_n_n none (pair_rows x0 x1) w8) (rows128 b9)

/-- The reciprocal standard deviation per channel (%13 … %15): rsqrt (variance + 1e-5). -/
def inv_std (var13 : FVec F S128 .f32) : FVec F S128 .f32 :=
  Host.rsqrt (addf var13 (broadcastInDim S128 ![] bcast_S_S128 (constant S_ .f32 0x3727C5AC#32)))

/-- The batch-normalised linear layer (%24): ((linear - mean) * inv_std) * gamma + beta, channel by channel. -/
def pre_act (x0 : FVec F S8x128x128 .f32) (x1 : FVec F S8x512x128 .f32) (w8 : FVec F S256x128 .f32)
    (b9 g10 be11 mu12 var13 : FVec F S128 .f32) : FVec F S524288x128 .f32 :=
  addf (mulf (mulf (subf (linear128 x0 x1 w8 b9) (rows128 mu12)) (rows128 (inv_std var13))) (rows128 g10)) (rows128 be11)

/-! ## elu -/

/-- The body of elu on 524288 x 128: x where x > 0, and 1 * expm1 (x where x <= 0, else 0) elsewhere. -/
def elu128 (x : FVec F S524288x128 .f32) : FVec F S524288x128 .f32 :=
  select (cmpf .ogt x (broadcastInDim S524288x128 ![] bcast_S_S524288x128 (constant S_ .f32 0x00000000#32))) x
    (mulf (broadcastInDim S524288x128 ![] bcast_S_S524288x128 (constant S_ .f32 0x3F800000#32))
      (Host.expm1
        (select (cmpf .ogt x (broadcastInDim S524288x128 ![] bcast_S_S524288x128 (constant S_ .f32 0x00000000#32)))
          (broadcastInDim S524288x128 ![] bcast_S_S524288x128 (constant S_ .f32 0x00000000#32)) x)))

/-- The body of elu on 524288 x 10. -/
def elu10 (x : FVec F S524288x10 .f32) : FVec F S524288x10 .f32 :=
  select (cmpf .ogt x (broadcastInDim S524288x10 ![] bcast_S_S524288x10 (constant S_ .f32 0x00000000#32))) x
    (mulf (broadcastInDim S524288x10 ![] bcast_S_S524288x10 (constant S_ .f32 0x3F800000#32))
      (Host.expm1
        (select (cmpf .ogt x (broadcastInDim S524288x10 ![] bcast_S_S524288x10 (constant S_ .f32 0x00000000#32)))
          (broadcastInDim S524288x10 ![] bcast_S_S524288x10 (constant S_ .f32 0x00000000#32)) x)))

/-- The hidden layer (%25): elu of the normalised linear layer. -/
def hidden (x0 : FVec F S8x128x128 .f32) (x1 : FVec F S8x512x128 .f32) (w8 : FVec F S256x128 .f32)
    (b9 g10 be11 mu12 var13 : FVec F S128 .f32) : FVec F S524288x128 .f32 :=
  elu128 (pre_act x0 x1 w8 b9 g10 be11 mu12 var13)

/-! ## The three heads -/

/-- A head's logits (%29, %44, %51): hidden rows times a 128 x 10 weight, plus the bias on every row. -/
def logits (h : FVec F S524288x128 .f32) (W : FVec F S128x10 .f32) (b : FVec F S10 .f32) : FVec F S524288x10 .f32 :=
  addf (Host.dotGeneral dot_S524288x128_S128x10_S524288x10_1_0_0_1_n_n none h W)
    (broadcastInDim S524288x10 ![0, 1] bcast_S1x10_S524288x10_0_1 (broadcastInDim S1x10 ![1] bcast_S10_S1x10_1 b))

/-- One value per row repeated along the 10 columns. -/
def cols10 (v : FVec F S524288 .f32) : FVec F S524288x10 .f32 :=
  broadcastInDim S524288x10 ![0, 1] bcast_S524288x1_S524288x10_0_1 (broadcastInDim S524288x1 ![0] bcast_S524288_S524288x1_0 v)

/-- The row maximum the softmax subtracts (%30 … %32): the maximum of minus infinity and the row's maximum. -/
def row_max (l : FVec F S524288x10 .f32) : FVec F S524288 .f32 :=
  maximumf (broadcastInDim S524288 ![] bcast_S_S524288 (constant S_ .f32 0xFF800000#32))
    (Host.reduce FloatOps.maximumf l (constant S_ .f32 0xFF800000#32) reducesTo_S524288x10_S524288_d1 h_S_)

/-- The exponentials of the shifted logits (%36). -/
def shifted_exp (l : FVec F S524288x10 .f32) : FVec F S524288x10 .f32 :=
  Host.exp (subf l (cols10 (row_max l)))

/-- The softmax along the 10 columns (%30 … %40). -/
def softmax10 (l : FVec F S524288x10 .f32) : FVec F S524288x10 .f32 :=
  Host.divf (shifted_exp l)
    (cols10 (Host.reduceAdd (shifted_exp l) (constant S_ .f32 0x00000000#32) reducesTo_S524288x10_S524288_d1 h_S_))

/-- Result %40 (pi): the softmax of the first head's logits. -/
def pi_term (x0 : FVec F S8x128x128 .f32) (x1 : FVec F S8x512x128 .f32) (w8 : FVec F S256x128 .f32)
    (b9 g10 be11 mu12 var13 : FVec F S128 .f32) (w14 : FVec F S128x10 .f32) (b15 : FVec F S10 .f32) :
    FVec F S524288x10 .f32 :=
  softmax10 (logits (hidden x0 x1 w8 b9 g10 be11 mu12 var13) w14 b15)

/-- Result %47 (sigma): elu of the second head's logits, plus 1.1. -/
def sigma_term (x0 : FVec F S8x128x128 .f32) (x1 : FVec F S8x512x128 .f32) (w8 : FVec F S256x128 .f32)
    (b9 g10 be11 mu12 var13 : FVec F S128 .f32) (w16 : FVec F S128x10 .f32) (b17 : FVec F S10 .f32) :
    FVec F S524288x10 .f32 :=
  addf (elu10 (logits (hidden x0 x1 w8 b9 g10 be11 mu12 var13) w16 b17))
    (broadcastInDim S524288x10 ![] bcast_S_S524288x10 (constant S_ .f32 0x3F8CCCCD#32))

/-- Result %54 (mu): elu of the third head's logits, plus 1. -/
def mu_term (x0 : FVec F S8x128x128 .f32) (x1 : FVec F S8x512x128 .f32) (w8 : FVec F S256x128 .f32)
    (b9 g10 be11 mu12 var13 : FVec F S128 .f32) (w18 : FVec F S128x10 .f32) (b19 : FVec F S10 .f32) :
    FVec F S524288x10 .f32 :=
  addf (elu10 (logits (hidden x0 x1 w8 b9 g10 be11 mu12 var13) w18 b19))
    (broadcastInDim S524288x10 ![] bcast_S_S524288x10 (constant S_ .f32 0x3F800000#32))

/-! ## The nucleus and bond heads -/

/-- Result %58: the node table times a 128 x 12 weight, plus the bias on every row. -/
def nuc_term (x6 : FVec F S1024x128 .f32) (w20 : FVec F S128x12 .f32) (b21 : FVec F S12 .f32) : FVec F S1024x12 .f32 :=
  addf (Host.dotGeneral dot_S1024x128_S128x12_S1024x12_1_0_0_1_n_n none x6 w20)
    (broadcastInDim S1024x12 ![0, 1] bcast_S1x12_S1024x12_0_1 (broadcastInDim S1x12 ![1] bcast_S12_S1x12_1 b21))

/-- A row of 4096 node numbers made gather indices (%61 … %66, %70 … %75): a negative one has 1024 added,
    then each becomes a one-element index vector. -/
def wrap_idx (r : IVec S4096 32) : IVec S4096x1 32 :=
  broadcastInDim S4096x1 ![0] bcast_S4096_S4096x1_0
    (select (cmpi .slt r (broadcastInDim S4096 ![] bcast_S_S4096 (constantI S_ 32 0#32)))
      (addi r (broadcastInDim S4096 ![] bcast_S_S4096 (constantI S_ 32 1024#32))) r)

/-- Row 0 of the edge table (%59, %60). -/
def edge_row0 (x7 : IVec S2x4096 32) : IVec S4096 32 :=
  shapeCast S4096 (extractStridedSlice S1x4096 ![0, 0] x7 slices_S2x4096_S1x4096_0_0) shapeCasts_S1x4096_S4096

/-- Row 1 of the edge table (%68, %69). -/
def edge_row1 (x7 : IVec S2x4096 32) : IVec S4096 32 :=
  shapeCast S4096 (extractStridedSlice S1x4096 ![1, 0] x7 slices_S2x4096_S1x4096_1_0) shapeCasts_S1x4096_S4096

/-- The two end nodes' features of every edge, side by side (%67, %76, %77). -/
def edge_feats (x6 : FVec F S1024x128 .f32) (x7 : IVec S2x4096 32) : FVec F S4096x256 .f32 :=
  concatenate S4096x256 1
    [⟨S4096x128, Host.gather gather_S1024x128_S4096x1_S4096x128_1_0_n_n_0_1_1128 x6 (wrap_idx (edge_row0 x7))⟩,
     ⟨S4096x128, Host.gather gather_S1024x128_S4096x1_S4096x128_1_0_n_n_0_1_1128 x6 (wrap_idx (edge_row1 x7))⟩]
    concatenates_S4096x128_S4096x128_S4096x256_d1

/-- Result %81: the edge features times a 256 x 4 weight, plus the bias on every row. -/
def bond_term (x6 : FVec F S1024x128 .f32) (x7 : IVec S2x4096 32) (w22 : FVec F S256x4 .f32) (b23 : FVec F S4 .f32) :
    FVec F S4096x4 .f32 :=
  addf (Host.dotGeneral dot_S4096x256_S256x4_S4096x4_1_0_0_1_n_n none (edge_feats x6 x7) w22)
    (broadcastInDim S4096x4 ![0, 1] bcast_S1x4_S4096x4_0_1 (broadcastInDim S1x4 ![1] bcast_S4_S1x4_1 b23))

/-! ## The distances -/

/-- The squared norms of the ligand points, one per (batch, point), on every receptor row (%85 … %88). -/
def lig_sq (x5 : FVec F S8x12288x3 .f32) : FVec F S8x128x12288 .f32 :=
  broadcastInDim S8x128x12288 ![0, 1, 2] bcast_S8x1x12288_S8x128x12288_0_1_2
    (broadcastInDim S8x1x12288 ![0, 2] bcast_S8x12288_S8x1x12288_0_2
      (Host.reduceAdd (mulf x5 x5) (constant S_ .f32 0x00000000#32) reducesTo_S8x12288x3_S8x12288_d2 h_S_))

/-- The squared norms of the receptor points, one per (batch, residue), on every ligand column (%90 … %93). -/
def rec_sq (x4 : FVec F S8x128x3 .f32) : FVec F S8x128x12288 .f32 :=
  broadcastInDim S8x128x12288 ![0, 1, 2] bcast_S8x128x1_S8x128x12288_0_1_2
    (broadcastInDim S8x128x1 ![0, 1] bcast_S8x128_S8x128x1_0_1
      (Host.reduceAdd (mulf x4 x4) (constant S_ .f32 0x00000000#32) reducesTo_S8x128x3_S8x128_d2 h_S_))

/-- The squared distances (%94): -2 * (receptor . ligand) + |ligand|^2 + |receptor|^2. -/
def d2_term (x4 : FVec F S8x128x3 .f32) (x5 : FVec F S8x12288x3 .f32) : FVec F S8x128x12288 .f32 :=
  addf
    (addf
      (mulf (broadcastInDim S8x128x12288 ![] bcast_S_S8x128x12288 (constant S_ .f32 0xC0000000#32))
        (Host.dotGeneral dot_S8x128x3_S8x12288x3_S8x128x12288_2_2_1_1_0_0 none x4 x5))
      (lig_sq x5))
    (rec_sq x4)

/-- The first step of nan_to_num: a NaN replaced by the scalar. -/
def nan_step (x : FVec F S8x128x12288 .f32) (s : FVec F S_ .f32) : FVec F S8x128x12288 .f32 :=
  select (cmpf .une x x) (broadcastInDim S8x128x12288 ![] bcast_S_S8x128x12288 s) x

/-- The second step of nan_to_num: plus infinity replaced by the largest finite value. -/
def posinf_step (y : FVec F S8x128x12288 .f32) : FVec F S8x128x12288 .f32 :=
  select (cmpf .oeq y (broadcastInDim S8x128x12288 ![] bcast_S_S8x128x12288 (constant S_ .f32 0x7F800000#32)))
    (broadcastInDim S8x128x12288 ![] bcast_S_S8x128x12288 (constant S_ .f32 0x7F7FFFFF#32)) y

/-- The third step of nan_to_num: minus infinity replaced by the most negative finite value. -/
def neginf_step (z : FVec F S8x128x12288 .f32) : FVec F S8x128x12288 .f32 :=
  select (cmpf .oeq z (broadcastInDim S8x128x12288 ![] bcast_S_S8x128x12288 (constant S_ .f32 0xFF800000#32)))
    (broadcastInDim S8x128x12288 ![] bcast_S_S8x128x12288 (constant S_ .f32 0xFF7FFFFF#32)) z

/-- The body of nan_to_num as a function of its operand and the scalar a NaN becomes. -/
def nan_to_num_term (x : FVec F S8x128x12288 .f32) (s : FVec F S_ .f32) : FVec F S8x128x12288 .f32 :=
  neginf_step (posinf_step (nan_step x s))

/-- The cleaned distances (%96): nan_to_num of the square root of the squared distances, a NaN becoming 10000. -/
def clean_dist (x4 : FVec F S8x128x3 .f32) (x5 : FVec F S8x12288x3 .f32) : FVec F S8x128x12288 .f32 :=
  nan_to_num_term (Host.sqrt (d2_term x4 x5)) (constant S_ .f32 0x461C4000#32)

/-- Result %100: for every (batch, residue, ligand atom) the minimum over the atom's 24 points, as a column. -/
def dist_term (x4 : FVec F S8x128x3 .f32) (x5 : FVec F S8x12288x3 .f32) : FVec F S524288x1 .f32 :=
  broadcastInDim S524288x1 ![0] bcast_S524288_S524288x1_0
    (shapeCast S524288
      (Host.reduce FloatOps.minimumf
        (shapeCast S8x128x512x24 (clean_dist x4 x5) shapeCasts_S8x128x12288_S8x128x512x24)
        (constant S_ .f32 0x7F800000#32) reducesTo_S8x128x512x24_S8x128x512_d3 h_S_)
      shapeCasts_S8x128x512_S524288)

/-- Result %104: the batch number of every pair row. -/
def cbatch_term : IVec S524288 32 :=
  shapeCast S524288
    (broadcastInDim S8x128x512 ![0, 1, 2] bcast_S8x1x1_S8x128x512_0_1_2
      (broadcastInDim S8x1x1 ![0] bcast_S8_S8x1x1_0 (iotaInDim S8 32 0)))
    shapeCasts_S8x128x512_S524288

end Cert.ReferenceIdeal.RefTerms

end
-- ==== Proof.KGlue.lean ====
/- The three results that the host operations compute from the arguments alone are, term for term, the reference
   program's: the two programs apply the same operations in the same order to the same arrays, and the shape and
   dimension records of the two programs' vocabularies are the same literals. -/
import proofs.«169873_j12644383719683_1_alg».proof.Proof.KHost
import proofs.«169873_j12644383719683_1_alg».proof.Proof.RefTerms
import proofs.«169873_j12644383719683_1_alg».proof.Proof.Gen.ReferenceIdeal
import Idealize.ShloMosaic.PureOps.Ideal

noncomputable section

namespace Cert.KernelIdeal.KRun

open Idealize.ShloMosaic
open Cert.KernelIdeal

/-- The nuc head: the same product plus broadcast bias in both programs. -/
theorem nuc_eq (x6 : FVec Ideal S1024x128 .f32) (x20 : FVec Ideal S128x12 .f32) (x21 : FVec Ideal S12 .f32) :
    nuc_term (F := Ideal) x6 x20 x21 = Cert.ReferenceIdeal.RefTerms.nuc_term (F := Ideal) x6 x20 x21 := rfl

/-- The index columns: the same wrap of negative entries in both programs. -/
theorem wrap_eq (r : IVec S4096 32) : wrap_term r = Cert.ReferenceIdeal.RefTerms.wrap_idx r := rfl

/-- The bond head: the same gathers, concatenation, product and broadcast bias in both programs. -/
theorem bond_eq (x6 : FVec Ideal S1024x128 .f32) (x7 : IVec S2x4096 32) (x22 : FVec Ideal S256x4 .f32) (x23 : FVec Ideal S4 .f32) :
    bond_term (F := Ideal) x6 x7 x22 x23 = Cert.ReferenceIdeal.RefTerms.bond_term (F := Ideal) x6 x7 x22 x23 := rfl

/-- The batch indices: the same iota, broadcasts and reshape in both programs. -/
theorem cbatch_eq : cbatch_term = Cert.ReferenceIdeal.RefTerms.cbatch_term := rfl

end Cert.KernelIdeal.KRun

end
-- ==== Proof.RowIdx.lean ====
/-
  The flattened pair row: the row-major position of (batch b, receptor residue l, ligand atom t) among the
  8 x 128 x 512 pairs, as an index of the 524288 rows both programs' score and distance tables have.
-/

namespace Cert.RowIdx

/-- Row (b, l, t) of the pair tables, row-major in 8 x 128 x 512. -/
def row (b : Fin 8) (l : Fin 128) (t : Fin 512) : Fin 524288 :=
  ⟨(b.val * 128 + l.val) * 512 + t.val, by have := b.isLt; have := l.isLt; have := t.isLt; omega⟩

/-- Its value, for arithmetic. -/
theorem row_val (b : Fin 8) (l : Fin 128) (t : Fin 512) : (row b l t).val = (b.val * 128 + l.val) * 512 + t.val := rfl

end Cert.RowIdx
-- ==== Proof.Spec.lean ====
/-
  The two programs as SCALAR formulas on the extended reals, one definition per stage, so that the value of the kernel's
  program and of the reference's can each be read at an index into a formula of its own spelling, and the two spellings be
  compared once, away from the programs.

  The score head. For a ligand row l and a target row t of batch b the hidden unit j is
      ELU( (((lin + b1 j) − mean j) · rsqrt(var j + ε)) · γ j + β j ),
  where the kernel takes  lin = Σ_k hl k · Wa k j + Σ_k ht k · Wb k j  (two sums over the 128 input channels, Wa and Wb the
  upper and lower halves of W1) and the reference  lin = Σ_{k<256} pair k · W1 k j  over the concatenated row (hl | ht).
  The three heads take logits  Σ_j hidden j · W j g + bias g  and return the softmax over the ten components, ELU + 1.1 and
  ELU + 1.  ELU is spelt  x if 0 < x else e^x − 1  by the kernel and  x if 0 < x else 1 · expm1(0 if 0 < x else x)  by the
  reference.

  The distance head. For a ligand atom and the 24 atoms of a target residue the squared distance is expanded as
      −2 · ⟨x, y⟩ + |y|² + |x|²;
  the kernel takes the minimum of the 24 squared distances and then the root, the reference the root of each, cleans it
  (NaN to 10000, ±∞ to the largest finite values) and then takes the minimum.
-/
import Idealize.ShloMosaic.PureOps.Ideal
import Idealize.ShloMosaic.Lib.ValueIdx

noncomputable section

namespace Cert.Spec

open Idealize.ShloMosaic

/-- The batch-normalised pre-activation of one hidden unit from its linear part. -/
def norm (lin b1 mean var gamma beta : EReal) : EReal :=
  (((lin + b1) - mean) * Ideal.rsqrt (var + Ideal.ofBits .f32 0x3727C5AC#32)) * gamma + beta

/-- ELU as the kernel spells it. -/
def eluK (x : EReal) : EReal :=
  Scalar.select (Ideal.cmp .ogt x (Ideal.ofBits .f32 0x00000000#32)) x (Ideal.exp x - Ideal.ofBits .f32 0x3F800000#32)

/-- ELU as the reference spells it (`expm1` of the operand clamped to the non-positive side, times the literal 1). -/
def eluR (x : EReal) : EReal :=
  Scalar.select (Ideal.cmp .ogt x (Ideal.ofBits .f32 0x00000000#32)) x
    (Ideal.ofBits .f32 0x3F800000#32 *
      (Ideal.exp (Scalar.select (Ideal.cmp .ogt x (Ideal.ofBits .f32 0x00000000#32)) (Ideal.ofBits .f32 0x00000000#32) x) - 1))

/-- The kernel's hidden unit: the two half contractions added. -/
def hiddenK (hl ht wa wb : Fin 128 → EReal) (b1 mean var gamma beta : EReal) : EReal :=
  eluK (norm ((∑ k, hl k * wa k) + (∑ k, ht k * wb k)) b1 mean var gamma beta)

/-- The reference's hidden unit: one contraction over the concatenated row. -/
def hiddenR (pair w1 : Fin 256 → EReal) (b1 mean var gamma beta : EReal) : EReal :=
  eluR (norm (∑ k, pair k * w1 k) b1 mean var gamma beta)

/-- A head's logit from the hidden row. -/
def logit (h w : Fin 128 → EReal) (b : EReal) : EReal := (∑ j, h j * w j) + b

/-- The row maximum both programs subtract: the fold of `max` from −∞, once more against −∞. -/
def rowMax (lg : Fin 10 → EReal) : EReal :=
  max (Ideal.ofBits .f32 0xFF800000#32) ((Finset.univ : Finset (Fin 10)).fold max (Ideal.ofBits .f32 0xFF800000#32) lg)

/-- The softmax as the kernel spells it (a plain lane sum). -/
def softmaxK (lg : Fin 10 → EReal) (g : Fin 10) : EReal :=
  Ideal.div (Ideal.exp (lg g - rowMax lg)) (∑ g', Ideal.exp (lg g' - rowMax lg))

/-- The softmax as the reference spells it (the host's sum starts from the literal 0). -/
def softmaxR (lg : Fin 10 → EReal) (g : Fin 10) : EReal :=
  Ideal.div (Ideal.exp (lg g - rowMax lg)) (Ideal.ofBits .f32 0x00000000#32 + ∑ g', Ideal.exp (lg g' - rowMax lg))

/-- The squared distance as the kernel spells it: −2·⟨y, x⟩ + |y|² + |x|². -/
def d2K (hl ht : Fin 3 → EReal) (nt nl : EReal) : EReal :=
  (Ideal.ofBits .f32 0xC0000000#32 * (∑ d, ht d * hl d) + nt) + nl

/-- The squared distance as the reference spells it: −2·⟨x, y⟩ + |y|² + |x|². -/
def d2R (hl ht : Fin 3 → EReal) (nt nl : EReal) : EReal :=
  (Ideal.ofBits .f32 0xC0000000#32 * (∑ d, hl d * ht d) + nt) + nl

/-- A squared norm as both host programs compute it: the literal 0 plus the sum of squares. -/
def sqNorm (x : Fin 3 → EReal) : EReal := Ideal.ofBits .f32 0x00000000#32 + ∑ d, x d * x d

/-- The kernel's running minimum over the 24 atoms, in the order it folds them. -/
def min24 (f : Fin 24 → EReal) : EReal :=
  min (min (min (min (min (min (min (min (min (min (min (min (min (min (min (min (min (min (min (min (min (min (min (f 0) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23)

/-- The kernel's NaN guard (dead on the extended reals, kept as spelt). -/
def nanK (x : EReal) : EReal := Scalar.select (Ideal.cmp .one x x) (Ideal.ofBits .f32 0x461C4000#32) x

/-- The kernel's pooled distance: the root of the minimum. -/
def distK (f : Fin 24 → EReal) : EReal := nanK (Ideal.sqrt (min24 f))

/-- The reference's cleaning of a root: NaN to 10000, +∞ to the largest finite f32, −∞ to the smallest. -/
def cleanR (x : EReal) : EReal :=
  let y := Scalar.select (Ideal.cmp .une x x) (Ideal.ofBits .f32 0x461C4000#32) x
  let z := Scalar.select (Ideal.cmp .oeq y (Ideal.ofBits .f32 0x7F800000#32)) (Ideal.ofBits .f32 0x7F7FFFFF#32) y
  Scalar.select (Ideal.cmp .oeq z (Ideal.ofBits .f32 0xFF800000#32)) (Ideal.ofBits .f32 0xFF7FFFFF#32) z

/-- The reference's pooled distance: the minimum, from +∞, of the cleaned roots. -/
def distR (f : Fin 24 → EReal) : EReal :=
  (Finset.univ : Finset (Fin 24)).fold min (Ideal.ofBits .f32 0x7F800000#32) (fun a => cleanR (Ideal.sqrt (f a)))

end Cert.Spec

end
-- ==== Proof.KRead.lean ====
/- The kernel program's host-side layout terms read at an index by coordinates: the flattening of the first kernel's
   outputs to pair rows, the second kernel's output transposed and flattened, the two halves of the first weight,
   the parameter vectors made one-row matrices, and the regrouped positions with their squared norms (the literal 0
   plus the sum of the three squares). -/
import proofs.«169873_j12644383719683_1_alg».proof.Proof.KHost
import proofs.«169873_j12644383719683_1_alg».proof.Proof.RowIdx
import proofs.«169873_j12644383719683_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.KernelIdeal.KRun

open Idealize.ShloMosaic Idealize.ShloMosaic.ValueIdx
open Cert.KernelIdeal Cert.KernelIdeal.Gen Cert.RowIdx
open scoped BigOperators

/-! ## The pair rows -/

/-- An [8, 128, 512, 10] array flattened to [524288, 10] reads, at (row b l t, g), the operand at (b, l, t, g). -/
theorem rows10_apply (A : FVec Ideal S8x128x512x10 .f32) (b : Fin 8) (l : Fin 128) (t : Fin 512) (g : Fin 10) :
    shapeCast S524288x10 A shapeCasts_S8x128x512x10_S524288x10 (ix2 (row b l t) g) = A (ix4 b l t g) :=
  shapeCast_apply A _ _ _ (by
    rw [Shape.rowMajor_val_four, Shape.rowMajor_val_two]
    show ((b.val * 128 + l.val) * 512 + t.val) * 10 + g.val = (row b l t).val * 10 + g.val
    rw [row_val])

/-- The second kernel's [8, 512, 128] output, transposed to [8, 128, 512] and flattened to a column, reads, at
    (row b l t, 0), the output at (b, t, l). -/
theorem dist_term_apply (y : FVec Ideal S8x512x128 .f32) (b : Fin 8) (l : Fin 128) (t : Fin 512) :
    dist_term y (ix2 (row b l t) (0 : Fin 1)) = y (ix3 b t l) := by
  unfold dist_term
  rw [shapeCast_apply _ shapeCasts_S8x128x512_S524288x1 (ix2 (row b l t) (0 : Fin 1)) (ix3 b l t) (by
    rw [Shape.rowMajor_val_three, Shape.rowMajor_val_two]
    show (b.val * 128 + l.val) * 512 + t.val = (row b l t).val * 1 + 0
    rw [row_val, Nat.mul_one, Nat.add_zero])]
  exact transpose_ix3_021_apply y transposes_S8x512x128_S8x128x512_0_2_1 b l t

/-! ## The two halves of the first weight -/

/-- The upper half of a [256, 128] matrix reads, at (k, j), the matrix at (k, j). -/
theorem upper_apply (x8 : FVec Ideal S256x128 .f32) (k j : Fin 128) :
    extractStridedSlice S128x128 ![0, 0] x8 slices_S256x128_S128x128_0_0 (ix2 k j)
      = x8 (ix2 (⟨k.val, by omega⟩ : Fin 256) j) :=
  slice2_axis0_apply 0 x8 slices_S256x128_S128x128_0_0 k j _ (Nat.zero_add _).symm

/-- The lower half of a [256, 128] matrix reads, at (k, j), the matrix at (128 + k, j). -/
theorem lower_apply (x8 : FVec Ideal S256x128 .f32) (k j : Fin 128) :
    extractStridedSlice S128x128 ![128, 0] x8 slices_S256x128_S128x128_128_0 (ix2 k j)
      = x8 (ix2 (⟨128 + k.val, by omega⟩ : Fin 256) j) :=
  slice2_axis0_apply 128 x8 slices_S256x128_S128x128_128_0 k j _ rfl

/-! ## The parameter rows -/

/-- A vector of 128 made a one-row matrix reads, at (0, j), the vector at j. -/
theorem row128_apply (x : FVec Ideal S128 .f32) (j : Fin 128) :
    shapeCast S1x128 x shapeCasts_S128_S1x128 (ix2 (0 : Fin 1) j) = x (ix1 j) :=
  shapeCast_a_1a_apply x shapeCasts_S128_S1x128 0 j

/-- A vector of 10 made a one-row matrix reads, at (0, g), the vector at g. -/
theorem row10_apply (x : FVec Ideal S10 .f32) (g : Fin 10) :
    shapeCast S1x10 x shapeCasts_S10_S1x10 (ix2 (0 : Fin 1) g) = x (ix1 g) :=
  shapeCast_a_1a_apply x shapeCasts_S10_S1x10 0 g

/-! ## The squared norms and the regrouped positions -/

/-- The host's sum of squares along the last axis of an [8, 128, 3] array: the literal 0 plus the three squares. -/
theorem sq128_apply (x4 : FVec Ideal S8x128x3 .f32) (b : Fin 8) (l : Fin 128) :
    Host.reduceAdd (F := Ideal) (mulf x4 x4) (constant (F := Ideal) S_ .f32 0x00000000#32) reducesTo_S8x128x3_S8x128_d2 h_S_ (ix2 b l)
      = Cert.Spec.sqNorm (fun d => x4 (ix3 b l d)) := by
  have hR : S8x128x3.Reduces [2] S8x128 := by decide
  have hlift : ∀ k : Fin 3, hR.lift (ix2 b l) k = ix3 b l k := fun k => funext fun a =>
    match a with | ⟨0, _⟩ => Fin.ext rfl | ⟨1, _⟩ => Fin.ext rfl | ⟨2, _⟩ => Fin.ext rfl
  rw [hostReduceAdd_apply, Ideal.hostReduceAdd_single reducesTo_S8x128x3_S8x128_d2 hR]
  show Ideal.ofBits .f32 0x00000000#32 + ∑ k : Fin 3, x4 (hR.lift (ix2 b l) k) * x4 (hR.lift (ix2 b l) k)
    = Ideal.ofBits .f32 0x00000000#32 + ∑ d : Fin 3, x4 (ix3 b l d) * x4 (ix3 b l d)
  simp only [hlift]

/-- The same along the last axis of an [8, 12288, 3] array. -/
theorem sq12288_apply (x5 : FVec Ideal S8x12288x3 .f32) (b : Fin 8) (n : Fin 12288) :
    Host.reduceAdd (F := Ideal) (mulf x5 x5) (constant (F := Ideal) S_ .f32 0x00000000#32) reducesTo_S8x12288x3_S8x12288_d2 h_S_ (ix2 b n)
      = Cert.Spec.sqNorm (fun d => x5 (ix3 b n d)) := by
  have hR : S8x12288x3.Reduces [2] S8x12288 := by decide
  have hlift : ∀ k : Fin 3, hR.lift (ix2 b n) k = ix3 b n k := fun k => funext fun a =>
    match a with | ⟨0, _⟩ => Fin.ext rfl | ⟨1, _⟩ => Fin.ext rfl | ⟨2, _⟩ => Fin.ext rfl
  rw [hostReduceAdd_apply, Ideal.hostReduceAdd_single reducesTo_S8x12288x3_S8x12288_d2 hR]
  show Ideal.ofBits .f32 0x00000000#32 + ∑ k : Fin 3, x5 (hR.lift (ix2 b n) k) * x5 (hR.lift (ix2 b n) k)
    = Ideal.ofBits .f32 0x00000000#32 + ∑ d : Fin 3, x5 (ix3 b n d) * x5 (ix3 b n d)
  simp only [hlift]

/-- The squared norms of the [8, 128, 3] points as a row per batch: at (b, 0, l) the squared norm of point (b, l). -/
theorem xnorm_term_apply (x4 : FVec Ideal S8x128x3 .f32) (b : Fin 8) (l : Fin 128) :
    xnorm_term x4 (ix3 b (0 : Fin 1) l) = Cert.Spec.sqNorm (fun d => x4 (ix3 b l d)) := by
  unfold xnorm_term
  rw [broadcastInDim_apply _ bcast_S8x128_S8x1x128_0_2 _ (ix3 b (0 : Fin 1) l) (ix2 b l)
    (fun a => match a with | ⟨0, _⟩ => rfl | ⟨1, _⟩ => rfl)]
  exact sq128_apply x4 b l

/-- The [8, 12288, 3] points regrouped [8, 24, 512, 3]: at (b, a, t, d) point t * 24 + a of batch b, coordinate d. -/
theorem hpos_term_apply (x5 : FVec Ideal S8x12288x3 .f32) (b : Fin 8) (a : Fin 24) (t : Fin 512) (d : Fin 3) :
    hpos_term x5 (ix4 b a t d) = x5 (ix3 b (⟨t.val * 24 + a.val, by omega⟩ : Fin 12288) d) := by
  unfold hpos_term
  rw [transpose_apply _ _ transposes_S8x512x24x3_S8x24x512x3_0_2_1_3 (ix4 b a t d) (ix4 b t a d)
    (fun c => match c with | ⟨0, _⟩ => rfl | ⟨1, _⟩ => rfl | ⟨2, _⟩ => rfl | ⟨3, _⟩ => rfl)]
  exact shapeCast_apply x5 _ _ _ (by
    rw [Shape.rowMajor_val_three, Shape.rowMajor_val_four]
    show (b.val * 12288 + (t.val * 24 + a.val)) * 3 + d.val = ((b.val * 512 + t.val) * 24 + a.val) * 3 + d.val
    omega)

/-- Their squared norms regrouped the same way: at (b, a, t, 0) the squared norm of point t * 24 + a of batch b. -/
theorem hnorm_term_apply (x5 : FVec Ideal S8x12288x3 .f32) (b : Fin 8) (a : Fin 24) (t : Fin 512) :
    hnorm_term x5 (ix4 b a t (0 : Fin 1))
      = Cert.Spec.sqNorm (fun d => x5 (ix3 b (⟨t.val * 24 + a.val, by omega⟩ : Fin 12288) d)) := by
  unfold hnorm_term
  rw [broadcastInDim_apply _ bcast_S8x24x512_S8x24x512x1_0_1_2 _ (ix4 b a t (0 : Fin 1)) (ix3 b a t)
    (fun c => match c with | ⟨0, _⟩ => rfl | ⟨1, _⟩ => rfl | ⟨2, _⟩ => rfl)]
  rw [transpose_ix3_021_apply _ transposes_S8x512x24_S8x24x512_0_2_1 b a t]
  rw [shapeCast_apply _ shapeCasts_S8x12288_S8x512x24 (ix3 b t a) (ix2 b (⟨t.val * 24 + a.val, by omega⟩ : Fin 12288)) (by
    rw [Shape.rowMajor_val_two, Shape.rowMajor_val_three]
    show b.val * 12288 + (t.val * 24 + a.val) = (b.val * 512 + t.val) * 24 + a.val
    omega)]
  exact sq12288_apply x5 b _

end Cert.KernelIdeal.KRun

end
-- ==== Proof.RefRun.lean ====
/-
  The run of the reference program, read back: its main function is a straight line of 177 array operations
  (the three elu calls and the nan_to_num call written out at the buffers each call names), so every weakly
  fair execution terminates with each buffer at the fold of the operations over the launch contents. The
  line is cut into ten stretches, one per stage of the computation; after each stretch the buffers still
  needed are read as the stage terms of RefTerms applied to the argument arrays, and a buffer a stretch
  does not write keeps what it held. At the end the seven results are the seven result terms and the
  twenty-four arguments are unchanged.
-/
import proofs.«169873_j12644383719683_1_alg».proof.Proof.RefTerms
import proofs.«169873_j12644383719683_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 26 of 177: the pair rows, the linear layer and its normalisation. -/
abbrev p1 : List (HloOp τ sig (Elt F)) :=
  [ unary main_arg0 main_v0 (broadcastInDim S8x128x1x128 ![0, 1, 3] bcast_S8x128x128_S8x128x1x128_0_1_3 : (⟨S8x128x128, .f32⟩ : BufTy).Contents (Elt F) → (⟨S8x128x1x128, .f32⟩ : BufTy).Contents (Elt F)),
    unary main_v0 main_v1 (broadcastInDim S8x128x512x128 ![0, 1, 2, 3] bcast_S8x128x1x128_S8x128x512x128_0_1_2_3 : (⟨S8x128x1x128, .f32⟩ : BufTy).Contents (Elt F) → (⟨S8x128x512x128, .f32⟩ : BufTy).Contents (Elt F)),
    unary main_arg1 main_v2 (broadcastInDim S8x1x512x128 ![0, 2, 3] bcast_S8x512x128_S8x1x512x128_0_2_3 : (⟨S8x512x128, .f32⟩ : BufTy).Contents (Elt F) → (⟨S8x1x512x128, .f32⟩ : BufTy).Contents (Elt F)),
    unary main_v2 main_v3 (broadcastInDim S8x128x512x128 ![0, 1, 2, 3] bcast_S8x1x512x128_S8x128x512x128_0_1_2_3 : (⟨S8x1x512x128, .f32⟩ : BufTy).Contents (Elt F) → (⟨S8x128x512x128, .f32⟩ : BufTy).Contents (Elt F)),
    binary main_v1 main_v3 main_v4 ((fun a b => concatenate S8x128x512x256 3 [⟨S8x128x512x128, a⟩, ⟨S8x128x512x128, b⟩] concatenates_S8x128x512x128_S8x128x512x128_S8x128x512x256_d3) : (⟨S8x128x512x128, .f32⟩ : BufTy).Contents (Elt F) → (⟨S8x128x512x128, .f32⟩ : BufTy).Contents (Elt F) → (⟨S8x128x512x256, .f32⟩ : BufTy).Contents (Elt F)),
    reshape main_v4 main_v5 rfl shapeCasts_S8x128x512x256_S524288x256,
    binary main_v5 main_arg8 main_v6 ((fun l r => Host.dotGeneral dot_S524288x256_S256x128_S524288x128_1_0_0_1_n_n none l r) : (⟨S524288x256, .f32⟩ : BufTy).Contents (Elt F) → (⟨S256x128, .f32⟩ : BufTy).Contents (Elt F) → (⟨S524288x128, .f32⟩ : BufTy).Contents (Elt F)),
    unary main_arg9 main_v7 (broadcastInDim S1x128 ![1] bcast_S128_S1x128_1 : (⟨S128, .f32⟩ : BufTy).Contents (Elt F) → (⟨S1x128, .f32⟩ : BufTy).Contents (Elt F)),
    unary main_v7 main_v8 (broadcastInDim S524288x128 ![0, 1] bcast_S1x128_S524288x128_0_1 : (⟨S1x128, .f32⟩ : BufTy).Contents (Elt F) → (⟨S524288x128, .f32⟩ : BufTy).Contents (Elt F)),
    binary main_v6 main_v8 main_v9 (addf : (⟨S524288x128, .f32⟩ : BufTy).Contents (Elt F) → (⟨S524288x128, .f32⟩ : BufTy).Contents (Elt F) → (⟨S524288x128, .f32⟩ : BufTy).Contents (Elt F)),
    unary main_arg12 main_v10 (broadcastInDim S1x128 ![1] bcast_S128_S1x128_1 : (⟨S128, .f32⟩ : BufTy).Contents (Elt F) → (⟨S1x128, .f32⟩ : BufTy).Contents (Elt F)),
    unary main_v10 main_v11 (broadcastInDim S524288x128 ![0, 1] bcast_S1x128_S524288x128_0_1 : (⟨S1x128, .f32⟩ : BufTy).Contents (Elt F) → (⟨S524288x128, .f32⟩ : BufTy).Contents (Elt F)),
    binary main_v9 main_v11 main_v12 (subf : (⟨S524288x128, .f32⟩ : BufTy).Contents (Elt F) → (⟨S524288x128, .f32⟩ : BufTy).Contents (Elt F) → (⟨S524288x128, .f32⟩ : BufTy).Contents (Elt F)),
    nullary main_cst (constant S_ .f32 0x3727C5AC#32),
    unary main_cst main_v13 (broadcastInDim S128 ![] bcast_S_S128 : (⟨S_, .f32⟩ : BufTy).Contents (Elt F) → (⟨S128, .f32⟩ : BufTy).Contents (Elt F)),
    binary main_arg13 main_v13 main_v14 (addf : (⟨S128, .f32⟩ : BufTy).Contents (Elt F) → (⟨S128, .f32⟩ : BufTy).Contents (Elt F) → (⟨S128, .f32⟩ : BufTy).Contents (Elt F)),
    unary main_v14 main_v15 (Host.rsqrt : (⟨S128, .f32⟩ : BufTy).Contents (Elt F) → (⟨S128, .f32⟩ : BufTy).Contents (Elt F)),
    unary main_v15 main_v16 (broadcastInDim S1x128 ![1] bcast_S128_S1x128_1 : (⟨S128, .f32⟩ : BufTy).Contents (Elt F) → (⟨S1x128, .f32⟩ : BufTy).Contents (Elt F)),
    unary main_v16 main_v17 (broadcastInDim S524288x128 ![0, 1] bcast_S1x128_S524288x128_0_1 : (⟨S1x128, .f32⟩ : BufTy).Contents (Elt F) → (⟨S524288x128, .f32⟩ : BufTy).Contents (Elt F)),
    binary main_v12 main_v17 main_v18 (mulf : (⟨S524288x128, .f32⟩ : BufTy).Contents (Elt F) → (⟨S524288x128, .f32⟩ : BufTy).Contents (Elt F) → (⟨S524288x128, .f32⟩ : BufTy).Contents (Elt F)),
    unary main_arg10 main_v19 (broadcastInDim S1x128 ![1] bcast_S128_S1x128_1 : (⟨S128, .f32⟩ : BufTy).Contents (Elt F) → (⟨S1x128, .f32⟩ : BufTy).Contents (Elt F)),
    unary main_v19 main_v20 (broadcastInDim S524288x128 ![0, 1] bcast_S1x128_S524288x128_0_1 : (⟨S1x128, .f32⟩ : BufTy).Contents (Elt F) → (⟨S524288x128, .f32⟩ : BufTy).Contents (Elt F)),
    binary main_v18 main_v20 main_v21 (mulf : (⟨S524288x128, .f32⟩ : BufTy).Contents (Elt F) → (⟨S524288x128, .f32⟩ : BufTy).Contents (Elt F) → (⟨S524288x128, .f32⟩ : BufTy).Contents (Elt F)),
    unary main_arg11 main_v22 (broadcastInDim S1x128 ![1] bcast_S128_S1x128_1 : (⟨S128, .f32⟩ : BufTy).Contents (Elt F) → (⟨S1x128, .f32⟩ : BufTy).Contents (Elt F)),
    unary main_v22 main_v23 (broadcastInDim S524288x128 ![0, 1] bcast_S1x128_S524288x128_0_1 : (⟨S1x128, .f32⟩ : BufTy).Contents (Elt F) → (⟨S524288x128, .f32⟩ : BufTy).Contents (Elt F)),
    binary main_v21 main_v23 main_v24 (addf : (⟨S524288x128, .f32⟩ : BufTy).Contents (Elt F) → (⟨S524288x128, .f32⟩ : BufTy).Contents (Elt F) → (⟨S524288x128, .f32⟩ : BufTy).Contents (Elt F)) ]

/-- Operations 27 … 41 of 177: elu of the normalised layer: the hidden rows. -/
abbrev p2 : List (HloOp τ sig (Elt F)) :=
  [ TRef.nullary main_call0.cst (constant S_ .f32 0x00000000#32),
    TRef.unary main_call0.cst main_call0.v0 (broadcastInDim S524288x128 ![] bcast_S_S524288x128),
    TRef.binary (.of main_v24) main_call0.v0 main_call0.v1 (cmpf .ogt),
    TRef.nullary main_call0.cst_0 (constant S_ .f32 0x00000000#32),
    TRef.unary main_call0.cst_0 main_call0.v2 (broadcastInDim S524288x128 ![] bcast_S_S524288x128),
    TRef.binary (.of main_v24) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S524288x128 ![] bcast_S_S524288x128),
    TRef.ternary main_call0.v3 main_call0.call0.v1 (.of main_v24) main_call0.call0.v2 select,
    TRef.unary main_call0.call0.v2 main_call0.v5 Host.expm1,
    TRef.nullary main_call0.cst_2 (constant S_ .f32 0x3F800000#32),
    TRef.unary main_call0.cst_2 main_call0.v6 (broadcastInDim S524288x128 ![] bcast_S_S524288x128),
    TRef.binary main_call0.v6 main_call0.v5 main_call0.v7 mulf,
    TRef.ternary main_call0.v1 (.of main_v24) main_call0.v7 main_call0.call1.v0 select ]

/-- Operations 42 … 59 of 177: the first head: logits and their softmax. -/
abbrev p3 : List (HloOp τ sig (Elt F)) :=
  [ binary main_v25 main_arg14 main_v26 ((fun l r => Host.dotGeneral dot_S524288x128_S128x10_S524288x10_1_0_0_1_n_n none l r) : (⟨S524288x128, .f32⟩ : BufTy).Contents (Elt F) → (⟨S128x10, .f32⟩ : BufTy).Contents (Elt F) → (⟨S524288x10, .f32⟩ : BufTy).Contents (Elt F)),
    unary main_arg15 main_v27 (broadcastInDim S1x10 ![1] bcast_S10_S1x10_1 : (⟨S10, .f32⟩ : BufTy).Contents (Elt F) → (⟨S1x10, .f32⟩ : BufTy).Contents (Elt F)),
    unary main_v27 main_v28 (broadcastInDim S524288x10 ![0, 1] bcast_S1x10_S524288x10_0_1 : (⟨S1x10, .f32⟩ : BufTy).Contents (Elt F) → (⟨S524288x10, .f32⟩ : BufTy).Contents (Elt F)),
    binary main_v26 main_v28 main_v29 (addf : (⟨S524288x10, .f32⟩ : BufTy).Contents (Elt F) → (⟨S524288x10, .f32⟩ : BufTy).Contents (Elt F) → (⟨S524288x10, .f32⟩ : BufTy).Contents (Elt F)),
    nullary main_cst_0 (constant S_ .f32 0xFF800000#32),
    binary main_v29 main_cst_0 main_v30 ((fun x v => Host.reduce FloatOps.maximumf x v reducesTo_S524288x10_S524288_d1 h_S_) : (⟨S524288x10, .f32⟩ : BufTy).Contents (Elt F) → (⟨S_, .f32⟩ : BufTy).Contents (Elt F) → (⟨S524288, .f32⟩ : BufTy).Contents (Elt F)),
    nullary main_cst_1 (constant S_ .f32 0xFF800000#32),
    unary main_cst_1 main_v31 (broadcastInDim S524288 ![] bcast_S_S524288 : (⟨S_, .f32⟩ : BufTy).Contents (Elt F) → (⟨S524288, .f32⟩ : BufTy).Contents (Elt F)),
    binary main_v31 main_v30 main_v32 (maximumf : (⟨S524288, .f32⟩ : BufTy).Contents (Elt F) → (⟨S524288, .f32⟩ : BufTy).Contents (Elt F) → (⟨S524288, .f32⟩ : BufTy).Contents (Elt F)),
    unary main_v32 main_v33 (broadcastInDim S524288x1 ![0] bcast_S524288_S524288x1_0 : (⟨S524288, .f32⟩ : BufTy).Contents (Elt F) → (⟨S524288x1, .f32⟩ : BufTy).Contents (Elt F)),
    unary main_v33 main_v34 (broadcastInDim S524288x10 ![0, 1] bcast_S524288x1_S524288x10_0_1 : (⟨S524288x1, .f32⟩ : BufTy).Contents (Elt F) → (⟨S524288x10, .f32⟩ : BufTy).Contents (Elt F)),
    binary main_v29 main_v34 main_v35 (subf : (⟨S524288x10, .f32⟩ : BufTy).Contents (Elt F) → (⟨S524288x10, .f32⟩ : BufTy).Contents (Elt F) → (⟨S524288x10, .f32⟩ : BufTy).Contents (Elt F)),
    unary main_v35 main_v36 (Host.exp : (⟨S524288x10, .f32⟩ : BufTy).Contents (Elt F) → (⟨S524288x10, .f32⟩ : BufTy).Contents (Elt F)),
    nullary main_cst_2 (constant S_ .f32 0x00000000#32),
    binary main_v36 main_cst_2 main_v37 ((fun x v => Host.reduceAdd x v reducesTo_S524288x10_S524288_d1 h_S_) : (⟨S524288x10, .f32⟩ : BufTy).Contents (Elt F) → (⟨S_, .f32⟩ : BufTy).Contents (Elt F) → (⟨S524288, .f32⟩ : BufTy).Contents (Elt F)),
    unary main_v37 main_v38 (broadcastInDim S524288x1 ![0] bcast_S524288_S524288x1_0 : (⟨S524288, .f32⟩ : BufTy).Contents (Elt F) → (⟨S524288x1, .f32⟩ : BufTy).Contents (Elt F)),
    unary main_v38 main_v39 (broadcastInDim S524288x10 ![0, 1] bcast_S524288x1_S524288x10_0_1 : (⟨S524288x1, .f32⟩ : BufTy).Contents (Elt F) → (⟨S524288x10, .f32⟩ : BufTy).Contents (Elt F)),
    binary main_v36 main_v39 main_v40 (Host.divf : (⟨S524288x10, .f32⟩ : BufTy).Contents (Elt F) → (⟨S524288x10, .f32⟩ : BufTy).Contents (Elt F) → (⟨S524288x10, .f32⟩ : BufTy).Contents (Elt F)) ]

/-- Operations 60 … 81 of 177: the second head: logits, elu, plus 1.1. -/
abbrev p4 : List (HloOp τ sig (Elt F)) :=
  [ binary main_v25 main_arg16 main_v41 ((fun l r => Host.dotGeneral dot_S524288x128_S128x10_S524288x10_1_0_0_1_n_n none l r) : (⟨S524288x128, .f32⟩ : BufTy).Contents (Elt F) → (⟨S128x10, .f32⟩ : BufTy).Contents (Elt F) → (⟨S524288x10, .f32⟩ : BufTy).Contents (Elt F)),
    unary main_arg17 main_v42 (broadcastInDim S1x10 ![1] bcast_S10_S1x10_1 : (⟨S10, .f32⟩ : BufTy).Contents (Elt F) → (⟨S1x10, .f32⟩ : BufTy).Contents (Elt F)),
    unary main_v42 main_v43 (broadcastInDim S524288x10 ![0, 1] bcast_S1x10_S524288x10_0_1 : (⟨S1x10, .f32⟩ : BufTy).Contents (Elt F) → (⟨S524288x10, .f32⟩ : BufTy).Contents (Elt F)),
    binary main_v41 main_v43 main_v44 (addf : (⟨S524288x10, .f32⟩ : BufTy).Contents (Elt F) → (⟨S524288x10, .f32⟩ : BufTy).Contents (Elt F) → (⟨S524288x10, .f32⟩ : BufTy).Contents (Elt F)),
    TRef.nullary main_call1.cst (constant S_ .f32 0x00000000#32),
    TRef.unary main_call1.cst main_call1.v0 (broadcastInDim S524288x10 ![] bcast_S_S524288x10),
    TRef.binary (.of main_v44) main_call1.v0 main_call1.v1 (cmpf .ogt),
    TRef.nullary main_call1.cst_0 (constant S_ .f32 0x00000000#32),
    TRef.unary main_call1.cst_0 main_call1.v2 (broadcastInDim S524288x10 ![] bcast_S_S524288x10),
    TRef.binary (.of main_v44) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S524288x10 ![] bcast_S_S524288x10),
    TRef.ternary main_call1.v3 main_call1.call0.v1 (.of main_v44) main_call1.call0.v2 select,
    TRef.unary main_call1.call0.v2 main_call1.v5 Host.expm1,
    TRef.nullary main_call1.cst_2 (constant S_ .f32 0x3F800000#32),
    TRef.unary main_call1.cst_2 main_call1.v6 (broadcastInDim S524288x10 ![] bcast_S_S524288x10),
    TRef.binary main_call1.v6 main_call1.v5 main_call1.v7 mulf,
    TRef.ternary main_call1.v1 (.of main_v44) main_call1.v7 main_call1.call1.v0 select,
    nullary main_cst_3 (constant S_ .f32 0x3F8CCCCD#32),
    unary main_cst_3 main_v46 (broadcastInDim S524288x10 ![] bcast_S_S524288x10 : (⟨S_, .f32⟩ : BufTy).Contents (Elt F) → (⟨S524288x10, .f32⟩ : BufTy).Contents (Elt F)),
    binary main_v45 main_v46 main_v47 (addf : (⟨S524288x10, .f32⟩ : BufTy).Contents (Elt F) → (⟨S524288x10, .f32⟩ : BufTy).Contents (Elt F) → (⟨S524288x10, .f32⟩ : BufTy).Contents (Elt F)) ]

/-- Operations 82 … 102 of 177: the third head: logits, elu, and the constant one. -/
abbrev p5 : List (HloOp τ sig (Elt F)) :=
  [ binary main_v25 main_arg18 main_v48 ((fun l r => Host.dotGeneral dot_S524288x128_S128x10_S524288x10_1_0_0_1_n_n none l r) : (⟨S524288x128, .f32⟩ : BufTy).Contents (Elt F) → (⟨S128x10, .f32⟩ : BufTy).Contents (Elt F) → (⟨S524288x10, .f32⟩ : BufTy).Contents (Elt F)),
    unary main_arg19 main_v49 (broadcastInDim S1x10 ![1] bcast_S10_S1x10_1 : (⟨S10, .f32⟩ : BufTy).Contents (Elt F) → (⟨S1x10, .f32⟩ : BufTy).Contents (Elt F)),
    unary main_v49 main_v50 (broadcastInDim S524288x10 ![0, 1] bcast_S1x10_S524288x10_0_1 : (⟨S1x10, .f32⟩ : BufTy).Contents (Elt F) → (⟨S524288x10, .f32⟩ : BufTy).Contents (Elt F)),
    binary main_v48 main_v50 main_v51 (addf : (⟨S524288x10, .f32⟩ : BufTy).Contents (Elt F) → (⟨S524288x10, .f32⟩ : BufTy).Contents (Elt F) → (⟨S524288x10, .f32⟩ : BufTy).Contents (Elt F)),
    TRef.nullary main_call2.cst (constant S_ .f32 0x00000000#32),
    TRef.unary main_call2.cst main_call2.v0 (broadcastInDim S524288x10 ![] bcast_S_S524288x10),
    TRef.binary (.of main_v51) main_call2.v0 main_call2.v1 (cmpf .ogt),
    TRef.nullary main_call2.cst_0 (constant S_ .f32 0x00000000#32),
    TRef.unary main_call2.cst_0 main_call2.v2 (broadcastInDim S524288x10 ![] bcast_S_S524288x10),
    TRef.binary (.of main_v51) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S524288x10 ![] bcast_S_S524288x10),
    TRef.ternary main_call2.v3 main_call2.call0.v1 (.of main_v51) main_call2.call0.v2 select,
    TRef.unary main_call2.call0.v2 main_call2.v5 Host.expm1,
    TRef.nullary main_call2.cst_2 (constant S_ .f32 0x3F800000#32),
    TRef.unary main_call2.cst_2 main_call2.v6 (broadcastInDim S524288x10 ![] bcast_S_S524288x10),
    TRef.binary main_call2.v6 main_call2.v5 main_call2.v7 mulf,
    TRef.ternary main_call2.v1 (.of main_v51) main_call2.v7 main_call2.call1.v0 select,
    nullary main_cst_4 (constant S_ .f32 0x3F800000#32),
    unary main_cst_4 main_v53 (broadcastInDim S524288x10 ![] bcast_S_S524288x10 : (⟨S_, .f32⟩ : BufTy).Contents (Elt F) → (⟨S524288x10, .f32⟩ : BufTy).Contents (Elt F)) ]

/-- Operations 103 … 107 of 177: the third head's sum; the node head. -/
abbrev p6 : List (HloOp τ sig (Elt F)) :=
  [ binary main_v52 main_v53 main_v54 (addf : (⟨S524288x10, .f32⟩ : BufTy).Contents (Elt F) → (⟨S524288x10, .f32⟩ : BufTy).Contents (Elt F) → (⟨S524288x10, .f32⟩ : BufTy).Contents (Elt F)),
    binary main_arg6 main_arg20 main_v55 ((fun l r => Host.dotGeneral dot_S1024x128_S128x12_S1024x12_1_0_0_1_n_n none l r) : (⟨S1024x128, .f32⟩ : BufTy).Contents (Elt F) → (⟨S128x12, .f32⟩ : BufTy).Contents (Elt F) → (⟨S1024x12, .f32⟩ : BufTy).Contents (Elt F)),
    unary main_arg21 main_v56 (broadcastInDim S1x12 ![1] bcast_S12_S1x12_1 : (⟨S12, .f32⟩ : BufTy).Contents (Elt F) → (⟨S1x12, .f32⟩ : BufTy).Contents (Elt F)),
    unary main_v56 main_v57 (broadcastInDim S1024x12 ![0, 1] bcast_S1x12_S1024x12_0_1 : (⟨S1x12, .f32⟩ : BufTy).Contents (Elt F) → (⟨S1024x12, .f32⟩ : BufTy).Contents (Elt F)),
    binary main_v55 main_v57 main_v58 (addf : (⟨S1024x12, .f32⟩ : BufTy).Contents (Elt F) → (⟨S1024x12, .f32⟩ : BufTy).Contents (Elt F) → (⟨S1024x12, .f32⟩ : BufTy).Contents (Elt F)) ]

/-- Operations 108 … 134 of 177: the edge head: indices, gathers, the linear map. -/
abbrev p7 : List (HloOp τ sig (Elt F)) :=
  [ unary main_arg7 main_v59 ((extractStridedSlice S1x4096 ![0, 0] · slices_S2x4096_S1x4096_0_0) : (⟨S2x4096, .i32⟩ : BufTy).Contents (Elt F) → (⟨S1x4096, .i32⟩ : BufTy).Contents (Elt F)),
    reshape main_v59 main_v60 rfl shapeCasts_S1x4096_S4096,
    nullary main_c (constantI S_ 32 0#32),
    unary main_c main_v61 (broadcastInDim S4096 ![] bcast_S_S4096 : (⟨S_, .i32⟩ : BufTy).Contents (Elt F) → (⟨S4096, .i32⟩ : BufTy).Contents (Elt F)),
    binary main_v60 main_v61 main_v62 (cmpi .slt : (⟨S4096, .i32⟩ : BufTy).Contents (Elt F) → (⟨S4096, .i32⟩ : BufTy).Contents (Elt F) → (⟨S4096, .i1⟩ : BufTy).Contents (Elt F)),
    nullary main_c_5 (constantI S_ 32 1024#32),
    unary main_c_5 main_v63 (broadcastInDim S4096 ![] bcast_S_S4096 : (⟨S_, .i32⟩ : BufTy).Contents (Elt F) → (⟨S4096, .i32⟩ : BufTy).Contents (Elt F)),
    binary main_v60 main_v63 main_v64 (addi : (⟨S4096, .i32⟩ : BufTy).Contents (Elt F) → (⟨S4096, .i32⟩ : BufTy).Contents (Elt F) → (⟨S4096, .i32⟩ : BufTy).Contents (Elt F)),
    ternary main_v62 main_v64 main_v60 main_v65 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v65 main_v66 (broadcastInDim S4096x1 ![0] bcast_S4096_S4096x1_0 : (⟨S4096, .i32⟩ : BufTy).Contents (Elt F) → (⟨S4096x1, .i32⟩ : BufTy).Contents (Elt F)),
    binary main_arg6 main_v66 main_v67 ((fun x i => Host.gather gather_S1024x128_S4096x1_S4096x128_1_0_n_n_0_1_1128 x i) : (⟨S1024x128, .f32⟩ : BufTy).Contents (Elt F) → (⟨S4096x1, .i32⟩ : BufTy).Contents (Elt F) → (⟨S4096x128, .f32⟩ : BufTy).Contents (Elt F)),
    unary main_arg7 main_v68 ((extractStridedSlice S1x4096 ![1, 0] · slices_S2x4096_S1x4096_1_0) : (⟨S2x4096, .i32⟩ : BufTy).Contents (Elt F) → (⟨S1x4096, .i32⟩ : BufTy).Contents (Elt F)),
    reshape main_v68 main_v69 rfl shapeCasts_S1x4096_S4096,
    nullary main_c_6 (constantI S_ 32 0#32),
    unary main_c_6 main_v70 (broadcastInDim S4096 ![] bcast_S_S4096 : (⟨S_, .i32⟩ : BufTy).Contents (Elt F) → (⟨S4096, .i32⟩ : BufTy).Contents (Elt F)),
    binary main_v69 main_v70 main_v71 (cmpi .slt : (⟨S4096, .i32⟩ : BufTy).Contents (Elt F) → (⟨S4096, .i32⟩ : BufTy).Contents (Elt F) → (⟨S4096, .i1⟩ : BufTy).Contents (Elt F)),
    nullary main_c_7 (constantI S_ 32 1024#32),
    unary main_c_7 main_v72 (broadcastInDim S4096 ![] bcast_S_S4096 : (⟨S_, .i32⟩ : BufTy).Contents (Elt F) → (⟨S4096, .i32⟩ : BufTy).Contents (Elt F)),
    binary main_v69 main_v72 main_v73 (addi : (⟨S4096, .i32⟩ : BufTy).Contents (Elt F) → (⟨S4096, .i32⟩ : BufTy).Contents (Elt F) → (⟨S4096, .i32⟩ : BufTy).Contents (Elt F)),
    ternary main_v71 main_v73 main_v69 main_v74 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v74 main_v75 (broadcastInDim S4096x1 ![0] bcast_S4096_S4096x1_0 : (⟨S4096, .i32⟩ : BufTy).Contents (Elt F) → (⟨S4096x1, .i32⟩ : BufTy).Contents (Elt F)),
    binary main_arg6 main_v75 main_v76 ((fun x i => Host.gather gather_S1024x128_S4096x1_S4096x128_1_0_n_n_0_1_1128 x i) : (⟨S1024x128, .f32⟩ : BufTy).Contents (Elt F) → (⟨S4096x1, .i32⟩ : BufTy).Contents (Elt F) → (⟨S4096x128, .f32⟩ : BufTy).Contents (Elt F)),
    binary main_v67 main_v76 main_v77 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v77 main_arg22 main_v78 ((fun l r => Host.dotGeneral dot_S4096x256_S256x4_S4096x4_1_0_0_1_n_n none l r) : (⟨S4096x256, .f32⟩ : BufTy).Contents (Elt F) → (⟨S256x4, .f32⟩ : BufTy).Contents (Elt F) → (⟨S4096x4, .f32⟩ : BufTy).Contents (Elt F)),
    unary main_arg23 main_v79 (broadcastInDim S1x4 ![1] bcast_S4_S1x4_1 : (⟨S4, .f32⟩ : BufTy).Contents (Elt F) → (⟨S1x4, .f32⟩ : BufTy).Contents (Elt F)),
    unary main_v79 main_v80 (broadcastInDim S4096x4 ![0, 1] bcast_S1x4_S4096x4_0_1 : (⟨S1x4, .f32⟩ : BufTy).Contents (Elt F) → (⟨S4096x4, .f32⟩ : BufTy).Contents (Elt F)),
    binary main_v78 main_v80 main_v81 (addf : (⟨S4096x4, .f32⟩ : BufTy).Contents (Elt F) → (⟨S4096x4, .f32⟩ : BufTy).Contents (Elt F) → (⟨S4096x4, .f32⟩ : BufTy).Contents (Elt F)) ]

/-- Operations 135 … 152 of 177: the squared distances and their square roots. -/
abbrev p8 : List (HloOp τ sig (Elt F)) :=
  [ binary main_arg4 main_arg5 main_v82 ((fun l r => Host.dotGeneral dot_S8x128x3_S8x12288x3_S8x128x12288_2_2_1_1_0_0 none l r) : (⟨S8x128x3, .f32⟩ : BufTy).Contents (Elt F) → (⟨S8x12288x3, .f32⟩ : BufTy).Contents (Elt F) → (⟨S8x128x12288, .f32⟩ : BufTy).Contents (Elt F)),
    nullary main_cst_8 (constant S_ .f32 0xC0000000#32),
    unary main_cst_8 main_v83 (broadcastInDim S8x128x12288 ![] bcast_S_S8x128x12288 : (⟨S_, .f32⟩ : BufTy).Contents (Elt F) → (⟨S8x128x12288, .f32⟩ : BufTy).Contents (Elt F)),
    binary main_v83 main_v82 main_v84 (mulf : (⟨S8x128x12288, .f32⟩ : BufTy).Contents (Elt F) → (⟨S8x128x12288, .f32⟩ : BufTy).Contents (Elt F) → (⟨S8x128x12288, .f32⟩ : BufTy).Contents (Elt F)),
    binary main_arg5 main_arg5 main_v85 (mulf : (⟨S8x12288x3, .f32⟩ : BufTy).Contents (Elt F) → (⟨S8x12288x3, .f32⟩ : BufTy).Contents (Elt F) → (⟨S8x12288x3, .f32⟩ : BufTy).Contents (Elt F)),
    nullary main_cst_9 (constant S_ .f32 0x00000000#32),
    binary main_v85 main_cst_9 main_v86 ((fun x v => Host.reduceAdd x v reducesTo_S8x12288x3_S8x12288_d2 h_S_) : (⟨S8x12288x3, .f32⟩ : BufTy).Contents (Elt F) → (⟨S_, .f32⟩ : BufTy).Contents (Elt F) → (⟨S8x12288, .f32⟩ : BufTy).Contents (Elt F)),
    unary main_v86 main_v87 (broadcastInDim S8x1x12288 ![0, 2] bcast_S8x12288_S8x1x12288_0_2 : (⟨S8x12288, .f32⟩ : BufTy).Contents (Elt F) → (⟨S8x1x12288, .f32⟩ : BufTy).Contents (Elt F)),
    unary main_v87 main_v88 (broadcastInDim S8x128x12288 ![0, 1, 2] bcast_S8x1x12288_S8x128x12288_0_1_2 : (⟨S8x1x12288, .f32⟩ : BufTy).Contents (Elt F) → (⟨S8x128x12288, .f32⟩ : BufTy).Contents (Elt F)),
    binary main_v84 main_v88 main_v89 (addf : (⟨S8x128x12288, .f32⟩ : BufTy).Contents (Elt F) → (⟨S8x128x12288, .f32⟩ : BufTy).Contents (Elt F) → (⟨S8x128x12288, .f32⟩ : BufTy).Contents (Elt F)),
    binary main_arg4 main_arg4 main_v90 (mulf : (⟨S8x128x3, .f32⟩ : BufTy).Contents (Elt F) → (⟨S8x128x3, .f32⟩ : BufTy).Contents (Elt F) → (⟨S8x128x3, .f32⟩ : BufTy).Contents (Elt F)),
    nullary main_cst_10 (constant S_ .f32 0x00000000#32),
    binary main_v90 main_cst_10 main_v91 ((fun x v => Host.reduceAdd x v reducesTo_S8x128x3_S8x128_d2 h_S_) : (⟨S8x128x3, .f32⟩ : BufTy).Contents (Elt F) → (⟨S_, .f32⟩ : BufTy).Contents (Elt F) → (⟨S8x128, .f32⟩ : BufTy).Contents (Elt F)),
    unary main_v91 main_v92 (broadcastInDim S8x128x1 ![0, 1] bcast_S8x128_S8x128x1_0_1 : (⟨S8x128, .f32⟩ : BufTy).Contents (Elt F) → (⟨S8x128x1, .f32⟩ : BufTy).Contents (Elt F)),
    unary main_v92 main_v93 (broadcastInDim S8x128x12288 ![0, 1, 2] bcast_S8x128x1_S8x128x12288_0_1_2 : (⟨S8x128x1, .f32⟩ : BufTy).Contents (Elt F) → (⟨S8x128x12288, .f32⟩ : BufTy).Contents (Elt F)),
    binary main_v89 main_v93 main_v94 (addf : (⟨S8x128x12288, .f32⟩ : BufTy).Contents (Elt F) → (⟨S8x128x12288, .f32⟩ : BufTy).Contents (Elt F) → (⟨S8x128x12288, .f32⟩ : BufTy).Contents (Elt F)),
    unary main_v94 main_v95 (Host.sqrt : (⟨S8x128x12288, .f32⟩ : BufTy).Contents (Elt F) → (⟨S8x128x12288, .f32⟩ : BufTy).Contents (Elt F)),
    nullary main_cst_11 (constant S_ .f32 0x461C4000#32) ]

/-- Operations 153 … 168 of 177: nan_to_num of the distances. -/
abbrev p9 : List (HloOp τ sig (Elt F)) :=
  [ TRef.binary (.of main_v95) (.of main_v95) main_call3.v0 (cmpf .une),
    TRef.unary (.of main_cst_11) main_call3.v1 id,
    TRef.unary main_call3.v1 main_call3.call0.v0 (broadcastInDim S8x128x12288 ![] bcast_S_S8x128x12288),
    TRef.ternary main_call3.v0 main_call3.call0.v0 (.of main_v95) main_call3.call0.v1 select,
    TRef.nullary main_call3.cst (constant S_ .f32 0x7F800000#32),
    TRef.unary main_call3.cst main_call3.v3 (broadcastInDim S8x128x12288 ![] bcast_S_S8x128x12288),
    TRef.binary main_call3.call0.v1 main_call3.v3 main_call3.v4 (cmpf .oeq),
    TRef.nullary main_call3.cst_0 (constant S_ .f32 0x7F7FFFFF#32),
    TRef.unary main_call3.cst_0 main_call3.call1.v0 (broadcastInDim S8x128x12288 ![] bcast_S_S8x128x12288),
    TRef.ternary main_call3.v4 main_call3.call1.v0 main_call3.call0.v1 main_call3.call1.v1 select,
    TRef.nullary main_call3.cst_1 (constant S_ .f32 0xFF800000#32),
    TRef.unary main_call3.cst_1 main_call3.v6 (broadcastInDim S8x128x12288 ![] bcast_S_S8x128x12288),
    TRef.binary main_call3.call1.v1 main_call3.v6 main_call3.v7 (cmpf .oeq),
    TRef.nullary main_call3.cst_2 (constant S_ .f32 0xFF7FFFFF#32),
    TRef.unary main_call3.cst_2 main_call3.call2.v0 (broadcastInDim S8x128x12288 ![] bcast_S_S8x128x12288),
    TRef.ternary main_call3.v7 main_call3.call2.v0 main_call3.call1.v1 main_call3.call2.v1 select ]

/-- Operations 169 … 177 of 177: the minimum over each atom's points; the batch numbers. -/
abbrev p10 : List (HloOp τ sig (Elt F)) :=
  [ reshape main_v96 main_v97 rfl shapeCasts_S8x128x12288_S8x128x512x24,
    nullary main_cst_12 (constant S_ .f32 0x7F800000#32),
    binary main_v97 main_cst_12 main_v98 ((fun x v => Host.reduce FloatOps.minimumf x v reducesTo_S8x128x512x24_S8x128x512_d3 h_S_) : (⟨S8x128x512x24, .f32⟩ : BufTy).Contents (Elt F) → (⟨S_, .f32⟩ : BufTy).Contents (Elt F) → (⟨S8x128x512, .f32⟩ : BufTy).Contents (Elt F)),
    reshape main_v98 main_v99 rfl shapeCasts_S8x128x512_S524288,
    unary main_v99 main_v100 (broadcastInDim S524288x1 ![0] bcast_S524288_S524288x1_0 : (⟨S524288, .f32⟩ : BufTy).Contents (Elt F) → (⟨S524288x1, .f32⟩ : BufTy).Contents (Elt F)),
    nullary main_v101 (iotaInDim S8 32 0),
    unary main_v101 main_v102 (broadcastInDim S8x1x1 ![0] bcast_S8_S8x1x1_0 : (⟨S8, .i32⟩ : BufTy).Contents (Elt F) → (⟨S8x1x1, .i32⟩ : BufTy).Contents (Elt F)),
    unary main_v102 main_v103 (broadcastInDim S8x128x512 ![0, 1, 2] bcast_S8x1x1_S8x128x512_0_1_2 : (⟨S8x1x1, .i32⟩ : BufTy).Contents (Elt F) → (⟨S8x128x512, .i32⟩ : BufTy).Contents (Elt F)),
    reshape main_v103 main_v104 rfl shapeCasts_S8x128x512_S524288 ]

/-- The operations of the first sixty statements of the main function. -/
abbrev ops0 : List (HloOp τ sig (Elt F)) := p1 ++ (p2 ++ (p3 ++ (p4 ++ p5)))
/-- The operations of statements 61 … 120. -/
abbrev ops1 : List (HloOp τ sig (Elt F)) := p6 ++ (p7 ++ (p8 ++ (p9 ++ p10)))
/-- All 177 operations, in order. -/
abbrev ops : List (HloOp τ sig (Elt F)) := ops0 ++ ops1

set_option maxRecDepth 65536 in
set_option maxHeartbeats 4000000 in
/-- The first sixty statements are that straight line: the called functions unfolded at their calls, both sides
    are one chain of steps once sequencing is reassociated. -/
theorem main_part0_eq (c : Dev nD) : main_part0 (F := F) c = seq ops0 := by
  simp only [main_part0, fn_elu.body, fn_elu_1.body, fn_nan_to_num.body, fn_where.body, fn_where_0.body, fn_where_2.body, fn_where_3.body, fn_where_4.body, ops0, p1, p2, p3, p4, p5, List.cons_append, List.nil_append, seq, bind_assoc, pure_bind]
  rfl

set_option maxRecDepth 65536 in
set_option maxHeartbeats 4000000 in
/-- Statements 61 … 120 likewise. -/
theorem main_part1_eq (c : Dev nD) : main_part1 (F := F) c = seq ops1 := by
  simp only [main_part1, fn_elu.body, fn_elu_1.body, fn_nan_to_num.body, fn_where.body, fn_where_0.body, fn_where_2.body, fn_where_3.body, fn_where_4.body, ops1, p6, p7, p8, p9, p10, List.cons_append, List.nil_append, seq, bind_assoc, pure_bind]
  rfl

/-- The main function is the whole line. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem p1_sub : (p1 : List (HloOp τ sig (Elt F))).Forall fun op => op.bufs ⊆ tcRefs τ sig :=
  ⟨unary_bufs_sub .., unary_bufs_sub .., unary_bufs_sub .., unary_bufs_sub .., binary_bufs_sub .., reshape_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem p2_sub : (p2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem p3_sub : (p3 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem p4_sub : (p4 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub ..⟩
theorem p5_sub : (p5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub ..⟩
theorem p6_sub : (p6 : List (HloOp τ sig (Elt F))).Forall fun op => op.bufs ⊆ tcRefs τ sig :=
  ⟨binary_bufs_sub .., binary_bufs_sub .., unary_bufs_sub .., unary_bufs_sub .., binary_bufs_sub ..⟩
theorem p7_sub : (p7 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub ..⟩
theorem p8_sub : (p8 : List (HloOp τ sig (Elt F))).Forall fun op => op.bufs ⊆ tcRefs τ sig :=
  ⟨binary_bufs_sub .., nullary_bufs_sub .., unary_bufs_sub .., binary_bufs_sub .., binary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub .., unary_bufs_sub .., nullary_bufs_sub ..⟩
theorem p9_sub : (p9 : List (HloOp τ sig (Elt F))).Forall fun op => op.bufs ⊆ tcRefs τ sig :=
  ⟨binary_bufs_sub .., unary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub ..⟩
theorem p10_sub : (p10 : List (HloOp τ sig (Elt F))).Forall fun op => op.bufs ⊆ tcRefs τ sig :=
  ⟨reshape_bufs_sub .., nullary_bufs_sub .., binary_bufs_sub .., reshape_bufs_sub .., unary_bufs_sub .., nullary_bufs_sub .., unary_bufs_sub .., unary_bufs_sub .., reshape_bufs_sub ..⟩
theorem ops_sub : (ops : List (HloOp τ sig (Elt F))).Forall fun op => op.bufs ⊆ tcRefs τ sig :=
  List.forall_iff_forall_mem.mpr fun op h => by
    simp only [ops, ops0, ops1, List.mem_append] at h
    rcases h with (h | h | h | h | h) | (h | h | h | h | h)
    exacts [List.forall_iff_forall_mem.mp p1_sub op h, List.forall_iff_forall_mem.mp p2_sub op h, List.forall_iff_forall_mem.mp p3_sub op h, List.forall_iff_forall_mem.mp p4_sub op h, List.forall_iff_forall_mem.mp p5_sub op h, List.forall_iff_forall_mem.mp p6_sub op h, List.forall_iff_forall_mem.mp p7_sub op h, List.forall_iff_forall_mem.mp p8_sub op h, List.forall_iff_forall_mem.mp p9_sub op h, List.forall_iff_forall_mem.mp p10_sub op h]

/-! ## The buffers after each stretch -/

/-- The contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl
theorem val0_main_arg20 (V0 : Valuation τ sig (Elt F)) : val0 V0 (no_index (Proc.devRef .tc main_arg20)) = V0 (Proc.devRef .tc main_arg20) := rfl
theorem val0_main_arg21 (V0 : Valuation τ sig (Elt F)) : val0 V0 (no_index (Proc.devRef .tc main_arg21)) = V0 (Proc.devRef .tc main_arg21) := rfl
theorem val0_main_arg22 (V0 : Valuation τ sig (Elt F)) : val0 V0 (no_index (Proc.devRef .tc main_arg22)) = V0 (Proc.devRef .tc main_arg22) := rfl
theorem val0_main_arg23 (V0 : Valuation τ sig (Elt F)) : val0 V0 (no_index (Proc.devRef .tc main_arg23)) = V0 (Proc.devRef .tc main_arg23) := rfl

/-- The contents after the first 1 stretch. -/
def val1 (V0 : Valuation τ sig (Elt F)) : Valuation τ sig (Elt F) := after p1 (val0 V0)
/-- The buffers stretch 1 writes. -/
abbrev p1_W : List (Ref sig .tc) := [main_v0, main_v1, main_v2, main_v3, main_v4, main_v5, main_v6, main_v7, main_v8, main_v9, main_v10, main_v11, main_v12, main_cst, main_v13, main_v14, main_v15, main_v16, main_v17, main_v18, main_v19, main_v20, main_v21, main_v22, main_v23, main_v24]
theorem p1_writes : (p1 : List (HloOp τ sig (Elt F))).Forall fun op => op.writes ⊆ (p1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 1 does not write keeps its contents through it. -/
theorem val1_keep (V0 : Valuation τ sig (Elt F)) (r : Ref sig .tc) (h : r ∉ p1_W) :
    val1 V0 (Proc.devRef .tc r) = val0 V0 (Proc.devRef .tc r) :=
  after_of_writes_sub p1 _ p1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
theorem val1_main_arg19 (V0 : Valuation τ sig (Elt F)) : val1 V0 (no_index (Proc.devRef .tc main_arg19)) = V0 (Proc.devRef .tc main_arg19) :=
  (val1_keep V0 main_arg19 (by decide)).trans (val0_main_arg19 V0)
theorem val1_main_arg20 (V0 : Valuation τ sig (Elt F)) : val1 V0 (no_index (Proc.devRef .tc main_arg20)) = V0 (Proc.devRef .tc main_arg20) :=
  (val1_keep V0 main_arg20 (by decide)).trans (val0_main_arg20 V0)
theorem val1_main_arg21 (V0 : Valuation τ sig (Elt F)) : val1 V0 (no_index (Proc.devRef .tc main_arg21)) = V0 (Proc.devRef .tc main_arg21) :=
  (val1_keep V0 main_arg21 (by decide)).trans (val0_main_arg21 V0)
theorem val1_main_arg22 (V0 : Valuation τ sig (Elt F)) : val1 V0 (no_index (Proc.devRef .tc main_arg22)) = V0 (Proc.devRef .tc main_arg22) :=
  (val1_keep V0 main_arg22 (by decide)).trans (val0_main_arg22 V0)
theorem val1_main_arg23 (V0 : Valuation τ sig (Elt F)) : val1 V0 (no_index (Proc.devRef .tc main_arg23)) = V0 (Proc.devRef .tc main_arg23) :=
  (val1_keep V0 main_arg23 (by decide)).trans (val0_main_arg23 V0)
set_option maxRecDepth 65536 in
set_option maxHeartbeats 5200000 in
theorem val1_main_v24 (V0 : Valuation τ sig (Elt F)) : val1 V0 (no_index (Proc.devRef .tc main_v24)) = RefTerms.pre_act (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold val1
  simp only [p1]
  after_results_simp
  simp only [val0_main_arg11, val0_main_arg10, val0_main_arg13, val0_main_arg12, val0_main_arg9, val0_main_arg8, val0_main_arg1, val0_main_arg0] <;> rfl

/-- The contents after the first 2 stretches. -/
def val2 (V0 : Valuation τ sig (Elt F)) : Valuation τ sig (Elt F) := after p2 (val1 V0)
/-- The buffers stretch 2 writes. -/
abbrev p2_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v25]
theorem p2_writes : (p2 : List (HloOp τ sig (Elt F))).Forall fun op => op.writes ⊆ (p2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 2 does not write keeps its contents through it. -/
theorem val2_keep (V0 : Valuation τ sig (Elt F)) (r : Ref sig .tc) (h : r ∉ p2_W) :
    val2 V0 (Proc.devRef .tc r) = val1 V0 (Proc.devRef .tc r) :=
  after_of_writes_sub p2 _ p2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_arg20 (V0 : Valuation τ sig (Elt F)) : val2 V0 (no_index (Proc.devRef .tc main_arg20)) = V0 (Proc.devRef .tc main_arg20) :=
  (val2_keep V0 main_arg20 (by decide)).trans (val1_main_arg20 V0)
theorem val2_main_arg21 (V0 : Valuation τ sig (Elt F)) : val2 V0 (no_index (Proc.devRef .tc main_arg21)) = V0 (Proc.devRef .tc main_arg21) :=
  (val2_keep V0 main_arg21 (by decide)).trans (val1_main_arg21 V0)
theorem val2_main_arg22 (V0 : Valuation τ sig (Elt F)) : val2 V0 (no_index (Proc.devRef .tc main_arg22)) = V0 (Proc.devRef .tc main_arg22) :=
  (val2_keep V0 main_arg22 (by decide)).trans (val1_main_arg22 V0)
theorem val2_main_arg23 (V0 : Valuation τ sig (Elt F)) : val2 V0 (no_index (Proc.devRef .tc main_arg23)) = V0 (Proc.devRef .tc main_arg23) :=
  (val2_keep V0 main_arg23 (by decide)).trans (val1_main_arg23 V0)
set_option maxRecDepth 65536 in
set_option maxHeartbeats 3000000 in
theorem val2_main_v25 (V0 : Valuation τ sig (Elt F)) : val2 V0 (no_index (Proc.devRef .tc main_v25)) = RefTerms.hidden (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold val2
  simp only [p2]
  after_results_simp
  simp only [val1_main_v24] <;> rfl

/-- The contents after the first 3 stretches. -/
def val3 (V0 : Valuation τ sig (Elt F)) : Valuation τ sig (Elt F) := after p3 (val2 V0)
/-- The buffers stretch 3 writes. -/
abbrev p3_W : List (Ref sig .tc) := [main_v26, main_v27, main_v28, main_v29, main_cst_0, main_v30, main_cst_1, main_v31, main_v32, main_v33, main_v34, main_v35, main_v36, main_cst_2, main_v37, main_v38, main_v39, main_v40]
theorem p3_writes : (p3 : List (HloOp τ sig (Elt F))).Forall fun op => op.writes ⊆ (p3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 3 does not write keeps its contents through it. -/
theorem val3_keep (V0 : Valuation τ sig (Elt F)) (r : Ref sig .tc) (h : r ∉ p3_W) :
    val3 V0 (Proc.devRef .tc r) = val2 V0 (Proc.devRef .tc r) :=
  after_of_writes_sub p3 _ p3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_arg20 (V0 : Valuation τ sig (Elt F)) : val3 V0 (no_index (Proc.devRef .tc main_arg20)) = V0 (Proc.devRef .tc main_arg20) :=
  (val3_keep V0 main_arg20 (by decide)).trans (val2_main_arg20 V0)
theorem val3_main_arg21 (V0 : Valuation τ sig (Elt F)) : val3 V0 (no_index (Proc.devRef .tc main_arg21)) = V0 (Proc.devRef .tc main_arg21) :=
  (val3_keep V0 main_arg21 (by decide)).trans (val2_main_arg21 V0)
theorem val3_main_arg22 (V0 : Valuation τ sig (Elt F)) : val3 V0 (no_index (Proc.devRef .tc main_arg22)) = V0 (Proc.devRef .tc main_arg22) :=
  (val3_keep V0 main_arg22 (by decide)).trans (val2_main_arg22 V0)
theorem val3_main_arg23 (V0 : Valuation τ sig (Elt F)) : val3 V0 (no_index (Proc.devRef .tc main_arg23)) = V0 (Proc.devRef .tc main_arg23) :=
  (val3_keep V0 main_arg23 (by decide)).trans (val2_main_arg23 V0)
theorem val3_main_v25 (V0 : Valuation τ sig (Elt F)) : val3 V0 (no_index (Proc.devRef .tc main_v25)) = RefTerms.hidden (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (val3_keep V0 main_v25 (by decide)).trans (val2_main_v25 V0)
set_option maxRecDepth 65536 in
set_option maxHeartbeats 3600000 in
theorem val3_main_v40 (V0 : Valuation τ sig (Elt F)) : val3 V0 (no_index (Proc.devRef .tc main_v40)) = RefTerms.pi_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val3
  simp only [p3]
  after_results_simp
  simp only [val2_main_arg15, val2_main_arg14, val2_main_v25] <;> rfl

/-- The contents after the first 4 stretches. -/
def val4 (V0 : Valuation τ sig (Elt F)) : Valuation τ sig (Elt F) := after p4 (val3 V0)
/-- The buffers stretch 4 writes. -/
abbrev p4_W : List (Ref sig .tc) := [main_v41, main_v42, main_v43, main_v44, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v45, main_cst_3, main_v46, main_v47]
theorem p4_writes : (p4 : List (HloOp τ sig (Elt F))).Forall fun op => op.writes ⊆ (p4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 4 does not write keeps its contents through it. -/
theorem val4_keep (V0 : Valuation τ sig (Elt F)) (r : Ref sig .tc) (h : r ∉ p4_W) :
    val4 V0 (Proc.devRef .tc r) = val3 V0 (Proc.devRef .tc r) :=
  after_of_writes_sub p4 _ p4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_arg20 (V0 : Valuation τ sig (Elt F)) : val4 V0 (no_index (Proc.devRef .tc main_arg20)) = V0 (Proc.devRef .tc main_arg20) :=
  (val4_keep V0 main_arg20 (by decide)).trans (val3_main_arg20 V0)
theorem val4_main_arg21 (V0 : Valuation τ sig (Elt F)) : val4 V0 (no_index (Proc.devRef .tc main_arg21)) = V0 (Proc.devRef .tc main_arg21) :=
  (val4_keep V0 main_arg21 (by decide)).trans (val3_main_arg21 V0)
theorem val4_main_arg22 (V0 : Valuation τ sig (Elt F)) : val4 V0 (no_index (Proc.devRef .tc main_arg22)) = V0 (Proc.devRef .tc main_arg22) :=
  (val4_keep V0 main_arg22 (by decide)).trans (val3_main_arg22 V0)
theorem val4_main_arg23 (V0 : Valuation τ sig (Elt F)) : val4 V0 (no_index (Proc.devRef .tc main_arg23)) = V0 (Proc.devRef .tc main_arg23) :=
  (val4_keep V0 main_arg23 (by decide)).trans (val3_main_arg23 V0)
theorem val4_main_v25 (V0 : Valuation τ sig (Elt F)) : val4 V0 (no_index (Proc.devRef .tc main_v25)) = RefTerms.hidden (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (val4_keep V0 main_v25 (by decide)).trans (val3_main_v25 V0)
theorem val4_main_v40 (V0 : Valuation τ sig (Elt F)) : val4 V0 (no_index (Proc.devRef .tc main_v40)) = RefTerms.pi_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val4_keep V0 main_v40 (by decide)).trans (val3_main_v40 V0)
set_option maxRecDepth 65536 in
set_option maxHeartbeats 4400000 in
theorem val4_main_v47 (V0 : Valuation τ sig (Elt F)) : val4 V0 (no_index (Proc.devRef .tc main_v47)) = RefTerms.sigma_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17)) := by
  unfold val4
  simp only [p4]
  after_results_simp
  simp only [val3_main_arg17, val3_main_arg16, val3_main_v25] <;> rfl

/-- The contents after the first 5 stretches. -/
def val5 (V0 : Valuation τ sig (Elt F)) : Valuation τ sig (Elt F) := after p5 (val4 V0)
/-- The buffers stretch 5 writes. -/
abbrev p5_W : List (Ref sig .tc) := [main_v48, main_v49, main_v50, main_v51, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v52, main_cst_4, main_v53]
theorem p5_writes : (p5 : List (HloOp τ sig (Elt F))).Forall fun op => op.writes ⊆ (p5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 5 does not write keeps its contents through it. -/
theorem val5_keep (V0 : Valuation τ sig (Elt F)) (r : Ref sig .tc) (h : r ∉ p5_W) :
    val5 V0 (Proc.devRef .tc r) = val4 V0 (Proc.devRef .tc r) :=
  after_of_writes_sub p5 _ p5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_arg19 (V0 : Valuation τ sig (Elt F)) : val5 V0 (no_index (Proc.devRef .tc main_arg19)) = V0 (Proc.devRef .tc main_arg19) :=
  (val5_keep V0 main_arg19 (by decide)).trans (val4_main_arg19 V0)
theorem val5_main_arg20 (V0 : Valuation τ sig (Elt F)) : val5 V0 (no_index (Proc.devRef .tc main_arg20)) = V0 (Proc.devRef .tc main_arg20) :=
  (val5_keep V0 main_arg20 (by decide)).trans (val4_main_arg20 V0)
theorem val5_main_arg21 (V0 : Valuation τ sig (Elt F)) : val5 V0 (no_index (Proc.devRef .tc main_arg21)) = V0 (Proc.devRef .tc main_arg21) :=
  (val5_keep V0 main_arg21 (by decide)).trans (val4_main_arg21 V0)
theorem val5_main_arg22 (V0 : Valuation τ sig (Elt F)) : val5 V0 (no_index (Proc.devRef .tc main_arg22)) = V0 (Proc.devRef .tc main_arg22) :=
  (val5_keep V0 main_arg22 (by decide)).trans (val4_main_arg22 V0)
theorem val5_main_arg23 (V0 : Valuation τ sig (Elt F)) : val5 V0 (no_index (Proc.devRef .tc main_arg23)) = V0 (Proc.devRef .tc main_arg23) :=
  (val5_keep V0 main_arg23 (by decide)).trans (val4_main_arg23 V0)
theorem val5_main_v40 (V0 : Valuation τ sig (Elt F)) : val5 V0 (no_index (Proc.devRef .tc main_v40)) = RefTerms.pi_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val5_keep V0 main_v40 (by decide)).trans (val4_main_v40 V0)
theorem val5_main_v47 (V0 : Valuation τ sig (Elt F)) : val5 V0 (no_index (Proc.devRef .tc main_v47)) = RefTerms.sigma_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17)) :=
  (val5_keep V0 main_v47 (by decide)).trans (val4_main_v47 V0)
set_option maxRecDepth 65536 in
set_option maxHeartbeats 4200000 in
theorem val5_main_v52 (V0 : Valuation τ sig (Elt F)) : val5 V0 (no_index (Proc.devRef .tc main_v52)) = RefTerms.elu10 (RefTerms.logits (RefTerms.hidden (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))) (V0 (Proc.devRef .tc main_arg18)) (V0 (Proc.devRef .tc main_arg19))) := by
  unfold val5
  simp only [p5]
  after_results_simp
  simp only [val4_main_arg19, val4_main_arg18, val4_main_v25] <;> rfl
set_option maxRecDepth 65536 in
set_option maxHeartbeats 4200000 in
theorem val5_main_v53 (V0 : Valuation τ sig (Elt F)) : val5 V0 (no_index (Proc.devRef .tc main_v53)) = broadcastInDim S524288x10 ![] bcast_S_S524288x10 (constant S_ .f32 0x3F800000#32) := by
  unfold val5
  simp only [p5]
  after_results_simp
  all_goals rfl

/-- The contents after the first 6 stretches. -/
def val6 (V0 : Valuation τ sig (Elt F)) : Valuation τ sig (Elt F) := after p6 (val5 V0)
/-- The buffers stretch 6 writes. -/
abbrev p6_W : List (Ref sig .tc) := [main_v54, main_v55, main_v56, main_v57, main_v58]
theorem p6_writes : (p6 : List (HloOp τ sig (Elt F))).Forall fun op => op.writes ⊆ (p6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 6 does not write keeps its contents through it. -/
theorem val6_keep (V0 : Valuation τ sig (Elt F)) (r : Ref sig .tc) (h : r ∉ p6_W) :
    val6 V0 (Proc.devRef .tc r) = val5 V0 (Proc.devRef .tc r) :=
  after_of_writes_sub p6 _ p6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
theorem val6_main_arg19 (V0 : Valuation τ sig (Elt F)) : val6 V0 (no_index (Proc.devRef .tc main_arg19)) = V0 (Proc.devRef .tc main_arg19) :=
  (val6_keep V0 main_arg19 (by decide)).trans (val5_main_arg19 V0)
theorem val6_main_arg20 (V0 : Valuation τ sig (Elt F)) : val6 V0 (no_index (Proc.devRef .tc main_arg20)) = V0 (Proc.devRef .tc main_arg20) :=
  (val6_keep V0 main_arg20 (by decide)).trans (val5_main_arg20 V0)
theorem val6_main_arg21 (V0 : Valuation τ sig (Elt F)) : val6 V0 (no_index (Proc.devRef .tc main_arg21)) = V0 (Proc.devRef .tc main_arg21) :=
  (val6_keep V0 main_arg21 (by decide)).trans (val5_main_arg21 V0)
theorem val6_main_arg22 (V0 : Valuation τ sig (Elt F)) : val6 V0 (no_index (Proc.devRef .tc main_arg22)) = V0 (Proc.devRef .tc main_arg22) :=
  (val6_keep V0 main_arg22 (by decide)).trans (val5_main_arg22 V0)
theorem val6_main_arg23 (V0 : Valuation τ sig (Elt F)) : val6 V0 (no_index (Proc.devRef .tc main_arg23)) = V0 (Proc.devRef .tc main_arg23) :=
  (val6_keep V0 main_arg23 (by decide)).trans (val5_main_arg23 V0)
theorem val6_main_v40 (V0 : Valuation τ sig (Elt F)) : val6 V0 (no_index (Proc.devRef .tc main_v40)) = RefTerms.pi_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val6_keep V0 main_v40 (by decide)).trans (val5_main_v40 V0)
theorem val6_main_v47 (V0 : Valuation τ sig (Elt F)) : val6 V0 (no_index (Proc.devRef .tc main_v47)) = RefTerms.sigma_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17)) :=
  (val6_keep V0 main_v47 (by decide)).trans (val5_main_v47 V0)
set_option maxRecDepth 65536 in
set_option maxHeartbeats 1000000 in
theorem val6_main_v54 (V0 : Valuation τ sig (Elt F)) : val6 V0 (no_index (Proc.devRef .tc main_v54)) = RefTerms.mu_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg18)) (V0 (Proc.devRef .tc main_arg19)) := by
  unfold val6
  simp only [p6]
  after_results_simp
  simp only [val5_main_v53, val5_main_v52] <;> rfl
set_option maxRecDepth 65536 in
set_option maxHeartbeats 1000000 in
theorem val6_main_v58 (V0 : Valuation τ sig (Elt F)) : val6 V0 (no_index (Proc.devRef .tc main_v58)) = RefTerms.nuc_term (V0 (Proc.devRef .tc main_arg6)) (V0 (Proc.devRef .tc main_arg20)) (V0 (Proc.devRef .tc main_arg21)) := by
  unfold val6
  simp only [p6]
  after_results_simp
  simp only [val5_main_arg21, val5_main_arg20, val5_main_arg6] <;> rfl

/-- The contents after the first 7 stretches. -/
def val7 (V0 : Valuation τ sig (Elt F)) : Valuation τ sig (Elt F) := after p7 (val6 V0)
/-- The buffers stretch 7 writes. -/
abbrev p7_W : List (Ref sig .tc) := [main_v59, main_v60, main_c, main_v61, main_v62, main_c_5, main_v63, main_v64, main_v65, main_v66, main_v67, main_v68, main_v69, main_c_6, main_v70, main_v71, main_c_7, main_v72, main_v73, main_v74, main_v75, main_v76, main_v77, main_v78, main_v79, main_v80, main_v81]
theorem p7_writes : (p7 : List (HloOp τ sig (Elt F))).Forall fun op => op.writes ⊆ (p7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 7 does not write keeps its contents through it. -/
theorem val7_keep (V0 : Valuation τ sig (Elt F)) (r : Ref sig .tc) (h : r ∉ p7_W) :
    val7 V0 (Proc.devRef .tc r) = val6 V0 (Proc.devRef .tc r) :=
  after_of_writes_sub p7 _ p7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_arg18 (V0 : Valuation τ sig (Elt F)) : val7 V0 (no_index (Proc.devRef .tc main_arg18)) = V0 (Proc.devRef .tc main_arg18) :=
  (val7_keep V0 main_arg18 (by decide)).trans (val6_main_arg18 V0)
theorem val7_main_arg19 (V0 : Valuation τ sig (Elt F)) : val7 V0 (no_index (Proc.devRef .tc main_arg19)) = V0 (Proc.devRef .tc main_arg19) :=
  (val7_keep V0 main_arg19 (by decide)).trans (val6_main_arg19 V0)
theorem val7_main_arg20 (V0 : Valuation τ sig (Elt F)) : val7 V0 (no_index (Proc.devRef .tc main_arg20)) = V0 (Proc.devRef .tc main_arg20) :=
  (val7_keep V0 main_arg20 (by decide)).trans (val6_main_arg20 V0)
theorem val7_main_arg21 (V0 : Valuation τ sig (Elt F)) : val7 V0 (no_index (Proc.devRef .tc main_arg21)) = V0 (Proc.devRef .tc main_arg21) :=
  (val7_keep V0 main_arg21 (by decide)).trans (val6_main_arg21 V0)
theorem val7_main_arg22 (V0 : Valuation τ sig (Elt F)) : val7 V0 (no_index (Proc.devRef .tc main_arg22)) = V0 (Proc.devRef .tc main_arg22) :=
  (val7_keep V0 main_arg22 (by decide)).trans (val6_main_arg22 V0)
theorem val7_main_arg23 (V0 : Valuation τ sig (Elt F)) : val7 V0 (no_index (Proc.devRef .tc main_arg23)) = V0 (Proc.devRef .tc main_arg23) :=
  (val7_keep V0 main_arg23 (by decide)).trans (val6_main_arg23 V0)
theorem val7_main_v40 (V0 : Valuation τ sig (Elt F)) : val7 V0 (no_index (Proc.devRef .tc main_v40)) = RefTerms.pi_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val7_keep V0 main_v40 (by decide)).trans (val6_main_v40 V0)
theorem val7_main_v47 (V0 : Valuation τ sig (Elt F)) : val7 V0 (no_index (Proc.devRef .tc main_v47)) = RefTerms.sigma_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17)) :=
  (val7_keep V0 main_v47 (by decide)).trans (val6_main_v47 V0)
theorem val7_main_v54 (V0 : Valuation τ sig (Elt F)) : val7 V0 (no_index (Proc.devRef .tc main_v54)) = RefTerms.mu_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg18)) (V0 (Proc.devRef .tc main_arg19)) :=
  (val7_keep V0 main_v54 (by decide)).trans (val6_main_v54 V0)
theorem val7_main_v58 (V0 : Valuation τ sig (Elt F)) : val7 V0 (no_index (Proc.devRef .tc main_v58)) = RefTerms.nuc_term (V0 (Proc.devRef .tc main_arg6)) (V0 (Proc.devRef .tc main_arg20)) (V0 (Proc.devRef .tc main_arg21)) :=
  (val7_keep V0 main_v58 (by decide)).trans (val6_main_v58 V0)
set_option maxRecDepth 65536 in
set_option maxHeartbeats 5400000 in
theorem val7_main_v81 (V0 : Valuation τ sig (Elt F)) : val7 V0 (no_index (Proc.devRef .tc main_v81)) = RefTerms.bond_term (V0 (Proc.devRef .tc main_arg6)) (V0 (Proc.devRef .tc main_arg7)) (V0 (Proc.devRef .tc main_arg22)) (V0 (Proc.devRef .tc main_arg23)) := by
  unfold val7
  simp only [p7]
  after_results_simp
  simp only [val6_main_arg23, val6_main_arg22, val6_main_arg7, val6_main_arg6] <;> rfl

/-- The contents after the first 8 stretches. -/
def val8 (V0 : Valuation τ sig (Elt F)) : Valuation τ sig (Elt F) := after p8 (val7 V0)
/-- The buffers stretch 8 writes. -/
abbrev p8_W : List (Ref sig .tc) := [main_v82, main_cst_8, main_v83, main_v84, main_v85, main_cst_9, main_v86, main_v87, main_v88, main_v89, main_v90, main_cst_10, main_v91, main_v92, main_v93, main_v94, main_v95, main_cst_11]
theorem p8_writes : (p8 : List (HloOp τ sig (Elt F))).Forall fun op => op.writes ⊆ (p8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 8 does not write keeps its contents through it. -/
theorem val8_keep (V0 : Valuation τ sig (Elt F)) (r : Ref sig .tc) (h : r ∉ p8_W) :
    val8 V0 (Proc.devRef .tc r) = val7 V0 (Proc.devRef .tc r) :=
  after_of_writes_sub p8 _ p8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_arg18 (V0 : Valuation τ sig (Elt F)) : val8 V0 (no_index (Proc.devRef .tc main_arg18)) = V0 (Proc.devRef .tc main_arg18) :=
  (val8_keep V0 main_arg18 (by decide)).trans (val7_main_arg18 V0)
theorem val8_main_arg19 (V0 : Valuation τ sig (Elt F)) : val8 V0 (no_index (Proc.devRef .tc main_arg19)) = V0 (Proc.devRef .tc main_arg19) :=
  (val8_keep V0 main_arg19 (by decide)).trans (val7_main_arg19 V0)
theorem val8_main_arg20 (V0 : Valuation τ sig (Elt F)) : val8 V0 (no_index (Proc.devRef .tc main_arg20)) = V0 (Proc.devRef .tc main_arg20) :=
  (val8_keep V0 main_arg20 (by decide)).trans (val7_main_arg20 V0)
theorem val8_main_arg21 (V0 : Valuation τ sig (Elt F)) : val8 V0 (no_index (Proc.devRef .tc main_arg21)) = V0 (Proc.devRef .tc main_arg21) :=
  (val8_keep V0 main_arg21 (by decide)).trans (val7_main_arg21 V0)
theorem val8_main_arg22 (V0 : Valuation τ sig (Elt F)) : val8 V0 (no_index (Proc.devRef .tc main_arg22)) = V0 (Proc.devRef .tc main_arg22) :=
  (val8_keep V0 main_arg22 (by decide)).trans (val7_main_arg22 V0)
theorem val8_main_arg23 (V0 : Valuation τ sig (Elt F)) : val8 V0 (no_index (Proc.devRef .tc main_arg23)) = V0 (Proc.devRef .tc main_arg23) :=
  (val8_keep V0 main_arg23 (by decide)).trans (val7_main_arg23 V0)
theorem val8_main_v40 (V0 : Valuation τ sig (Elt F)) : val8 V0 (no_index (Proc.devRef .tc main_v40)) = RefTerms.pi_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val8_keep V0 main_v40 (by decide)).trans (val7_main_v40 V0)
theorem val8_main_v47 (V0 : Valuation τ sig (Elt F)) : val8 V0 (no_index (Proc.devRef .tc main_v47)) = RefTerms.sigma_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17)) :=
  (val8_keep V0 main_v47 (by decide)).trans (val7_main_v47 V0)
theorem val8_main_v54 (V0 : Valuation τ sig (Elt F)) : val8 V0 (no_index (Proc.devRef .tc main_v54)) = RefTerms.mu_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg18)) (V0 (Proc.devRef .tc main_arg19)) :=
  (val8_keep V0 main_v54 (by decide)).trans (val7_main_v54 V0)
theorem val8_main_v58 (V0 : Valuation τ sig (Elt F)) : val8 V0 (no_index (Proc.devRef .tc main_v58)) = RefTerms.nuc_term (V0 (Proc.devRef .tc main_arg6)) (V0 (Proc.devRef .tc main_arg20)) (V0 (Proc.devRef .tc main_arg21)) :=
  (val8_keep V0 main_v58 (by decide)).trans (val7_main_v58 V0)
theorem val8_main_v81 (V0 : Valuation τ sig (Elt F)) : val8 V0 (no_index (Proc.devRef .tc main_v81)) = RefTerms.bond_term (V0 (Proc.devRef .tc main_arg6)) (V0 (Proc.devRef .tc main_arg7)) (V0 (Proc.devRef .tc main_arg22)) (V0 (Proc.devRef .tc main_arg23)) :=
  (val8_keep V0 main_v81 (by decide)).trans (val7_main_v81 V0)
set_option maxRecDepth 65536 in
set_option maxHeartbeats 3600000 in
theorem val8_main_v95 (V0 : Valuation τ sig (Elt F)) : val8 V0 (no_index (Proc.devRef .tc main_v95)) = Host.sqrt (RefTerms.d2_term (V0 (Proc.devRef .tc main_arg4)) (V0 (Proc.devRef .tc main_arg5))) := by
  unfold val8
  simp only [p8]
  after_results_simp
  simp only [val7_main_arg4, val7_main_arg5] <;> rfl
set_option maxRecDepth 65536 in
set_option maxHeartbeats 3600000 in
theorem val8_main_cst_11 (V0 : Valuation τ sig (Elt F)) : val8 V0 (no_index (Proc.devRef .tc main_cst_11)) = constant S_ .f32 0x461C4000#32 := by
  unfold val8
  simp only [p8]
  after_results_simp
  all_goals rfl

/-- The contents after the first 9 stretches. -/
def val9 (V0 : Valuation τ sig (Elt F)) : Valuation τ sig (Elt F) := after p9 (val8 V0)
/-- The buffers stretch 9 writes. -/
abbrev p9_W : List (Ref sig .tc) := [main_call3_v0, main_call3_v1, main_call3_call0_v0, main_call3_v2, main_call3_cst, main_call3_v3, main_call3_v4, main_call3_cst_0, main_call3_call1_v0, main_call3_v5, main_call3_cst_1, main_call3_v6, main_call3_v7, main_call3_cst_2, main_call3_call2_v0, main_v96]
theorem p9_writes : (p9 : List (HloOp τ sig (Elt F))).Forall fun op => op.writes ⊆ (p9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 9 does not write keeps its contents through it. -/
theorem val9_keep (V0 : Valuation τ sig (Elt F)) (r : Ref sig .tc) (h : r ∉ p9_W) :
    val9 V0 (Proc.devRef .tc r) = val8 V0 (Proc.devRef .tc r) :=
  after_of_writes_sub p9 _ p9_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_arg18 (V0 : Valuation τ sig (Elt F)) : val9 V0 (no_index (Proc.devRef .tc main_arg18)) = V0 (Proc.devRef .tc main_arg18) :=
  (val9_keep V0 main_arg18 (by decide)).trans (val8_main_arg18 V0)
theorem val9_main_arg19 (V0 : Valuation τ sig (Elt F)) : val9 V0 (no_index (Proc.devRef .tc main_arg19)) = V0 (Proc.devRef .tc main_arg19) :=
  (val9_keep V0 main_arg19 (by decide)).trans (val8_main_arg19 V0)
theorem val9_main_arg20 (V0 : Valuation τ sig (Elt F)) : val9 V0 (no_index (Proc.devRef .tc main_arg20)) = V0 (Proc.devRef .tc main_arg20) :=
  (val9_keep V0 main_arg20 (by decide)).trans (val8_main_arg20 V0)
theorem val9_main_arg21 (V0 : Valuation τ sig (Elt F)) : val9 V0 (no_index (Proc.devRef .tc main_arg21)) = V0 (Proc.devRef .tc main_arg21) :=
  (val9_keep V0 main_arg21 (by decide)).trans (val8_main_arg21 V0)
theorem val9_main_arg22 (V0 : Valuation τ sig (Elt F)) : val9 V0 (no_index (Proc.devRef .tc main_arg22)) = V0 (Proc.devRef .tc main_arg22) :=
  (val9_keep V0 main_arg22 (by decide)).trans (val8_main_arg22 V0)
theorem val9_main_arg23 (V0 : Valuation τ sig (Elt F)) : val9 V0 (no_index (Proc.devRef .tc main_arg23)) = V0 (Proc.devRef .tc main_arg23) :=
  (val9_keep V0 main_arg23 (by decide)).trans (val8_main_arg23 V0)
theorem val9_main_v40 (V0 : Valuation τ sig (Elt F)) : val9 V0 (no_index (Proc.devRef .tc main_v40)) = RefTerms.pi_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val9_keep V0 main_v40 (by decide)).trans (val8_main_v40 V0)
theorem val9_main_v47 (V0 : Valuation τ sig (Elt F)) : val9 V0 (no_index (Proc.devRef .tc main_v47)) = RefTerms.sigma_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17)) :=
  (val9_keep V0 main_v47 (by decide)).trans (val8_main_v47 V0)
theorem val9_main_v54 (V0 : Valuation τ sig (Elt F)) : val9 V0 (no_index (Proc.devRef .tc main_v54)) = RefTerms.mu_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg18)) (V0 (Proc.devRef .tc main_arg19)) :=
  (val9_keep V0 main_v54 (by decide)).trans (val8_main_v54 V0)
theorem val9_main_v58 (V0 : Valuation τ sig (Elt F)) : val9 V0 (no_index (Proc.devRef .tc main_v58)) = RefTerms.nuc_term (V0 (Proc.devRef .tc main_arg6)) (V0 (Proc.devRef .tc main_arg20)) (V0 (Proc.devRef .tc main_arg21)) :=
  (val9_keep V0 main_v58 (by decide)).trans (val8_main_v58 V0)
theorem val9_main_v81 (V0 : Valuation τ sig (Elt F)) : val9 V0 (no_index (Proc.devRef .tc main_v81)) = RefTerms.bond_term (V0 (Proc.devRef .tc main_arg6)) (V0 (Proc.devRef .tc main_arg7)) (V0 (Proc.devRef .tc main_arg22)) (V0 (Proc.devRef .tc main_arg23)) :=
  (val9_keep V0 main_v81 (by decide)).trans (val8_main_v81 V0)
set_option maxRecDepth 65536 in
set_option maxHeartbeats 3200000 in
theorem val9_main_v96 (V0 : Valuation τ sig (Elt F)) : val9 V0 (no_index (Proc.devRef .tc main_v96)) = RefTerms.clean_dist (V0 (Proc.devRef .tc main_arg4)) (V0 (Proc.devRef .tc main_arg5)) := by
  unfold val9
  simp only [p9]
  after_results_simp
  simp only [val8_main_v95, val8_main_cst_11] <;> rfl

/-- The contents after the first 10 stretches. -/
def val10 (V0 : Valuation τ sig (Elt F)) : Valuation τ sig (Elt F) := after p10 (val9 V0)
/-- The buffers stretch 10 writes. -/
abbrev p10_W : List (Ref sig .tc) := [main_v97, main_cst_12, main_v98, main_v99, main_v100, main_v101, main_v102, main_v103, main_v104]
theorem p10_writes : (p10 : List (HloOp τ sig (Elt F))).Forall fun op => op.writes ⊆ (p10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 10 does not write keeps its contents through it. -/
theorem val10_keep (V0 : Valuation τ sig (Elt F)) (r : Ref sig .tc) (h : r ∉ p10_W) :
    val10 V0 (Proc.devRef .tc r) = val9 V0 (Proc.devRef .tc r) :=
  after_of_writes_sub p10 _ p10_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_arg18 (V0 : Valuation τ sig (Elt F)) : val10 V0 (no_index (Proc.devRef .tc main_arg18)) = V0 (Proc.devRef .tc main_arg18) :=
  (val10_keep V0 main_arg18 (by decide)).trans (val9_main_arg18 V0)
theorem val10_main_arg19 (V0 : Valuation τ sig (Elt F)) : val10 V0 (no_index (Proc.devRef .tc main_arg19)) = V0 (Proc.devRef .tc main_arg19) :=
  (val10_keep V0 main_arg19 (by decide)).trans (val9_main_arg19 V0)
theorem val10_main_arg20 (V0 : Valuation τ sig (Elt F)) : val10 V0 (no_index (Proc.devRef .tc main_arg20)) = V0 (Proc.devRef .tc main_arg20) :=
  (val10_keep V0 main_arg20 (by decide)).trans (val9_main_arg20 V0)
theorem val10_main_arg21 (V0 : Valuation τ sig (Elt F)) : val10 V0 (no_index (Proc.devRef .tc main_arg21)) = V0 (Proc.devRef .tc main_arg21) :=
  (val10_keep V0 main_arg21 (by decide)).trans (val9_main_arg21 V0)
theorem val10_main_arg22 (V0 : Valuation τ sig (Elt F)) : val10 V0 (no_index (Proc.devRef .tc main_arg22)) = V0 (Proc.devRef .tc main_arg22) :=
  (val10_keep V0 main_arg22 (by decide)).trans (val9_main_arg22 V0)
theorem val10_main_arg23 (V0 : Valuation τ sig (Elt F)) : val10 V0 (no_index (Proc.devRef .tc main_arg23)) = V0 (Proc.devRef .tc main_arg23) :=
  (val10_keep V0 main_arg23 (by decide)).trans (val9_main_arg23 V0)
theorem val10_main_v40 (V0 : Valuation τ sig (Elt F)) : val10 V0 (no_index (Proc.devRef .tc main_v40)) = RefTerms.pi_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val10_keep V0 main_v40 (by decide)).trans (val9_main_v40 V0)
theorem val10_main_v47 (V0 : Valuation τ sig (Elt F)) : val10 V0 (no_index (Proc.devRef .tc main_v47)) = RefTerms.sigma_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17)) :=
  (val10_keep V0 main_v47 (by decide)).trans (val9_main_v47 V0)
theorem val10_main_v54 (V0 : Valuation τ sig (Elt F)) : val10 V0 (no_index (Proc.devRef .tc main_v54)) = RefTerms.mu_term (V0 (Proc.devRef .tc main_arg0)) (V0 (Proc.devRef .tc main_arg1)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg18)) (V0 (Proc.devRef .tc main_arg19)) :=
  (val10_keep V0 main_v54 (by decide)).trans (val9_main_v54 V0)
theorem val10_main_v58 (V0 : Valuation τ sig (Elt F)) : val10 V0 (no_index (Proc.devRef .tc main_v58)) = RefTerms.nuc_term (V0 (Proc.devRef .tc main_arg6)) (V0 (Proc.devRef .tc main_arg20)) (V0 (Proc.devRef .tc main_arg21)) :=
  (val10_keep V0 main_v58 (by decide)).trans (val9_main_v58 V0)
theorem val10_main_v81 (V0 : Valuation τ sig (Elt F)) : val10 V0 (no_index (Proc.devRef .tc main_v81)) = RefTerms.bond_term (V0 (Proc.devRef .tc main_arg6)) (V0 (Proc.devRef .tc main_arg7)) (V0 (Proc.devRef .tc main_arg22)) (V0 (Proc.devRef .tc main_arg23)) :=
  (val10_keep V0 main_v81 (by decide)).trans (val9_main_v81 V0)
set_option maxRecDepth 65536 in
set_option maxHeartbeats 1800000 in
theorem val10_main_v100 (V0 : Valuation τ sig (Elt F)) : val10 V0 (no_index (Proc.devRef .tc main_v100)) = RefTerms.dist_term (V0 (Proc.devRef .tc main_arg4)) (V0 (Proc.devRef .tc main_arg5)) := by
  unfold val10
  simp only [p10]
  after_results_simp
  simp only [val9_main_v96] <;> rfl
set_option maxRecDepth 65536 in
set_option maxHeartbeats 1800000 in
theorem val10_main_v104 (V0 : Valuation τ sig (Elt F)) : val10 V0 (no_index (Proc.devRef .tc main_v104)) = RefTerms.cbatch_term := by
  unfold val10
  simp only [p10]
  after_results_simp
  all_goals rfl

/-- The whole line from any contents is the ten stretches in turn. -/
theorem after_ops (V0 : Valuation τ sig (Elt F)) : after ops V0 = val10 V0 := by
  simp only [ops, ops0, ops1, after_append]
  rfl

/-- On every device, for any float values, from any memory with zero counters: every weakly fair execution of the
    reference's main function terminates with each result at its term of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v40) = RefTerms.pi_term (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v47) = RefTerms.sigma_term (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17))
      ∧ r.2.mem ((c.tc : Thread nD τ).loc main_v54) = RefTerms.mu_term (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19))
      ∧ r.2.mem ((c.tc : Thread nD τ).loc main_v100) = RefTerms.dist_term (m ((c.tc : Thread nD τ).loc main_arg4)) (m ((c.tc : Thread nD τ).loc main_arg5))
      ∧ r.2.mem ((c.tc : Thread nD τ).loc main_v58) = RefTerms.nuc_term (m ((c.tc : Thread nD τ).loc main_arg6)) (m ((c.tc : Thread nD τ).loc main_arg20)) (m ((c.tc : Thread nD τ).loc main_arg21))
      ∧ r.2.mem ((c.tc : Thread nD τ).loc main_v81) = RefTerms.bond_term (m ((c.tc : Thread nD τ).loc main_arg6)) (m ((c.tc : Thread nD τ).loc main_arg7)) (m ((c.tc : Thread nD τ).loc main_arg22)) (m ((c.tc : Thread nD τ).loc main_arg23))
      ∧ r.2.mem ((c.tc : Thread nD τ).loc main_v104) = RefTerms.cbatch_term
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(h c main_v40).trans ((congrFun (after_ops _) _).trans (val10_main_v40 _)),
      (h c main_v47).trans ((congrFun (after_ops _) _).trans (val10_main_v47 _)),
      (h c main_v54).trans ((congrFun (after_ops _) _).trans (val10_main_v54 _)),
      (h c main_v100).trans ((congrFun (after_ops _) _).trans (val10_main_v100 _)),
      (h c main_v58).trans ((congrFun (after_ops _) _).trans (val10_main_v58 _)),
      (h c main_v81).trans ((congrFun (after_ops _) _).trans (val10_main_v81 _)),
      (h c main_v104).trans ((congrFun (after_ops _) _).trans (val10_main_v104 _)),
      (h c main_arg0).trans ((congrFun (after_ops _) _).trans (val10_main_arg0 _)),
      (h c main_arg1).trans ((congrFun (after_ops _) _).trans (val10_main_arg1 _)),
      (h c main_arg2).trans ((congrFun (after_ops _) _).trans (val10_main_arg2 _)),
      (h c main_arg3).trans ((congrFun (after_ops _) _).trans (val10_main_arg3 _)),
      (h c main_arg4).trans ((congrFun (after_ops _) _).trans (val10_main_arg4 _)),
      (h c main_arg5).trans ((congrFun (after_ops _) _).trans (val10_main_arg5 _)),
      (h c main_arg6).trans ((congrFun (after_ops _) _).trans (val10_main_arg6 _)),
      (h c main_arg7).trans ((congrFun (after_ops _) _).trans (val10_main_arg7 _)),
      (h c main_arg8).trans ((congrFun (after_ops _) _).trans (val10_main_arg8 _)),
      (h c main_arg9).trans ((congrFun (after_ops _) _).trans (val10_main_arg9 _)),
      (h c main_arg10).trans ((congrFun (after_ops _) _).trans (val10_main_arg10 _)),
      (h c main_arg11).trans ((congrFun (after_ops _) _).trans (val10_main_arg11 _)),
      (h c main_arg12).trans ((congrFun (after_ops _) _).trans (val10_main_arg12 _)),
      (h c main_arg13).trans ((congrFun (after_ops _) _).trans (val10_main_arg13 _)),
      (h c main_arg14).trans ((congrFun (after_ops _) _).trans (val10_main_arg14 _)),
      (h c main_arg15).trans ((congrFun (after_ops _) _).trans (val10_main_arg15 _)),
      (h c main_arg16).trans ((congrFun (after_ops _) _).trans (val10_main_arg16 _)),
      (h c main_arg17).trans ((congrFun (after_ops _) _).trans (val10_main_arg17 _)),
      (h c main_arg18).trans ((congrFun (after_ops _) _).trans (val10_main_arg18 _)),
      (h c main_arg19).trans ((congrFun (after_ops _) _).trans (val10_main_arg19 _)),
      (h c main_arg20).trans ((congrFun (after_ops _) _).trans (val10_main_arg20 _)),
      (h c main_arg21).trans ((congrFun (after_ops _) _).trans (val10_main_arg21 _)),
      (h c main_arg22).trans ((congrFun (after_ops _) _).trans (val10_main_arg22 _)),
      (h c main_arg23).trans ((congrFun (after_ops _) _).trans (val10_main_arg23 _))⟩)
    (run_seq scopedRefs_eq scopedSems_eq defs main (fun _ => ops) main_eq (fun _ => ops_sub) m ρ)

end Cert.ReferenceIdeal.RefRun

end
-- ==== Proof.MdnSpec.lean ====
/-
  The score head's three result arrays as index-by-index formulas of the arrays its kernel region reads: the hidden unit of a
  (batch, ligand row, target row) triple, and from it the mixing weights (a softmax over ten components), the scales and the
  locations (ELU of a logit plus a constant).
-/
import proofs.«169873_j12644383719683_1_alg».proof.KernelIdeal
import proofs.«169873_j12644383719683_1_alg».proof.Proof.Spec

noncomputable section

namespace Cert.KernelIdeal.MdnBlock

open Idealize.ShloMosaic Idealize.ShloMosaic.ValueIdx Cert.KernelIdeal

/-- The hidden unit j of batch b, ligand row l, target row t, from the arrays the region reads: ligand and target features,
    the two halves of the first layer's weights, and the five parameter rows (bias, scale, shift, mean, variance). -/
def hid (X0 : S8x128x128.Idx → EReal) (X1 : S8x512x128.Idx → EReal) (X2 X3 : S128x128.Idx → EReal)
    (X4 X5 X6 X7 X8 : S1x128.Idx → EReal) (b : Fin 8) (l : Fin 128) (t : Fin 512) (j : Fin 128) : EReal :=
  Spec.hiddenK (fun k => X0 (ix3 b l k)) (fun k => X1 (ix3 b t k)) (fun k => X2 (ix2 k j)) (fun k => X3 (ix2 k j))
    (X4 (ix2 (0 : Fin 1) j)) (X7 (ix2 (0 : Fin 1) j)) (X8 (ix2 (0 : Fin 1) j)) (X5 (ix2 (0 : Fin 1) j)) (X6 (ix2 (0 : Fin 1) j))

/-- The mixing weights. -/
def Gpi (X0 : S8x128x128.Idx → EReal) (X1 : S8x512x128.Idx → EReal) (X2 X3 : S128x128.Idx → EReal)
    (X4 X5 X6 X7 X8 : S1x128.Idx → EReal) (W : S128x10.Idx → EReal) (B : S1x10.Idx → EReal) : S8x128x512x10.Idx → EReal :=
  fun i => Spec.softmaxK (fun g' => Spec.logit (fun j => hid X0 X1 X2 X3 X4 X5 X6 X7 X8 (i 0) (i 1) (i 2) j)
    (fun j => W (ix2 j g')) (B (ix2 (0 : Fin 1) g'))) (i 3)

/-- The scales (c = 1.1) and the locations (c = 1): ELU of the head's logit plus the constant. -/
def Gelu (cst : EReal) (X0 : S8x128x128.Idx → EReal) (X1 : S8x512x128.Idx → EReal) (X2 X3 : S128x128.Idx → EReal)
    (X4 X5 X6 X7 X8 : S1x128.Idx → EReal) (W : S128x10.Idx → EReal) (B : S1x10.Idx → EReal) : S8x128x512x10.Idx → EReal :=
  fun i => Spec.eluK (Spec.logit (fun j => hid X0 X1 X2 X3 X4 X5 X6 X7 X8 (i 0) (i 1) (i 2) j)
    (fun j => W (ix2 j (i 3))) (B (ix2 (0 : Fin 1) (i 3)))) + cst

end Cert.KernelIdeal.MdnBlock

end
-- ==== Proof.LibStats.lean ====
/-
  General lemmas on finite sums of extended reals: the coercion of a real sum, the regrouping of a sum
  over `n * b` indices into `n` blocks of `b`, the split of a sum over `m + n` indices into its first `m`
  and last `n` terms, the identity "mean of squares minus squared mean = mean of squared deviations" over
  finite extended reals with the ideal division by a nonzero real constant, and the two float literals
  `0.0` and `50000.0` as the extended reals they denote.
-/
import Idealize.ShloMosaic.PureOps.Ideal
import Mathlib.Algebra.BigOperators.Fin
import Mathlib.Algebra.BigOperators.Ring.Finset
import Mathlib.Tactic.Ring
import Mathlib.Tactic.FieldSimp
import Mathlib.Tactic.NormNum
import Mathlib.Tactic.Linarith

noncomputable section

namespace Cert.LibStats

open Idealize.ShloMosaic
open scoped BigOperators

/-! ### (L1) The coercion `ℝ → EReal` commutes with finite sums -/

/-- The coercion of a finite sum of reals is the sum of the coercions: `↑(∑ i ∈ s, f i) = ∑ i ∈ s, ↑(f i)`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type: `↑(∑ i, f i) = ∑ i, ↑(f i)`. -/
theorem coe_sum_univ {ι : Type*} [Fintype ι] (f : ι → ℝ) :
    ((∑ i, f i : ℝ) : EReal) = ∑ i, (f i : EReal) :=
  coe_sum Finset.univ f

/-! ### (L2) A sum over `n * b` indices, regrouped into `n` blocks of `b` -/

/-- The `r`-th index of the `t`-th block of size `b` lies below `n * b`: `b * t + r < n * b` for `t < n`, `r < b`. -/
theorem block_lt {n b t r : ℕ} (ht : t < n) (hr : r < b) : b * t + r < n * b := by
  calc b * t + r < b * t + b := Nat.add_lt_add_left hr _
    _ = b * (t + 1) := by ring
    _ ≤ b * n := Nat.mul_le_mul_left _ ht
    _ = n * b := Nat.mul_comm _ _

/-- Block regrouping, in any commutative additive monoid (no finiteness needed): the sum over `m = n * b`
    indices is the sum over the `n` blocks of the sums over the `b` indices `b * t + r` of block `t`. -/
theorem sum_blocks {M : Type*} [AddCommMonoid M] (n b m : ℕ) (h : n * b = m) (a : Fin m → M) :
    (∑ t : Fin n, ∑ r : Fin b, a ⟨b * t.val + r.val, h ▸ block_lt t.isLt r.isLt⟩) = ∑ i : Fin m, a i := by
  subst h
  rw [← Fintype.sum_prod_type (f := fun p : Fin n × Fin b => a ⟨b * p.1.val + p.2.val, block_lt p.1.isLt p.2.isLt⟩)]
  refine Fintype.sum_equiv finProdFinEquiv _ _ (fun p => ?_)
  congr 1
  apply Fin.ext
  simp [finProdFinEquiv, Nat.add_comm]

/-- Block regrouping for `5` blocks of `10000`: `∑ t < 5, ∑ r < 10000, a (10000 t + r) = ∑ i < 50000, a i`. -/
theorem sum_blocks_5_10000 {M : Type*} [AddCommMonoid M] (a : Fin 50000 → M) :
    (∑ t : Fin 5, ∑ r : Fin 10000, a ⟨10000 * t.val + r.val, block_lt (n := 5) t.isLt r.isLt⟩)
      = ∑ i : Fin 50000, a i :=
  sum_blocks 5 10000 50000 rfl a

/-- Five terms added one after the other onto `0`, from the left, are their sum. -/
theorem acc5_zero {M : Type*} [AddCommMonoid M] (S : Fin 5 → M) :
    ((((0 + S 0) + S 1) + S 2) + S 3) + S 4 = ∑ t : Fin 5, S t := by
  rw [Fin.sum_univ_five, zero_add]

/-- Five terms added one after the other, from the left, are their sum. -/
theorem acc5 {M : Type*} [AddCommMonoid M] (S : Fin 5 → M) :
    (((S 0 + S 1) + S 2) + S 3) + S 4 = ∑ t : Fin 5, S t := by
  rw [Fin.sum_univ_five]

/-- The left-nested accumulation of five block sums, each block sum itself started from `0`:
    with `S t = 0 + ∑ r < 10000, a (10000 t + r)`, `(((S 0 + S 1) + S 2) + S 3) + S 4 = ∑ i < 50000, a i`. -/
theorem acc5_blocks {M : Type*} [AddCommMonoid M] (a : Fin 50000 → M) :
    ((((0 + ∑ r : Fin 10000, a ⟨10000 * (0 : Fin 5).val + r.val, block_lt (n := 5) (0 : Fin 5).isLt r.isLt⟩)
      + (0 + ∑ r : Fin 10000, a ⟨10000 * (1 : Fin 5).val + r.val, block_lt (n := 5) (1 : Fin 5).isLt r.isLt⟩))
      + (0 + ∑ r : Fin 10000, a ⟨10000 * (2 : Fin 5).val + r.val, block_lt (n := 5) (2 : Fin 5).isLt r.isLt⟩))
      + (0 + ∑ r : Fin 10000, a ⟨10000 * (3 : Fin 5).val + r.val, block_lt (n := 5) (3 : Fin 5).isLt r.isLt⟩))
      + (0 + ∑ r : Fin 10000, a ⟨10000 * (4 : Fin 5).val + r.val, block_lt (n := 5) (4 : Fin 5).isLt r.isLt⟩)
      = ∑ i : Fin 50000, a i := by
  rw [← sum_blocks_5_10000 a, Fin.sum_univ_five]
  simp only [zero_add]

/-- The same with one more `0` at the very start of the accumulation:
    `((((0 + S 0) + S 1) + S 2) + S 3) + S 4 = ∑ i < 50000, a i`. -/
theorem acc5_zero_blocks {M : Type*} [AddCommMonoid M] (a : Fin 50000 → M) :
    (((((0 + (0 + ∑ r : Fin 10000, a ⟨10000 * (0 : Fin 5).val + r.val, block_lt (n := 5) (0 : Fin 5).isLt r.isLt⟩))
      + (0 + ∑ r : Fin 10000, a ⟨10000 * (1 : Fin 5).val + r.val, block_lt (n := 5) (1 : Fin 5).isLt r.isLt⟩))
      + (0 + ∑ r : Fin 10000, a ⟨10000 * (2 : Fin 5).val + r.val, block_lt (n := 5) (2 : Fin 5).isLt r.isLt⟩))
      + (0 + ∑ r : Fin 10000, a ⟨10000 * (3 : Fin 5).val + r.val, block_lt (n := 5) (3 : Fin 5).isLt r.isLt⟩))
      + (0 + ∑ r : Fin 10000, a ⟨10000 * (4 : Fin 5).val + r.val, block_lt (n := 5) (4 : Fin 5).isLt r.isLt⟩))
      = ∑ i : Fin 50000, a i := by
  rw [zero_add]; exact acc5_blocks a

/-- The same with the block offsets as literals: the five block sums over the indices `r`, `10000 + r`,
    `20000 + r`, `30000 + r`, `40000 + r` (`r < 10000`), each started from `0` and added from the left. -/
theorem acc5_blocks_lit {M : Type*} [AddCommMonoid M] (a : Fin 50000 → M) :
    ((((0 + ∑ r : Fin 10000, a ⟨r.val, by have := r.isLt; omega⟩)
      + (0 + ∑ r : Fin 10000, a ⟨10000 + r.val, by have := r.isLt; omega⟩))
      + (0 + ∑ r : Fin 10000, a ⟨20000 + r.val, by have := r.isLt; omega⟩))
      + (0 + ∑ r : Fin 10000, a ⟨30000 + r.val, by have := r.isLt; omega⟩))
      + (0 + ∑ r : Fin 10000, a ⟨40000 + r.val, by have := r.isLt; omega⟩)
      = ∑ i : Fin 50000, a i := by
  rw [← acc5_blocks a]
  refine congrArg₂ (· + ·) (congrArg₂ (· + ·) (congrArg₂ (· + ·) (congrArg₂ (· + ·) ?_ ?_) ?_) ?_) ?_ <;>
    refine congrArg (0 + ·) (Finset.sum_congr rfl fun r _ => congrArg a (Fin.ext ?_)) <;>
    first
      | rfl
      | exact (Nat.zero_add _).symm

/-! ### (L3) A sum over `m + n` indices, split into its first `m` and its last `n` terms -/

/-- Concatenation split, in any commutative additive monoid: the sum over `N = m + n` indices is the sum over
    the first `m` plus the sum over the last `n`, the latter at the indices `m + k`. -/
theorem sum_split {M : Type*} [AddCommMonoid M] (m n N : ℕ) (h : m + n = N) (f : Fin N → M) :
    ∑ k : Fin N, f k
      = (∑ k : Fin m, f ⟨k.val, by have := k.isLt; omega⟩) + ∑ k : Fin n, f ⟨m + k.val, by have := k.isLt; omega⟩ := by
  subst h
  rw [Fin.sum_univ_add]
  rfl

/-- Concatenation split of `128 = 64 + 64` terms. -/
theorem sum_split_64_64 {M : Type*} [AddCommMonoid M] (f : Fin 128 → M) :
    ∑ k : Fin 128, f k
      = (∑ k : Fin 64, f ⟨k.val, by have := k.isLt; omega⟩) + ∑ k : Fin 64, f ⟨64 + k.val, by have := k.isLt; omega⟩ :=
  sum_split 64 64 128 rfl f

/-! ### (L4) Mean of squares minus squared mean = mean of squared deviations -/

/-- The sum of the squared deviations from any constant `c`:
    `∑ (x r - c)² = ∑ x r² - 2 c ∑ x r + n c²`. -/
theorem sum_sq_dev {n : ℕ} (x : Fin n → ℝ) (c : ℝ) :
    ∑ r, (x r - c) * (x r - c) = (∑ r, x r * x r) - 2 * c * (∑ r, x r) + (n : ℝ) * (c * c) := by
  have h : ∀ r, (x r - c) * (x r - c) = x r * x r - 2 * c * x r + c * c := fun r => by ring
  simp only [h, Finset.sum_add_distrib, Finset.sum_sub_distrib, ← Finset.mul_sum, Finset.sum_const,
    Finset.card_univ, Fintype.card_fin, nsmul_eq_mul]
  ring

/-- The variance identity over the reals: with `N = n > 0` and `μ = (∑ x r) / N`,
    `(∑ x r²) / N - μ² = (∑ (x r - μ)²) / N`. -/
theorem variance_real {n : ℕ} (hn : 0 < n) (x : Fin n → ℝ) :
    (∑ r, x r * x r) / (n : ℝ) - (∑ r, x r) / (n : ℝ) * ((∑ r, x r) / (n : ℝ))
      = (∑ r, (x r - (∑ r, x r) / (n : ℝ)) * (x r - (∑ r, x r) / (n : ℝ))) / (n : ℝ) := by
  have hN : (n : ℝ) ≠ 0 := Nat.cast_ne_zero.mpr hn.ne'
  rw [sum_sq_dev]
  field_simp
  ring

/-- The ideal quotient of a sum of finite extended reals, started from `0`, by a nonzero real `N` is the
    real quotient: `div (0 + ∑ ↑(f r)) ↑N = ↑((∑ f r) / N)`. -/
theorem div_sum_coe {ι : Type*} [Fintype ι] (f : ι → ℝ) {N : ℝ} (hN : N ≠ 0) :
    Ideal.div (0 + ∑ r, (f r : EReal)) (N : EReal) = (((∑ r, f r) / N : ℝ) : EReal) := by
  rw [zero_add, ← coe_sum_univ, Ideal.div_coe hN, ← EReal.coe_mul, mul_one_div]

/-- The same without the leading `0`: `div (∑ ↑(f r)) ↑N = ↑((∑ f r) / N)`. -/
theorem div_sum_coe' {ι : Type*} [Fintype ι] (f : ι → ℝ) {N : ℝ} (hN : N ≠ 0) :
    Ideal.div (∑ r, (f r : EReal)) (N : EReal) = (((∑ r, f r) / N : ℝ) : EReal) := by
  rw [← coe_sum_univ, Ideal.div_coe hN, ← EReal.coe_mul, mul_one_div]

/-- The variance identity over finite extended reals given by real witnesses, in the ideal operations:
    with `X r = ↑(x r)`, a divisor `d = ↑n`, `n > 0`, and `M = div (0 + ∑ X r) d`,
    `div (0 + ∑ X r * X r) d - M * M = div (0 + ∑ (X r - M) * (X r - M)) d`. -/
theorem variance_coe {n : ℕ} (hn : 0 < n) (x : Fin n → ℝ) (d : EReal) (hd : d = ((n : ℝ) : EReal)) :
    Ideal.div (0 + ∑ r, (x r : EReal) * (x r : EReal)) d
        - Ideal.div (0 + ∑ r, (x r : EReal)) d * Ideal.div (0 + ∑ r, (x r : EReal)) d
      = Ideal.div (0 + ∑ r, ((x r : EReal) - Ideal.div (0 + ∑ r, (x r : EReal)) d)
                          * ((x r : EReal) - Ideal.div (0 + ∑ r, (x r : EReal)) d)) d := by
  subst hd
  have hN : (n : ℝ) ≠ 0 := Nat.cast_ne_zero.mpr hn.ne'
  rw [div_sum_coe x hN]
  simp only [← EReal.coe_sub, ← EReal.coe_mul]
  rw [div_sum_coe _ hN, div_sum_coe _ hN, ← EReal.coe_sub, variance_real hn x]

/-- The variance identity over extended reals that are all finite (none is `⊤` or `⊥`), in the ideal
    operations: with a divisor `d = ↑n`, `n > 0`, and `M = div (0 + ∑ X r) d`,
    `div (0 + ∑ X r * X r) d - M * M = div (0 + ∑ (X r - M) * (X r - M)) d`. -/
theorem variance_ereal {n : ℕ} (hn : 0 < n) (X : Fin n → EReal) (hX : ∀ r, X r ≠ ⊤ ∧ X r ≠ ⊥)
    (d : EReal) (hd : d = ((n : ℝ) : EReal)) :
    Ideal.div (0 + ∑ r, X r * X r) d - Ideal.div (0 + ∑ r, X r) d * Ideal.div (0 + ∑ r, X r) d
      = Ideal.div (0 + ∑ r, (X r - Ideal.div (0 + ∑ r, X r) d) * (X r - Ideal.div (0 + ∑ r, X r) d)) d := by
  obtain ⟨x, rfl⟩ : ∃ x : Fin n → ℝ, X = fun r => (x r : EReal) :=
    ⟨fun r => (X r).toReal, funext fun r => (EReal.coe_toReal (hX r).1 (hX r).2).symm⟩
  exact variance_coe hn x d hd

/-- The variance identity over finite extended reals given by real witnesses, the sums not started from `0`:
    with `M = div (∑ X r) d`, `div (∑ X r * X r) d - M * M = div (∑ (X r - M) * (X r - M)) d`. -/
theorem variance_coe' {n : ℕ} (hn : 0 < n) (x : Fin n → ℝ) (d : EReal) (hd : d = ((n : ℝ) : EReal)) :
    Ideal.div (∑ r, (x r : EReal) * (x r : EReal)) d
        - Ideal.div (∑ r, (x r : EReal)) d * Ideal.div (∑ r, (x r : EReal)) d
      = Ideal.div (∑ r, ((x r : EReal) - Ideal.div (∑ r, (x r : EReal)) d)
                      * ((x r : EReal) - Ideal.div (∑ r, (x r : EReal)) d)) d := by
  have h := variance_coe hn x d hd
  simpa only [zero_add] using h

/-- The variance identity over extended reals that are all finite, the sums not started from `0`. -/
theorem variance_ereal' {n : ℕ} (hn : 0 < n) (X : Fin n → EReal) (hX : ∀ r, X r ≠ ⊤ ∧ X r ≠ ⊥)
    (d : EReal) (hd : d = ((n : ℝ) : EReal)) :
    Ideal.div (∑ r, X r * X r) d - Ideal.div (∑ r, X r) d * Ideal.div (∑ r, X r) d
      = Ideal.div (∑ r, (X r - Ideal.div (∑ r, X r) d) * (X r - Ideal.div (∑ r, X r) d)) d := by
  have h := variance_ereal hn X hX d hd
  simpa only [zero_add] using h

/-- The natural number `50000` as a real is the real literal `50000`. -/
theorem cast_50000 : ((50000 : ℕ) : ℝ) = (50000 : ℝ) := by norm_num

/-- The variance identity for `50000` finite extended reals given by real witnesses, divisor `d = ↑50000`. -/
theorem variance_coe_50000 (x : Fin 50000 → ℝ) (d : EReal) (hd : d = ((50000 : ℝ) : EReal)) :
    Ideal.div (0 + ∑ r, (x r : EReal) * (x r : EReal)) d
        - Ideal.div (0 + ∑ r, (x r : EReal)) d * Ideal.div (0 + ∑ r, (x r : EReal)) d
      = Ideal.div (0 + ∑ r, ((x r : EReal) - Ideal.div (0 + ∑ r, (x r : EReal)) d)
                          * ((x r : EReal) - Ideal.div (0 + ∑ r, (x r : EReal)) d)) d :=
  variance_coe (n := 50000) (by norm_num) x d (by rw [hd, cast_50000])

/-- The variance identity for `50000` extended reals that are all finite, divisor `d = ↑50000`. -/
theorem variance_ereal_50000 (X : Fin 50000 → EReal) (hX : ∀ r, X r ≠ ⊤ ∧ X r ≠ ⊥)
    (d : EReal) (hd : d = ((50000 : ℝ) : EReal)) :
    Ideal.div (0 + ∑ r, X r * X r) d - Ideal.div (0 + ∑ r, X r) d * Ideal.div (0 + ∑ r, X r) d
      = Ideal.div (0 + ∑ r, (X r - Ideal.div (0 + ∑ r, X r) d) * (X r - Ideal.div (0 + ∑ r, X r) d)) d :=
  variance_ereal (n := 50000) (by norm_num) X hX d (by rw [hd, cast_50000])

/-! ### (L5) The literals -/

/-- The binary32 pattern `0x47435000` (sign `+`, exponent `142 - 127 = 15`, significand `1.52587890625`)
    denotes the real `50000`. -/
theorem ofBits_50000 : Ideal.ofBits .f32 0x47435000#32 = ((50000 : ℝ) : EReal) := by
  simp [Ideal.ofBits, Ideal.ieee, -EReal.coe_mul]; norm_num

/-- The binary32 pattern `0x00000000` (`+0.0`) denotes `0`. -/
theorem ofBits_zero : Ideal.ofBits .f32 0x00000000#32 = 0 := by
  simp [Ideal.ofBits, Ideal.ieee]

/-- An integer converted to an ideal float is that integer, read signed, as an extended real. -/
theorem sitofp_def {φ : FTy} {w : ℕ} (b : BitVec w) :
    FloatOps.sitofp (F := Ideal) φ b = ((b.toInt : ℝ) : EReal) := rfl

/-- The 32-bit integer `0` converted to an ideal float is `0`. -/
theorem sitofp_zero_i32 {φ : FTy} : FloatOps.sitofp (F := Ideal) φ (0#32) = 0 := by
  rw [sitofp_def]; simp

end Cert.LibStats

end
-- ==== Proof.SpecMath.lean ====
/-
  The two spellings of each stage agree on the extended reals: the two ELUs (the literals 0 and 1, a product by 1, an
  exponential minus one), the hidden unit (a sum over 256 channels is the sum over its two halves), the softmax (a sum
  started from the literal 0), and the pooled distance: on finite coordinates each squared distance is the non-negative
  real  Σ (x − y)²,  its root a finite real that the cleaning leaves alone, and the root, being monotone, commutes with the
  minimum over the 24 atoms, which is the same whether folded from +∞ over the index set or taken atom by atom.
-/
import proofs.«169873_j12644383719683_1_alg».proof.Proof.Spec
import proofs.«169873_j12644383719683_1_alg».proof.Proof.LibStats
import Mathlib.Data.Finset.Fold
import Mathlib.Tactic.Ring
import Mathlib.Tactic.NormNum
import Mathlib.Tactic.Linarith

noncomputable section

namespace Cert.Spec

open Idealize.ShloMosaic
open scoped BigOperators

/-! ### The literals -/

/-- The binary32 pattern of 1.0 denotes 1. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- The binary32 pattern of -2.0 denotes -2. -/
theorem ofBits_neg_two : Ideal.ofBits .f32 0xC0000000#32 = ((-2 : ℝ) : EReal) := by
  simp [Ideal.ofBits, Ideal.ieee, -EReal.coe_mul]; norm_num

/-- The binary32 pattern of +∞ denotes the top element. -/
theorem ofBits_posinf : Ideal.ofBits .f32 0x7F800000#32 = (⊤ : EReal) := by
  simp [Ideal.ofBits, Ideal.ieee]

/-- The binary32 pattern of −∞ denotes the bottom element. -/
theorem ofBits_neginf : Ideal.ofBits .f32 0xFF800000#32 = (⊥ : EReal) := by
  simp [Ideal.ofBits, Ideal.ieee]

/-! ### ELU -/

/-- The test "x > 0" as a bit. -/
theorem cmp_ogt_zero (x : EReal) : Ideal.cmp .ogt x 0 = if 0 < x then 1#1 else 0#1 := by
  by_cases h : 0 < x <;> simp [Ideal.cmp, h]

/-- The reference's ELU is the kernel's. -/
theorem eluR_eq_eluK (x : EReal) : eluR x = eluK x := by
  unfold eluR eluK
  rw [LibStats.ofBits_zero, ofBits_one, cmp_ogt_zero]
  by_cases h : 0 < x
  · rw [if_pos h, ValueIdx.select_one, ValueIdx.select_one]
  · rw [if_neg h, ValueIdx.select_zero, ValueIdx.select_zero, ValueIdx.select_zero, one_mul]

/-! ### The hidden unit -/

/-- The reference's hidden unit over the concatenated row is the kernel's over the two halves. -/
theorem hiddenR_eq_hiddenK (hl ht : Fin 128 → EReal) (w1 : Fin 256 → EReal) (b1 mean var gamma beta : EReal) :
    hiddenR (fun k : Fin 256 => if h : k.val < 128 then hl ⟨k.val, h⟩ else ht ⟨k.val - 128, by omega⟩) w1 b1 mean var gamma beta
      = hiddenK hl ht (fun k => w1 ⟨k.val, by omega⟩) (fun k => w1 ⟨128 + k.val, by omega⟩) b1 mean var gamma beta := by
  unfold hiddenR hiddenK
  rw [eluR_eq_eluK, LibStats.sum_split 128 128 256 rfl]
  refine congrArg (fun s => eluK (norm s b1 mean var gamma beta)) ?_
  refine congrArg₂ (· + ·) (Finset.sum_congr rfl fun k _ => ?_) (Finset.sum_congr rfl fun k _ => ?_)
  · dsimp only
    rw [dif_pos k.isLt]
  · dsimp only
    rw [dif_neg (by omega)]
    congr 2
    exact Fin.ext (Nat.add_sub_cancel_left 128 k.val)

/-! ### The softmax -/

/-- The reference's softmax is the kernel's. -/
theorem softmaxR_eq_softmaxK (lg : Fin 10 → EReal) (g : Fin 10) : softmaxR lg g = softmaxK lg g := by
  unfold softmaxR softmaxK
  rw [LibStats.ofBits_zero, zero_add]

/-! ### The squared distances on finite coordinates -/

/-- The reference's expanded squared distance between finite points is the real sum of squared differences. -/
theorem d2R_coe (x y : Fin 3 → ℝ) :
    d2R (fun d => (x d : EReal)) (fun d => (y d : EReal)) (sqNorm fun d => (y d : EReal)) (sqNorm fun d => (x d : EReal))
      = ((∑ d, (x d - y d) * (x d - y d) : ℝ) : EReal) := by
  unfold d2R sqNorm
  rw [ofBits_neg_two, LibStats.ofBits_zero]
  simp only [Fin.sum_univ_three, zero_add, ← EReal.coe_mul, ← EReal.coe_add]
  congr 1
  ring

/-- The kernel's expanded squared distance between finite points is the same real. -/
theorem d2K_coe (x y : Fin 3 → ℝ) :
    d2K (fun d => (x d : EReal)) (fun d => (y d : EReal)) (sqNorm fun d => (y d : EReal)) (sqNorm fun d => (x d : EReal))
      = ((∑ d, (x d - y d) * (x d - y d) : ℝ) : EReal) := by
  unfold d2K sqNorm
  rw [ofBits_neg_two, LibStats.ofBits_zero]
  simp only [Fin.sum_univ_three, zero_add, ← EReal.coe_mul, ← EReal.coe_add]
  congr 1
  ring

/-! ### The root, the guards and the minimum -/

/-- The ideal square root is monotone on the whole extended line. -/
theorem sqrt_mono : Monotone Ideal.sqrt := by
  intro a b hab
  induction a using EReal.rec with
  | bot => simp
  | top =>
    have hb : b = ⊤ := top_le_iff.mp hab
    subst hb
    exact le_rfl
  | coe r =>
    induction b using EReal.rec with
    | bot => exact absurd hab (by simp)
    | top => simp
    | coe s =>
      have hrs : r ≤ s := EReal.coe_le_coe_iff.mp hab
      rw [Ideal.sqrt_coe, Ideal.sqrt_coe]
      by_cases hr : r < 0
      · rw [if_pos hr]; exact bot_le
      · have hs : ¬ s < 0 := by linarith [not_lt.mp hr]
        rw [if_neg hr, if_neg hs]
        exact EReal.coe_le_coe_iff.mpr (Real.sqrt_le_sqrt hrs)

/-- The root of the running minimum is the running minimum of the roots. -/
theorem sqrt_min24 (f : Fin 24 → EReal) : Ideal.sqrt (min24 f) = min24 fun a => Ideal.sqrt (f a) := by
  simp only [min24, sqrt_mono.map_min]

/-- The root of a non-negative real is its real root. -/
theorem sqrt_coe_nonneg {r : ℝ} (h : 0 ≤ r) : Ideal.sqrt (r : EReal) = ((Real.sqrt r : ℝ) : EReal) := by
  rw [Ideal.sqrt_coe, if_neg (not_lt.mpr h)]

/-- The kernel's guard against a value unequal to itself never fires. -/
theorem nanK_eq (x : EReal) : nanK x = x := by
  have h : Ideal.cmp .one x x = 0#1 := by simp [Ideal.cmp]
  unfold nanK
  rw [h, ValueIdx.select_zero]

/-- The reference's cleaning leaves a finite value alone. -/
theorem cleanR_coe (s : ℝ) : cleanR (s : EReal) = (s : EReal) := by
  have h1 : Ideal.cmp .une (s : EReal) (s : EReal) = 0#1 := by simp [Ideal.cmp]
  have h2 : Ideal.cmp .oeq (s : EReal) (Ideal.ofBits .f32 0x7F800000#32) = 0#1 := by
    rw [ofBits_posinf]; simp [Ideal.cmp]
  have h3 : Ideal.cmp .oeq (s : EReal) (Ideal.ofBits .f32 0xFF800000#32) = 0#1 := by
    rw [ofBits_neginf]; simp [Ideal.cmp]
  simp only [cleanR, h1, h2, h3, ValueIdx.select_zero]

/-- Every index below 24 is one of the 24 literals. -/
theorem fin24_cover : ∀ a : Fin 24, a = 0 ∨ a = 1 ∨ a = 2 ∨ a = 3 ∨ a = 4 ∨ a = 5 ∨ a = 6 ∨ a = 7 ∨ a = 8 ∨ a = 9 ∨ a = 10 ∨ a = 11 ∨ a = 12 ∨ a = 13 ∨ a = 14 ∨ a = 15 ∨ a = 16 ∨ a = 17 ∨ a = 18 ∨ a = 19 ∨ a = 20 ∨ a = 21 ∨ a = 22 ∨ a = 23 := by decide

/-- The running minimum is below each of its 24 terms. -/
theorem min24_le (g : Fin 24 → EReal) (a : Fin 24) : min24 g ≤ g a := by
  rcases fin24_cover a with rfl | rfl | rfl | rfl | rfl | rfl | rfl | rfl | rfl | rfl | rfl | rfl | rfl | rfl | rfl | rfl | rfl | rfl | rfl | rfl | rfl | rfl | rfl | rfl <;>
    simp only [min24, min_le_iff, le_refl, true_or, or_true]

/-- A lower bound of all 24 terms is below the running minimum. -/
theorem le_min24 (g : Fin 24 → EReal) (z : EReal) (h : ∀ a, z ≤ g a) : z ≤ min24 g := by
  unfold min24
  repeat' (first | exact h _ | apply le_min)

/-- The minimum folded from +∞ over the index set is the running minimum. -/
theorem fold_min_eq_min24 (g : Fin 24 → EReal) :
    (Finset.univ : Finset (Fin 24)).fold min (⊤ : EReal) g = min24 g := by
  apply le_antisymm
  · exact le_min24 g _ fun a => (Finset.fold_min_le _).mpr (Or.inr ⟨a, Finset.mem_univ a, le_rfl⟩)
  · exact (Finset.le_fold_min _).mpr ⟨le_top, fun a _ => min24_le g a⟩

/-- On non-negative reals the reference's pooled distance is the kernel's. -/
theorem dist_coe (D : Fin 24 → ℝ) (hD : ∀ a, 0 ≤ D a) :
    distR (fun a => (D a : EReal)) = distK (fun a => (D a : EReal)) := by
  unfold distR distK
  rw [nanK_eq, sqrt_min24, ofBits_posinf]
  simp only [sqrt_coe_nonneg (hD _), cleanR_coe]
  exact fold_min_eq_min24 _

/-- The reference's pooled distance (root, cleaning, then minimum) is the kernel's (minimum, then root) when the
    coordinates are finite. -/
theorem distR_eq_distK (hl : Fin 3 → EReal) (ht : Fin 24 → Fin 3 → EReal) (hhl : ∀ d, ∃ r : ℝ, hl d = (r : EReal))
    (hht : ∀ a d, ∃ r : ℝ, ht a d = (r : EReal)) :
    distR (fun a => d2R hl (ht a) (sqNorm (ht a)) (sqNorm hl)) = distK (fun a => d2K hl (ht a) (sqNorm (ht a)) (sqNorm hl)) := by
  choose x hx using hhl
  choose y hy using hht
  obtain rfl : hl = fun d => (x d : EReal) := funext hx
  obtain rfl : ht = fun a d => (y a d : EReal) := funext fun a => funext (hy a)
  simp only [d2R_coe, d2K_coe]
  exact dist_coe _ fun a => Finset.sum_nonneg fun d _ => mul_self_nonneg _

end Cert.Spec

end
-- ==== Proof.LibDot.lean ====
/-
  Contractions and layout operations read at an index, in the forms the score head and the distance head need:
  a one-axis contraction (a matrix product of either program) as a sum over `Fin K`, and row-major positions of small ranks.
-/
import Idealize.ShloMosaic.PureOps.Ideal.Laws
import Idealize.ShloMosaic.Lib.ValueIdx
import Idealize.ShloMosaic.Lib.Pipeline.Value

noncomputable section

namespace Cert.LibDot

open Idealize.ShloMosaic Idealize.ShloMosaic.ValueIdx

/-- A contraction over ONE axis of extent `K`, re-indexed by that axis's coordinate: whatever the two operand indices
    are at the contraction position whose one coordinate is `k` (`hL`, `hR`), the sum over the contraction shape is the sum
    over `Fin K` of the operands there. -/
theorem sum_contr_eq {sl sr so : Shape} (D : DotDims sl sr so) (K : ℕ) (hr : D.contr.rank = 1)
    (hs : D.contr.size ⟨0, by omega⟩ = K) (x : sl.Idx → EReal) (y : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, x (D.lhsIdx j k) * y (D.rhsIdx j k) = ∑ k : Fin K, x (L k) * y (R k) := by
  rw [← Equiv.sum_comp (contrEquiv1 D K hr hs).symm]
  exact Finset.sum_congr rfl fun k _ => by rw [hL, hR]

end Cert.LibDot

end
-- ==== Proof.RefReadHidden.lean ====
/-
  The reference's hidden layer read at an index. Each stage of the reference's score head up to the hidden layer,
  applied at one entry of its result, is the scalar formula of the stage on the entries of its operands: a row of the
  pair table is the receptor residue's 128 features followed by the ligand atom's, the linear layer is the sum over the
  256 input channels plus the bias, the normalisation and the ELU act entry by entry. Composed, the hidden unit j of
  pair row (b, l, t) is the scalar formula `hiddenR` of the two feature rows, the weight column and the five
  per-channel parameters.
-/
import proofs.«169873_j12644383719683_1_alg».proof.Proof.RefTerms
import proofs.«169873_j12644383719683_1_alg».proof.Proof.Spec
import proofs.«169873_j12644383719683_1_alg».proof.Proof.LibDot
import proofs.«169873_j12644383719683_1_alg».proof.Proof.RowIdx
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Idealize.ShloMosaic Idealize.ShloMosaic.ValueIdx Cert.RowIdx
open Facts₀ Facts

variable [Facts]

/-- A channel vector repeated on every row reads, at (p, c), the vector at c. -/
theorem rows128_apply (v : FVec Ideal S128 .f32) (p : Fin 524288) (c : Fin 128) :
    RefTerms.rows128 v (ix2 p c) = v (ix1 c) := by
  unfold RefTerms.rows128
  refine (broadcastInDim_apply _ _ _ (ix2 p c) (ix2 (0 : Fin 1) c) fun ax => ?_).trans ?_
  · match ax with
    | ⟨0, _⟩ => rfl
    | ⟨1, _⟩ => rfl
  · refine broadcastInDim_apply _ _ _ (ix2 (0 : Fin 1) c) (ix1 c) fun ax => ?_
    match ax with
    | ⟨0, _⟩ => rfl

/-- Row (b, l, t) of the pair table at column k: the receptor residue's feature k below 128, the ligand atom's
    feature k - 128 from 128 on. -/
theorem pair_rows_apply (x0 : FVec Ideal S8x128x128 .f32) (x1 : FVec Ideal S8x512x128 .f32)
    (b : Fin 8) (l : Fin 128) (t : Fin 512) (k : Fin 256) :
    RefTerms.pair_rows x0 x1 (ix2 (row b l t) k)
      = if h : k.val < 128 then x0 (ix3 b l ⟨k.val, h⟩) else x1 (ix3 b t ⟨k.val - 128, by omega⟩) := by
  unfold RefTerms.pair_rows
  refine (shapeCast_apply _ _ (ix2 (row b l t) k) (ix4 b l t k) ?_).trans ?_
  · rw [Shape.rowMajor_val_four, Shape.rowMajor_val_two]
    rfl
  · by_cases h : k.val < 128
    · rw [dif_pos h]
      refine (concatenate_pair_apply_left (t := S8x128x512x256) (s₁ := S8x128x512x128) (s₂ := S8x128x512x128) 3 _ _ _ (ix4 b l t k) rfl (ix4 b l t (⟨k.val, h⟩ : Fin 128)) fun ax => ?_).trans ?_
      · match ax with
        | ⟨0, _⟩ => rfl
        | ⟨1, _⟩ => rfl
        | ⟨2, _⟩ => rfl
        | ⟨3, _⟩ => rfl
      · refine (broadcastInDim_apply _ _ _ (ix4 b l t (⟨k.val, h⟩ : Fin 128)) (ix4 b l (0 : Fin 1) (⟨k.val, h⟩ : Fin 128)) fun ax => ?_).trans ?_
        · match ax with
          | ⟨0, _⟩ => rfl
          | ⟨1, _⟩ => rfl
          | ⟨2, _⟩ => rfl
          | ⟨3, _⟩ => rfl
        · refine broadcastInDim_apply _ _ _ (ix4 b l (0 : Fin 1) (⟨k.val, h⟩ : Fin 128)) (ix3 b l (⟨k.val, h⟩ : Fin 128)) fun ax => ?_
          match ax with
          | ⟨0, _⟩ => rfl
          | ⟨1, _⟩ => rfl
          | ⟨2, _⟩ => rfl
    · rw [dif_neg h]
      have hk : k.val - 128 < 128 := by have := k.isLt; omega
      refine (concatenate_pair_apply_right (t := S8x128x512x256) (s₁ := S8x128x512x128) (s₂ := S8x128x512x128) 3 _ _ _ (ix4 b l t k) rfl rfl (ix4 b l t (⟨k.val - 128, hk⟩ : Fin 128)) (fun ax hax => ?_) ?_).trans ?_
      · match ax with
        | ⟨0, _⟩ => rfl
        | ⟨1, _⟩ => rfl
        | ⟨2, _⟩ => rfl
        | ⟨3, _⟩ => exact absurd rfl hax
      · show k.val - 128 + 128 = k.val
        omega
      · refine (broadcastInDim_apply _ _ _ (ix4 b l t (⟨k.val - 128, hk⟩ : Fin 128)) (ix4 b (0 : Fin 1) t (⟨k.val - 128, hk⟩ : Fin 128)) fun ax => ?_).trans ?_
        · match ax with
          | ⟨0, _⟩ => rfl
          | ⟨1, _⟩ => rfl
          | ⟨2, _⟩ => rfl
          | ⟨3, _⟩ => rfl
        · refine broadcastInDim_apply _ _ _ (ix4 b (0 : Fin 1) t (⟨k.val - 128, hk⟩ : Fin 128)) (ix3 b t (⟨k.val - 128, hk⟩ : Fin 128)) fun ax => ?_
          match ax with
          | ⟨0, _⟩ => rfl
          | ⟨1, _⟩ => rfl
          | ⟨2, _⟩ => rfl

/-- The linear layer at (p, j): the sum over the 256 input channels of row p times column j of the weight, plus the bias. -/
theorem linear128_apply (x0 : FVec Ideal S8x128x128 .f32) (x1 : FVec Ideal S8x512x128 .f32) (w8 : FVec Ideal S256x128 .f32)
    (b9 : FVec Ideal S128 .f32) (p : Fin 524288) (j : Fin 128) :
    RefTerms.linear128 x0 x1 w8 b9 (ix2 p j)
      = (∑ k : Fin 256, RefTerms.pair_rows x0 x1 (ix2 p k) * w8 (ix2 k j)) + b9 (ix1 j) := by
  unfold RefTerms.linear128
  rw [addf_apply, rows128_apply]
  congr 1
  refine (Ideal.dotGeneral_apply _ _ _ _ _ _).trans ?_
  refine Cert.LibDot.sum_contr_eq dot_S524288x256_S256x128_S524288x128_1_0_0_1_n_n 256 rfl rfl _ _ (ix2 p j)
    (fun k => ix2 p k) (fun k => ix2 k j) (fun k => ?_) (fun k => ?_)
  · funext a
    match a with
    | ⟨0, _⟩ => rfl
    | ⟨1, _⟩ =>
      exact Fin.ext ((DotDims.lhsIdx_val_of_single _ rfl _ _).trans (contrEquiv1_symm_val _ 256 rfl rfl k))
  · funext a
    match a with
    | ⟨0, _⟩ =>
      exact Fin.ext ((DotDims.rhsIdx_val_of_single _ rfl _ _).trans (contrEquiv1_symm_val _ 256 rfl rfl k))
    | ⟨1, _⟩ => rfl

/-- The reciprocal standard deviation of channel j. -/
theorem inv_std_apply (var13 : FVec Ideal S128 .f32) (j : Fin 128) :
    RefTerms.inv_std var13 (ix1 j) = Ideal.rsqrt (var13 (ix1 j) + Ideal.ofBits .f32 0x3727C5AC#32) := rfl

/-- The ELU of the reference, entry by entry. -/
theorem elu128_apply (x : FVec Ideal S524288x128 .f32) (i : S524288x128.Idx) :
    RefTerms.elu128 x i = Spec.eluR (x i) := rfl

/-- The normalised linear layer at (p, j): the scalar normalisation of the linear part. -/
theorem pre_act_apply (x0 : FVec Ideal S8x128x128 .f32) (x1 : FVec Ideal S8x512x128 .f32) (w8 : FVec Ideal S256x128 .f32)
    (b9 g10 be11 mu12 var13 : FVec Ideal S128 .f32) (p : Fin 524288) (j : Fin 128) :
    RefTerms.pre_act x0 x1 w8 b9 g10 be11 mu12 var13 (ix2 p j)
      = Spec.norm (∑ k : Fin 256, RefTerms.pair_rows x0 x1 (ix2 p k) * w8 (ix2 k j)) (b9 (ix1 j)) (mu12 (ix1 j))
          (var13 (ix1 j)) (g10 (ix1 j)) (be11 (ix1 j)) := by
  unfold RefTerms.pre_act Spec.norm
  rw [addf_apply, mulf_apply, mulf_apply, subf_apply, rows128_apply, rows128_apply, rows128_apply, rows128_apply,
    linear128_apply, inv_std_apply]

/-- The hidden unit j of pair row (b, l, t). -/
theorem hidden_apply (x0 : FVec Ideal S8x128x128 .f32) (x1 : FVec Ideal S8x512x128 .f32) (w8 : FVec Ideal S256x128 .f32)
    (b9 g10 be11 mu12 var13 : FVec Ideal S128 .f32) (b : Fin 8) (l : Fin 128) (t : Fin 512) (j : Fin 128) :
    RefTerms.hidden x0 x1 w8 b9 g10 be11 mu12 var13 (ix2 (row b l t) j)
      = Spec.hiddenR
          (fun k : Fin 256 => if h : k.val < 128 then x0 (ix3 b l ⟨k.val, h⟩) else x1 (ix3 b t ⟨k.val - 128, by omega⟩))
          (fun k => w8 (ix2 k j)) (b9 (ix1 j)) (mu12 (ix1 j)) (var13 (ix1 j)) (g10 (ix1 j)) (be11 (ix1 j)) := by
  unfold RefTerms.hidden Spec.hiddenR
  rw [elu128_apply, pre_act_apply]
  simp only [pair_rows_apply]

end Cert.ReferenceIdeal.RefRead

end
-- ==== Proof.RefReadHeads.lean ====
/-
  The reference's three score heads read at an index. A head's logits are the hidden row times a column of the head's
  weight plus the bias; the first head returns the softmax over the ten components (the exponentials of the logits less
  the row maximum, over the literal 0 plus their sum), the second and third the ELU of the logit plus 1.1 and plus 1.
  Each is stated at pair row (b, l, t) and component g, over the hidden row of that pair row.
-/
import proofs.«169873_j12644383719683_1_alg».proof.Proof.RefTerms
import proofs.«169873_j12644383719683_1_alg».proof.Proof.Spec
import proofs.«169873_j12644383719683_1_alg».proof.Proof.LibDot
import proofs.«169873_j12644383719683_1_alg».proof.Proof.RowIdx
import proofs.«169873_j12644383719683_1_alg».proof.Proof.RefReadHidden
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Idealize.ShloMosaic Idealize.ShloMosaic.ValueIdx Cert.RowIdx
open Facts₀ Facts

variable [Facts]

/-- One value per row repeated along the 10 columns reads, at (p, g), the value of row p. -/
theorem cols10_apply (v : FVec Ideal S524288 .f32) (p : Fin 524288) (g : Fin 10) :
    RefTerms.cols10 v (ix2 p g) = v (ix1 p) := by
  unfold RefTerms.cols10
  refine (broadcastInDim_apply _ _ _ (ix2 p g) (ix2 p (0 : Fin 1)) fun ax => ?_).trans ?_
  · match ax with
    | ⟨0, _⟩ => rfl
    | ⟨1, _⟩ => rfl
  · refine broadcastInDim_apply _ _ _ (ix2 p (0 : Fin 1)) (ix1 p) fun ax => ?_
    match ax with
    | ⟨0, _⟩ => rfl

/-- A head's logit at (p, g): the sum over the 128 hidden units of row p times column g of the weight, plus the bias. -/
theorem logits_apply (h : FVec Ideal S524288x128 .f32) (W : FVec Ideal S128x10 .f32) (bv : FVec Ideal S10 .f32)
    (p : Fin 524288) (g : Fin 10) :
    RefTerms.logits h W bv (ix2 p g) = Spec.logit (fun j => h (ix2 p j)) (fun j => W (ix2 j g)) (bv (ix1 g)) := by
  unfold RefTerms.logits Spec.logit
  rw [addf_apply]
  congr 1
  · refine (Ideal.dotGeneral_apply _ _ _ _ _ _).trans ?_
    refine Cert.LibDot.sum_contr_eq dot_S524288x128_S128x10_S524288x10_1_0_0_1_n_n 128 rfl rfl _ _ (ix2 p g)
      (fun k => ix2 p k) (fun k => ix2 k g) (fun k => ?_) (fun k => ?_)
    · funext a
      match a with
      | ⟨0, _⟩ => rfl
      | ⟨1, _⟩ =>
        exact Fin.ext ((DotDims.lhsIdx_val_of_single _ rfl _ _).trans (contrEquiv1_symm_val _ 128 rfl rfl k))
    · funext a
      match a with
      | ⟨0, _⟩ =>
        exact Fin.ext ((DotDims.rhsIdx_val_of_single _ rfl _ _).trans (contrEquiv1_symm_val _ 128 rfl rfl k))
      | ⟨1, _⟩ => rfl
  · refine (broadcastInDim_apply _ _ _ (ix2 p g) (ix2 (0 : Fin 1) g) fun ax => ?_).trans ?_
    · match ax with
      | ⟨0, _⟩ => rfl
      | ⟨1, _⟩ => rfl
    · refine broadcastInDim_apply _ _ _ (ix2 (0 : Fin 1) g) (ix1 g) fun ax => ?_
      match ax with
      | ⟨0, _⟩ => rfl

/-- The index of the 524288 x 10 table over row p with column g inserted is (p, g). -/
theorem lift10 (hR : S524288x10.Reduces [1] S524288) (p : Fin 524288) (g : Fin 10) :
    hR.lift (ix1 p) g = ix2 p g := by
  funext a
  match a with
  | ⟨0, _⟩ => rfl
  | ⟨1, _⟩ => rfl

/-- The row maximum of row p: the fold of max from minus infinity over the ten columns, once more against minus infinity. -/
theorem row_max_apply (lg : FVec Ideal S524288x10 .f32) (p : Fin 524288) :
    RefTerms.row_max lg (ix1 p) = Spec.rowMax (fun g => lg (ix2 p g)) := by
  unfold RefTerms.row_max Spec.rowMax
  rw [maximumf_apply]
  have hR : S524288x10.Reduces [1] S524288 :=
    ⟨reducesTo_S524288x10_S524288_d1.1, Nat.one_pos, reducesTo_S524288x10_S524288_d1.2⟩
  refine congrArg (max (Ideal.ofBits .f32 0xFF800000#32)) ?_
  refine (Host.reduce_eq_fold_single FloatOps.maximumf lg _ reducesTo_S524288x10_S524288_d1 hR h_S_ (ix1 p)).trans ?_
  have hf : (fun g : Fin 10 => lg (hR.lift (ix1 p) g)) = fun g => lg (ix2 p g) :=
    funext fun g => congrArg lg (lift10 hR p g)
  exact congrArg (fun f => (Finset.univ : Finset (Fin 10)).fold max (Ideal.ofBits .f32 0xFF800000#32) f) hf

/-- The exponential, entry by entry. -/
theorem hostExp_apply {s : Shape} (x : FVec Ideal s .f32) (i : s.Idx) : Host.exp x i = Ideal.exp (x i) := rfl

/-- The quotient, entry by entry. -/
theorem hostDivf_apply {s : Shape} (x y : FVec Ideal s .f32) (i : s.Idx) : Host.divf x y i = Ideal.div (x i) (y i) := rfl

/-- The exponential of the shifted logit at (p, g). -/
theorem shifted_exp_apply (lg : FVec Ideal S524288x10 .f32) (p : Fin 524288) (g : Fin 10) :
    RefTerms.shifted_exp lg (ix2 p g) = Ideal.exp (lg (ix2 p g) - Spec.rowMax (fun g' => lg (ix2 p g'))) := by
  unfold RefTerms.shifted_exp
  rw [hostExp_apply, subf_apply, cols10_apply, row_max_apply]

/-- The softmax at (p, g): the shifted exponential over the literal 0 plus the sum of the row's ten. -/
theorem softmax10_apply (lg : FVec Ideal S524288x10 .f32) (p : Fin 524288) (g : Fin 10) :
    RefTerms.softmax10 lg (ix2 p g) = Spec.softmaxR (fun g' => lg (ix2 p g')) g := by
  unfold RefTerms.softmax10 Spec.softmaxR
  rw [hostDivf_apply, cols10_apply, shifted_exp_apply]
  have hR : S524288x10.Reduces [1] S524288 :=
    ⟨reducesTo_S524288x10_S524288_d1.1, Nat.one_pos, reducesTo_S524288x10_S524288_d1.2⟩
  refine congrArg (Ideal.div _) ?_
  refine (Ideal.hostReduceAdd_single reducesTo_S524288x10_S524288_d1 hR _ _ (ix1 p)).trans ?_
  refine congrArg (fun z => Ideal.ofBits .f32 0x00000000#32 + z) ?_
  refine Finset.sum_congr rfl fun k _ => ?_
  exact (congrArg (RefTerms.shifted_exp lg) (lift10 hR p k)).trans (shifted_exp_apply lg p k)

/-- The ELU of the reference on the 10-column tables, entry by entry. -/
theorem elu10_apply (x : FVec Ideal S524288x10 .f32) (i : S524288x10.Idx) :
    RefTerms.elu10 x i = Spec.eluR (x i) := rfl

/-- The first head at pair row (b, l, t), component g: the softmax of the row's ten logits. -/
theorem pi_apply (x0 : FVec Ideal S8x128x128 .f32) (x1 : FVec Ideal S8x512x128 .f32) (w8 : FVec Ideal S256x128 .f32)
    (b9 g10 be11 mu12 var13 : FVec Ideal S128 .f32) (w14 : FVec Ideal S128x10 .f32) (b15 : FVec Ideal S10 .f32)
    (b : Fin 8) (l : Fin 128) (t : Fin 512) (g : Fin 10) :
    RefTerms.pi_term x0 x1 w8 b9 g10 be11 mu12 var13 w14 b15 (ix2 (row b l t) g)
      = Spec.softmaxR (fun g' => Spec.logit (fun j => RefTerms.hidden x0 x1 w8 b9 g10 be11 mu12 var13 (ix2 (row b l t) j))
          (fun j => w14 (ix2 j g')) (b15 (ix1 g'))) g := by
  unfold RefTerms.pi_term
  rw [softmax10_apply]
  simp only [logits_apply]

/-- The second head at pair row (b, l, t), component g: the ELU of the logit, plus 1.1. -/
theorem sigma_apply (x0 : FVec Ideal S8x128x128 .f32) (x1 : FVec Ideal S8x512x128 .f32) (w8 : FVec Ideal S256x128 .f32)
    (b9 g10 be11 mu12 var13 : FVec Ideal S128 .f32) (w16 : FVec Ideal S128x10 .f32) (b17 : FVec Ideal S10 .f32)
    (b : Fin 8) (l : Fin 128) (t : Fin 512) (g : Fin 10) :
    RefTerms.sigma_term x0 x1 w8 b9 g10 be11 mu12 var13 w16 b17 (ix2 (row b l t) g)
      = Spec.eluR (Spec.logit (fun j => RefTerms.hidden x0 x1 w8 b9 g10 be11 mu12 var13 (ix2 (row b l t) j))
          (fun j => w16 (ix2 j g)) (b17 (ix1 g))) + Ideal.ofBits .f32 0x3F8CCCCD#32 := by
  unfold RefTerms.sigma_term
  rw [addf_apply, elu10_apply, logits_apply]
  first | done | rfl

/-- The third head at pair row (b, l, t), component g: the ELU of the logit, plus 1. -/
theorem mu_apply (x0 : FVec Ideal S8x128x128 .f32) (x1 : FVec Ideal S8x512x128 .f32) (w8 : FVec Ideal S256x128 .f32)
    (b9 g10 be11 mu12 var13 : FVec Ideal S128 .f32) (w18 : FVec Ideal S128x10 .f32) (b19 : FVec Ideal S10 .f32)
    (b : Fin 8) (l : Fin 128) (t : Fin 512) (g : Fin 10) :
    RefTerms.mu_term x0 x1 w8 b9 g10 be11 mu12 var13 w18 b19 (ix2 (row b l t) g)
      = Spec.eluR (Spec.logit (fun j => RefTerms.hidden x0 x1 w8 b9 g10 be11 mu12 var13 (ix2 (row b l t) j))
          (fun j => w18 (ix2 j g)) (b19 (ix1 g))) + Ideal.ofBits .f32 0x3F800000#32 := by
  unfold RefTerms.mu_term
  rw [addf_apply, elu10_apply, logits_apply]
  first | done | rfl

end Cert.ReferenceIdeal.RefRead

end
-- ==== Proof.RefReadDist.lean ====
/-
  The reference's distance head read at an index. The squared distance from receptor point (b, l) to ligand point
  (b, q) is -2 times their inner product plus the two squared norms (each the literal 0 plus a sum of three squares); the
  reference takes the root of each, cleans it, regroups the 12288 ligand points as 512 atoms of 24 points and takes the
  minimum over an atom's points. Row (b, l, t) of the result is that minimum for residue l and atom t.
-/
import proofs.«169873_j12644383719683_1_alg».proof.Proof.RefTerms
import proofs.«169873_j12644383719683_1_alg».proof.Proof.Spec
import proofs.«169873_j12644383719683_1_alg».proof.Proof.LibDot
import proofs.«169873_j12644383719683_1_alg».proof.Proof.RowIdx
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Idealize.ShloMosaic Idealize.ShloMosaic.ValueIdx Cert.RowIdx
open Facts₀ Facts

variable [Facts]

/-- The batched product of the receptor and ligand points at (b, l, q): the inner product of the two points. -/
theorem d2dot_apply (x4 : FVec Ideal S8x128x3 .f32) (x5 : FVec Ideal S8x12288x3 .f32) (b : Fin 8) (l : Fin 128) (q : Fin 12288) :
    Host.dotGeneral dot_S8x128x3_S8x12288x3_S8x128x12288_2_2_1_1_0_0 none x4 x5 (ix3 b l q)
      = ∑ d : Fin 3, x4 (ix3 b l d) * x5 (ix3 b q d) := by
  refine (Ideal.dotGeneral_apply _ _ _ _ _ _).trans ?_
  refine Cert.LibDot.sum_contr_eq dot_S8x128x3_S8x12288x3_S8x128x12288_2_2_1_1_0_0 3 rfl rfl _ _ (ix3 b l q)
    (fun d => ix3 b l d) (fun d => ix3 b q d) (fun d => ?_) (fun d => ?_)
  · funext a
    match a with
    | ⟨0, _⟩ => rfl
    | ⟨1, _⟩ => rfl
    | ⟨2, _⟩ =>
      exact Fin.ext ((DotDims.lhsIdx_val_of_single _ rfl _ _).trans (contrEquiv1_symm_val _ 3 rfl rfl d))
  · funext a
    match a with
    | ⟨0, _⟩ => rfl
    | ⟨1, _⟩ => rfl
    | ⟨2, _⟩ =>
      exact Fin.ext ((DotDims.rhsIdx_val_of_single _ rfl _ _).trans (contrEquiv1_symm_val _ 3 rfl rfl d))

/-- The ligand point's squared norm, spread over the receptor rows, at (b, l, q): the literal 0 plus the sum of squares. -/
theorem lig_sq_apply (x5 : FVec Ideal S8x12288x3 .f32) (b : Fin 8) (l : Fin 128) (q : Fin 12288) :
    RefTerms.lig_sq x5 (ix3 b l q) = Spec.sqNorm (fun d => x5 (ix3 b q d)) := by
  unfold RefTerms.lig_sq Spec.sqNorm
  refine (broadcastInDim_apply _ _ _ (ix3 b l q) (ix3 b (0 : Fin 1) q) fun ax => ?_).trans ?_
  · match ax with
    | ⟨0, _⟩ => rfl
    | ⟨1, _⟩ => rfl
    | ⟨2, _⟩ => rfl
  refine (broadcastInDim_apply _ _ _ (ix3 b (0 : Fin 1) q) (ix2 b q) fun ax => ?_).trans ?_
  · match ax with
    | ⟨0, _⟩ => rfl
    | ⟨1, _⟩ => rfl
  have hR : S8x12288x3.Reduces [2] S8x12288 :=
    ⟨reducesTo_S8x12288x3_S8x12288_d2.1, Nat.succ_pos _, reducesTo_S8x12288x3_S8x12288_d2.2⟩
  refine (Ideal.hostReduceAdd_single reducesTo_S8x12288x3_S8x12288_d2 hR _ _ (ix2 b q)).trans ?_
  congr 1
  show ∑ d : Fin 3, (mulf x5 x5) (hR.lift (ix2 b q) d) = _
  refine Finset.sum_congr rfl fun d _ => ?_
  have hl : hR.lift (ix2 b q) d = ix3 b q d := by
    funext a
    match a with
    | ⟨0, _⟩ => rfl
    | ⟨1, _⟩ => rfl
    | ⟨2, _⟩ => rfl
  rw [hl]
  rfl

/-- The receptor point's squared norm, spread over the ligand columns, at (b, l, q). -/
theorem rec_sq_apply (x4 : FVec Ideal S8x128x3 .f32) (b : Fin 8) (l : Fin 128) (q : Fin 12288) :
    RefTerms.rec_sq x4 (ix3 b l q) = Spec.sqNorm (fun d => x4 (ix3 b l d)) := by
  unfold RefTerms.rec_sq Spec.sqNorm
  refine (broadcastInDim_apply _ _ _ (ix3 b l q) (ix3 b l (0 : Fin 1)) fun ax => ?_).trans ?_
  · match ax with
    | ⟨0, _⟩ => rfl
    | ⟨1, _⟩ => rfl
    | ⟨2, _⟩ => rfl
  refine (broadcastInDim_apply _ _ _ (ix3 b l (0 : Fin 1)) (ix2 b l) fun ax => ?_).trans ?_
  · match ax with
    | ⟨0, _⟩ => rfl
    | ⟨1, _⟩ => rfl
  have hR : S8x128x3.Reduces [2] S8x128 :=
    ⟨reducesTo_S8x128x3_S8x128_d2.1, Nat.succ_pos _, reducesTo_S8x128x3_S8x128_d2.2⟩
  refine (Ideal.hostReduceAdd_single reducesTo_S8x128x3_S8x128_d2 hR _ _ (ix2 b l)).trans ?_
  congr 1
  show ∑ d : Fin 3, (mulf x4 x4) (hR.lift (ix2 b l) d) = _
  refine Finset.sum_congr rfl fun d _ => ?_
  have hl : hR.lift (ix2 b l) d = ix3 b l d := by
    funext a
    match a with
    | ⟨0, _⟩ => rfl
    | ⟨1, _⟩ => rfl
    | ⟨2, _⟩ => rfl
  rw [hl]
  rfl

/-- The squared distance at (b, l, q): -2 times the inner product, plus the two squared norms. -/
theorem d2_term_apply (x4 : FVec Ideal S8x128x3 .f32) (x5 : FVec Ideal S8x12288x3 .f32) (b : Fin 8) (l : Fin 128) (q : Fin 12288) :
    RefTerms.d2_term x4 x5 (ix3 b l q)
      = Spec.d2R (fun d => x4 (ix3 b l d)) (fun d => x5 (ix3 b q d)) (Spec.sqNorm fun d => x5 (ix3 b q d))
          (Spec.sqNorm fun d => x4 (ix3 b l d)) := by
  unfold RefTerms.d2_term Spec.d2R
  rw [addf_apply, addf_apply, mulf_apply, lig_sq_apply, rec_sq_apply, d2dot_apply]
  rfl

/-- The cleaning of the roots, entry by entry: a NaN to 10000, plus infinity to the largest finite value, minus infinity
    to the most negative one. -/
theorem nan_to_num_apply (x : FVec Ideal S8x128x12288 .f32) (i : S8x128x12288.Idx) :
    RefTerms.nan_to_num_term (Host.sqrt x) (constant S_ .f32 0x461C4000#32) i = Spec.cleanR (Ideal.sqrt (x i)) := rfl

/-- The cleaned distance at an index: the cleaning of the root of the squared distance there. -/
theorem clean_dist_apply (x4 : FVec Ideal S8x128x3 .f32) (x5 : FVec Ideal S8x12288x3 .f32) (i : S8x128x12288.Idx) :
    RefTerms.clean_dist x4 x5 i = Spec.cleanR (Ideal.sqrt (RefTerms.d2_term x4 x5 i)) :=
  nan_to_num_apply (RefTerms.d2_term x4 x5) i

/-- The index of the 8 x 128 x 512 x 24 table over (b, l, t) with point a inserted is (b, l, t, a). -/
theorem lift24 (hR : S8x128x512x24.Reduces [3] S8x128x512) (b : Fin 8) (l : Fin 128) (t : Fin 512) (a : Fin 24) :
    hR.lift (ix3 b l t) a = ix4 b l t a := by
  funext c
  match c with
  | ⟨0, _⟩ => rfl
  | ⟨1, _⟩ => rfl
  | ⟨2, _⟩ => rfl
  | ⟨3, _⟩ => rfl

/-- The pooling of a table of distances: row (b, l, t) of the column of minima is the fold of min from plus infinity over
    the 24 points of ligand atom t, point a of atom t being column 24 t + a of the table. -/
theorem pooled_min_apply (c : FVec Ideal S8x128x12288 .f32) (b : Fin 8) (l : Fin 128) (t : Fin 512) :
    broadcastInDim S524288x1 ![0] bcast_S524288_S524288x1_0
      (shapeCast S524288
        (Host.reduce FloatOps.minimumf (shapeCast S8x128x512x24 c shapeCasts_S8x128x12288_S8x128x512x24)
          (constant S_ .f32 0x7F800000#32) reducesTo_S8x128x512x24_S8x128x512_d3 h_S_)
        shapeCasts_S8x128x512_S524288) (ix2 (row b l t) (0 : Fin 1))
      = (Finset.univ : Finset (Fin 24)).fold min (Ideal.ofBits .f32 0x7F800000#32)
          (fun a => c (ix3 b l ⟨t.val * 24 + a.val, by omega⟩)) := by
  refine (broadcastInDim_apply _ _ _ (ix2 (row b l t) (0 : Fin 1)) (ix1 (row b l t)) fun ax => ?_).trans ?_
  · match ax with
    | ⟨0, _⟩ => rfl
  refine (shapeCast_apply _ _ (ix1 (row b l t)) (ix3 b l t) ?_).trans ?_
  · rw [Shape.rowMajor_val_three, Shape.rowMajor_val_one]
    rfl
  have hR : S8x128x512x24.Reduces [3] S8x128x512 :=
    ⟨reducesTo_S8x128x512x24_S8x128x512_d3.1, Nat.succ_pos _, reducesTo_S8x128x512x24_S8x128x512_d3.2⟩
  refine (Host.reduce_eq_fold_single FloatOps.minimumf _ _ reducesTo_S8x128x512x24_S8x128x512_d3 hR h_S_ (ix3 b l t)).trans ?_
  have hf : (fun a : Fin 24 => shapeCast S8x128x512x24 c shapeCasts_S8x128x12288_S8x128x512x24 (hR.lift (ix3 b l t) a))
      = fun a : Fin 24 => c (ix3 b l ⟨t.val * 24 + a.val, by omega⟩) := by
    funext a
    rw [lift24]
    have hq : t.val * 24 + a.val < 12288 := by omega
    refine shapeCast_apply _ _ (ix4 b l t a) (ix3 b l (⟨t.val * 24 + a.val, hq⟩ : Fin 12288)) ?_
    rw [Shape.rowMajor_val_three, Shape.rowMajor_val_four]
    show (b.val * 128 + l.val) * 12288 + (t.val * 24 + a.val) = ((b.val * 128 + l.val) * 512 + t.val) * 24 + a.val
    omega
  exact congrArg (fun f => (Finset.univ : Finset (Fin 24)).fold min (Ideal.ofBits .f32 0x7F800000#32) f) hf

/-- The pooled distance of pair row (b, l, t): the minimum, from plus infinity, of the cleaned roots of the squared
    distances from receptor residue l to the 24 points of ligand atom t. -/
theorem dist_apply (x4 : FVec Ideal S8x128x3 .f32) (x5 : FVec Ideal S8x12288x3 .f32) (b : Fin 8) (l : Fin 128) (t : Fin 512) :
    RefTerms.dist_term x4 x5 (ix2 (row b l t) (0 : Fin 1))
      = Spec.distR (fun a : Fin 24 =>
          Spec.d2R (fun d => x4 (ix3 b l d)) (fun d => x5 (ix3 b ⟨t.val * 24 + a.val, by omega⟩ d))
            (Spec.sqNorm fun d => x5 (ix3 b ⟨t.val * 24 + a.val, by omega⟩ d)) (Spec.sqNorm fun d => x4 (ix3 b l d))) := by
  unfold RefTerms.dist_term Spec.distR
  refine (pooled_min_apply _ b l t).trans ?_
  congr 1
  funext a
  rw [clean_dist_apply, d2_term_apply]

end Cert.ReferenceIdeal.RefRead

end
-- ==== Proof.RefRead.lean ====
/-
  The reference's result terms read at an index, as the scalar formulas of the two programs' common spelling: the hidden
  layer, the three score heads and the pooled distance, each at pair row (b, l, t).
-/
import proofs.«169873_j12644383719683_1_alg».proof.Proof.RefReadHidden
import proofs.«169873_j12644383719683_1_alg».proof.Proof.RefReadHeads
import proofs.«169873_j12644383719683_1_alg».proof.Proof.RefReadDist
-- ==== Proof.BridgeMdn.lean ====
/-
  The score head's bridge: the kernel's index formulas, taken at the arrays the kernel program's host side hands its
  first kernel (the features, the two halves of the first weight, the five parameter vectors made one-row matrices, a
  head's weight and its bias made a one-row matrix), are the reference's result terms at the same pair row and
  component. The hidden unit: the reference contracts the concatenated row against the whole weight, the kernel the two
  halves separately, and the two ELU spellings agree; the heads: the two softmax spellings agree, and the ELU again.
-/
import proofs.«169873_j12644383719683_1_alg».proof.Proof.MdnSpec
import proofs.«169873_j12644383719683_1_alg».proof.Proof.SpecMath
import proofs.«169873_j12644383719683_1_alg».proof.Proof.RefRead
import proofs.«169873_j12644383719683_1_alg».proof.Proof.Gen.KernelIdeal
import Idealize.ShloMosaic.Lib.ValueIdx
import Idealize.ShloMosaic.Lib.ValueLayout

noncomputable section

namespace Cert.Proof.Bridge

open Idealize.ShloMosaic Idealize.ShloMosaic.ValueIdx Cert.KernelIdeal Cert.KernelIdeal.Gen Cert.RowIdx

variable [Cert.ReferenceIdeal.Facts]

/-! ## The four layout reads of the kernel program's host side -/

/-- The upper half of a [256, 128] matrix reads, at (k, j), the matrix at (k, j). -/
theorem upper_read (x8 : FVec Ideal S256x128 .f32) (k j : Fin 128) :
    extractStridedSlice S128x128 ![0, 0] x8 slices_S256x128_S128x128_0_0 (ix2 k j)
      = x8 (ix2 (⟨k.val, by omega⟩ : Fin 256) j) :=
  slice2_axis0_apply 0 x8 slices_S256x128_S128x128_0_0 k j _ (Nat.zero_add _).symm

/-- The lower half of a [256, 128] matrix reads, at (k, j), the matrix at (128 + k, j). -/
theorem lower_read (x8 : FVec Ideal S256x128 .f32) (k j : Fin 128) :
    extractStridedSlice S128x128 ![128, 0] x8 slices_S256x128_S128x128_128_0 (ix2 k j)
      = x8 (ix2 (⟨128 + k.val, by omega⟩ : Fin 256) j) :=
  slice2_axis0_apply 128 x8 slices_S256x128_S128x128_128_0 k j _ rfl

/-- A vector of 128 made a one-row matrix reads, at (0, j), the vector at j. -/
theorem row128_read (x : FVec Ideal S128 .f32) (j : Fin 128) :
    shapeCast S1x128 x shapeCasts_S128_S1x128 (ix2 (0 : Fin 1) j) = x (ix1 j) :=
  shapeCast_a_1a_apply x shapeCasts_S128_S1x128 0 j

/-- A vector of 10 made a one-row matrix reads, at (0, g), the vector at g. -/
theorem row10_read (x : FVec Ideal S10 .f32) (g : Fin 10) :
    shapeCast S1x10 x shapeCasts_S10_S1x10 (ix2 (0 : Fin 1) g) = x (ix1 g) :=
  shapeCast_a_1a_apply x shapeCasts_S10_S1x10 0 g

/-! ## The kernel's formulas at an index given by coordinates -/

/-- The mixing weights at (b, l, t, g). -/
theorem Gpi_ix4 (X0 : S8x128x128.Idx → EReal) (X1 : S8x512x128.Idx → EReal) (X2 X3 : S128x128.Idx → EReal)
    (X4 X5 X6 X7 X8 : S1x128.Idx → EReal) (W : S128x10.Idx → EReal) (B : S1x10.Idx → EReal)
    (b : Fin 8) (l : Fin 128) (t : Fin 512) (g : Fin 10) :
    MdnBlock.Gpi X0 X1 X2 X3 X4 X5 X6 X7 X8 W B (ix4 b l t g)
      = Spec.softmaxK (fun g' => Spec.logit (fun j => MdnBlock.hid X0 X1 X2 X3 X4 X5 X6 X7 X8 b l t j)
          (fun j => W (ix2 j g')) (B (ix2 (0 : Fin 1) g'))) g := rfl

/-- The scales and the locations at (b, l, t, g). -/
theorem Gelu_ix4 (cst : EReal) (X0 : S8x128x128.Idx → EReal) (X1 : S8x512x128.Idx → EReal) (X2 X3 : S128x128.Idx → EReal)
    (X4 X5 X6 X7 X8 : S1x128.Idx → EReal) (W : S128x10.Idx → EReal) (B : S1x10.Idx → EReal)
    (b : Fin 8) (l : Fin 128) (t : Fin 512) (g : Fin 10) :
    MdnBlock.Gelu cst X0 X1 X2 X3 X4 X5 X6 X7 X8 W B (ix4 b l t g)
      = Spec.eluK (Spec.logit (fun j => MdnBlock.hid X0 X1 X2 X3 X4 X5 X6 X7 X8 b l t j)
          (fun j => W (ix2 j g)) (B (ix2 (0 : Fin 1) g))) + cst := rfl

/-! ## The bridge -/

/-- The hidden unit j of (b, l, t): the kernel's formula at the host side's arrays is the reference's hidden layer at
    pair row (b, l, t). -/
theorem hid_bridge (A0 : FVec Ideal S8x128x128 .f32) (A1 : FVec Ideal S8x512x128 .f32) (A8 : FVec Ideal S256x128 .f32)
    (A9 A10 A11 A12 A13 : FVec Ideal S128 .f32)
    (b : Fin 8) (l : Fin 128) (t : Fin 512) (j : Fin 128) :
    MdnBlock.hid A0 A1 (extractStridedSlice S128x128 ![0, 0] A8 slices_S256x128_S128x128_0_0)
        (extractStridedSlice S128x128 ![128, 0] A8 slices_S256x128_S128x128_128_0)
        (shapeCast S1x128 A9 shapeCasts_S128_S1x128) (shapeCast S1x128 A10 shapeCasts_S128_S1x128)
        (shapeCast S1x128 A11 shapeCasts_S128_S1x128) (shapeCast S1x128 A12 shapeCasts_S128_S1x128)
        (shapeCast S1x128 A13 shapeCasts_S128_S1x128) b l t j
      = Cert.ReferenceIdeal.RefTerms.hidden (F := Ideal) A0 A1 A8 A9 A10 A11 A12 A13 (ix2 (row b l t) j) := by
  rw [Cert.ReferenceIdeal.RefRead.hidden_apply,
    Spec.hiddenR_eq_hiddenK (fun k => A0 (ix3 b l k)) (fun k => A1 (ix3 b t k)) (fun k => A8 (ix2 k j))]
  unfold MdnBlock.hid
  simp only [upper_read, lower_read, row128_read]

/-- The mixing weights. -/
theorem pi_bridge (A0 : FVec Ideal S8x128x128 .f32) (A1 : FVec Ideal S8x512x128 .f32) (A8 : FVec Ideal S256x128 .f32)
    (A9 A10 A11 A12 A13 : FVec Ideal S128 .f32) (A14 : FVec Ideal S128x10 .f32) (A15 : FVec Ideal S10 .f32)
    (b : Fin 8) (l : Fin 128) (t : Fin 512) (g : Fin 10) :
    MdnBlock.Gpi A0 A1 (extractStridedSlice S128x128 ![0, 0] A8 slices_S256x128_S128x128_0_0)
        (extractStridedSlice S128x128 ![128, 0] A8 slices_S256x128_S128x128_128_0)
        (shapeCast S1x128 A9 shapeCasts_S128_S1x128) (shapeCast S1x128 A10 shapeCasts_S128_S1x128)
        (shapeCast S1x128 A11 shapeCasts_S128_S1x128) (shapeCast S1x128 A12 shapeCasts_S128_S1x128)
        (shapeCast S1x128 A13 shapeCasts_S128_S1x128)
        A14 (shapeCast S1x10 A15 shapeCasts_S10_S1x10) (ix4 b l t g)
      = Cert.ReferenceIdeal.RefTerms.pi_term (F := Ideal) A0 A1 A8 A9 A10 A11 A12 A13 A14 A15 (ix2 (row b l t) g) := by
  rw [Cert.ReferenceIdeal.RefRead.pi_apply, Spec.softmaxR_eq_softmaxK, Gpi_ix4]
  simp only [hid_bridge, row10_read]

/-- The scales. -/
theorem sigma_bridge (A0 : FVec Ideal S8x128x128 .f32) (A1 : FVec Ideal S8x512x128 .f32) (A8 : FVec Ideal S256x128 .f32)
    (A9 A10 A11 A12 A13 : FVec Ideal S128 .f32) (A16 : FVec Ideal S128x10 .f32) (A17 : FVec Ideal S10 .f32)
    (b : Fin 8) (l : Fin 128) (t : Fin 512) (g : Fin 10) :
    MdnBlock.Gelu (Ideal.ofBits .f32 0x3F8CCCCD#32) A0 A1 (extractStridedSlice S128x128 ![0, 0] A8 slices_S256x128_S128x128_0_0)
        (extractStridedSlice S128x128 ![128, 0] A8 slices_S256x128_S128x128_128_0)
        (shapeCast S1x128 A9 shapeCasts_S128_S1x128) (shapeCast S1x128 A10 shapeCasts_S128_S1x128)
        (shapeCast S1x128 A11 shapeCasts_S128_S1x128) (shapeCast S1x128 A12 shapeCasts_S128_S1x128)
        (shapeCast S1x128 A13 shapeCasts_S128_S1x128)
        A16 (shapeCast S1x10 A17 shapeCasts_S10_S1x10) (ix4 b l t g)
      = Cert.ReferenceIdeal.RefTerms.sigma_term (F := Ideal) A0 A1 A8 A9 A10 A11 A12 A13 A16 A17 (ix2 (row b l t) g) := by
  rw [Cert.ReferenceIdeal.RefRead.sigma_apply, Spec.eluR_eq_eluK, Gelu_ix4]
  simp only [hid_bridge, row10_read]

/-- The locations. -/
theorem mu_bridge (A0 : FVec Ideal S8x128x128 .f32) (A1 : FVec Ideal S8x512x128 .f32) (A8 : FVec Ideal S256x128 .f32)
    (A9 A10 A11 A12 A13 : FVec Ideal S128 .f32) (A18 : FVec Ideal S128x10 .f32) (A19 : FVec Ideal S10 .f32)
    (b : Fin 8) (l : Fin 128) (t : Fin 512) (g : Fin 10) :
    MdnBlock.Gelu (Ideal.ofBits .f32 0x3F800000#32) A0 A1 (extractStridedSlice S128x128 ![0, 0] A8 slices_S256x128_S128x128_0_0)
        (extractStridedSlice S128x128 ![128, 0] A8 slices_S256x128_S128x128_128_0)
        (shapeCast S1x128 A9 shapeCasts_S128_S1x128) (shapeCast S1x128 A10 shapeCasts_S128_S1x128)
        (shapeCast S1x128 A11 shapeCasts_S128_S1x128) (shapeCast S1x128 A12 shapeCasts_S128_S1x128)
        (shapeCast S1x128 A13 shapeCasts_S128_S1x128)
        A18 (shapeCast S1x10 A19 shapeCasts_S10_S1x10) (ix4 b l t g)
      = Cert.ReferenceIdeal.RefTerms.mu_term (F := Ideal) A0 A1 A8 A9 A10 A11 A12 A13 A18 A19 (ix2 (row b l t) g) := by
  rw [Cert.ReferenceIdeal.RefRead.mu_apply, Spec.eluR_eq_eluK, Gelu_ix4]
  simp only [hid_bridge, row10_read]

end Cert.Proof.Bridge

end
-- ==== Proof.DistSpec.lean ====
/-
  The distance kernel's whole result as one function of its four operand arrays.
-/
import proofs.«169873_j12644383719683_1_alg».proof.KernelIdeal
import proofs.«169873_j12644383719683_1_alg».proof.Proof.Spec

noncomputable section

namespace Cert.KernelIdeal.DistBlock

open Cert.KernelIdeal Idealize.ShloMosaic Idealize.ShloMosaic.ValueIdx

/-- The distance kernel's whole result as one function of its four operand arrays: at (b, r, l) the pooled distance
    between target row r of batch b (its 24 atoms) and ligand row l of that batch. -/
def Gdist (X0 : S8x128x3.Idx → EReal) (X1 : S8x1x128.Idx → EReal) (X2 : S8x24x512x3.Idx → EReal)
    (X3 : S8x24x512x1.Idx → EReal) : S8x512x128.Idx → EReal :=
  fun i => Cert.Spec.distK (fun a : Fin 24 =>
    Cert.Spec.d2K (fun d => X0 (ix3 (i 0) (i 2) d)) (fun d => X2 (ix4 (i 0) a (i 1) d))
      (X3 (ix4 (i 0) a (i 1) (0 : Fin 1))) (X1 (ix3 (i 0) (0 : Fin 1) (i 2))))

end Cert.KernelIdeal.DistBlock

end
-- ==== Proof.BridgeDist.lean ====
/-
  The distance head, kernel against reference, at one pair row: the kernel's result (its pooled distance over the
  regrouped positions and their squared norms, transposed and flattened) and the reference's (root, cleaning, minimum
  over each atom's 24 points of the expanded squared distances) are both read at row (b, l, t) as the specification's two
  spellings over the same points, which agree when the coordinates are finite.
-/
import proofs.«169873_j12644383719683_1_alg».proof.Proof.DistSpec
import proofs.«169873_j12644383719683_1_alg».proof.Proof.KHost
import proofs.«169873_j12644383719683_1_alg».proof.Proof.KRead
import proofs.«169873_j12644383719683_1_alg».proof.Proof.RefReadDist
import proofs.«169873_j12644383719683_1_alg».proof.Proof.SpecMath
import proofs.«169873_j12644383719683_1_alg».proof.Proof.Gen.ReferenceIdeal

noncomputable section

namespace Cert.Proof.Bridge

open Idealize.ShloMosaic Idealize.ShloMosaic.ValueIdx
open Cert.KernelIdeal Cert.KernelIdeal.KRun Cert.KernelIdeal.DistBlock

/-- The kernel's distance column and the reference's agree at every pair row when the coordinates are finite. -/
theorem dist_bridge (A4 : FVec Ideal S8x128x3 .f32) (A5 : FVec Ideal S8x12288x3 .f32)
    (h4 : ∀ i, ∃ r : ℝ, A4 i = (r : EReal)) (h5 : ∀ i, ∃ r : ℝ, A5 i = (r : EReal))
    (b : Fin 8) (l : Fin 128) (t : Fin 512) :
    KRun.dist_term (DistBlock.Gdist A4 (KRun.xnorm_term A4) (KRun.hpos_term A5) (KRun.hnorm_term A5))
        (ix2 (Cert.RowIdx.row b l t) (0 : Fin 1))
      = Cert.ReferenceIdeal.RefTerms.dist_term (F := Ideal) A4 A5 (ix2 (Cert.RowIdx.row b l t) (0 : Fin 1)) := by
  rw [KRun.dist_term_apply, Cert.ReferenceIdeal.RefRead.dist_apply A4 A5 b l t]
  show Cert.Spec.distK (fun a : Fin 24 =>
      Cert.Spec.d2K (fun d => A4 (ix3 b l d)) (fun d => KRun.hpos_term A5 (ix4 b a t d))
        (KRun.hnorm_term A5 (ix4 b a t (0 : Fin 1))) (KRun.xnorm_term A4 (ix3 b (0 : Fin 1) l))) = _
  simp only [KRun.hpos_term_apply, KRun.hnorm_term_apply, KRun.xnorm_term_apply]
  exact (Cert.Spec.distR_eq_distK (fun d => A4 (ix3 b l d))
    (fun a d => A5 (ix3 b (⟨t.val * 24 + a.val, by omega⟩ : Fin 12288) d)) (fun d => h4 _) (fun a d => h5 _)).symm

end Cert.Proof.Bridge

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.LibLayoutB.lean ====
/-
  More layout operations read at an index, by coordinates: the casts and broadcasts of ranks 2–4 by which a kernel body
  spreads a row over a block (an [a, b] matrix as [a, 1, b], a [c] vector as [1, 1, c], either broadcast to [a, b, c]) and
  flattens or unflattens the two leading axes of a rank-3 block ([a, b, c] as [a·b, c] and back).
-/
import Idealize.ShloMosaic.Lib.ValueIdx
import Idealize.ShloMosaic.Lib.ValueLayout
import Idealize.ShloMosaic.Lib.Pipeline.Value

namespace Cert.LibLayoutB

open Idealize.ShloMosaic Idealize.ShloMosaic.ValueIdx

variable {α : Type}

/-- An [a, b] matrix cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A [c] vector cast to [1, 1, c] reads, at (u, v, r), the operand at r. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    simp only [hu, hv, Nat.zero_mul, Nat.zero_add, Nat.mul_one, Nat.add_zero])

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A [1, 1, c] array broadcast to [a, b, c] reads, at (p, q, r), the operand at (0, 0, r). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, b, c] block flattened to [m, c], m = a·b, reads, at (p·b + q, r), the operand at (p, q, r). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (r : Fin c) (n : Fin m)
    (hn : n.val = p.val * b + q.val) :
    shapeCast ⟨2, ![m, c]⟩ x h (ix2 n r) = x (ix3 p q r) :=
  shapeCast_apply x h _ _ (by
    rw [Shape.rowMajor_val_three, Shape.rowMajor_val_two]
    show (p.val * b + q.val) * c + r.val = n.val * c + r.val
    rw [hn])

/-- An [m, c] matrix, m = a·b, unflattened to [a, b, c] reads, at (p, q, r), the operand at (p·b + q, r). -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (n : Fin m)
    (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- A [1, 1, c] array cast to [1, c] reads, at (u, r), the operand at (0, 0, r). -/
theorem shapeCast_11c_1c_apply {c : ℕ} (x : (⟨3, ![1, 1, c]⟩ : Shape).Idx → α)
    (h : (⟨3, ![1, 1, c]⟩ : Shape).ShapeCasts ⟨2, ![1, c]⟩) (u : Fin 1) (r : Fin c) :
    shapeCast ⟨2, ![1, c]⟩ x h (ix2 u r) = x (ix3 (0 : Fin 1) (0 : Fin 1) r) :=
  shapeCast_apply x h _ _ (by
    have hu : u.val = 0 := by omega
    rw [Shape.rowMajor_val_three, Shape.rowMajor_val_two]
    show (0 * 1 + 0) * c + r.val = u.val * c + r.val
    simp only [hu, Nat.zero_mul, Nat.zero_add, Nat.mul_one, Nat.add_zero])

end Cert.LibLayoutB
-- ==== Proof.DistPay.lean ====
/-
  The distance kernel's payloads, read back. Over any float instance: each of the twenty payloads of the body, at the
  arguments the body passes it, is a running minimum of per-atom squared-distance blocks (`d2blk`), the last one under a
  root. Over the extended reals: a block read at (tt, l) is the scalar squared distance of the specification; the guard
  and the casts of the ligand's arrays read at an index; and a load of one atom's rows out of the 24-atom block reads the
  block at that atom.
-/
import proofs.«169873_j12644383719683_1_alg».proof.Proof.Gen.KernelIdeal.Skeleton
import proofs.«169873_j12644383719683_1_alg».proof.Proof.Spec
import proofs.«169873_j12644383719683_1_alg».proof.Proof.LibDot
import proofs.«169873_j12644383719683_1_alg».proof.Proof.LibLayout
import proofs.«169873_j12644383719683_1_alg».proof.Proof.LibLayoutB
import Idealize.ShloMosaic.Lib.ValueLayout

noncomputable section

namespace Cert.KernelIdeal.DistPay

open Idealize.ShloMosaic Idealize.ShloMosaic.ValueIdx Cert.KernelIdeal Cert.KernelIdeal.Gen

section AnyInstance

variable {F : FTy → Type} [FloatOps F]

/-- The squared-distance block of one target atom against the ligand block: −2 times the product of the atom's 64 × 3
    positions with the ligand's 128 × 3 positions, plus the atom's squared norms down the rows, plus the ligand's
    squared norms along the columns. -/
def d2blk (h : FVec F S128x3 .f32) (nl : FVec F S1x128 .f32) (p : Vec F S1x1x64x3 .f32) (q : Vec F S1x1x64x1 .f32) :
    FVec F S64x128 .f32 :=
  addf (addf (mulf (broadcast S64x128 (Scalar.ofBits .f32 0xC0000000#32))
        (matmul dot_S64x3_S128x3_S64x128_1_1_0_0_n_n (some .fp32) (shapeCast S64x3 p shapeCasts_S1x1x64x3_S64x3) h
          (constant S64x128 .f32 0x00000000#32)))
      (broadcastTo S64x128 (shapeCast S64x1 q shapeCasts_S1x1x64x1_S64x1) broadcasts_S64x1_S64x128))
    (broadcastTo S64x128 nl broadcasts_S1x128_S64x128)

/-! Each payload as running minima of squared-distance blocks, at the arguments the body passes it. -/

theorem pay4_eq (v0 : Vec F S1x128x3 .f32) (v2 : Vec F S1x1x128 .f32) (p0 : Vec F S1x1x64x3 .f32)
    (q0 : Vec F S1x1x64x1 .f32) (p1 : Vec F S1x1x64x3 .f32) (q1 : Vec F S1x1x64x1 .f32) :
    k1_pay4 v0 v2 p0 q0 p1 q1
      = minimumf (d2blk (k1_pay2 v0) (k1_pay3 v2) p0 q0) (d2blk (k1_pay2 v0) (k1_pay3 v2) p1 q1) := rfl

theorem pay5_eq (h : FVec F S128x3 .f32) (nl : FVec F S1x128 .f32) (m : FVec F S64x128 .f32)
    (p0 : Vec F S1x1x64x3 .f32) (q0 : Vec F S1x1x64x1 .f32) (p1 : Vec F S1x1x64x3 .f32) (q1 : Vec F S1x1x64x1 .f32) :
    k1_pay5 h nl m p0 q0 p1 q1 = minimumf (minimumf m (d2blk h nl p0 q0)) (d2blk h nl p1 q1) := rfl

theorem pay6_eq (h : FVec F S128x3 .f32) (nl : FVec F S1x128 .f32) (p : Vec F S1x1x64x3 .f32) (q : Vec F S1x1x64x1 .f32) :
    k1_pay6 h nl p q = d2blk h nl p q := rfl

theorem pay7_eq (h : FVec F S128x3 .f32) (nl : FVec F S1x128 .f32) (m d : FVec F S64x128 .f32)
    (p0 : Vec F S1x1x64x3 .f32) (q0 : Vec F S1x1x64x1 .f32) (p1 : Vec F S1x1x64x3 .f32) (q1 : Vec F S1x1x64x1 .f32) :
    k1_pay7 h nl m d p0 q0 p1 q1 = minimumf (minimumf (minimumf m d) (d2blk h nl p0 q0)) (d2blk h nl p1 q1) := rfl

theorem pay10_eq (h : FVec F S128x3 .f32) (nl : FVec F S1x128 .f32) (m : FVec F S64x128 .f32)
    (p : Vec F S1x1x64x3 .f32) (q : Vec F S1x1x64x1 .f32)
    (p0 : Vec F S1x1x64x3 .f32) (q0 : Vec F S1x1x64x1 .f32) (p1 : Vec F S1x1x64x3 .f32) (q1 : Vec F S1x1x64x1 .f32) :
    k1_pay10 h nl m (k1_pay8 q) (k1_pay9 h p) (Scalar.ofBits .f32 0xC0000000#32) p0 q0 p1 q1
      = minimumf (minimumf (minimumf m (d2blk h nl p q)) (d2blk h nl p0 q0)) (d2blk h nl p1 q1) := rfl

theorem pay12_eq (h : FVec F S128x3 .f32) (nl : FVec F S1x128 .f32) (m : FVec F S64x128 .f32)
    (p : Vec F S1x1x64x3 .f32) (q : Vec F S1x1x64x1 .f32)
    (p0 : Vec F S1x1x64x3 .f32) (q0 : Vec F S1x1x64x1 .f32) (p1 : Vec F S1x1x64x3 .f32) (q1 : Vec F S1x1x64x1 .f32) :
    k1_pay12 h nl m (k1_pay11 p) q p0 q0 p1 q1
      = minimumf (minimumf (minimumf m (d2blk h nl p q)) (d2blk h nl p0 q0)) (d2blk h nl p1 q1) := rfl

theorem pay13_eq (h : FVec F S128x3 .f32) (nl : FVec F S1x128 .f32) (m : FVec F S64x128 .f32)
    (p0 : Vec F S1x1x64x3 .f32) (q0 : Vec F S1x1x64x1 .f32) (p1 : Vec F S1x1x64x3 .f32) (q1 : Vec F S1x1x64x1 .f32) :
    k1_pay13 h nl m p0 q0 p1 q1 = minimumf (minimumf m (d2blk h nl p0 q0)) (d2blk h nl p1 q1) := rfl

theorem pay15_eq (h : FVec F S128x3 .f32) (nl : FVec F S1x128 .f32) (m : FVec F S64x128 .f32)
    (p : Vec F S1x1x64x3 .f32) (q : Vec F S1x1x64x1 .f32)
    (p0 : Vec F S1x1x64x3 .f32) (q0 : Vec F S1x1x64x1 .f32) (p1 : Vec F S1x1x64x3 .f32) (q1 : Vec F S1x1x64x1 .f32) :
    k1_pay15 h nl m (k1_pay14 h p q) p0 q0 p1 q1
      = minimumf (minimumf (minimumf m (d2blk h nl p q)) (d2blk h nl p0 q0)) (d2blk h nl p1 q1) := rfl

theorem pay18_eq (h : FVec F S128x3 .f32) (nl : FVec F S1x128 .f32) (m : FVec F S64x128 .f32)
    (p : Vec F S1x1x64x3 .f32) (q : Vec F S1x1x64x1 .f32)
    (p0 : Vec F S1x1x64x3 .f32) (q0 : Vec F S1x1x64x1 .f32) (p1 : Vec F S1x1x64x3 .f32) (q1 : Vec F S1x1x64x1 .f32) :
    k1_pay18 h nl m (k1_pay16 p) (k1_pay17 q) (constant S64x128 .f32 0x00000000#32) p0 q0 p1 q1
      = minimumf (minimumf (minimumf m (d2blk h nl p q)) (d2blk h nl p0 q0)) (d2blk h nl p1 q1) := rfl

theorem pay20_eq (h : FVec F S128x3 .f32) (nl : FVec F S1x128 .f32) (m : FVec F S64x128 .f32)
    (p : Vec F S1x1x64x3 .f32) (q : Vec F S1x1x64x1 .f32)
    (p0 : Vec F S1x1x64x3 .f32) (q0 : Vec F S1x1x64x1 .f32) (p1 : Vec F S1x1x64x3 .f32) (q1 : Vec F S1x1x64x1 .f32) :
    k1_pay20 h nl m (k1_pay19 p) q p0 q0 p1 q1
      = sqrt (minimumf (minimumf (minimumf m (d2blk h nl p q)) (d2blk h nl p0 q0)) (d2blk h nl p1 q1)) := rfl

end AnyInstance

section AtIdeal

/-- The product of the atom's positions with the ligand's, at (tt, l): the sum over the three coordinates. -/
theorem mm_apply (a : FVec Ideal S64x3 .f32) (h : FVec Ideal S128x3 .f32) (tt : Fin 64) (l : Fin 128) :
    matmul dot_S64x3_S128x3_S64x128_1_1_0_0_n_n (some .fp32) a h (constant S64x128 .f32 0x00000000#32) (ix2 tt l)
      = ∑ d : Fin 3, a (ix2 tt d) * h (ix2 l d) := by
  refine (Ideal.matmul_constant_zero_apply _ _ _ _ (ix2 tt l)).trans
    (Cert.LibDot.sum_contr_eq dot_S64x3_S128x3_S64x128_1_1_0_0_n_n 3 rfl rfl _ _ (ix2 tt l)
      (fun d => ix2 tt d) (fun d => ix2 l d) ?_ ?_)
  · intro k; funext a; apply Fin.ext; match a with | ⟨0, _⟩ => rfl | ⟨1, _⟩ => rfl
  · intro k; funext a; apply Fin.ext; match a with | ⟨0, _⟩ => rfl | ⟨1, _⟩ => rfl

/-- The squared-distance block of one atom at (tt, l) is the scalar formula. -/
theorem d2blk_apply (h : FVec Ideal S128x3 .f32) (nl : FVec Ideal S1x128 .f32) (p : Vec Ideal S1x1x64x3 .f32)
    (q : Vec Ideal S1x1x64x1 .f32) (tt : Fin 64) (l : Fin 128) :
    d2blk h nl p q (ix2 tt l)
      = Cert.Spec.d2K (fun d => h (ix2 l d)) (fun d => p (ix4 (0 : Fin 1) (0 : Fin 1) tt d))
          (q (ix4 (0 : Fin 1) (0 : Fin 1) tt (0 : Fin 1))) (nl (ix2 (0 : Fin 1) l)) := by
  unfold d2blk Cert.Spec.d2K
  rw [addf_apply, addf_apply, mulf_apply, broadcast_apply, mm_apply, broadcastTo_1b_ab_apply,
    LibLayout.broadcastTo_a1_ab_apply, LibLayoutB.shapeCast_11ab_ab_apply]
  simp only [LibLayoutB.shapeCast_11ab_ab_apply]
  rfl

/-- The NaN guard and the cast to a one-block array, at (0, tt, l). -/
theorem pay1_apply (v : FVec Ideal S64x128 .f32) (tt : Fin 64) (l : Fin 128) :
    k1_pay1 v (ix3 (0 : Fin 1) tt l) = Cert.Spec.nanK (v (ix2 tt l)) := by
  unfold k1_pay1
  rw [shapeCast_ab_1ab_apply]
  rfl

/-- The root at an index. -/
theorem sqrt_apply {s : Shape} (v : FVec Ideal s .f32) (i : s.Idx) : sqrt v i = Ideal.sqrt (v i) := rfl

/-- The ligand's positions as a 128 × 3 matrix, at (l, d). -/
theorem pay2_apply (v0 : Vec Ideal S1x128x3 .f32) (l : Fin 128) (d : Fin 3) :
    k1_pay2 v0 (ix2 l d) = v0 (ix3 (0 : Fin 1) l d) :=
  shapeCast_1ab_ab_apply v0 _ l d

/-- The ligand's squared norms as a one-row matrix, at (0, l). -/
theorem pay3_apply (v2 : Vec Ideal S1x1x128 .f32) (u : Fin 1) (l : Fin 128) :
    k1_pay3 v2 (ix2 u l) = v2 (ix3 (0 : Fin 1) (0 : Fin 1) l) :=
  LibLayoutB.shapeCast_11c_1c_apply v2 _ u l

end AtIdeal

section Loads

variable {Val : EltTy → Type} {e : EltTy}

/-- The load of atom n's positions out of the 24-atom block reads the block at atom n. -/
theorem ld_atom3 (X : S1x24x64x3.Idx → Val e) (n : ℕ)
    (inb : ∀ a, (![0, n, 0, 0] : Fin 4 → ℕ) a + S1x1x64x3.size a ≤ S1x24x64x3.size a)
    (u v : Fin 1) (tt : Fin 64) (d : Fin 3) :
    View.ld X (Rect.unit (s := S1x24x64x3) ![0, n, 0, 0] S1x1x64x3.size inb) (ix4 u v tt d)
      = X (ix4 (0 : Fin 1) (⟨n, inb 1⟩ : Fin 24) tt d) := by
  show X _ = X _
  congr 1
  funext a; apply Fin.ext
  match a with
  | ⟨0, _⟩ => show 0 + 1 * u.val = 0; omega
  | ⟨1, _⟩ => show n + 1 * v.val = n; omega
  | ⟨2, _⟩ => show 0 + 1 * tt.val = tt.val; omega
  | ⟨3, _⟩ => show 0 + 1 * d.val = d.val; omega

/-- The load of atom n's squared norms out of the 24-atom block reads the block at atom n. -/
theorem ld_atom1 (X : S1x24x64x1.Idx → Val e) (n : ℕ)
    (inb : ∀ a, (![0, n, 0, 0] : Fin 4 → ℕ) a + S1x1x64x1.size a ≤ S1x24x64x1.size a)
    (u v : Fin 1) (tt : Fin 64) (w : Fin 1) :
    View.ld X (Rect.unit (s := S1x24x64x1) ![0, n, 0, 0] S1x1x64x1.size inb) (ix4 u v tt w)
      = X (ix4 (0 : Fin 1) (⟨n, inb 1⟩ : Fin 24) tt (0 : Fin 1)) := by
  show X _ = X _
  congr 1
  funext a; apply Fin.ext
  match a with
  | ⟨0, _⟩ => show 0 + 1 * u.val = 0; omega
  | ⟨1, _⟩ => show n + 1 * v.val = n; omega
  | ⟨2, _⟩ => show 0 + 1 * tt.val = tt.val; omega
  | ⟨3, _⟩ => show 0 + 1 * w.val = 0; omega

end Loads

end Cert.KernelIdeal.DistPay

end
-- ==== Proof.DistOut.lean ====
/-
  The distance kernel's body read at an index: what it leaves in its output block at (0, tt, l) is the pooled distance of
  the specification — the guarded root of the minimum, over the 24 atoms in the order the body folds them, of the squared
  distances between target row tt's atoms and ligand row l.
-/
import proofs.«169873_j12644383719683_1_alg».proof.Proof.KernelIdealFrameP
import proofs.«169873_j12644383719683_1_alg».proof.Proof.DistPay

noncomputable section

namespace Cert.KernelIdeal.DistPay

open Idealize.ShloMosaic Idealize.ShloMosaic.ValueIdx Cert.KernelIdeal Cert.KernelIdeal.Gen

/-- The zero offsets of a rank-3 block, as the constant function. -/
theorem hz3 : (![0, 0, 0] : Fin 3 → ℕ) = fun _ => 0 := by
  funext a; match a with | ⟨0, _⟩ => rfl | ⟨1, _⟩ => rfl | ⟨2, _⟩ => rfl

/-- The body's output block at (0, tt, l). -/
theorem out1_4_apply (x0 : Vec Ideal S1x128x3 .f32) (x1 : Vec Ideal S1x1x128 .f32) (x2 : Vec Ideal S1x24x64x3 .f32)
    (x3 : Vec Ideal S1x24x64x1 .f32) (tt : Fin 64) (l : Fin 128) :
    GenP.out1_4 x0 x1 x2 x3 (ix3 (0 : Fin 1) tt l)
      = Cert.Spec.distK (fun a : Fin 24 =>
          Cert.Spec.d2K (fun d => x0 (ix3 (0 : Fin 1) l d)) (fun d => x2 (ix4 (0 : Fin 1) a tt d))
            (x3 (ix4 (0 : Fin 1) a tt (0 : Fin 1))) (x1 (ix3 (0 : Fin 1) (0 : Fin 1) l))) := by
  unfold GenP.out1_4
  rw [View.canon_unit_zero hz3, pay20_eq, pay18_eq, pay15_eq, pay13_eq, pay12_eq, pay10_eq, pay7_eq, pay6_eq, pay5_eq,
    pay4_eq]
  rw [View.ld_unit_zero (S := S1x128x3) hz3, View.ld_unit_zero (S := S1x1x128) hz3]
  rw [pay1_apply, sqrt_apply]
  simp only [minimumf_apply, d2blk_apply, pay2_apply, pay3_apply]
  simp only [ld_atom3 x2, ld_atom1 x3]
  rfl

end Cert.KernelIdeal.DistPay

end
-- ==== Proof.DistBlock.lean ====
/-
  From the distance kernel's blocks to its whole result array. The grid is 8 × 8: point t handles one batch and one chunk
  of 64 target rows. The printed index maps are decided over the grid; each input block is read where its array says;
  the body's output block at a point is then the whole-array function's block there; the output blocks cover the array;
  so after the region the result array is the whole-array function of the operand arrays as the region finds them.
-/
import proofs.«169873_j12644383719683_1_alg».proof.Proof.KernelIdealFrameP
import proofs.«169873_j12644383719683_1_alg».proof.Proof.DistOut
import proofs.«169873_j12644383719683_1_alg».proof.Proof.DistSpec
import Idealize.ShloMosaic.Lib.Pipeline.Value

noncomputable section

namespace Cert.KernelIdeal.DistBlock

open Cert.KernelIdeal Cert.KernelIdeal.Gen Idealize.ShloMosaic Idealize.ShloMosaic.TcCoe Idealize.SL.Sem
open Idealize.ShloMosaic.ValueIdx
open Idealize.ShloMosaic.Pipeline (Dat)

/-- The printed index maps, decided over the 8 × 8 grid: every input window sits at the output's batch, the two target
    windows also at its chunk, every other block index is zero, and the output's block indices stay below 8. -/
theorem idx_facts : ∀ t : Fin cfg1.N,
    win1_0.index t (0 : Fin 3) = win1_4.index t (0 : Fin 3) ∧ win1_0.index t (1 : Fin 3) = 0
    ∧ win1_0.index t (2 : Fin 3) = 0
    ∧ win1_1.index t (0 : Fin 3) = win1_4.index t (0 : Fin 3) ∧ win1_1.index t (1 : Fin 3) = 0
    ∧ win1_1.index t (2 : Fin 3) = 0
    ∧ win1_2.index t (0 : Fin 4) = win1_4.index t (0 : Fin 3) ∧ win1_2.index t (1 : Fin 4) = 0
    ∧ win1_2.index t (2 : Fin 4) = win1_4.index t (1 : Fin 3) ∧ win1_2.index t (3 : Fin 4) = 0
    ∧ win1_3.index t (0 : Fin 4) = win1_4.index t (0 : Fin 3) ∧ win1_3.index t (1 : Fin 4) = 0
    ∧ win1_3.index t (2 : Fin 4) = win1_4.index t (1 : Fin 3) ∧ win1_3.index t (3 : Fin 4) = 0
    ∧ win1_4.index t (2 : Fin 3) = 0 ∧ win1_4.index t (0 : Fin 3) ≤ 7 ∧ win1_4.index t (1 : Fin 3) ≤ 7 :=
  (by decide +kernel : ∀ t : Fin grid1.N, _)

/-- Every (batch, chunk) block of the result is some grid point's. -/
theorem idx_onto : ∀ (q0 : Fin 8) (q1 : Fin 8), ∃ t : Fin cfg1.N, win1_4.index t = ![q0.val, q1.val, 0] :=
  (by decide +kernel : ∀ (q0 : Fin 8) (q1 : Fin 8), ∃ t : Fin grid1.N, win1_4.index t = ![q0.val, q1.val, 0])

variable (V : (c : Dev nD) → (b : Ref sig .tc) → Buf (Elt Ideal) ((c : Thread nD τ).loc b))

/-- The ligand-positions block at point t reads the array at the point's batch. -/
theorem iblk1_0 (c : Dev nD) (t : Fin cfg1.N) (b : Fin 8) (hb : b.val = win1_4.index t (0 : Fin 3)) (l : Fin 128)
    (d : Fin 3) :
    (GenP.iblk1 V c 0 t : Vec Ideal S1x128x3 .f32) (ix3 (0 : Fin 1) l d)
      = (V c (Pipeline.arrRef spec1 0) : S8x128x3.Idx → EReal) (ix3 b l d) := by
  obtain ⟨e00, e01, e02, e10, e11, e12, e20, e21, e22, e23, e30, e31, e32, e33, e42, e40, e41⟩ := idx_facts t
  unfold GenP.iblk1
  rw [View.read_apply]
  refine congrArg (V c (Pipeline.arrRef spec1 0) : S8x128x3.Idx → EReal) ?_
  funext a; apply Fin.ext
  match a with
  | ⟨0, _⟩ => show win1_0.index t (0 : Fin 3) * 1 + 1 * 0 = b.val; omega
  | ⟨1, _⟩ => show win1_0.index t (1 : Fin 3) * 128 + 1 * l.val = l.val; omega
  | ⟨2, _⟩ => show win1_0.index t (2 : Fin 3) * 3 + 1 * d.val = d.val; omega

/-- The ligand-norms block at point t reads the array at the point's batch. -/
theorem iblk1_1 (c : Dev nD) (t : Fin cfg1.N) (b : Fin 8) (hb : b.val = win1_4.index t (0 : Fin 3)) (l : Fin 128) :
    (GenP.iblk1 V c 1 t : Vec Ideal S1x1x128 .f32) (ix3 (0 : Fin 1) (0 : Fin 1) l)
      = (V c (Pipeline.arrRef spec1 1) : S8x1x128.Idx → EReal) (ix3 b (0 : Fin 1) l) := by
  obtain ⟨e00, e01, e02, e10, e11, e12, e20, e21, e22, e23, e30, e31, e32, e33, e42, e40, e41⟩ := idx_facts t
  unfold GenP.iblk1
  rw [View.read_apply]
  refine congrArg (V c (Pipeline.arrRef spec1 1) : S8x1x128.Idx → EReal) ?_
  funext a; apply Fin.ext
  match a with
  | ⟨0, _⟩ => show win1_1.index t (0 : Fin 3) * 1 + 1 * 0 = b.val; omega
  | ⟨1, _⟩ => show win1_1.index t (1 : Fin 3) * 1 + 1 * 0 = 0; omega
  | ⟨2, _⟩ => show win1_1.index t (2 : Fin 3) * 128 + 1 * l.val = l.val; omega

/-- The target-positions block at point t reads the array at the point's batch and chunk of 64 rows. -/
theorem iblk1_2 (c : Dev nD) (t : Fin cfg1.N) (b : Fin 8) (hb : b.val = win1_4.index t (0 : Fin 3)) (r : Fin 512)
    (tt : Fin 64) (hr : r.val = win1_4.index t (1 : Fin 3) * 64 + tt.val) (a : Fin 24) (d : Fin 3) :
    (GenP.iblk1 V c 2 t : Vec Ideal S1x24x64x3 .f32) (ix4 (0 : Fin 1) a tt d)
      = (V c (Pipeline.arrRef spec1 2) : S8x24x512x3.Idx → EReal) (ix4 b a r d) := by
  obtain ⟨e00, e01, e02, e10, e11, e12, e20, e21, e22, e23, e30, e31, e32, e33, e42, e40, e41⟩ := idx_facts t
  unfold GenP.iblk1
  rw [View.read_apply]
  refine congrArg (V c (Pipeline.arrRef spec1 2) : S8x24x512x3.Idx → EReal) ?_
  funext x; apply Fin.ext
  match x with
  | ⟨0, _⟩ => show win1_2.index t (0 : Fin 4) * 1 + 1 * 0 = b.val; omega
  | ⟨1, _⟩ => show win1_2.index t (1 : Fin 4) * 24 + 1 * a.val = a.val; omega
  | ⟨2, _⟩ => show win1_2.index t (2 : Fin 4) * 64 + 1 * tt.val = r.val; omega
  | ⟨3, _⟩ => show win1_2.index t (3 : Fin 4) * 3 + 1 * d.val = d.val; omega

/-- The target-norms block at point t reads the array at the point's batch and chunk of 64 rows. -/
theorem iblk1_3 (c : Dev nD) (t : Fin cfg1.N) (b : Fin 8) (hb : b.val = win1_4.index t (0 : Fin 3)) (r : Fin 512)
    (tt : Fin 64) (hr : r.val = win1_4.index t (1 : Fin 3) * 64 + tt.val) (a : Fin 24) :
    (GenP.iblk1 V c 3 t : Vec Ideal S1x24x64x1 .f32) (ix4 (0 : Fin 1) a tt (0 : Fin 1))
      = (V c (Pipeline.arrRef spec1 3) : S8x24x512x1.Idx → EReal) (ix4 b a r (0 : Fin 1)) := by
  obtain ⟨e00, e01, e02, e10, e11, e12, e20, e21, e22, e23, e30, e31, e32, e33, e42, e40, e41⟩ := idx_facts t
  unfold GenP.iblk1
  rw [View.read_apply]
  refine congrArg (V c (Pipeline.arrRef spec1 3) : S8x24x512x1.Idx → EReal) ?_
  funext x; apply Fin.ext
  match x with
  | ⟨0, _⟩ => show win1_3.index t (0 : Fin 4) * 1 + 1 * 0 = b.val; omega
  | ⟨1, _⟩ => show win1_3.index t (1 : Fin 4) * 24 + 1 * a.val = a.val; omega
  | ⟨2, _⟩ => show win1_3.index t (2 : Fin 4) * 64 + 1 * tt.val = r.val; omega
  | ⟨3, _⟩ => show win1_3.index t (3 : Fin 4) * 1 + 1 * 0 = 0; omega

/-- One block of the result against the whole-array function, over any blocks that read the arrays where the grid
    point's batch b and row r = chunk · 64 + tt say. -/
theorem dist_of_blocks (x0 : Vec Ideal S1x128x3 .f32) (x1 : Vec Ideal S1x1x128 .f32) (x2 : Vec Ideal S1x24x64x3 .f32)
    (x3 : Vec Ideal S1x24x64x1 .f32) (X0 : S8x128x3.Idx → EReal) (X1 : S8x1x128.Idx → EReal)
    (X2 : S8x24x512x3.Idx → EReal) (X3 : S8x24x512x1.Idx → EReal) (b : Fin 8) (r : Fin 512) (tt : Fin 64) (l : Fin 128)
    (h0 : ∀ d : Fin 3, x0 (ix3 (0 : Fin 1) l d) = X0 (ix3 b l d))
    (h1 : x1 (ix3 (0 : Fin 1) (0 : Fin 1) l) = X1 (ix3 b (0 : Fin 1) l))
    (h2 : ∀ (a : Fin 24) (d : Fin 3), x2 (ix4 (0 : Fin 1) a tt d) = X2 (ix4 b a r d))
    (h3 : ∀ a : Fin 24, x3 (ix4 (0 : Fin 1) a tt (0 : Fin 1)) = X3 (ix4 b a r (0 : Fin 1))) :
    GenP.out1_4 x0 x1 x2 x3 (ix3 (0 : Fin 1) tt l) = Gdist X0 X1 X2 X3 (ix3 b r l) := by
  rw [DistPay.out1_4_apply]
  unfold Gdist
  simp only [h0, h1, h2, h3]

/-- WHAT POINT t WRITES BACK is block t of the whole-array function of the operand arrays as the region finds them. -/
theorem flushed4_eq (c : Dev nD) (t : Fin cfg1.N) :
    (GenP.dat1 V c).flushed 4 t = ((cfg1.win 4).blk t).view.read (Elt Ideal)
      (Gdist (V c (Pipeline.arrRef spec1 0)) (V c (Pipeline.arrRef spec1 1)) (V c (Pipeline.arrRef spec1 2))
        (V c (Pipeline.arrRef spec1 3))) := by
  show (cfg1.win 4).cut (grid1.coords t) ((GenP.dat1 V c).after 4 t) = _
  rw [GenP.after1_4]
  obtain ⟨e00, e01, e02, e10, e11, e12, e20, e21, e22, e23, e30, e31, e32, e33, e42, e40, e41⟩ := idx_facts t
  refine funext fun (y : S1x64x128.Idx) => ?_
  rw [View.read_apply]
  obtain ⟨u, tt, l, rfl⟩ : ∃ (u : Fin 1) (tt : Fin 64) (l : Fin 128), y = ix3 u tt l := ⟨y 0, y 1, y 2, eq_ix3 y⟩
  obtain rfl : u = (0 : Fin 1) := Subsingleton.elim _ _
  have htt : tt.val < 64 := tt.isLt
  refine (dist_of_blocks (GenP.iblk1 V c 0 t) (GenP.iblk1 V c 1 t) (GenP.iblk1 V c 2 t) (GenP.iblk1 V c 3 t)
    (V c (Pipeline.arrRef spec1 0)) (V c (Pipeline.arrRef spec1 1)) (V c (Pipeline.arrRef spec1 2))
    (V c (Pipeline.arrRef spec1 3)) ⟨win1_4.index t (0 : Fin 3), by omega⟩
    ⟨win1_4.index t (1 : Fin 3) * 64 + tt.val, by omega⟩ tt l
    (fun d => iblk1_0 V c t _ rfl l d) (iblk1_1 V c t _ rfl l)
    (fun a d => iblk1_2 V c t _ rfl _ tt rfl a d) (fun a => iblk1_3 V c t _ rfl _ tt rfl a)).trans ?_
  refine congrArg (Gdist (V c (Pipeline.arrRef spec1 0)) (V c (Pipeline.arrRef spec1 1))
    (V c (Pipeline.arrRef spec1 2)) (V c (Pipeline.arrRef spec1 3))) ?_
  funext a; apply Fin.ext
  match a with
  | ⟨0, _⟩ => show win1_4.index t (0 : Fin 3) = win1_4.index t (0 : Fin 3) * 1 + 1 * 0; omega
  | ⟨1, _⟩ => show win1_4.index t (1 : Fin 3) * 64 + tt.val = win1_4.index t (1 : Fin 3) * 64 + 1 * tt.val; omega
  | ⟨2, _⟩ => show l.val = win1_4.index t (2 : Fin 3) * 128 + 1 * l.val; omega

/-- An index of the result array is in point t's block iff each coordinate is in the block's range on its axis. -/
theorem mem_blk4 (t : Fin cfg1.N) (i : S8x512x128.Idx) :
    i ∈ ((cfg1.win 4).blk t).view.set ↔ ∀ a : Fin 3, win1_4.index t a * S1x64x128.size a ≤ (i a).val
      ∧ (i a).val < win1_4.index t a * S1x64x128.size a + S1x64x128.size a := by
  show i ∈ ((View.whole main_v24).slice (win1_4.rect t)).set ↔ _
  rw [View.set_slice_whole, Rect.mem_set_unit]
  exact Iff.rfl

/-- Every index of the result array is in some point's block: batch (i 0), chunk (i 1) / 64. -/
theorem cover4 (i : S8x512x128.Idx) :
    ∃ t : Fin cfg1.N, (cfg1.win 4).flush t = true ∧ i ∈ ((cfg1.win 4).blk t).view.set := by
  have hi0 : (i 0).val < 8 := (i 0).isLt
  have hi1 : (i 1).val < 512 := (i 1).isLt
  have hi2 : (i 2).val < 128 := (i 2).isLt
  obtain ⟨t, ht⟩ := idx_onto ⟨(i 0).val, hi0⟩ ⟨(i 1).val / 64, by omega⟩
  have q0 : win1_4.index t (0 : Fin 3) = (i 0).val := congrFun ht 0
  have q1 : win1_4.index t (1 : Fin 3) = (i 1).val / 64 := congrFun ht 1
  have q2 : win1_4.index t (2 : Fin 3) = 0 := congrFun ht 2
  refine ⟨t, flush1_4 t, ?_⟩
  rw [mem_blk4]
  intro a
  match a with
  | ⟨0, _⟩ =>
    show win1_4.index t (0 : Fin 3) * 1 ≤ (i 0).val ∧ (i 0).val < win1_4.index t (0 : Fin 3) * 1 + 1; omega
  | ⟨1, _⟩ =>
    show win1_4.index t (1 : Fin 3) * 64 ≤ (i 1).val ∧ (i 1).val < win1_4.index t (1 : Fin 3) * 64 + 64; omega
  | ⟨2, _⟩ =>
    show win1_4.index t (2 : Fin 3) * 128 ≤ (i 2).val ∧ (i 2).val < win1_4.index t (2 : Fin 3) * 128 + 128; omega

/-- THE RESULT ARRAY after the region: the whole-array function of the operand arrays as the region finds them. -/
theorem final4 (c : Dev nD) :
    (GenP.dat1 V c).arrAt 4 cfg1.N = Gdist (V c (Pipeline.arrRef spec1 0)) (V c (Pipeline.arrRef spec1 1))
      (V c (Pipeline.arrRef spec1 2)) (V c (Pipeline.arrRef spec1 3)) :=
  (GenP.dat1 V c).arrAt_eq_of_cover 4 (Gdist (V c (Pipeline.arrRef spec1 0)) (V c (Pipeline.arrRef spec1 1))
      (V c (Pipeline.arrRef spec1 2)) (V c (Pipeline.arrRef spec1 3))) (fun t _ => flushed4_eq V c t) cover4

end Cert.KernelIdeal.DistBlock

end
-- ==== Proof.MdnPay.lean ====
/-
  The score head's kernel body read at an index. Its values are chained through ten named pieces; each is read here at a
  point of its block by coordinates: the linear layer (two matrix products over the 128 input channels, spread over the
  128 × 32 pairs of the block, plus the bias row), the normalisation and ELU, and the three heads (a matrix product over
  the 128 hidden units plus a bias row, then the softmax over the ten components, or ELU plus a constant).
-/
import proofs.«169873_j12644383719683_1_alg».proof.Proof.Gen.KernelIdeal.Skeleton
import proofs.«169873_j12644383719683_1_alg».proof.Proof.LibDot
import proofs.«169873_j12644383719683_1_alg».proof.Proof.LibLayoutB
import proofs.«169873_j12644383719683_1_alg».proof.Proof.LibLayout
import proofs.«169873_j12644383719683_1_alg».proof.Proof.Spec

set_option maxRecDepth 16384

noncomputable section

namespace Cert.KernelIdeal.MdnPay

open Idealize.ShloMosaic Idealize.ShloMosaic.ValueIdx Cert.KernelIdeal Cert.KernelIdeal.Gen

/-- The vector exponential and reciprocal root act entry by entry. -/
theorem exp_apply {s : Shape} {φ : FTy} (v : FVec Ideal s φ) (i : s.Idx) : exp v i = Ideal.exp (v i) := rfl
theorem rsqrt_apply {s : Shape} {φ : FTy} (v : FVec Ideal s φ) (i : s.Idx) : rsqrt v i = Ideal.rsqrt (v i) := rfl
theorem scalar_ofBits (b : BitVec 32) : (Scalar.ofBits (F := Ideal) .f32 b) = Ideal.ofBits .f32 b := rfl

/-- The linear layer at ligand row `l`, target row `tt` of the block and hidden unit `j`. -/
theorem pay2_apply (x0 : Vec Ideal S1x128x128 .f32) (x1 : Vec Ideal S1x32x128 .f32) (x2 x3 : Vec Ideal S128x128 .f32)
    (x4 : Vec Ideal S1x128 .f32) (l : Fin 128) (tt : Fin 32) (j : Fin 128) :
    k0_pay2 x0 x1 x2 x3 x4 (ix3 l tt j)
      = ((∑ k : Fin 128, x0 (ix3 (0 : Fin 1) l k) * x2 (ix2 k j)) + (∑ k : Fin 128, x1 (ix3 (0 : Fin 1) tt k) * x3 (ix2 k j)))
        + x4 (ix2 (0 : Fin 1) j) := by
  unfold k0_pay2
  simp only [addf_apply]
  refine congrArg₂ (· + ·) (congrArg₂ (· + ·) ?_ ?_) ?_
  · refine (LibLayoutB.broadcastTo_a1c_abc_apply _ _ l tt j).trans ?_
    refine (LibLayoutB.shapeCast_ab_a1b_apply _ _ l 0 j).trans ?_
    refine (Ideal.matmul_constant_zero_apply _ none _ _ (ix2 l j)).trans ?_
    refine (LibDot.sum_contr_eq dot_S128x128_S128x128_S128x128_1_0_0_1_n_n 128 rfl rfl _ _ (ix2 l j)
      (fun k => ix2 l k) (fun k => ix2 k j) ?_ ?_).trans ?_
    · intro k; funext a; apply Fin.ext
      match a with
      | ⟨0, _⟩ => rfl
      | ⟨1, _⟩ => rfl
    · intro k; funext a; apply Fin.ext
      match a with
      | ⟨0, _⟩ => rfl
      | ⟨1, _⟩ => rfl
    · refine Finset.sum_congr rfl fun k _ => congrArg₂ (· * ·) ?_ ?_
      · exact shapeCast_1ab_ab_apply x0 _ l k
      · exact congrFun (shapeCast_self x2 _) _
  · refine (LibLayoutB.broadcastTo_1bc_abc_apply _ _ l tt j).trans ?_
    refine (shapeCast_ab_1ab_apply _ _ 0 tt j).trans ?_
    refine (Ideal.matmul_constant_zero_apply _ none _ _ (ix2 tt j)).trans ?_
    refine (LibDot.sum_contr_eq dot_S32x128_S128x128_S32x128_1_0_0_1_n_n 128 rfl rfl _ _ (ix2 tt j)
      (fun k => ix2 tt k) (fun k => ix2 k j) ?_ ?_).trans ?_
    · intro k; funext a; apply Fin.ext
      match a with
      | ⟨0, _⟩ => rfl
      | ⟨1, _⟩ => rfl
    · intro k; funext a; apply Fin.ext
      match a with
      | ⟨0, _⟩ => rfl
      | ⟨1, _⟩ => rfl
    · refine Finset.sum_congr rfl fun k _ => congrArg₂ (· * ·) ?_ ?_
      · exact shapeCast_1ab_ab_apply x1 _ tt k
      · exact congrFun (shapeCast_self x3 _) _
  · refine (LibLayoutB.broadcastTo_11c_abc_apply _ _ l tt j).trans ?_
    refine (LibLayoutB.shapeCast_c_11c_apply _ _ 0 0 j).trans ?_
    exact shapeCast_1a_a_apply x4 _ j

/-- The four parameter rows as the body names them: the row's entry. -/
theorem pay3_apply (v : Vec Ideal S1x128 .f32) (j : Fin 128) : k0_pay3 v (ix1 j) = v (ix2 (0 : Fin 1) j) := by
  unfold k0_pay3; exact shapeCast_1a_a_apply v _ j
theorem pay4_apply (v : Vec Ideal S1x128 .f32) (j : Fin 128) : k0_pay4 v (ix1 j) = v (ix2 (0 : Fin 1) j) := by
  unfold k0_pay4; exact shapeCast_1a_a_apply v _ j
theorem pay5_apply (v : Vec Ideal S1x128 .f32) (j : Fin 128) : k0_pay5 v (ix1 j) = v (ix2 (0 : Fin 1) j) := by
  unfold k0_pay5; exact shapeCast_1a_a_apply v _ j
/-- The reciprocal standard deviation of hidden unit `j`. -/
theorem pay6_apply (v : Vec Ideal S1x128 .f32) (j : Fin 128) :
    k0_pay6 v (ix1 j) = Ideal.rsqrt (v (ix2 (0 : Fin 1) j) + Ideal.ofBits .f32 0x3727C5AC#32) := by
  unfold k0_pay6
  show Ideal.rsqrt (shapeCast S128 v shapeCasts_S1x128_S128 (ix1 j) + Ideal.ofBits .f32 0x3727C5AC#32) = _
  rw [shapeCast_1a_a_apply]

/-- The hidden unit `j` of the pair (l, tt), at the flattened row n = 32·l + tt: the normalisation and ELU of the linear layer. -/
theorem pay7_apply (v23 : FVec Ideal S128x32x128 .f32) (v25 v27 v29 v34 : FVec Ideal S128 .f32) (l : Fin 128) (tt : Fin 32)
    (n : Fin 4096) (hn : n.val = l.val * 32 + tt.val) (j : Fin 128) :
    k0_pay7 v23 v25 v27 v29 v34 (ix2 n j)
      = Spec.eluK ((((v23 (ix3 l tt j) - v29 (ix1 j)) * v34 (ix1 j)) * v25 (ix1 j)) + v27 (ix1 j)) := by
  unfold k0_pay7
  refine (truncf_apply _ bitsLt_bf16_f32 _).trans ?_
  refine (LibLayoutB.shapeCast_abc_mc_apply _ _ l tt j n hn).trans ?_
  unfold Spec.eluK
  simp only [select_apply, cmpf_apply, subf_apply, addf_apply, mulf_apply, exp_apply, broadcast_apply, scalar_ofBits,
    Ideal.cmpf_def, LibLayoutB.broadcastTo_11c_abc_apply, LibLayoutB.shapeCast_c_11c_apply]

/-- The index a lane reduction of a [4096, 10] block inserts: row n, component g. -/
theorem lift_eq (n : Fin 4096) (g : Fin 10) : reduces_S4096x10_S4096.lift (ix1 n) g = ix2 n g := by
  funext a; apply Fin.ext
  match a with
  | ⟨0, _⟩ => rfl
  | ⟨1, _⟩ => rfl

/-- The row maximum of the logits block at row n. -/
theorem mx_apply (lg : FVec Ideal S4096x10 .f32) (n : Fin 4096) :
    (maximumf (broadcast S4096 (Scalar.ofBits .f32 0xFF800000#32))
        (multiReduction .maximumf [1] S4096 lg 0xFF800000#32 reduces_S4096x10_S4096 (.inl rfl) rfl)) (ix1 n) = Spec.rowMax (fun g' => lg (ix2 n g')) := by
  unfold Spec.rowMax
  refine congrArg (max (Ideal.ofBits .f32 0xFF800000#32)) ?_
  refine (Ideal.multiReduction_maximumf_single lg _ _ _ _ (ix1 n)).trans ?_
  show (Finset.univ : Finset (Fin 10)).fold max (Ideal.ofBits .f32 0xFF800000#32) (fun g' => lg (reduces_S4096x10_S4096.lift (ix1 n) g')) = _
  exact congrArg (fun f : Fin 10 → EReal => (Finset.univ : Finset (Fin 10)).fold max (Ideal.ofBits .f32 0xFF800000#32) f)
    (funext fun g' => congrArg lg (lift_eq n g'))

/-- The shifted exponentials of the logits block. -/
theorem shifted_apply (lg : FVec Ideal S4096x10 .f32) (n : Fin 4096) (g : Fin 10) :
    (exp (subf lg (broadcastTo S4096x10 (shapeCast S4096x1 (maximumf (broadcast S4096 (Scalar.ofBits .f32 0xFF800000#32))
        (multiReduction .maximumf [1] S4096 lg 0xFF800000#32 reduces_S4096x10_S4096 (.inl rfl) rfl)) shapeCasts_S4096_S4096x1) broadcasts_S4096x1_S4096x10))) (ix2 n g) = Ideal.exp (lg (ix2 n g) - Spec.rowMax (fun g' => lg (ix2 n g'))) := by
  show Ideal.exp (lg (ix2 n g) - broadcastTo S4096x10 (shapeCast S4096x1 (maximumf (broadcast S4096 (Scalar.ofBits .f32 0xFF800000#32))
        (multiReduction .maximumf [1] S4096 lg 0xFF800000#32 reduces_S4096x10_S4096 (.inl rfl) rfl)) shapeCasts_S4096_S4096x1) broadcasts_S4096x1_S4096x10 (ix2 n g)) = _
  rw [LibLayout.broadcastTo_a1_ab_apply, LibLayout.shapeCast_a_a1_apply, mx_apply]

/-- The softmax over the ten components of row n, from the logits block. -/
theorem softmax_tail (lg : FVec Ideal S4096x10 .f32) (n : Fin 4096) (g : Fin 10) :
    divf (exp (subf lg (broadcastTo S4096x10 (shapeCast S4096x1 (maximumf (broadcast S4096 (Scalar.ofBits .f32 0xFF800000#32))
        (multiReduction .maximumf [1] S4096 lg 0xFF800000#32 reduces_S4096x10_S4096 (.inl rfl) rfl)) shapeCasts_S4096_S4096x1) broadcasts_S4096x1_S4096x10)))
      (broadcastTo S4096x10 (shapeCast S4096x1 (multiReduction .add [1] S4096 (exp (subf lg (broadcastTo S4096x10 (shapeCast S4096x1 (maximumf (broadcast S4096 (Scalar.ofBits .f32 0xFF800000#32))
        (multiReduction .maximumf [1] S4096 lg 0xFF800000#32 reduces_S4096x10_S4096 (.inl rfl) rfl)) shapeCasts_S4096_S4096x1) broadcasts_S4096x1_S4096x10)))
        0x00000000#32 reduces_S4096x10_S4096 (.inl rfl) rfl) shapeCasts_S4096_S4096x1) broadcasts_S4096x1_S4096x10)
      (ix2 n g)
    = Spec.softmaxK (fun g' => lg (ix2 n g')) g := by
  unfold Spec.softmaxK
  rw [divf_apply]
  refine congrArg₂ Ideal.div (shifted_apply lg n g) ?_
  refine (LibLayout.broadcastTo_a1_ab_apply _ _ n g).trans ?_
  refine (LibLayout.shapeCast_a_a1_apply _ _ n 0).trans ?_
  refine (Ideal.multiReduction_add_single _ _ _ _ _ (ix1 n)).trans ?_
  show ∑ g' : Fin 10, (exp (subf lg (broadcastTo S4096x10 (shapeCast S4096x1 (maximumf (broadcast S4096 (Scalar.ofBits .f32 0xFF800000#32))
        (multiReduction .maximumf [1] S4096 lg 0xFF800000#32 reduces_S4096x10_S4096 (.inl rfl) rfl)) shapeCasts_S4096_S4096x1) broadcasts_S4096x1_S4096x10))) (reduces_S4096x10_S4096.lift (ix1 n) g') = _
  refine Finset.sum_congr rfl fun g' _ => ?_
  rw [lift_eq]
  exact shifted_apply lg n g'

/-- A head's logits block at row n, component g: the contraction over the hidden units plus the bias row. -/
theorem logits_apply (h : FVec Ideal S4096x128 .bf16) (w : Vec Ideal S128x10 .f32) (bias : Vec Ideal S1x10 .f32) (n : Fin 4096) (g : Fin 10) :
    addf (matmul dot_S4096x128_S128x10_S4096x10_1_0_0_1_n_n none h (truncf .bf16 w bitsLt_bf16_f32) (constant S4096x10 .f32 0x00000000#32))
      (broadcastTo S4096x10 (shapeCast S1x10 (shapeCast S10 bias shapeCasts_S1x10_S10) shapeCasts_S10_S1x10) broadcasts_S1x10_S4096x10) (ix2 n g)
    = Spec.logit (fun j => h (ix2 n j)) (fun j => w (ix2 j g)) (bias (ix2 (0 : Fin 1) g)) := by
  unfold Spec.logit
  rw [addf_apply]
  refine congrArg₂ (· + ·) ?_ ?_
  · refine (Ideal.matmul_constant_zero_apply _ none _ _ (ix2 n g)).trans ?_
    refine (LibDot.sum_contr_eq dot_S4096x128_S128x10_S4096x10_1_0_0_1_n_n 128 rfl rfl _ _ (ix2 n g)
      (fun k => ix2 n k) (fun k => ix2 k g) ?_ ?_).trans ?_
    · intro k; funext a; apply Fin.ext
      match a with
      | ⟨0, _⟩ => rfl
      | ⟨1, _⟩ => rfl
    · intro k; funext a; apply Fin.ext
      match a with
      | ⟨0, _⟩ => rfl
      | ⟨1, _⟩ => rfl
    · rfl
  · refine (broadcastTo_1b_ab_apply _ _ n g).trans ?_
    refine (shapeCast_a_1a_apply _ _ 0 g).trans ?_
    exact shapeCast_1a_a_apply bias _ g

/-- The mixing-weight head: the softmax of its logits, at batch slot 0, ligand row l, target row tt, component g. -/
theorem pay8_apply (v23 : FVec Ideal S128x32x128 .f32) (v25 v27 v29 v34 : FVec Ideal S128 .f32) (w : Vec Ideal S128x10 .f32)
    (bias : Vec Ideal S1x10 .f32) (l : Fin 128) (tt : Fin 32) (n : Fin 4096) (hn : n.val = l.val * 32 + tt.val) (g : Fin 10) :
    k0_pay8 v23 v25 v27 v29 v34 w bias (ix4 (0 : Fin 1) l tt g)
      = Spec.softmaxK (fun g' => Spec.logit (fun j => k0_pay7 v23 v25 v27 v29 v34 (ix2 n j)) (fun j => w (ix2 j g')) (bias (ix2 (0 : Fin 1) g'))) g := by
  unfold k0_pay8
  refine (shapeCast_abc_1abc_apply _ _ 0 l tt g).trans ?_
  refine (LibLayoutB.shapeCast_mc_abc_apply _ _ l tt g n hn).trans ?_
  refine (softmax_tail _ n g).trans ?_
  refine congrArg (fun f => Spec.softmaxK f g) (funext fun g' => ?_)
  exact logits_apply _ w bias n g'

/-- The scale head: ELU of its logits plus 1.1. -/
theorem pay9_apply (h : FVec Ideal S4096x128 .bf16) (w : Vec Ideal S128x10 .f32) (bias : Vec Ideal S1x10 .f32)
    (l : Fin 128) (tt : Fin 32) (n : Fin 4096) (hn : n.val = l.val * 32 + tt.val) (g : Fin 10) :
    k0_pay9 h w bias (ix4 (0 : Fin 1) l tt g)
      = Spec.eluK (Spec.logit (fun j => h (ix2 n j)) (fun j => w (ix2 j g)) (bias (ix2 (0 : Fin 1) g))) + Ideal.ofBits .f32 0x3F8CCCCD#32 := by
  unfold k0_pay9
  refine (shapeCast_abc_1abc_apply _ _ 0 l tt g).trans ?_
  refine (LibLayoutB.shapeCast_mc_abc_apply _ _ l tt g n hn).trans ?_
  rw [← logits_apply h w bias n g]
  rfl

/-- The location head: ELU of its logits plus 1. -/
theorem pay10_apply (h : FVec Ideal S4096x128 .bf16) (w : Vec Ideal S128x10 .f32) (bias : Vec Ideal S1x10 .f32)
    (l : Fin 128) (tt : Fin 32) (n : Fin 4096) (hn : n.val = l.val * 32 + tt.val) (g : Fin 10) :
    k0_pay1 (k0_pay10 h w bias) (ix4 (0 : Fin 1) l tt g)
      = Spec.eluK (Spec.logit (fun j => h (ix2 n j)) (fun j => w (ix2 j g)) (bias (ix2 (0 : Fin 1) g))) + Ideal.ofBits .f32 0x3F800000#32 := by
  unfold k0_pay1 k0_pay10
  refine (shapeCast_abc_1abc_apply _ _ 0 l tt g).trans ?_
  refine (LibLayoutB.shapeCast_mc_abc_apply _ _ l tt g n hn).trans ?_
  rw [← logits_apply h w bias n g]
  rfl

end Cert.KernelIdeal.MdnPay
end
-- ==== Proof.MdnBlock.lean ====
/-
  The score head's three result arrays after the region, each as ONE function of the arrays the region reads.
  The region's grid is 8 × 16: point t handles batch t / 16 and the 32 target rows of chunk t % 16, for all 128 ligand rows.
  Its input blocks are the batch's ligand features, the chunk's target features and the whole parameter arrays; its three
  output blocks are the [1, 128, 32, 10] slabs of the [8, 128, 512, 10] results at (batch, 0, chunk, 0). What a point writes
  back is therefore the restriction of the index-by-index formula to its slab, and the slabs cover the array.
-/
import proofs.«169873_j12644383719683_1_alg».proof.Proof.KernelIdealFrameP
import proofs.«169873_j12644383719683_1_alg».proof.Proof.MdnPay
import proofs.«169873_j12644383719683_1_alg».proof.Proof.MdnSpec

set_option maxRecDepth 16384

noncomputable section

namespace Cert.KernelIdeal.MdnBlock

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

/-! ## One block, over variables -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The hidden row of a pair of the block from the loaded blocks. -/
theorem hid_block (x0 : Vec Ideal S1x128x128 .f32) (x1 : Vec Ideal S1x32x128 .f32) (x2 x3 : Vec Ideal S128x128 .f32)
    (x4 x5 x6 x7 x8 : Vec Ideal S1x128 .f32) (l : Fin 128) (tt : Fin 32) (n : Fin 4096) (hn : n.val = l.val * 32 + tt.val) (j : Fin 128) :
    k0_pay7 (k0_pay2 x0 x1 x2 x3 x4) (k0_pay3 x5) (k0_pay4 x6) (k0_pay5 x7) (k0_pay6 x8) (ix2 n j)
      = Spec.hiddenK (fun k => x0 (ix3 (0 : Fin 1) l k)) (fun k => x1 (ix3 (0 : Fin 1) tt k)) (fun k => x2 (ix2 k j)) (fun k => x3 (ix2 k j))
          (x4 (ix2 (0 : Fin 1) j)) (x7 (ix2 (0 : Fin 1) j)) (x8 (ix2 (0 : Fin 1) j)) (x5 (ix2 (0 : Fin 1) j)) (x6 (ix2 (0 : Fin 1) j)) := by
  rw [MdnPay.pay7_apply _ _ _ _ _ l tt n hn j, MdnPay.pay2_apply, MdnPay.pay3_apply, MdnPay.pay4_apply, MdnPay.pay5_apply, MdnPay.pay6_apply]
  rfl

/-- The mixing weights of one block: the loaded feature blocks are the batch's rows of the feature arrays (`h0`, `h1`),
    the parameter blocks are the whole arrays. -/
theorem block_pi (X0 : S8x128x128.Idx → EReal) (X1 : S8x512x128.Idx → EReal) (X2 X3 : S128x128.Idx → EReal)
    (X4 X5 X6 X7 X8 : S1x128.Idx → EReal) (W : S128x10.Idx → EReal) (B : S1x10.Idx → EReal)
    (x0 : Vec Ideal S1x128x128 .f32) (x1 : Vec Ideal S1x32x128 .f32) (x2 x3 : Vec Ideal S128x128 .f32)
    (x4 x5 x6 x7 x8 : Vec Ideal S1x128 .f32) (w : Vec Ideal S128x10 .f32) (bb : Vec Ideal S1x10 .f32)
    (h2 : x2 = X2) (h3 : x3 = X3) (h4 : x4 = X4) (h5 : x5 = X5) (h6 : x6 = X6) (h7 : x7 = X7) (h8 : x8 = X8) (hw : w = W) (hbb : bb = B)
    (b : Fin 8) (q : Fin 16)
    (h0 : ∀ (l : Fin 128) (k : Fin 128), x0 (ix3 (0 : Fin 1) l k) = X0 (ix3 b l k))
    (h1 : ∀ (tt : Fin 32) (k : Fin 128), x1 (ix3 (0 : Fin 1) tt k) = X1 (ix3 b (⟨q.val * 32 + tt.val, by omega⟩ : Fin 512) k))
    (u : Fin 1) (l : Fin 128) (tt : Fin 32) (g : Fin 10) :
    k0_pay8 (k0_pay2 x0 x1 x2 x3 x4) (k0_pay3 x5) (k0_pay4 x6) (k0_pay5 x7) (k0_pay6 x8) w bb (ix4 u l tt g)
      = Gpi X0 X1 X2 X3 X4 X5 X6 X7 X8 W B (ix4 b l (⟨q.val * 32 + tt.val, by omega⟩ : Fin 512) g) := by
  subst h2 h3 h4 h5 h6 h7 h8 hw hbb
  obtain rfl : u = 0 := Subsingleton.elim _ _
  refine (MdnPay.pay8_apply _ _ _ _ _ w bb l tt ⟨l.val * 32 + tt.val, by omega⟩ rfl g).trans ?_
  show _ = Spec.softmaxK (fun g' => Spec.logit (fun j => hid X0 X1 x2 x3 x4 x5 x6 x7 x8 b l (⟨q.val * 32 + tt.val, by omega⟩ : Fin 512) j)
    (fun j => w (ix2 j g')) (bb (ix2 (0 : Fin 1) g'))) g
  refine congrArg (fun f => Spec.softmaxK f g) (funext fun g' => ?_)
  refine congrArg (fun h => Spec.logit h (fun j => w (ix2 j g')) (bb (ix2 (0 : Fin 1) g'))) (funext fun j => ?_)
  refine (hid_block x0 x1 x2 x3 x4 x5 x6 x7 x8 l tt _ rfl j).trans ?_
  unfold hid
  simp only [h0, h1]

/-- The scale and location heads of one block. -/
theorem block_sigma (X0 : S8x128x128.Idx → EReal) (X1 : S8x512x128.Idx → EReal) (X2 X3 : S128x128.Idx → EReal)
    (X4 X5 X6 X7 X8 : S1x128.Idx → EReal) (W : S128x10.Idx → EReal) (B : S1x10.Idx → EReal)
    (x0 : Vec Ideal S1x128x128 .f32) (x1 : Vec Ideal S1x32x128 .f32) (x2 x3 : Vec Ideal S128x128 .f32)
    (x4 x5 x6 x7 x8 : Vec Ideal S1x128 .f32) (w : Vec Ideal S128x10 .f32) (bb : Vec Ideal S1x10 .f32)
    (h2 : x2 = X2) (h3 : x3 = X3) (h4 : x4 = X4) (h5 : x5 = X5) (h6 : x6 = X6) (h7 : x7 = X7) (h8 : x8 = X8) (hw : w = W) (hbb : bb = B)
    (b : Fin 8) (q : Fin 16)
    (h0 : ∀ (l : Fin 128) (k : Fin 128), x0 (ix3 (0 : Fin 1) l k) = X0 (ix3 b l k))
    (h1 : ∀ (tt : Fin 32) (k : Fin 128), x1 (ix3 (0 : Fin 1) tt k) = X1 (ix3 b (⟨q.val * 32 + tt.val, by omega⟩ : Fin 512) k))
    (u : Fin 1) (l : Fin 128) (tt : Fin 32) (g : Fin 10) :
    k0_pay9 (k0_pay7 (k0_pay2 x0 x1 x2 x3 x4) (k0_pay3 x5) (k0_pay4 x6) (k0_pay5 x7) (k0_pay6 x8)) w bb (ix4 u l tt g)
      = Gelu (Ideal.ofBits .f32 0x3F8CCCCD#32) X0 X1 X2 X3 X4 X5 X6 X7 X8 W B (ix4 b l (⟨q.val * 32 + tt.val, by omega⟩ : Fin 512) g) := by
  subst h2 h3 h4 h5 h6 h7 h8 hw hbb
  obtain rfl : u = 0 := Subsingleton.elim _ _
  refine (MdnPay.pay9_apply _ w bb l tt ⟨l.val * 32 + tt.val, by omega⟩ rfl g).trans ?_
  show _ = Spec.eluK (Spec.logit (fun j => hid X0 X1 x2 x3 x4 x5 x6 x7 x8 b l (⟨q.val * 32 + tt.val, by omega⟩ : Fin 512) j)
    (fun j => w (ix2 j g)) (bb (ix2 (0 : Fin 1) g))) + Ideal.ofBits .f32 0x3F8CCCCD#32
  refine congrArg (fun h => Spec.eluK (Spec.logit h (fun j => w (ix2 j g)) (bb (ix2 (0 : Fin 1) g))) + Ideal.ofBits .f32 0x3F8CCCCD#32) (funext fun j => ?_)
  refine (hid_block x0 x1 x2 x3 x4 x5 x6 x7 x8 l tt _ rfl j).trans ?_
  unfold hid
  simp only [h0, h1]

theorem block_mu (X0 : S8x128x128.Idx → EReal) (X1 : S8x512x128.Idx → EReal) (X2 X3 : S128x128.Idx → EReal)
    (X4 X5 X6 X7 X8 : S1x128.Idx → EReal) (W : S128x10.Idx → EReal) (B : S1x10.Idx → EReal)
    (x0 : Vec Ideal S1x128x128 .f32) (x1 : Vec Ideal S1x32x128 .f32) (x2 x3 : Vec Ideal S128x128 .f32)
    (x4 x5 x6 x7 x8 : Vec Ideal S1x128 .f32) (w : Vec Ideal S128x10 .f32) (bb : Vec Ideal S1x10 .f32)
    (h2 : x2 = X2) (h3 : x3 = X3) (h4 : x4 = X4) (h5 : x5 = X5) (h6 : x6 = X6) (h7 : x7 = X7) (h8 : x8 = X8) (hw : w = W) (hbb : bb = B)
    (b : Fin 8) (q : Fin 16)
    (h0 : ∀ (l : Fin 128) (k : Fin 128), x0 (ix3 (0 : Fin 1) l k) = X0 (ix3 b l k))
    (h1 : ∀ (tt : Fin 32) (k : Fin 128), x1 (ix3 (0 : Fin 1) tt k) = X1 (ix3 b (⟨q.val * 32 + tt.val, by omega⟩ : Fin 512) k))
    (u : Fin 1) (l : Fin 128) (tt : Fin 32) (g : Fin 10) :
    k0_pay1 (k0_pay10 (k0_pay7 (k0_pay2 x0 x1 x2 x3 x4) (k0_pay3 x5) (k0_pay4 x6) (k0_pay5 x7) (k0_pay6 x8)) w bb) (ix4 u l tt g)
      = Gelu (Ideal.ofBits .f32 0x3F800000#32) X0 X1 X2 X3 X4 X5 X6 X7 X8 W B (ix4 b l (⟨q.val * 32 + tt.val, by omega⟩ : Fin 512) g) := by
  subst h2 h3 h4 h5 h6 h7 h8 hw hbb
  obtain rfl : u = 0 := Subsingleton.elim _ _
  refine (MdnPay.pay10_apply _ w bb l tt ⟨l.val * 32 + tt.val, by omega⟩ rfl g).trans ?_
  show _ = Spec.eluK (Spec.logit (fun j => hid X0 X1 x2 x3 x4 x5 x6 x7 x8 b l (⟨q.val * 32 + tt.val, by omega⟩ : Fin 512) j)
    (fun j => w (ix2 j g)) (bb (ix2 (0 : Fin 1) g))) + Ideal.ofBits .f32 0x3F800000#32
  refine congrArg (fun h => Spec.eluK (Spec.logit h (fun j => w (ix2 j g)) (bb (ix2 (0 : Fin 1) g))) + Ideal.ofBits .f32 0x3F800000#32) (funext fun j => ?_)
  refine (hid_block x0 x1 x2 x3 x4 x5 x6 x7 x8 l tt _ rfl j).trans ?_
  unfold hid
  simp only [h0, h1]

/-- The three output blocks of a point, whole: the one store of each read at a point of the block. -/
theorem out15_block (X0 : S8x128x128.Idx → EReal) (X1 : S8x512x128.Idx → EReal) (X2 X3 : S128x128.Idx → EReal)
    (X4 X5 X6 X7 X8 : S1x128.Idx → EReal) (W : S128x10.Idx → EReal) (B : S1x10.Idx → EReal)
    (x0 : Vec Ideal S1x128x128 .f32) (x1 : Vec Ideal S1x32x128 .f32) (x2 x3 : Vec Ideal S128x128 .f32)
    (x4 x5 x6 x7 x8 : Vec Ideal S1x128 .f32) (x9 : Vec Ideal S128x10 .f32) (x10 : Vec Ideal S1x10 .f32) (x11 : Vec Ideal S128x10 .f32)
    (x12 : Vec Ideal S1x10 .f32) (x13 : Vec Ideal S128x10 .f32) (x14 : Vec Ideal S1x10 .f32)
    (h2 : x2 = X2) (h3 : x3 = X3) (h4 : x4 = X4) (h5 : x5 = X5) (h6 : x6 = X6) (h7 : x7 = X7) (h8 : x8 = X8) (hw : x9 = W) (hbb : x10 = B)
    (b : Fin 8) (q : Fin 16)
    (h0 : ∀ (l : Fin 128) (k : Fin 128), x0 (ix3 (0 : Fin 1) l k) = X0 (ix3 b l k))
    (h1 : ∀ (tt : Fin 32) (k : Fin 128), x1 (ix3 (0 : Fin 1) tt k) = X1 (ix3 b (⟨q.val * 32 + tt.val, by omega⟩ : Fin 512) k))
    (u : Fin 1) (l : Fin 128) (tt : Fin 32) (g : Fin 10) :
    out0_15 x0 x1 x2 x3 x4 x5 x6 x7 x8 x9 x10 x11 x12 x13 x14 (ix4 u l tt g)
      = Gpi X0 X1 X2 X3 X4 X5 X6 X7 X8 W B (ix4 b l (⟨q.val * 32 + tt.val, by omega⟩ : Fin 512) g) := by
  unfold out0_15
  rw [View.canon_unit_zero hz4]
  simp only [View.ld_unit_zero (S := S1x128x128) hz3, View.ld_unit_zero (S := S1x32x128) hz3, View.ld_unit_zero (S := S128x128) hz2,
    View.ld_unit_zero (S := S1x128) hz2, View.ld_unit_zero (S := S128x10) hz2, View.ld_unit_zero (S := S1x10) hz2]
  exact block_pi X0 X1 X2 X3 X4 X5 X6 X7 X8 W B x0 x1 x2 x3 x4 x5 x6 x7 x8 x9 x10 h2 h3 h4 h5 h6 h7 h8 hw hbb b q h0 h1 u l tt g

theorem out16_block (X0 : S8x128x128.Idx → EReal) (X1 : S8x512x128.Idx → EReal) (X2 X3 : S128x128.Idx → EReal)
    (X4 X5 X6 X7 X8 : S1x128.Idx → EReal) (W : S128x10.Idx → EReal) (B : S1x10.Idx → EReal)
    (x0 : Vec Ideal S1x128x128 .f32) (x1 : Vec Ideal S1x32x128 .f32) (x2 x3 : Vec Ideal S128x128 .f32)
    (x4 x5 x6 x7 x8 : Vec Ideal S1x128 .f32) (x9 : Vec Ideal S128x10 .f32) (x10 : Vec Ideal S1x10 .f32) (x11 : Vec Ideal S128x10 .f32)
    (x12 : Vec Ideal S1x10 .f32) (x13 : Vec Ideal S128x10 .f32) (x14 : Vec Ideal S1x10 .f32)
    (h2 : x2 = X2) (h3 : x3 = X3) (h4 : x4 = X4) (h5 : x5 = X5) (h6 : x6 = X6) (h7 : x7 = X7) (h8 : x8 = X8) (hw : x11 = W) (hbb : x12 = B)
    (b : Fin 8) (q : Fin 16)
    (h0 : ∀ (l : Fin 128) (k : Fin 128), x0 (ix3 (0 : Fin 1) l k) = X0 (ix3 b l k))
    (h1 : ∀ (tt : Fin 32) (k : Fin 128), x1 (ix3 (0 : Fin 1) tt k) = X1 (ix3 b (⟨q.val * 32 + tt.val, by omega⟩ : Fin 512) k))
    (u : Fin 1) (l : Fin 128) (tt : Fin 32) (g : Fin 10) :
    out0_16 x0 x1 x2 x3 x4 x5 x6 x7 x8 x9 x10 x11 x12 x13 x14 (ix4 u l tt g)
      = Gelu (Ideal.ofBits .f32 0x3F8CCCCD#32) X0 X1 X2 X3 X4 X5 X6 X7 X8 W B (ix4 b l (⟨q.val * 32 + tt.val, by omega⟩ : Fin 512) g) := by
  unfold out0_16
  rw [View.canon_unit_zero hz4]
  simp only [View.ld_unit_zero (S := S1x128x128) hz3, View.ld_unit_zero (S := S1x32x128) hz3, View.ld_unit_zero (S := S128x128) hz2,
    View.ld_unit_zero (S := S1x128) hz2, View.ld_unit_zero (S := S128x10) hz2, View.ld_unit_zero (S := S1x10) hz2]
  exact block_sigma X0 X1 X2 X3 X4 X5 X6 X7 X8 W B x0 x1 x2 x3 x4 x5 x6 x7 x8 x11 x12 h2 h3 h4 h5 h6 h7 h8 hw hbb b q h0 h1 u l tt g

theorem out17_block (X0 : S8x128x128.Idx → EReal) (X1 : S8x512x128.Idx → EReal) (X2 X3 : S128x128.Idx → EReal)
    (X4 X5 X6 X7 X8 : S1x128.Idx → EReal) (W : S128x10.Idx → EReal) (B : S1x10.Idx → EReal)
    (x0 : Vec Ideal S1x128x128 .f32) (x1 : Vec Ideal S1x32x128 .f32) (x2 x3 : Vec Ideal S128x128 .f32)
    (x4 x5 x6 x7 x8 : Vec Ideal S1x128 .f32) (x9 : Vec Ideal S128x10 .f32) (x10 : Vec Ideal S1x10 .f32) (x11 : Vec Ideal S128x10 .f32)
    (x12 : Vec Ideal S1x10 .f32) (x13 : Vec Ideal S128x10 .f32) (x14 : Vec Ideal S1x10 .f32)
    (h2 : x2 = X2) (h3 : x3 = X3) (h4 : x4 = X4) (h5 : x5 = X5) (h6 : x6 = X6) (h7 : x7 = X7) (h8 : x8 = X8) (hw : x13 = W) (hbb : x14 = B)
    (b : Fin 8) (q : Fin 16)
    (h0 : ∀ (l : Fin 128) (k : Fin 128), x0 (ix3 (0 : Fin 1) l k) = X0 (ix3 b l k))
    (h1 : ∀ (tt : Fin 32) (k : Fin 128), x1 (ix3 (0 : Fin 1) tt k) = X1 (ix3 b (⟨q.val * 32 + tt.val, by omega⟩ : Fin 512) k))
    (u : Fin 1) (l : Fin 128) (tt : Fin 32) (g : Fin 10) :
    out0_17 x0 x1 x2 x3 x4 x5 x6 x7 x8 x9 x10 x11 x12 x13 x14 (ix4 u l tt g)
      = Gelu (Ideal.ofBits .f32 0x3F800000#32) X0 X1 X2 X3 X4 X5 X6 X7 X8 W B (ix4 b l (⟨q.val * 32 + tt.val, by omega⟩ : Fin 512) g) := by
  unfold out0_17
  rw [View.canon_unit_zero hz4]
  simp only [View.ld_unit_zero (S := S1x128x128) hz3, View.ld_unit_zero (S := S1x32x128) hz3, View.ld_unit_zero (S := S128x128) hz2,
    View.ld_unit_zero (S := S1x128) hz2, View.ld_unit_zero (S := S128x10) hz2, View.ld_unit_zero (S := S1x10) hz2]
  exact block_mu X0 X1 X2 X3 X4 X5 X6 X7 X8 W B x0 x1 x2 x3 x4 x5 x6 x7 x8 x13 x14 h2 h3 h4 h5 h6 h7 h8 hw hbb b q h0 h1 u l tt g

/-! ## The region: blocks as restrictions, the cover, the arrays -/

section Region
variable (V : (c : Dev nD) → (b : Ref sig .tc) → Buf (Elt Ideal) ((c : Thread nD τ).loc b))

/-- The printed index maps, decided over the grid: the feature windows follow the output's batch and chunk, the
    output's blocks sit at (batch, 0, chunk, 0) with batch < 8 and chunk < 16, and the three outputs move together. -/
theorem idx0_feat : ∀ t : Fin cfg0.N,
    win0_0.index t (0 : Fin 3) = win0_15.index t (0 : Fin 4) ∧ win0_0.index t (1 : Fin 3) = 0 ∧ win0_0.index t (2 : Fin 3) = 0
    ∧ win0_1.index t (0 : Fin 3) = win0_15.index t (0 : Fin 4) ∧ win0_1.index t (1 : Fin 3) = win0_15.index t (2 : Fin 4) ∧ win0_1.index t (2 : Fin 3) = 0
    ∧ win0_15.index t (1 : Fin 4) = 0 ∧ win0_15.index t (3 : Fin 4) = 0 ∧ win0_15.index t (0 : Fin 4) ≤ 7 ∧ win0_15.index t (2 : Fin 4) ≤ 15 :=
  (by decide +kernel : ∀ t : Fin grid0.N, _)
theorem idx0_out : ∀ t : Fin cfg0.N, (∀ a : Fin 4, win0_16.index t a = win0_15.index t a) ∧ (∀ a : Fin 4, win0_17.index t a = win0_15.index t a) :=
  (by decide +kernel : ∀ t : Fin grid0.N, _)
/-- Every (batch, chunk) is some point's. -/
theorem idx0_onto : ∀ (q0 : Fin 8) (q2 : Fin 16), ∃ t : Fin cfg0.N, win0_15.index t = ![q0.val, 0, q2.val, 0] :=
  (by decide +kernel : ∀ (q0 : Fin 8) (q2 : Fin 16), ∃ t : Fin grid0.N, win0_15.index t = ![q0.val, 0, q2.val, 0])

theorem idx0_2 : ∀ t : Fin cfg0.N, win0_2.index t (0 : Fin 2) = 0 ∧ win0_2.index t (1 : Fin 2) = 0 :=
  (by decide +kernel : ∀ t : Fin grid0.N, _)
theorem iblk0_w2 (c : Dev nD) (t : Fin cfg0.N) :
    (iblk0 V c 2 t : Vec Ideal S128x128 .f32) = (V c (Pipeline.arrRef spec0 2) : S128x128.Idx → EReal) := by
  obtain ⟨e0, e1⟩ := idx0_2 t
  funext x
  unfold iblk0
  rw [View.read_apply]
  refine congrArg (V c (Pipeline.arrRef spec0 2) : S128x128.Idx → EReal) ?_
  funext a; apply Fin.ext
  match a with
  | ⟨0, _⟩ => show win0_2.index t (0 : Fin 2) * 128 + 1 * (x 0).val = (x 0).val; omega
  | ⟨1, _⟩ => show win0_2.index t (1 : Fin 2) * 128 + 1 * (x 1).val = (x 1).val; omega

theorem idx0_3 : ∀ t : Fin cfg0.N, win0_3.index t (0 : Fin 2) = 0 ∧ win0_3.index t (1 : Fin 2) = 0 :=
  (by decide +kernel : ∀ t : Fin grid0.N, _)
theorem iblk0_w3 (c : Dev nD) (t : Fin cfg0.N) :
    (iblk0 V c 3 t : Vec Ideal S128x128 .f32) = (V c (Pipeline.arrRef spec0 3) : S128x128.Idx → EReal) := by
  obtain ⟨e0, e1⟩ := idx0_3 t
  funext x
  unfold iblk0
  rw [View.read_apply]
  refine congrArg (V c (Pipeline.arrRef spec0 3) : S128x128.Idx → EReal) ?_
  funext a; apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

theorem idx0_4 : ∀ t : Fin cfg0.N, win0_4.index t (0 : Fin 2) = 0 ∧ win0_4.index t (1 : Fin 2) = 0 :=
  (by decide +kernel : ∀ t : Fin grid0.N, _)
theorem iblk0_w4 (c : Dev nD) (t : Fin cfg0.N) :
    (iblk0 V c 4 t : Vec Ideal S1x128 .f32) = (V c (Pipeline.arrRef spec0 4) : S1x128.Idx → EReal) := by
  obtain ⟨e0, e1⟩ := idx0_4 t
  funext x
  unfold iblk0
  rw [View.read_apply]
  refine congrArg (V c (Pipeline.arrRef spec0 4) : S1x128.Idx → EReal) ?_
  funext a; apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

theorem idx0_5 : ∀ t : Fin cfg0.N, win0_5.index t (0 : Fin 2) = 0 ∧ win0_5.index t (1 : Fin 2) = 0 :=
  (by decide +kernel : ∀ t : Fin grid0.N, _)
theorem iblk0_w5 (c : Dev nD) (t : Fin cfg0.N) :
    (iblk0 V c 5 t : Vec Ideal S1x128 .f32) = (V c (Pipeline.arrRef spec0 5) : S1x128.Idx → EReal) := by
  obtain ⟨e0, e1⟩ := idx0_5 t
  funext x
  unfold iblk0
  rw [View.read_apply]
  refine congrArg (V c (Pipeline.arrRef spec0 5) : S1x128.Idx → EReal) ?_
  funext a; apply Fin.ext
  match a with
  | ⟨0, _⟩ => show win0_5.index t (0 : Fin 2) * 1 + 1 * (x 0).val = (x 0).val; omega
  | ⟨1, _⟩ => show win0_5.index t (1 : Fin 2) * 128 + 1 * (x 1).val = (x 1).val; omega

theorem idx0_6 : ∀ t : Fin cfg0.N, win0_6.index t (0 : Fin 2) = 0 ∧ win0_6.index t (1 : Fin 2) = 0 :=
  (by decide +kernel : ∀ t : Fin grid0.N, _)
theorem iblk0_w6 (c : Dev nD) (t : Fin cfg0.N) :
    (iblk0 V c 6 t : Vec Ideal S1x128 .f32) = (V c (Pipeline.arrRef spec0 6) : S1x128.Idx → EReal) := by
  obtain ⟨e0, e1⟩ := idx0_6 t
  funext x
  unfold iblk0
  rw [View.read_apply]
  refine congrArg (V c (Pipeline.arrRef spec0 6) : S1x128.Idx → EReal) ?_
  funext a; apply Fin.ext
  match a with
  | ⟨0, _⟩ => show win0_6.index t (0 : Fin 2) * 1 + 1 * (x 0).val = (x 0).val; omega
  | ⟨1, _⟩ => show win0_6.index t (1 : Fin 2) * 128 + 1 * (x 1).val = (x 1).val; omega

theorem idx0_7 : ∀ t : Fin cfg0.N, win0_7.index t (0 : Fin 2) = 0 ∧ win0_7.index t (1 : Fin 2) = 0 :=
  (by decide +kernel : ∀ t : Fin grid0.N, _)
theorem iblk0_w7 (c : Dev nD) (t : Fin cfg0.N) :
    (iblk0 V c 7 t : Vec Ideal S1x128 .f32) = (V c (Pipeline.arrRef spec0 7) : S1x128.Idx → EReal) := by
  obtain ⟨e0, e1⟩ := idx0_7 t
  funext x
  unfold iblk0
  rw [View.read_apply]
  refine congrArg (V c (Pipeline.arrRef spec0 7) : S1x128.Idx → EReal) ?_
  funext a; apply Fin.ext
  match a with
  | ⟨0, _⟩ => show win0_7.index t (0 : Fin 2) * 1 + 1 * (x 0).val = (x 0).val; omega
  | ⟨1, _⟩ => show win0_7.index t (1 : Fin 2) * 128 + 1 * (x 1).val = (x 1).val; omega

theorem idx0_8 : ∀ t : Fin cfg0.N, win0_8.index t (0 : Fin 2) = 0 ∧ win0_8.index t (1 : Fin 2) = 0 :=
  (by decide +kernel : ∀ t : Fin grid0.N, _)
theorem iblk0_w8 (c : Dev nD) (t : Fin cfg0.N) :
    (iblk0 V c 8 t : Vec Ideal S1x128 .f32) = (V c (Pipeline.arrRef spec0 8) : S1x128.Idx → EReal) := by
  obtain ⟨e0, e1⟩ := idx0_8 t
  funext x
  unfold iblk0
  rw [View.read_apply]
  refine congrArg (V c (Pipeline.arrRef spec0 8) : S1x128.Idx → EReal) ?_
  funext a; apply Fin.ext
  match a with
  | ⟨0, _⟩ => show win0_8.index t (0 : Fin 2) * 1 + 1 * (x 0).val = (x 0).val; omega
  | ⟨1, _⟩ => show win0_8.index t (1 : Fin 2) * 128 + 1 * (x 1).val = (x 1).val; omega

theorem idx0_9 : ∀ t : Fin cfg0.N, win0_9.index t (0 : Fin 2) = 0 ∧ win0_9.index t (1 : Fin 2) = 0 :=
  (by decide +kernel : ∀ t : Fin grid0.N, _)
theorem iblk0_w9 (c : Dev nD) (t : Fin cfg0.N) :
    (iblk0 V c 9 t : Vec Ideal S128x10 .f32) = (V c (Pipeline.arrRef spec0 9) : S128x10.Idx → EReal) := by
  obtain ⟨e0, e1⟩ := idx0_9 t
  funext x
  unfold iblk0
  rw [View.read_apply]
  refine congrArg (V c (Pipeline.arrRef spec0 9) : S128x10.Idx → EReal) ?_
  funext a; apply Fin.ext
  match a with
  | ⟨0, _⟩ => show win0_9.index t (0 : Fin 2) * 128 + 1 * (x 0).val = (x 0).val; omega
  | ⟨1, _⟩ => show win0_9.index t (1 : Fin 2) * 10 + 1 * (x 1).val = (x 1).val; omega

theorem idx0_10 : ∀ t : Fin cfg0.N, win0_10.index t (0 : Fin 2) = 0 ∧ win0_10.index t (1 : Fin 2) = 0 :=
  (by decide +kernel : ∀ t : Fin grid0.N, _)
theorem iblk0_w10 (c : Dev nD) (t : Fin cfg0.N) :
    (iblk0 V c 10 t : Vec Ideal S1x10 .f32) = (V c (Pipeline.arrRef spec0 10) : S1x10.Idx → EReal) := by
  obtain ⟨e0, e1⟩ := idx0_10 t
  funext x
  unfold iblk0
  rw [View.read_apply]
  refine congrArg (V c (Pipeline.arrRef spec0 10) : S1x10.Idx → EReal) ?_
  funext a; apply Fin.ext
  match a with
  | ⟨0, _⟩ => show win0_10.index t (0 : Fin 2) * 1 + 1 * (x 0).val = (x 0).val; omega
  | ⟨1, _⟩ => show win0_10.index t (1 : Fin 2) * 10 + 1 * (x 1).val = (x 1).val; omega

theorem idx0_11 : ∀ t : Fin cfg0.N, win0_11.index t (0 : Fin 2) = 0 ∧ win0_11.index t (1 : Fin 2) = 0 :=
  (by decide +kernel : ∀ t : Fin grid0.N, _)
theorem iblk0_w11 (c : Dev nD) (t : Fin cfg0.N) :
    (iblk0 V c 11 t : Vec Ideal S128x10 .f32) = (V c (Pipeline.arrRef spec0 11) : S128x10.Idx → EReal) := by
  obtain ⟨e0, e1⟩ := idx0_11 t
  funext x
  unfold iblk0
  rw [View.read_apply]
  refine congrArg (V c (Pipeline.arrRef spec0 11) : S128x10.Idx → EReal) ?_
  funext a; apply Fin.ext
  match a with
  | ⟨0, _⟩ => show win0_11.index t (0 : Fin 2) * 128 + 1 * (x 0).val = (x 0).val; omega
  | ⟨1, _⟩ => show win0_11.index t (1 : Fin 2) * 10 + 1 * (x 1).val = (x 1).val; omega

theorem idx0_12 : ∀ t : Fin cfg0.N, win0_12.index t (0 : Fin 2) = 0 ∧ win0_12.index t (1 : Fin 2) = 0 :=
  (by decide +kernel : ∀ t : Fin grid0.N, _)
theorem iblk0_w12 (c : Dev nD) (t : Fin cfg0.N) :
    (iblk0 V c 12 t : Vec Ideal S1x10 .f32) = (V c (Pipeline.arrRef spec0 12) : S1x10.Idx → EReal) := by
  obtain ⟨e0, e1⟩ := idx0_12 t
  funext x
  unfold iblk0
  rw [View.read_apply]
  refine congrArg (V c (Pipeline.arrRef spec0 12) : S1x10.Idx → EReal) ?_
  funext a; apply Fin.ext
  match a with
  | ⟨0, _⟩ => show win0_12.index t (0 : Fin 2) * 1 + 1 * (x 0).val = (x 0).val; omega
  | ⟨1, _⟩ => show win0_12.index t (1 : Fin 2) * 10 + 1 * (x 1).val = (x 1).val; omega

theorem idx0_13 : ∀ t : Fin cfg0.N, win0_13.index t (0 : Fin 2) = 0 ∧ win0_13.index t (1 : Fin 2) = 0 :=
  (by decide +kernel : ∀ t : Fin grid0.N, _)
theorem iblk0_w13 (c : Dev nD) (t : Fin cfg0.N) :
    (iblk0 V c 13 t : Vec Ideal S128x10 .f32) = (V c (Pipeline.arrRef spec0 13) : S128x10.Idx → EReal) := by
  obtain ⟨e0, e1⟩ := idx0_13 t
  funext x
  unfold iblk0
  rw [View.read_apply]
  refine congrArg (V c (Pipeline.arrRef spec0 13) : S128x10.Idx → EReal) ?_
  funext a; apply Fin.ext
  match a with
  | ⟨0, _⟩ => show win0_13.index t (0 : Fin 2) * 128 + 1 * (x 0).val = (x 0).val; omega
  | ⟨1, _⟩ => show win0_13.index t (1 : Fin 2) * 10 + 1 * (x 1).val = (x 1).val; omega

theorem idx0_14 : ∀ t : Fin cfg0.N, win0_14.index t (0 : Fin 2) = 0 ∧ win0_14.index t (1 : Fin 2) = 0 :=
  (by decide +kernel : ∀ t : Fin grid0.N, _)
theorem iblk0_w14 (c : Dev nD) (t : Fin cfg0.N) :
    (iblk0 V c 14 t : Vec Ideal S1x10 .f32) = (V c (Pipeline.arrRef spec0 14) : S1x10.Idx → EReal) := by
  obtain ⟨e0, e1⟩ := idx0_14 t
  funext x
  unfold iblk0
  rw [View.read_apply]
  refine congrArg (V c (Pipeline.arrRef spec0 14) : S1x10.Idx → EReal) ?_
  funext a; apply Fin.ext
  match a with
  | ⟨0, _⟩ => show win0_14.index t (0 : Fin 2) * 1 + 1 * (x 0).val = (x 0).val; omega
  | ⟨1, _⟩ => show win0_14.index t (1 : Fin 2) * 10 + 1 * (x 1).val = (x 1).val; omega

/-- The ligand feature block of a point is its batch's rows of the array. -/
theorem iblk0_feat0 (c : Dev nD) (t : Fin cfg0.N) (b : Fin 8) (hb : b.val = win0_15.index t (0 : Fin 4)) (l k : Fin 128) :
    (iblk0 V c 0 t : Vec Ideal S1x128x128 .f32) (ix3 (0 : Fin 1) l k) = (V c (Pipeline.arrRef spec0 0) : S8x128x128.Idx → EReal) (ix3 b l k) := by
  obtain ⟨e0, e1, e2, -⟩ := idx0_feat t
  unfold iblk0
  rw [View.read_apply]
  refine congrArg (V c (Pipeline.arrRef spec0 0) : S8x128x128.Idx → EReal) ?_
  funext a; apply Fin.ext
  match a with
  | ⟨0, _⟩ => show win0_0.index t (0 : Fin 3) * 1 + 1 * 0 = b.val; omega
  | ⟨1, _⟩ => show win0_0.index t (1 : Fin 3) * 128 + 1 * l.val = l.val; omega
  | ⟨2, _⟩ => show win0_0.index t (2 : Fin 3) * 128 + 1 * k.val = k.val; omega

/-- The target feature block of a point is its chunk's 32 rows of its batch. -/
theorem iblk0_feat1 (c : Dev nD) (t : Fin cfg0.N) (b : Fin 8) (hb : b.val = win0_15.index t (0 : Fin 4)) (q : Fin 16) (hq : q.val = win0_15.index t (2 : Fin 4))
    (tt : Fin 32) (k : Fin 128) :
    (iblk0 V c 1 t : Vec Ideal S1x32x128 .f32) (ix3 (0 : Fin 1) tt k)
      = (V c (Pipeline.arrRef spec0 1) : S8x512x128.Idx → EReal) (ix3 b (⟨q.val * 32 + tt.val, by omega⟩ : Fin 512) k) := by
  obtain ⟨-, -, -, e0, e1, e2, -⟩ := idx0_feat t
  unfold iblk0
  rw [View.read_apply]
  refine congrArg (V c (Pipeline.arrRef spec0 1) : S8x512x128.Idx → EReal) ?_
  funext a; apply Fin.ext
  match a with
  | ⟨0, _⟩ => show win0_1.index t (0 : Fin 3) * 1 + 1 * 0 = b.val; omega
  | ⟨1, _⟩ => show win0_1.index t (1 : Fin 3) * 32 + 1 * tt.val = q.val * 32 + tt.val; omega
  | ⟨2, _⟩ => show win0_1.index t (2 : Fin 3) * 128 + 1 * k.val = k.val; omega

/-- WHAT POINT t WRITES BACK through output window 15 is block t of the index formula of the arrays the region reads. -/
theorem flushed15_eq (c : Dev nD) (t : Fin cfg0.N) :
    (dat0 V c).flushed 15 t = ((cfg0.win 15).blk t).view.read (Elt Ideal) (Gpi (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))) := by
  obtain ⟨-, -, -, -, -, -, e1, e3, b0, b2⟩ := idx0_feat t
  show (cfg0.win 15).cut (grid0.coords t) ((dat0 V c).after 15 t) = _
  rw [after0_15]
  refine funext fun (y : S1x128x32x10.Idx) => ?_
  rw [View.read_apply]
  obtain ⟨u, l, tt, g, rfl⟩ : ∃ (u : Fin 1) (l : Fin 128) (tt : Fin 32) (g : Fin 10), y = ix4 u l tt g := ⟨y 0, y 1, y 2, y 3, eq_ix4 y⟩
  refine (out15_block (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    (iblk0_w2 V c t) (iblk0_w3 V c t) (iblk0_w4 V c t) (iblk0_w5 V c t) (iblk0_w6 V c t) (iblk0_w7 V c t) (iblk0_w8 V c t) (iblk0_w9 V c t) (iblk0_w10 V c t)
    ⟨win0_15.index t (0 : Fin 4), by omega⟩ ⟨win0_15.index t (2 : Fin 4), by omega⟩
    (fun l k => iblk0_feat0 V c t _ rfl l k) (fun tt k => iblk0_feat1 V c t _ rfl _ rfl tt k) u l tt g).trans ?_
  refine congrArg (Gpi (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))) ?_
  funext a; apply Fin.ext
  match a with
  | ⟨0, _⟩ => show win0_15.index t (0 : Fin 4) = win0_15.index t (0 : Fin 4) * 1 + 1 * u.val; omega
  | ⟨1, _⟩ => show l.val = win0_15.index t (1 : Fin 4) * 128 + 1 * l.val; omega
  | ⟨2, _⟩ => show win0_15.index t (2 : Fin 4) * 32 + tt.val = win0_15.index t (2 : Fin 4) * 32 + 1 * tt.val; omega
  | ⟨3, _⟩ => show g.val = win0_15.index t (3 : Fin 4) * 10 + 1 * g.val; omega

/-- An index of the result array is in point t's block iff each coordinate is in the block's range on its axis. -/
theorem mem_blk15 (t : Fin cfg0.N) (i : S8x128x512x10.Idx) :
    i ∈ ((cfg0.win 15).blk t).view.set ↔ ∀ a : Fin 4, win0_15.index t a * S1x128x32x10.size a ≤ (i a).val
      ∧ (i a).val < win0_15.index t a * S1x128x32x10.size a + S1x128x32x10.size a := by
  show i ∈ ((View.whole main_v10_0).slice (win0_15.rect t)).set ↔ _
  rw [View.set_slice_whole, Rect.mem_set_unit]
  exact Iff.rfl

/-- Every index of the result array is in some point's block: batch (i 0), chunk (i 2) / 32. -/
theorem cover15 (i : S8x128x512x10.Idx) :
    ∃ t : Fin cfg0.N, (cfg0.win 15).flush t = true ∧ i ∈ ((cfg0.win 15).blk t).view.set := by
  have hi0 : (i 0).val < 8 := (i 0).isLt
  have hi1 : (i 1).val < 128 := (i 1).isLt
  have hi2 : (i 2).val < 512 := (i 2).isLt
  have hi3 : (i 3).val < 10 := (i 3).isLt
  obtain ⟨t, ht⟩ := idx0_onto ⟨(i 0).val, hi0⟩ ⟨(i 2).val / 32, by omega⟩
  have q0 : win0_15.index t (0 : Fin 4) = (i 0).val := congrFun ht 0
  have q1 : win0_15.index t (1 : Fin 4) = 0 := congrFun ht 1
  have q2 : win0_15.index t (2 : Fin 4) = (i 2).val / 32 := congrFun ht 2
  have q3 : win0_15.index t (3 : Fin 4) = 0 := congrFun ht 3
  refine ⟨t, flush0_15 t, ?_⟩
  rw [mem_blk15]
  intro a
  match a with
  | ⟨0, _⟩ => show win0_15.index t (0 : Fin 4) * 1 ≤ (i 0).val ∧ (i 0).val < win0_15.index t (0 : Fin 4) * 1 + 1; omega
  | ⟨1, _⟩ => show win0_15.index t (1 : Fin 4) * 128 ≤ (i 1).val ∧ (i 1).val < win0_15.index t (1 : Fin 4) * 128 + 128; omega
  | ⟨2, _⟩ => show win0_15.index t (2 : Fin 4) * 32 ≤ (i 2).val ∧ (i 2).val < win0_15.index t (2 : Fin 4) * 32 + 32; omega
  | ⟨3, _⟩ => show win0_15.index t (3 : Fin 4) * 10 ≤ (i 3).val ∧ (i 3).val < win0_15.index t (3 : Fin 4) * 10 + 10; omega

/-- THE ARRAY after the region. -/
theorem final15 (c : Dev nD) : (dat0 V c).arrAt 15 cfg0.N = Gpi (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) :=
  (dat0 V c).arrAt_eq_of_cover 15 (Gpi (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))) (fun t _ => flushed15_eq V c t) cover15

/-- WHAT POINT t WRITES BACK through output window 16 is block t of the index formula of the arrays the region reads. -/
theorem flushed16_eq (c : Dev nD) (t : Fin cfg0.N) :
    (dat0 V c).flushed 16 t = ((cfg0.win 16).blk t).view.read (Elt Ideal) (Gelu (Ideal.ofBits .f32 0x3F8CCCCD#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 11)) (V c (Pipeline.arrRef spec0 12))) := by
  obtain ⟨-, -, -, -, -, -, e1, e3, b0, b2⟩ := idx0_feat t
  obtain ⟨o16, o17⟩ := idx0_out t
  have c0 := o16 0; have c1 := o16 1; have c2 := o16 2; have c3 := o16 3
  show (cfg0.win 16).cut (grid0.coords t) ((dat0 V c).after 16 t) = _
  rw [after0_16]
  refine funext fun (y : S1x128x32x10.Idx) => ?_
  rw [View.read_apply]
  obtain ⟨u, l, tt, g, rfl⟩ : ∃ (u : Fin 1) (l : Fin 128) (tt : Fin 32) (g : Fin 10), y = ix4 u l tt g := ⟨y 0, y 1, y 2, y 3, eq_ix4 y⟩
  refine (out16_block (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 11)) (V c (Pipeline.arrRef spec0 12))
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    (iblk0_w2 V c t) (iblk0_w3 V c t) (iblk0_w4 V c t) (iblk0_w5 V c t) (iblk0_w6 V c t) (iblk0_w7 V c t) (iblk0_w8 V c t) (iblk0_w11 V c t) (iblk0_w12 V c t)
    ⟨win0_15.index t (0 : Fin 4), by omega⟩ ⟨win0_15.index t (2 : Fin 4), by omega⟩
    (fun l k => iblk0_feat0 V c t _ rfl l k) (fun tt k => iblk0_feat1 V c t _ rfl _ rfl tt k) u l tt g).trans ?_
  refine congrArg (Gelu (Ideal.ofBits .f32 0x3F8CCCCD#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 11)) (V c (Pipeline.arrRef spec0 12))) ?_
  funext a; apply Fin.ext
  match a with
  | ⟨0, _⟩ => show win0_15.index t (0 : Fin 4) = win0_16.index t (0 : Fin 4) * 1 + 1 * u.val; omega
  | ⟨1, _⟩ => show l.val = win0_16.index t (1 : Fin 4) * 128 + 1 * l.val; omega
  | ⟨2, _⟩ => show win0_15.index t (2 : Fin 4) * 32 + tt.val = win0_16.index t (2 : Fin 4) * 32 + 1 * tt.val; omega
  | ⟨3, _⟩ => show g.val = win0_16.index t (3 : Fin 4) * 10 + 1 * g.val; omega

/-- An index of the result array is in point t's block iff each coordinate is in the block's range on its axis. -/
theorem mem_blk16 (t : Fin cfg0.N) (i : S8x128x512x10.Idx) :
    i ∈ ((cfg0.win 16).blk t).view.set ↔ ∀ a : Fin 4, win0_16.index t a * S1x128x32x10.size a ≤ (i a).val
      ∧ (i a).val < win0_16.index t a * S1x128x32x10.size a + S1x128x32x10.size a := by
  show i ∈ ((View.whole main_v10_1).slice (win0_16.rect t)).set ↔ _
  rw [View.set_slice_whole, Rect.mem_set_unit]
  exact Iff.rfl

/-- Every index of the result array is in some point's block: batch (i 0), chunk (i 2) / 32. -/
theorem cover16 (i : S8x128x512x10.Idx) :
    ∃ t : Fin cfg0.N, (cfg0.win 16).flush t = true ∧ i ∈ ((cfg0.win 16).blk t).view.set := by
  have hi0 : (i 0).val < 8 := (i 0).isLt
  have hi1 : (i 1).val < 128 := (i 1).isLt
  have hi2 : (i 2).val < 512 := (i 2).isLt
  have hi3 : (i 3).val < 10 := (i 3).isLt
  obtain ⟨t, ht⟩ := idx0_onto ⟨(i 0).val, hi0⟩ ⟨(i 2).val / 32, by omega⟩
  have q0 : win0_15.index t (0 : Fin 4) = (i 0).val := congrFun ht 0
  have q1 : win0_15.index t (1 : Fin 4) = 0 := congrFun ht 1
  have q2 : win0_15.index t (2 : Fin 4) = (i 2).val / 32 := congrFun ht 2
  have q3 : win0_15.index t (3 : Fin 4) = 0 := congrFun ht 3
  obtain ⟨o16, o17⟩ := idx0_out t
  have c0 := o16 0; have c1 := o16 1; have c2 := o16 2; have c3 := o16 3
  refine ⟨t, flush0_16 t, ?_⟩
  rw [mem_blk16]
  intro a
  match a with
  | ⟨0, _⟩ => show win0_16.index t (0 : Fin 4) * 1 ≤ (i 0).val ∧ (i 0).val < win0_16.index t (0 : Fin 4) * 1 + 1; omega
  | ⟨1, _⟩ => show win0_16.index t (1 : Fin 4) * 128 ≤ (i 1).val ∧ (i 1).val < win0_16.index t (1 : Fin 4) * 128 + 128; omega
  | ⟨2, _⟩ => show win0_16.index t (2 : Fin 4) * 32 ≤ (i 2).val ∧ (i 2).val < win0_16.index t (2 : Fin 4) * 32 + 32; omega
  | ⟨3, _⟩ => show win0_16.index t (3 : Fin 4) * 10 ≤ (i 3).val ∧ (i 3).val < win0_16.index t (3 : Fin 4) * 10 + 10; omega

/-- THE ARRAY after the region. -/
theorem final16 (c : Dev nD) : (dat0 V c).arrAt 16 cfg0.N = Gelu (Ideal.ofBits .f32 0x3F8CCCCD#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 11)) (V c (Pipeline.arrRef spec0 12)) :=
  (dat0 V c).arrAt_eq_of_cover 16 (Gelu (Ideal.ofBits .f32 0x3F8CCCCD#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 11)) (V c (Pipeline.arrRef spec0 12))) (fun t _ => flushed16_eq V c t) cover16

/-- WHAT POINT t WRITES BACK through output window 17 is block t of the index formula of the arrays the region reads. -/
theorem flushed17_eq (c : Dev nD) (t : Fin cfg0.N) :
    (dat0 V c).flushed 17 t = ((cfg0.win 17).blk t).view.read (Elt Ideal) (Gelu (Ideal.ofBits .f32 0x3F800000#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 13)) (V c (Pipeline.arrRef spec0 14))) := by
  obtain ⟨-, -, -, -, -, -, e1, e3, b0, b2⟩ := idx0_feat t
  obtain ⟨o16, o17⟩ := idx0_out t
  have c0 := o17 0; have c1 := o17 1; have c2 := o17 2; have c3 := o17 3
  show (cfg0.win 17).cut (grid0.coords t) ((dat0 V c).after 17 t) = _
  rw [after0_17]
  refine funext fun (y : S1x128x32x10.Idx) => ?_
  rw [View.read_apply]
  obtain ⟨u, l, tt, g, rfl⟩ : ∃ (u : Fin 1) (l : Fin 128) (tt : Fin 32) (g : Fin 10), y = ix4 u l tt g := ⟨y 0, y 1, y 2, y 3, eq_ix4 y⟩
  refine (out17_block (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 13)) (V c (Pipeline.arrRef spec0 14))
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    (iblk0_w2 V c t) (iblk0_w3 V c t) (iblk0_w4 V c t) (iblk0_w5 V c t) (iblk0_w6 V c t) (iblk0_w7 V c t) (iblk0_w8 V c t) (iblk0_w13 V c t) (iblk0_w14 V c t)
    ⟨win0_15.index t (0 : Fin 4), by omega⟩ ⟨win0_15.index t (2 : Fin 4), by omega⟩
    (fun l k => iblk0_feat0 V c t _ rfl l k) (fun tt k => iblk0_feat1 V c t _ rfl _ rfl tt k) u l tt g).trans ?_
  refine congrArg (Gelu (Ideal.ofBits .f32 0x3F800000#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 13)) (V c (Pipeline.arrRef spec0 14))) ?_
  funext a; apply Fin.ext
  match a with
  | ⟨0, _⟩ => show win0_15.index t (0 : Fin 4) = win0_17.index t (0 : Fin 4) * 1 + 1 * u.val; omega
  | ⟨1, _⟩ => show l.val = win0_17.index t (1 : Fin 4) * 128 + 1 * l.val; omega
  | ⟨2, _⟩ => show win0_15.index t (2 : Fin 4) * 32 + tt.val = win0_17.index t (2 : Fin 4) * 32 + 1 * tt.val; omega
  | ⟨3, _⟩ => show g.val = win0_17.index t (3 : Fin 4) * 10 + 1 * g.val; omega

/-- An index of the result array is in point t's block iff each coordinate is in the block's range on its axis. -/
theorem mem_blk17 (t : Fin cfg0.N) (i : S8x128x512x10.Idx) :
    i ∈ ((cfg0.win 17).blk t).view.set ↔ ∀ a : Fin 4, win0_17.index t a * S1x128x32x10.size a ≤ (i a).val
      ∧ (i a).val < win0_17.index t a * S1x128x32x10.size a + S1x128x32x10.size a := by
  show i ∈ ((View.whole main_v10_2).slice (win0_17.rect t)).set ↔ _
  rw [View.set_slice_whole, Rect.mem_set_unit]
  exact Iff.rfl

/-- Every index of the result array is in some point's block: batch (i 0), chunk (i 2) / 32. -/
theorem cover17 (i : S8x128x512x10.Idx) :
    ∃ t : Fin cfg0.N, (cfg0.win 17).flush t = true ∧ i ∈ ((cfg0.win 17).blk t).view.set := by
  have hi0 : (i 0).val < 8 := (i 0).isLt
  have hi1 : (i 1).val < 128 := (i 1).isLt
  have hi2 : (i 2).val < 512 := (i 2).isLt
  have hi3 : (i 3).val < 10 := (i 3).isLt
  obtain ⟨t, ht⟩ := idx0_onto ⟨(i 0).val, hi0⟩ ⟨(i 2).val / 32, by omega⟩
  have q0 : win0_15.index t (0 : Fin 4) = (i 0).val := congrFun ht 0
  have q1 : win0_15.index t (1 : Fin 4) = 0 := congrFun ht 1
  have q2 : win0_15.index t (2 : Fin 4) = (i 2).val / 32 := congrFun ht 2
  have q3 : win0_15.index t (3 : Fin 4) = 0 := congrFun ht 3
  obtain ⟨o16, o17⟩ := idx0_out t
  have c0 := o17 0; have c1 := o17 1; have c2 := o17 2; have c3 := o17 3
  refine ⟨t, flush0_17 t, ?_⟩
  rw [mem_blk17]
  intro a
  match a with
  | ⟨0, _⟩ => show win0_17.index t (0 : Fin 4) * 1 ≤ (i 0).val ∧ (i 0).val < win0_17.index t (0 : Fin 4) * 1 + 1; omega
  | ⟨1, _⟩ => show win0_17.index t (1 : Fin 4) * 128 ≤ (i 1).val ∧ (i 1).val < win0_17.index t (1 : Fin 4) * 128 + 128; omega
  | ⟨2, _⟩ => show win0_17.index t (2 : Fin 4) * 32 ≤ (i 2).val ∧ (i 2).val < win0_17.index t (2 : Fin 4) * 32 + 32; omega
  | ⟨3, _⟩ => show win0_17.index t (3 : Fin 4) * 10 ≤ (i 3).val ∧ (i 3).val < win0_17.index t (3 : Fin 4) * 10 + 10; omega

/-- THE ARRAY after the region. -/
theorem final17 (c : Dev nD) : (dat0 V c).arrAt 17 cfg0.N = Gelu (Ideal.ofBits .f32 0x3F800000#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 13)) (V c (Pipeline.arrRef spec0 14)) :=
  (dat0 V c).arrAt_eq_of_cover 17 (Gelu (Ideal.ofBits .f32 0x3F800000#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 13)) (V c (Pipeline.arrRef spec0 14))) (fun t _ => flushed17_eq V c t) cover17

end Region

end Cert.KernelIdeal.MdnBlock
end
-- ==== Proof.FiniteChain.lean ====
/-
  The precondition's predicate is a left-nested conjunction of 21 "all entries finite" reductions, printed as a chain of
  definitions. Here: from the whole conjunction being one, the reductions over the two position arrays are one
  (peeling the conjunction from the outside, one definition of the chain at a time); a reduction by "and" that is one has
  a one at every entry; and over the extended reals an entry whose absolute value compares below plus infinity is a real.
-/
import proofs.«169873_j12644383719683_1_alg».proof.Pre_finite_inputs
import Idealize.ShloMosaic.Lib.ReduceAll
import Idealize.ShloMosaic.Lib.ValueIdx

noncomputable section

namespace Cert.Proof.Finite

open Idealize.ShloMosaic

/-- A conjunction of two one-bit arrays that is all ones: so is its left operand. -/
theorem andi_left {s : Shape} (a b : IVec s 1) (h : andi a b = fun _ => 1#1) : a = fun _ => 1#1 := by
  funext i
  exact (IntOp.andi_eq_one.1 (congrFun h i)).1

/-- A conjunction of two one-bit arrays that is all ones: so is its right operand. -/
theorem andi_right {s : Shape} (a b : IVec s 1) (h : andi a b = fun _ => 1#1) : b = fun _ => 1#1 := by
  funext i
  exact (IntOp.andi_eq_one.1 (congrFun h i)).2

section Chain

open Cert.Pre_finite_inputs

variable [Cert.Pre_finite_inputs.Facts] {F : FTy → Type} [FloatOps F]

theorem part6_left (v98 : IVec S_ 1) (v101 : IVec S4 1) (c39 : IVec S_ 1)
    (h : fn_part6 (F := F) v98 v101 c39 = fun _ => 1#1) : v98 = fun _ => 1#1 :=
  andi_left _ _ h

theorem part5_left (a21 : FVec F S12 .f32) (a22 : FVec F S256x4 .f32) (a23 : FVec F S4 .f32) (v83 : IVec S_ 1)
    (v84 : FVec F S128x12 .f32) (c32 : FVec F S_ .f32)
    (h : fn_part5 (F := F) a21 a22 a23 v83 v84 c32 = fun _ => 1#1) : v83 = fun _ => 1#1 :=
  andi_left _ _ (andi_left _ _ (andi_left _ _ (part6_left (F := F) _ _ _ h)))

theorem part4_left (a17 : FVec F S10 .f32) (a18 : FVec F S128x10 .f32) (a19 : FVec F S10 .f32)
    (a20 : FVec F S128x12 .f32) (a21 : FVec F S12 .f32) (a22 : FVec F S256x4 .f32) (a23 : FVec F S4 .f32)
    (v63 v67 : IVec S_ 1)
    (h : fn_part4 (F := F) a17 a18 a19 a20 a21 a22 a23 v63 v67 = fun _ => 1#1) : v63 = fun _ => 1#1 :=
  andi_left _ _ (andi_left _ _ (andi_left _ _ (andi_left _ _ (part5_left (F := F) _ _ _ _ _ _ h))))

theorem part3_left (a14 : FVec F S128x10 .f32) (a15 : FVec F S10 .f32) (a16 : FVec F S128x10 .f32)
    (a17 : FVec F S10 .f32) (a18 : FVec F S128x10 .f32) (a19 : FVec F S10 .f32)
    (a20 : FVec F S128x12 .f32) (a21 : FVec F S12 .f32) (a22 : FVec F S256x4 .f32) (a23 : FVec F S4 .f32)
    (v48 : IVec S_ 1) (v49 v50 : FVec F S128 .f32)
    (h : fn_part3 (F := F) a14 a15 a16 a17 a18 a19 a20 a21 a22 a23 v48 v49 v50 = fun _ => 1#1) :
    v48 = fun _ => 1#1 :=
  andi_left _ _ (andi_left _ _ (andi_left _ _ (part4_left (F := F) _ _ _ _ _ _ _ _ _ h)))

theorem part2_left (a10 a11 a12 a13 : FVec F S128 .f32)
    (a14 : FVec F S128x10 .f32) (a15 : FVec F S10 .f32) (a16 : FVec F S128x10 .f32)
    (a17 : FVec F S10 .f32) (a18 : FVec F S128x10 .f32) (a19 : FVec F S10 .f32)
    (a20 : FVec F S128x12 .f32) (a21 : FVec F S12 .f32) (a22 : FVec F S256x4 .f32) (a23 : FVec F S4 .f32)
    (v33 : IVec S_ 1)
    (h : fn_part2 (F := F) a10 a11 a12 a13 a14 a15 a16 a17 a18 a19 a20 a21 a22 a23 v33 = fun _ => 1#1) :
    v33 = fun _ => 1#1 :=
  andi_left _ _ (andi_left _ _ (andi_left _ _ (part3_left (F := F) _ _ _ _ _ _ _ _ _ _ _ _ _ h)))

theorem part1_left (a6 : FVec F S1024x128 .f32) (a8 : FVec F S256x128 .f32) (a9 a10 a11 a12 a13 : FVec F S128 .f32)
    (a14 : FVec F S128x10 .f32) (a15 : FVec F S10 .f32) (a16 : FVec F S128x10 .f32)
    (a17 : FVec F S10 .f32) (a18 : FVec F S128x10 .f32) (a19 : FVec F S10 .f32)
    (a20 : FVec F S128x12 .f32) (a21 : FVec F S12 .f32) (a22 : FVec F S256x4 .f32) (a23 : FVec F S4 .f32)
    (v13 : IVec S_ 1) (v16 : IVec S8x12288x3 1)
    (h : fn_part1 (F := F) a6 a8 a9 a10 a11 a12 a13 a14 a15 a16 a17 a18 a19 a20 a21 a22 a23 v13 v16 = fun _ => 1#1) :
    andi v13 (Host.reduce IntOp.andi v16 (constantI S_ 1 1#1) Facts.reducesTo_S8x12288x3_S_d0_1_2 Facts.h_S_)
      = fun _ => 1#1 :=
  andi_left _ _ (andi_left _ _ (andi_left _ _ (part2_left (F := F) _ _ _ _ _ _ _ _ _ _ _ _ _ _ _ h)))

/-- From the whole predicate being one: the two "all finite" reductions over the third and fourth float inputs are one. -/
theorem fn_arg4_arg5 (a0 : FVec F S8x128x128 .f32) (a1 : FVec F S8x512x128 .f32) (a2 : IVec S8x128 1) (a3 : IVec S8x512 1)
    (a4 : FVec F S8x128x3 .f32) (a5 : FVec F S8x12288x3 .f32) (a6 : FVec F S1024x128 .f32) (a7 : IVec S2x4096 32)
    (a8 : FVec F S256x128 .f32) (a9 a10 a11 a12 a13 : FVec F S128 .f32)
    (a14 : FVec F S128x10 .f32) (a15 : FVec F S10 .f32) (a16 : FVec F S128x10 .f32)
    (a17 : FVec F S10 .f32) (a18 : FVec F S128x10 .f32) (a19 : FVec F S10 .f32)
    (a20 : FVec F S128x12 .f32) (a21 : FVec F S12 .f32) (a22 : FVec F S256x4 .f32) (a23 : FVec F S4 .f32)
    (h : fn (F := F) a0 a1 a2 a3 a4 a5 a6 a7 a8 a9 a10 a11 a12 a13 a14 a15 a16 a17 a18 a19 a20 a21 a22 a23
      = fun _ => 1#1) :
    Host.reduce IntOp.andi
        (cmpf .olt (Host.absf a4) (broadcastInDim S8x128x3 ![] Facts.bcast_S_S8x128x3 (constant S_ .f32 0x7F800000#32)))
        (constantI S_ 1 1#1) Facts.reducesTo_S8x128x3_S_d0_1_2 Facts.h_S_ = (fun _ => 1#1)
    ∧ Host.reduce IntOp.andi
        (cmpf .olt (Host.absf a5) (broadcastInDim S8x12288x3 ![] Facts.bcast_S_S8x12288x3 (constant S_ .f32 0x7F800000#32)))
        (constantI S_ 1 1#1) Facts.reducesTo_S8x12288x3_S_d0_1_2 Facts.h_S_ = (fun _ => 1#1) := by
  have h1 := part1_left (F := F) _ _ _ _ _ _ _ _ _ _ _ _ _ _ _ _ _ _ _ h
  exact ⟨andi_right _ _ (andi_left _ _ h1), andi_right _ _ h1⟩

end Chain

section Element

open Cert.Pre_finite_inputs

instance : Subsingleton S_.Idx := ⟨fun a b => funext fun d => d.elim0⟩

variable {F : FTy → Type} [FloatOps F]

/-- An "all finite" reduction that is one: every entry's absolute value compares below the constant. -/
theorem entry_olt {s : Shape} {axes : List (Fin s.rank)} (x : FVec F s .f32) (dims : Fin S_.rank → Fin s.rank)
    (hb : S_.BroadcastsInDim s dims) (hr : s.ReducesTo axes S_) (hu : 0 < S_.numel)
    (h : Host.reduce IntOp.andi (cmpf .olt (Host.absf x) (broadcastInDim s dims hb (constant S_ .f32 0x7F800000#32)))
      (constantI S_ 1 1#1) hr hu = fun _ => 1#1) (i : s.Idx) :
    FloatOps.cmpf .olt (FloatOps.hostAbsf (x i)) (FloatOps.ofBits (F := F) .f32 0x7F800000#32) = 1#1 :=
  Host.reduce_andi_all _ _ hr hu ValueIdx.ix0 (congrFun h ValueIdx.ix0) i

/-- Over the extended reals: an entry whose absolute value is below plus infinity is a real number. -/
theorem real_of_olt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

end Element

end Cert.Proof.Finite
-- ==== Proof.Finite.lean ====
/-
  Finiteness out of the precondition: on every device, every entry of the two position arrays the squared-distance head
  reads is a real number. The precondition says the "all inputs finite" predicate is one; its conjuncts over these two
  arrays are one, so each entry's absolute value is below plus infinity, and such an extended real is a real.
-/
import proofs.«169873_j12644383719683_1_alg».proof.Defs
import proofs.«169873_j12644383719683_1_alg».proof.Proof.FiniteChain

noncomputable section

namespace Cert.Proof.Finite

open Idealize.ShloMosaic Idealize.SL.Sem

variable [Cert.Pre_finite_inputs.Facts]

open Cert.Pre_finite_inputs in
/-- The two reductions over the position arrays, out of the precondition on one device. -/
theorem pre_arg4_arg5 (m : (ℓ : Loc Cert.KernelIdeal.nD Cert.KernelIdeal.τ Cert.KernelIdeal.sig) → Buf (Elt Ideal) ℓ)
    (h : Cert.Pre_KernelIdeal m) (c : Dev Cert.KernelIdeal.nD) :
    Host.reduce IntOp.andi
        (cmpf .olt (Host.absf (F := Ideal) (s := S8x128x3) (φ := .f32)
            (m ((c.tc : Thread Cert.KernelIdeal.nD Cert.KernelIdeal.τ).loc Cert.KernelIdeal.main_arg4)))
          (broadcastInDim S8x128x3 ![] Facts.bcast_S_S8x128x3 (constant S_ .f32 0x7F800000#32)))
        (constantI S_ 1 1#1) Facts.reducesTo_S8x128x3_S_d0_1_2 Facts.h_S_ = (fun _ => 1#1)
    ∧ Host.reduce IntOp.andi
        (cmpf .olt (Host.absf (F := Ideal) (s := S8x12288x3) (φ := .f32)
            (m ((c.tc : Thread Cert.KernelIdeal.nD Cert.KernelIdeal.τ).loc Cert.KernelIdeal.main_arg5)))
          (broadcastInDim S8x12288x3 ![] Facts.bcast_S_S8x12288x3 (constant S_ .f32 0x7F800000#32)))
        (constantI S_ 1 1#1) Facts.reducesTo_S8x12288x3_S_d0_1_2 Facts.h_S_ = (fun _ => 1#1) :=
  fn_arg4_arg5 (F := Ideal) _ _ _ _ _ _ _ _ _ _ _ _ _ _ _ _ _ _ _ _ _ _ _ _ (h c)

/-- Every entry of the first position array (8 × 128 × 3) is a real number. -/
theorem arg4_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8x128x3.Idx) :
    ∃ r : ℝ, m ((c.tc : Thread Cert.KernelIdeal.nD Cert.KernelIdeal.τ).loc Cert.KernelIdeal.main_arg4) i
      = ((r : ℝ) : EReal) :=
  real_of_olt_inf _ (entry_olt (F := Ideal) _ _ _ _ _ (pre_arg4_arg5 m h c).1 i)

/-- Every entry of the second position array (8 × 12288 × 3) is a real number. -/
theorem arg5_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8x12288x3.Idx) :
    ∃ r : ℝ, m ((c.tc : Thread Cert.KernelIdeal.nD Cert.KernelIdeal.τ).loc Cert.KernelIdeal.main_arg5) i
      = ((r : ℝ) : EReal) :=
  real_of_olt_inf _ (entry_olt (F := Ideal) _ _ _ _ _ (pre_arg4_arg5 m h c).2 i)

end Cert.Proof.Finite
-- ==== Proof.Assemble.lean ====
/- The certificate assembled: the three frame claims from the programs' runs, and the algebraic claim — the kernel
   program's seven results, read back through its host operations and its two kernels' whole-array formulas, are the
   reference program's result terms at the same arguments. The three results the host computes from the arguments
   alone are the same terms; the three score tables and the distance column are compared entry by entry at a pair
   row (b, l, t). -/
import proofs.«169873_j12644383719683_1_alg».proof.Defs
import proofs.«169873_j12644383719683_1_alg».proof.Proof.Gen.Kernel
import proofs.«169873_j12644383719683_1_alg».proof.Proof.Gen.KernelIdeal
import proofs.«169873_j12644383719683_1_alg».proof.Proof.Gen.ReferenceIdeal
import proofs.«169873_j12644383719683_1_alg».proof.Proof.Gen.Pre_finite_inputs
import proofs.«169873_j12644383719683_1_alg».proof.Proof.KernelFrameP
import proofs.«169873_j12644383719683_1_alg».proof.Proof.KernelIdealFrameP
import proofs.«169873_j12644383719683_1_alg».proof.Proof.KRun
import proofs.«169873_j12644383719683_1_alg».proof.Proof.KFold
import proofs.«169873_j12644383719683_1_alg».proof.Proof.KGlue
import proofs.«169873_j12644383719683_1_alg».proof.Proof.KRead
import proofs.«169873_j12644383719683_1_alg».proof.Proof.RefRun
import proofs.«169873_j12644383719683_1_alg».proof.Proof.BridgeMdn
import proofs.«169873_j12644383719683_1_alg».proof.Proof.BridgeDist
import proofs.«169873_j12644383719683_1_alg».proof.Proof.DistBlock
import proofs.«169873_j12644383719683_1_alg».proof.Proof.MdnBlock
import proofs.«169873_j12644383719683_1_alg».proof.Proof.Finite
import proofs.«169873_j12644383719683_1_alg».proof.Proof.RowIdx
import Idealize.ShloMosaic.Adequacy
import Idealize.ShloMosaic.Init

set_option maxRecDepth 16384

noncomputable section

namespace Cert.Proof.Assemble

open Idealize.ShloMosaic Idealize.ShloMosaic.TcCoe Idealize.ShloMosaic.ValueIdx Idealize.SL.Sem
open Cert.KernelIdeal Cert.KernelIdeal.Gen Cert.KernelIdeal.GenP Cert.KernelIdeal.KRun Cert.RowIdx
open Cert.ReferenceIdeal (RefTerms.pi_term RefTerms.sigma_term RefTerms.mu_term RefTerms.dist_term RefTerms.nuc_term RefTerms.bond_term RefTerms.cbatch_term)

/-! ## The frames -/

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2.2.2.2.2.2) (Cert.ReferenceIdeal.RefRun.run (F := Ideal) m ρ)

theorem preserves : Cert.preserves_Kernel_KernelIdeal := trivial

/-! ## Every pair row is the row of a (batch, ligand row, target row) triple -/

theorem row_surj (n : Fin 524288) : ∃ (b : Fin 8) (l : Fin 128) (t : Fin 512), n = row b l t :=
  ⟨⟨n.val / 65536, by have := n.isLt; omega⟩, ⟨n.val / 512 % 128, Nat.mod_lt _ (by decide)⟩, ⟨n.val % 512, Nat.mod_lt _ (by decide)⟩,
    Fin.ext (by rw [row_val]; show n.val = (n.val / 65536 * 128 + n.val / 512 % 128) * 512 + n.val % 512; omega)⟩

/-! ## The first kernel's three output arrays at the arrays the host side hands it -/

/-- The mixing-weight formula respects equality of its eleven operand arrays. -/
theorem Gpi_congr {X0 X0' : S8x128x128.Idx → EReal} {X1 X1' : S8x512x128.Idx → EReal} {X2 X2' X3 X3' : S128x128.Idx → EReal}
    {X4 X4' X5 X5' X6 X6' X7 X7' X8 X8' : S1x128.Idx → EReal} {W W' : S128x10.Idx → EReal} {B B' : S1x10.Idx → EReal}
    (h0 : X0 = X0') (h1 : X1 = X1') (h2 : X2 = X2') (h3 : X3 = X3') (h4 : X4 = X4') (h5 : X5 = X5') (h6 : X6 = X6')
    (h7 : X7 = X7') (h8 : X8 = X8') (h9 : W = W') (h10 : B = B') :
    MdnBlock.Gpi X0 X1 X2 X3 X4 X5 X6 X7 X8 W B = MdnBlock.Gpi X0' X1' X2' X3' X4' X5' X6' X7' X8' W' B' := by
  subst h0 h1 h2 h3 h4 h5 h6 h7 h8 h9 h10; rfl

/-- The scale and location formula respects equality of its eleven operand arrays. -/
theorem Gelu_congr (cst : EReal) {X0 X0' : S8x128x128.Idx → EReal} {X1 X1' : S8x512x128.Idx → EReal} {X2 X2' X3 X3' : S128x128.Idx → EReal}
    {X4 X4' X5 X5' X6 X6' X7 X7' X8 X8' : S1x128.Idx → EReal} {W W' : S128x10.Idx → EReal} {B B' : S1x10.Idx → EReal}
    (h0 : X0 = X0') (h1 : X1 = X1') (h2 : X2 = X2') (h3 : X3 = X3') (h4 : X4 = X4') (h5 : X5 = X5') (h6 : X6 = X6')
    (h7 : X7 = X7') (h8 : X8 = X8') (h9 : W = W') (h10 : B = B') :
    MdnBlock.Gelu cst X0 X1 X2 X3 X4 X5 X6 X7 X8 W B = MdnBlock.Gelu cst X0' X1' X2' X3' X4' X5' X6' X7' X8' W' B' := by
  subst h0 h1 h2 h3 h4 h5 h6 h7 h8 h9 h10; rfl

/-- The distance formula respects equality of its four operand arrays. -/
theorem Gdist_congr {X0 X0' : S8x128x3.Idx → EReal} {X1 X1' : S8x1x128.Idx → EReal} {X2 X2' : S8x24x512x3.Idx → EReal}
    {X3 X3' : S8x24x512x1.Idx → EReal} (h0 : X0 = X0') (h1 : X1 = X1') (h2 : X2 = X2') (h3 : X3 = X3') :
    DistBlock.Gdist X0 X1 X2 X3 = DistBlock.Gdist X0' X1' X2' X3' := by
  subst h0 h1 h2 h3; rfl

section Arrays

variable (m : (ℓ : Loc nD τ sig) → Buf (Elt Ideal) ℓ) (ρ : Dev nD → PrngReg) (c : Dev nD)

/-- The first output array: the mixing weights of the arguments. -/
theorem arr15 : (GenP.dat0 (GenP.V1 m ρ) c).arrAt 15 cfg0.N
    = MdnBlock.Gpi (m ((c.tc : Thread nD τ).loc main_arg0)) (m ((c.tc : Thread nD τ).loc main_arg1))
        (extractStridedSlice S128x128 ![0, 0] (m ((c.tc : Thread nD τ).loc main_arg8)) slices_S256x128_S128x128_0_0)
        (extractStridedSlice S128x128 ![128, 0] (m ((c.tc : Thread nD τ).loc main_arg8)) slices_S256x128_S128x128_128_0)
        (shapeCast S1x128 (m ((c.tc : Thread nD τ).loc main_arg9)) shapeCasts_S128_S1x128) (shapeCast S1x128 (m ((c.tc : Thread nD τ).loc main_arg10)) shapeCasts_S128_S1x128)
        (shapeCast S1x128 (m ((c.tc : Thread nD τ).loc main_arg11)) shapeCasts_S128_S1x128) (shapeCast S1x128 (m ((c.tc : Thread nD τ).loc main_arg12)) shapeCasts_S128_S1x128)
        (shapeCast S1x128 (m ((c.tc : Thread nD τ).loc main_arg13)) shapeCasts_S128_S1x128)
        (m ((c.tc : Thread nD τ).loc main_arg14)) (shapeCast S1x10 (m ((c.tc : Thread nD τ).loc main_arg15)) shapeCasts_S10_S1x10) :=
  (MdnBlock.final15 (GenP.V1 m ρ) c).trans
    (Gpi_congr (KRun.V1_w0 m ρ c) (KRun.V1_w1 m ρ c) (KRun.V1_w2 m ρ c) (KRun.V1_w3 m ρ c) (KRun.V1_w4 m ρ c) (KRun.V1_w5 m ρ c)
      (KRun.V1_w6 m ρ c) (KRun.V1_w7 m ρ c) (KRun.V1_w8 m ρ c) (KRun.V1_w9 m ρ c) (KRun.V1_w10 m ρ c))

/-- The second output array: the scales of the arguments. -/
theorem arr16 : (GenP.dat0 (GenP.V1 m ρ) c).arrAt 16 cfg0.N
    = MdnBlock.Gelu (Ideal.ofBits .f32 0x3F8CCCCD#32) (m ((c.tc : Thread nD τ).loc main_arg0)) (m ((c.tc : Thread nD τ).loc main_arg1))
        (extractStridedSlice S128x128 ![0, 0] (m ((c.tc : Thread nD τ).loc main_arg8)) slices_S256x128_S128x128_0_0)
        (extractStridedSlice S128x128 ![128, 0] (m ((c.tc : Thread nD τ).loc main_arg8)) slices_S256x128_S128x128_128_0)
        (shapeCast S1x128 (m ((c.tc : Thread nD τ).loc main_arg9)) shapeCasts_S128_S1x128) (shapeCast S1x128 (m ((c.tc : Thread nD τ).loc main_arg10)) shapeCasts_S128_S1x128)
        (shapeCast S1x128 (m ((c.tc : Thread nD τ).loc main_arg11)) shapeCasts_S128_S1x128) (shapeCast S1x128 (m ((c.tc : Thread nD τ).loc main_arg12)) shapeCasts_S128_S1x128)
        (shapeCast S1x128 (m ((c.tc : Thread nD τ).loc main_arg13)) shapeCasts_S128_S1x128)
        (m ((c.tc : Thread nD τ).loc main_arg16)) (shapeCast S1x10 (m ((c.tc : Thread nD τ).loc main_arg17)) shapeCasts_S10_S1x10) :=
  (MdnBlock.final16 (GenP.V1 m ρ) c).trans
    (Gelu_congr _ (KRun.V1_w0 m ρ c) (KRun.V1_w1 m ρ c) (KRun.V1_w2 m ρ c) (KRun.V1_w3 m ρ c) (KRun.V1_w4 m ρ c) (KRun.V1_w5 m ρ c)
      (KRun.V1_w6 m ρ c) (KRun.V1_w7 m ρ c) (KRun.V1_w8 m ρ c) (KRun.V1_w11 m ρ c) (KRun.V1_w12 m ρ c))

/-- The third output array: the locations of the arguments. -/
theorem arr17 : (GenP.dat0 (GenP.V1 m ρ) c).arrAt 17 cfg0.N
    = MdnBlock.Gelu (Ideal.ofBits .f32 0x3F800000#32) (m ((c.tc : Thread nD τ).loc main_arg0)) (m ((c.tc : Thread nD τ).loc main_arg1))
        (extractStridedSlice S128x128 ![0, 0] (m ((c.tc : Thread nD τ).loc main_arg8)) slices_S256x128_S128x128_0_0)
        (extractStridedSlice S128x128 ![128, 0] (m ((c.tc : Thread nD τ).loc main_arg8)) slices_S256x128_S128x128_128_0)
        (shapeCast S1x128 (m ((c.tc : Thread nD τ).loc main_arg9)) shapeCasts_S128_S1x128) (shapeCast S1x128 (m ((c.tc : Thread nD τ).loc main_arg10)) shapeCasts_S128_S1x128)
        (shapeCast S1x128 (m ((c.tc : Thread nD τ).loc main_arg11)) shapeCasts_S128_S1x128) (shapeCast S1x128 (m ((c.tc : Thread nD τ).loc main_arg12)) shapeCasts_S128_S1x128)
        (shapeCast S1x128 (m ((c.tc : Thread nD τ).loc main_arg13)) shapeCasts_S128_S1x128)
        (m ((c.tc : Thread nD τ).loc main_arg18)) (shapeCast S1x10 (m ((c.tc : Thread nD τ).loc main_arg19)) shapeCasts_S10_S1x10) :=
  (MdnBlock.final17 (GenP.V1 m ρ) c).trans
    (Gelu_congr _ (KRun.V1_w0 m ρ c) (KRun.V1_w1 m ρ c) (KRun.V1_w2 m ρ c) (KRun.V1_w3 m ρ c) (KRun.V1_w4 m ρ c) (KRun.V1_w5 m ρ c)
      (KRun.V1_w6 m ρ c) (KRun.V1_w7 m ρ c) (KRun.V1_w8 m ρ c) (KRun.V1_w13 m ρ c) (KRun.V1_w14 m ρ c))

/-- The second kernel's output array: the pooled distances of the two position arguments. -/
theorem arr4 : (GenP.dat1 (GenP.V3 m ρ) c).arrAt 4 cfg1.N
    = DistBlock.Gdist (m ((c.tc : Thread nD τ).loc main_arg4)) (KRun.xnorm_term (F := Ideal) (m ((c.tc : Thread nD τ).loc main_arg4))) (KRun.hpos_term (F := Ideal) (m ((c.tc : Thread nD τ).loc main_arg5))) (KRun.hnorm_term (F := Ideal) (m ((c.tc : Thread nD τ).loc main_arg5))) :=
  (DistBlock.final4 (GenP.V3 m ρ) c).trans
    (Gdist_congr (KRun.V3_w0 m ρ c) (KRun.V3_w1 m ρ c) (KRun.V3_w2 m ρ c) (KRun.V3_w3 m ρ c))

end Arrays

/-! ## The kernel program's results as the reference's terms -/

section Results

variable (m : (ℓ : Loc nD τ sig) → Buf (Elt Ideal) ℓ) (ρ : Dev nD → PrngReg) (c : Dev nD)

/-- The mixing weights. -/
theorem pi_eq : W5 m ρ c (Proc.devRef .tc main_v11)
    = Cert.ReferenceIdeal.RefTerms.pi_term (F := Ideal) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [KRun.W5_v11 m ρ c, arr15 m ρ c]
  funext i
  obtain ⟨n, g, rfl⟩ : ∃ n g, i = ix2 n g := ⟨i 0, i 1, eq_ix2 i⟩
  obtain ⟨b, l, t, rfl⟩ := row_surj n
  rw [KRun.rows10_apply]
  exact Cert.Proof.Bridge.pi_bridge _ _ _ _ _ _ _ _ _ _ b l t g

/-- The scales. -/
theorem sigma_eq : W5 m ρ c (Proc.devRef .tc main_v12)
    = Cert.ReferenceIdeal.RefTerms.sigma_term (F := Ideal) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) := by
  rw [KRun.W5_v12 m ρ c, arr16 m ρ c]
  funext i
  obtain ⟨n, g, rfl⟩ : ∃ n g, i = ix2 n g := ⟨i 0, i 1, eq_ix2 i⟩
  obtain ⟨b, l, t, rfl⟩ := row_surj n
  rw [KRun.rows10_apply]
  exact Cert.Proof.Bridge.sigma_bridge _ _ _ _ _ _ _ _ _ _ b l t g

/-- The locations. -/
theorem mu_eq : W5 m ρ c (Proc.devRef .tc main_v13)
    = Cert.ReferenceIdeal.RefTerms.mu_term (F := Ideal) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) := by
  rw [KRun.W5_v13 m ρ c, arr17 m ρ c]
  funext i
  obtain ⟨n, g, rfl⟩ : ∃ n g, i = ix2 n g := ⟨i 0, i 1, eq_ix2 i⟩
  obtain ⟨b, l, t, rfl⟩ := row_surj n
  rw [KRun.rows10_apply]
  exact Cert.Proof.Bridge.mu_bridge _ _ _ _ _ _ _ _ _ _ b l t g

/-- The distances, where the two position arrays are finite. -/
theorem dist_eq (hpre : Cert.Pre_KernelIdeal m) : W5 m ρ c (Proc.devRef .tc main_v26)
    = Cert.ReferenceIdeal.RefTerms.dist_term (F := Ideal) (m ((c.tc : Thread nD τ).loc main_arg4)) (m ((c.tc : Thread nD τ).loc main_arg5)) := by
  rw [KRun.W5_v26 m ρ c, arr4 m ρ c]
  funext i
  obtain ⟨n, u, rfl⟩ : ∃ n u, i = ix2 n u := ⟨i 0, i 1, eq_ix2 i⟩
  obtain rfl : u = (0 : Fin 1) := Subsingleton.elim _ _
  obtain ⟨b, l, t, rfl⟩ := row_surj n
  exact Cert.Proof.Bridge.dist_bridge _ _ (Cert.Proof.Finite.arg4_real m hpre c) (Cert.Proof.Finite.arg5_real m hpre c) b l t

/-- The nuc head. -/
theorem nuc_eq' : W5 m ρ c (Proc.devRef .tc main_v30)
    = Cert.ReferenceIdeal.RefTerms.nuc_term (F := Ideal) (m ((c.tc : Thread nD τ).loc main_arg6)) (m ((c.tc : Thread nD τ).loc main_arg20)) (m ((c.tc : Thread nD τ).loc main_arg21)) :=
  (KRun.W5_v30 m ρ c).trans (KRun.nuc_eq _ _ _)

/-- The bond head. -/
theorem bond_eq' : W5 m ρ c (Proc.devRef .tc main_v53)
    = Cert.ReferenceIdeal.RefTerms.bond_term (F := Ideal) (m ((c.tc : Thread nD τ).loc main_arg6)) (m ((c.tc : Thread nD τ).loc main_arg7)) (m ((c.tc : Thread nD τ).loc main_arg22)) (m ((c.tc : Thread nD τ).loc main_arg23)) :=
  (KRun.W5_v53 m ρ c).trans (KRun.bond_eq _ _ _ _)

/-- The batch indices. -/
theorem cbatch_eq' : W5 m ρ c (Proc.devRef .tc main_v57) = Cert.ReferenceIdeal.RefTerms.cbatch_term :=
  (KRun.W5_v57 m ρ c).trans KRun.cbatch_eq

end Results

/-! ## The algebraic claim -/

theorem algebraic : Cert.algebraic_KernelIdeal_ReferenceIdeal := by
  intro m ρ m' ρ' hpre hagree
  refine ⟨fun c => W5 m ρ c (Proc.devRef .tc main_v11), fun c => W5 m ρ c (Proc.devRef .tc main_v12),
    fun c => W5 m ρ c (Proc.devRef .tc main_v13), fun c => W5 m ρ c (Proc.devRef .tc main_v26),
    fun c => W5 m ρ c (Proc.devRef .tc main_v30), fun c => W5 m ρ c (Proc.devRef .tc main_v53),
    fun c => W5 m ρ c (Proc.devRef .tc main_v57), KRun.run (F := Ideal) m ρ, ?_⟩
  refine (θ_run Cert.ReferenceIdeal.defs _ _).mono (fun r h c => ?_) (Cert.ReferenceIdeal.RefRun.run (F := Ideal) m' ρ')
  obtain ⟨h0, h1, h2, h3, h4, h5, h6, hargs⟩ := h c
  obtain ⟨e0, e1, e2, e3, e4, e5, e6, e7, e8, e9, e10, e11, e12, e13, e14, e15, e16, e17, e18, e19, e20, e21, e22, e23⟩ := hagree c
  rw [e0, e1, e8, e9, e10, e11, e12, e13, e14, e15] at h0
  rw [e0, e1, e8, e9, e10, e11, e12, e13, e16, e17] at h1
  rw [e0, e1, e8, e9, e10, e11, e12, e13, e18, e19] at h2
  rw [e4, e5] at h3
  rw [e6, e20, e21] at h4
  rw [e6, e7, e22, e23] at h5
  exact ⟨h0.trans (pi_eq m ρ c).symm, h1.trans (sigma_eq m ρ c).symm, h2.trans (mu_eq m ρ c).symm,
    h3.trans (dist_eq m ρ c hpre).symm, h4.trans (nuc_eq' m ρ c).symm, h5.trans (bond_eq' m ρ c).symm,
    h6.trans (cbatch_eq' m ρ c).symm, hargs⟩

end Cert.Proof.Assemble

end
-- ==== Proof.lean ====
/-
  The certificate's claim. The kernel program computes a pair-scoring network in two grid regions — the mixture-density heads
  (mixing weights, scales, locations of ten components for every ligand–target pair) and the pooled distances (the minimum over a
  residue's 24 atoms of the ligand–atom distance) — around host operations that prepare their operands and compute three small
  heads; the reference computes the same quantities with whole-array host operations.

  Equality of the results over the extended reals, index by index:
  * the heads: the reference multiplies the concatenated row (ligand features | target features) by the first layer's weights,
    the kernel adds the two half products; a sum of 256 terms split as 128 + 128 (no finiteness is needed: addition of extended
    reals is commutative and associative). Normalisation, ELU (spelt with exp − 1 by one program and expm1 by the other), the
    heads' contractions and the softmax are then the same functions of the same values;
  * the distances: both expand |x − y|² as −2⟨x, y⟩ + |y|² + |x|²; the kernel takes the minimum of the 24 squared distances and then
    the root, the reference cleans each root (NaN, ±∞) and then takes the minimum. With finite positions each squared distance is a
    non-negative real, so the cleaning does nothing and the root, being monotone, commutes with the minimum. This is the one place
    where the precondition (finite inputs) is used;
  * the three host-only results are computed by the same operations in both programs.
  The frames: each kernel program terminates without fault with its arguments unchanged (the launch of the two pipelines over the
  host stretches); the reference's frame is its run with the results dropped; the ideal pass rewrote nothing, so `preserves` is trivial.
-/
import proofs.«169873_j12644383719683_1_alg».proof.Defs
import proofs.«169873_j12644383719683_1_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Assemble.frame_k, Cert.Proof.Assemble.frame_ki, Cert.Proof.Assemble.frame_ri, Cert.Proof.Assemble.preserves,
    Cert.Proof.Assemble.algebraic⟩

end Cert.Proof

end
